-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  main_v40

def fn_part1 {F : FTy → Type} [FloatOps F] (main_arg4 : FVec F S192x64 .f32) (main_arg5 : FVec F S192 .f32) (main_arg6 : FVec F S192 .f32) (main_arg7 : IVec S800000 32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_v33

def fn {F : FTy → Type} [FloatOps F] (main_arg0 : FVec F S50000x64 .f32) (main_arg1 : FVec F S64x64 .f32) (main_arg2 : FVec F S64 .f32) (main_arg3 : FVec F S192x64 .f32) (main_arg4 : FVec F S192x64 .f32) (main_arg5 : FVec F S192 .f32) (main_arg6 : FVec F S192 .f32) (main_arg7 : IVec S800000 32) (main_arg8 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_v13 main_v16
-- ==== Kernel.lean ====
abbrev S50000x64 : Shape := ⟨2, ![50000, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S800000 : Shape := ⟨1, ![800000]⟩
abbrev S1x64 : Shape := ⟨2, ![1, 64]⟩
abbrev S1x192 : Shape := ⟨2, ![1, 192]⟩
abbrev S_ : Shape := ⟨0, ![]⟩
abbrev S802816 : Shape := ⟨1, ![802816]⟩
abbrev S5000x64 : Shape := ⟨2, ![5000, 64]⟩
abbrev S802816x64 : Shape := ⟨2, ![802816, 64]⟩
abbrev S4096 : Shape := ⟨1, ![4096]⟩
abbrev S1000x64 : Shape := ⟨2, ![1000, 64]⟩
abbrev S4096x64 : Shape := ⟨2, ![4096, 64]⟩
abbrev S1x1000 : Shape := ⟨2, ![1, 1000]⟩
abbrev S1000 : Shape := ⟨1, ![1000]⟩
abbrev S4096x1 : Shape := ⟨2, ![4096, 1]⟩
abbrev S4096x1000 : Shape := ⟨2, ![4096, 1000]⟩
abbrev S1000x1 : Shape := ⟨2, ![1000, 1]⟩
abbrev S1x4096 : Shape := ⟨2, ![1, 4096]⟩
abbrev S1000x4096 : Shape := ⟨2, ![1000, 4096]⟩
abbrev S2000x64 : Shape := ⟨2, ![2000, 64]⟩
abbrev S64x192 : Shape := ⟨2, ![64, 192]⟩
abbrev S2000x192 : Shape := ⟨2, ![2000, 192]⟩

abbrev nBuf : Space → Nat
  | .hbm => 30
  | .vmem => 90
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S192x64, .f32⟩
  | .hbm, ⟨4, _⟩ => ⟨S192x64, .f32⟩
  | .hbm, ⟨5, _⟩ => ⟨S192, .f32⟩
  | .hbm, ⟨6, _⟩ => ⟨S192, .f32⟩
  | .hbm, ⟨7, _⟩ => ⟨S800000, .i32⟩
  | .hbm, ⟨8, _⟩ => ⟨S800000, .i32⟩
  | .hbm, ⟨9, _⟩ => ⟨S1x64, .f32⟩
  | .hbm, ⟨10, _⟩ => ⟨S1x192, .f32⟩
  | .hbm, ⟨11, _⟩ => ⟨S1x192, .f32⟩
  | .hbm, ⟨12, _⟩ => ⟨S_, .i32⟩
  | .hbm, ⟨13, _⟩ => ⟨S_, .i32⟩
  | .hbm, ⟨14, _⟩ => ⟨S802816, .i32⟩
  | .hbm, ⟨15, _⟩ => ⟨S_, .i32⟩
  | .hbm, ⟨16, _⟩ => ⟨S_, .i32⟩
  | .hbm, ⟨17, _⟩ => ⟨S802816, .i32⟩
  | .hbm, ⟨18, _⟩ => ⟨S50000x64, .f32⟩
  | .hbm, ⟨19, _⟩ => ⟨S802816x64, .f32⟩
  | .hbm, ⟨20, _⟩ => ⟨S50000x64, .f32⟩
  | .hbm, ⟨21, _⟩ => ⟨S50000x64, .f32⟩
  | .hbm, ⟨22, _⟩ => ⟨S50000x64, .f32⟩
  | .hbm, ⟨23, _⟩ => ⟨S802816x64, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S802816x64, .f32⟩
  | .hbm, ⟨28, _⟩ => ⟨S50000x64, .f32⟩
  | .hbm, ⟨29, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S4096, .i32⟩
  | .local _ .vmem, ⟨7, _⟩ => ⟨S4096, .i32⟩
  | .local _ .vmem, ⟨8, _⟩ => ⟨S1000x64, .f32⟩
  | .local _ .vmem, ⟨9, _⟩ => ⟨S1000x64, .f32⟩
  | .local _ .vmem, ⟨10, _⟩ => ⟨S4096x64, .f32⟩
  | .local _ .vmem, ⟨11, _⟩ => ⟨S4096x64, .f32⟩
  | .local _ .vmem, ⟨12, _⟩ => ⟨S4096x64, .f32⟩
  | .local _ .vmem, ⟨13, _⟩ => ⟨S4096, .i32⟩
  | .local _ .vmem, ⟨14, _⟩ => ⟨S4096, .i32⟩
  | .local _ .vmem, ⟨15, _⟩ => ⟨S4096x64, .f32⟩
  | .local _ .vmem, ⟨16, _⟩ => ⟨S4096x64, .f32⟩
  | .local _ .vmem, ⟨17, _⟩ => ⟨S1000x64, .f32⟩
  | .local _ .vmem, ⟨18, _⟩ => ⟨S1000x64, .f32⟩
  | .local _ .vmem, ⟨19, _⟩ => ⟨S1000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S192x64, .f32⟩
  | .local _ .vmem, ⟨25, _⟩ => ⟨S192x64, .f32⟩
  | .local _ .vmem, ⟨26, _⟩ => ⟨S1x192, .f32⟩
  | .local _ .vmem, ⟨27, _⟩ => ⟨S1x192, .f32⟩
  | .local _ .vmem, ⟨28, _⟩ => ⟨S2000x64, .f32⟩
  | .local _ .vmem, ⟨29, _⟩ => ⟨S2000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S4096, .i32⟩
  | .local _ .vmem, ⟨37, _⟩ => ⟨S4096, .i32⟩
  | .local _ .vmem, ⟨38, _⟩ => ⟨S1000x64, .f32⟩
  | .local _ .vmem, ⟨39, _⟩ => ⟨S1000x64, .f32⟩
  | .local _ .vmem, ⟨40, _⟩ => ⟨S4096x64, .f32⟩
  | .local _ .vmem, ⟨41, _⟩ => ⟨S4096x64, .f32⟩
  | .local _ .vmem, ⟨42, _⟩ => ⟨S4096x64, .f32⟩
  | .local _ .vmem, ⟨43, _⟩ => ⟨S4096, .i32⟩
  | .local _ .vmem, ⟨44, _⟩ => ⟨S4096, .i32⟩
  | .local _ .vmem, ⟨45, _⟩ => ⟨S4096x64, .f32⟩
  | .local _ .vmem, ⟨46, _⟩ => ⟨S4096x64, .f32⟩
  | .local _ .vmem, ⟨47, _⟩ => ⟨S1000x64, .f32⟩
  | .local _ .vmem, ⟨48, _⟩ => ⟨S1000x64, .f32⟩
  | .local _ .vmem, ⟨49, _⟩ => ⟨S1000x64, .f32⟩
  | .local _ .vmem, ⟨50, _⟩ => ⟨S2000x64, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S192x64, .f32⟩
  | .local _ .vmem, ⟨55, _⟩ => ⟨S192x64, .f32⟩
  | .local _ .vmem, ⟨56, _⟩ => ⟨S1x192, .f32⟩
  | .local _ .vmem, ⟨57, _⟩ => ⟨S1x192, .f32⟩
  | .local _ .vmem, ⟨58, _⟩ => ⟨S2000x64, .f32⟩
  | .local _ .vmem, ⟨59, _⟩ => ⟨S2000x64, .f32⟩
  | .local _ .vmem, ⟨60, _⟩ => ⟨S5000x64, .f32⟩
  | .local _ .vmem, ⟨61, _⟩ => ⟨S5000x64, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S4096, .i32⟩
  | .local _ .vmem, ⟨67, _⟩ => ⟨S4096, .i32⟩
  | .local _ .vmem, ⟨68, _⟩ => ⟨S1000x64, .f32⟩
  | .local _ .vmem, ⟨69, _⟩ => ⟨S1000x64, .f32⟩
  | .local _ .vmem, ⟨70, _⟩ => ⟨S4096x64, .f32⟩
  | .local _ .vmem, ⟨71, _⟩ => ⟨S4096x64, .f32⟩
  | .local _ .vmem, ⟨72, _⟩ => ⟨S4096x64, .f32⟩
  | .local _ .vmem, ⟨73, _⟩ => ⟨S4096, .i32⟩
  | .local _ .vmem, ⟨74, _⟩ => ⟨S4096, .i32⟩
  | .local _ .vmem, ⟨75, _⟩ => ⟨S4096x64, .f32⟩
  | .local _ .vmem, ⟨76, _⟩ => ⟨S4096x64, .f32⟩
  | .local _ .vmem, ⟨77, _⟩ => ⟨S1000x64, .f32⟩
  | .local _ .vmem, ⟨78, _⟩ => ⟨S1000x64, .f32⟩
  | .local _ .vmem, ⟨79, _⟩ => ⟨S1000x64, .f32⟩
  | .local _ .vmem, ⟨80, _⟩ => ⟨S2000x64, .f32⟩
  | .local _ .vmem, ⟨81, _⟩ => ⟨S2000x64, .f32⟩
  | .local _ .vmem, ⟨82, _⟩ => ⟨S2000x64, .f32⟩
  | .local _ .vmem, ⟨83, _⟩ => ⟨S2000x64, .f32⟩
  | .local _ .vmem, ⟨84, _⟩ => ⟨S192x64, .f32⟩
  | .local _ .vmem, ⟨85, _⟩ => ⟨S192x64, .f32⟩
  | .local _ .vmem, ⟨86, _⟩ => ⟨S1x192, .f32⟩
  | .local _ .vmem, ⟨87, _⟩ => ⟨S1x192, .f32⟩
  | .local _ .vmem, ⟨88, _⟩ => ⟨S2000x64, .f32⟩
  | .local _ .vmem, ⟨89, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_scratch0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg2_1 : Ref sig .tc := ⟨.vmem, 48, rfl⟩
abbrev cc6_scratch0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg4_0 : Ref sig .tc := ⟨.vmem, 56, rfl⟩
abbrev cc7_stg5_0 : Ref sig .tc := ⟨.vmem, 57, rfl⟩
abbrev cc7_stg6_0 : Ref sig .tc := ⟨.vmem, 58, rfl⟩
abbrev cc7_stg6_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc9_stg0_0 : Ref sig .tc := ⟨.vmem, 66, rfl⟩
abbrev cc9_stg0_1 : Ref sig .tc := ⟨.vmem, 67, rfl⟩
abbrev cc9_stg1_0 : Ref sig .tc := ⟨.vmem, 68, rfl⟩
abbrev cc9_stg1_1 : Ref sig .tc := ⟨.vmem, 69, rfl⟩
abbrev cc9_stg2_0 : Ref sig .tc := ⟨.vmem, 70, rfl⟩
abbrev cc9_stg2_1 : Ref sig .tc := ⟨.vmem, 71, rfl⟩
abbrev cc9_scratch0 : Ref sig .tc := ⟨.vmem, 72, rfl⟩
abbrev cc10_stg0_0 : Ref sig .tc := ⟨.vmem, 73, rfl⟩
abbrev cc10_stg0_1 : Ref sig .tc := ⟨.vmem, 74, rfl⟩
abbrev cc10_stg1_0 : Ref sig .tc := ⟨.vmem, 75, rfl⟩
abbrev cc10_stg1_1 : Ref sig .tc := ⟨.vmem, 76, rfl⟩
abbrev cc10_stg2_0 : Ref sig .tc := ⟨.vmem, 77, rfl⟩
abbrev cc10_stg2_1 : Ref sig .tc := ⟨.vmem, 78, rfl⟩
abbrev cc10_scratch0 : Ref sig .tc := ⟨.vmem, 79, rfl⟩
abbrev cc11_stg0_0 : Ref sig .tc := ⟨.vmem, 80, rfl⟩
abbrev cc11_stg0_1 : Ref sig .tc := ⟨.vmem, 81, rfl⟩
abbrev cc11_stg1_0 : Ref sig .tc := ⟨.vmem, 82, rfl⟩
abbrev cc11_stg1_1 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg5_0 : Ref sig .tc := ⟨.vmem, 87, rfl⟩
abbrev cc11_stg6_0 : Ref sig .tc := ⟨.vmem, 88, rfl⟩
abbrev cc11_stg6_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc7_sem4_0 : DmaSem sig := 52
abbrev cc7_sem5_0 : DmaSem sig := 53
abbrev cc7_sem6_0 : DmaSem sig := 54
abbrev cc7_sem6_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem3_1 : DmaSem sig := 61
abbrev cc9_sem0_0 : DmaSem sig := 62
abbrev cc9_sem0_1 : DmaSem sig := 63
abbrev cc9_sem1_0 : DmaSem sig := 64
abbrev cc9_sem1_1 : DmaSem sig := 65
abbrev cc9_sem2_0 : DmaSem sig := 66
abbrev cc9_sem2_1 : DmaSem sig := 67
abbrev cc10_sem0_0 : DmaSem sig := 68
abbrev cc10_sem0_1 : DmaSem sig := 69
abbrev cc10_sem1_0 : DmaSem sig := 70
abbrev cc10_sem1_1 : DmaSem sig := 71
abbrev cc10_sem2_0 : DmaSem sig := 72
abbrev cc10_sem2_1 : DmaSem sig := 73
abbrev cc11_sem0_0 : DmaSem sig := 74
abbrev cc11_sem0_1 : DmaSem sig := 75
abbrev cc11_sem1_0 : DmaSem sig := 76
abbrev cc11_sem1_1 : DmaSem sig := 77
abbrev cc11_sem2_0 : DmaSem sig := 78
abbrev cc11_sem3_0 : DmaSem sig := 79
abbrev cc11_sem4_0 : DmaSem sig := 80
abbrev cc11_sem5_0 : DmaSem sig := 81
abbrev cc11_sem6_0 : DmaSem sig := 82
abbrev cc11_sem6_1 : DmaSem sig := 83

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![196, 50], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![50, 196], ![false, false]⟩

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S192x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![196, 50], ![false, false]⟩

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4096x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![50, 196], ![false, false]⟩

def cc6_transform_0 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S4096 .i32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S4096x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S192x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S192x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨2, ![196, 50], ![false, false]⟩

def cc9_transform_0 (i : grid9.Coords) : Fin 1 → Nat :=
  let arg0 : BitVec 32 := BitVec.ofNat 32 (i 0).val
  let arg1 : BitVec 32 := BitVec.ofNat 32 (i 1).val
  let c0_i32 : BitVec 32 := 0#32
  ![arg0.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage9_0 : Fin 2 → Memref sig .tc .vmem S4096 .i32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S4096x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, false]

abbrev grid10 : Pipeline.Grid := ⟨2, ![50, 196], ![false, false]⟩

def cc10_transform_0 (i : grid10.Coords) : Fin 1 → Nat :=
  let arg0 : BitVec 32 := BitVec.ofNat 32 (i 0).val
  let arg1 : BitVec 32 := BitVec.ofNat 32 (i 1).val
  let c0_i32 : BitVec 32 := 0#32
  ![arg1.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage10_0 : Fin 2 → Memref sig .tc .vmem S4096 .i32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true]

abbrev stage10_1 : Fin 2 → Memref sig .tc .vmem S4096x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S192x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S192x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x192 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S1x192 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 2 → Memref sig .tc .vmem S2000x64 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![true]

class Facts₀ : Prop where
  shapeCasts_S64_S1x64 : S64.ShapeCasts S1x64
  shapeCasts_S192_S1x192 : S192.ShapeCasts S1x192
  pads_S800000_S802816_028160 : S800000.Pads (![0] : Fin 1 → Nat) ![2816] ![0] S802816
  h_S_ : 0 < S_.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x1000_d1_w32 : S1x1000.Iotas .tc 32 [1]
  shapeCasts_S1x1000_S1000 : S1x1000.ShapeCasts S1000
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  shapeCasts_S1000_S1x1000 : S1000.ShapeCasts S1x1000
  broadcasts_S4096x1_S4096x1000 : S4096x1.Broadcasts S4096x1000
  broadcasts_S1x1000_S4096x1000 : S1x1000.Broadcasts S4096x1000
  natLt_1_32 : 1 < 32
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  shapeCasts_S1000_S1000x1 : S1000.ShapeCasts S1000x1
  shapeCasts_S4096_S1x4096 : S4096.ShapeCasts S1x4096
  broadcasts_S1000x1_S1000x4096 : S1000x1.Broadcasts S1000x4096
  broadcasts_S1x4096_S1000x4096 : S1x4096.Broadcasts S1000x4096
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S192x64_S192x64_0_0 : ∀ a, (![0, 0] : Fin 2 → Nat) a + S192x64.size a ≤ S192x64.size a
  h_S192x64 : 0 < S192x64.numel
  transposes_S192x64_p1_0_S64x192 : S192x64.Transposes [1, 0] S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  shapeCasts_S5000x64_S5000x64 : S5000x64.ShapeCasts S5000x64
  dot_S5000x64_S64x64_S5000x64_1_0_0_1_n_n_wf : DotDims.WF S5000x64 S64x64 S5000x64 [1] [0] [0] [1] [] []
  dot_S4096x1000_S1000x64_S4096x64_1_0_0_1_n_n_wf : DotDims.WF S4096x1000 S1000x64 S4096x64 [1] [0] [0] [1] [] []
  dot_S1000x4096_S4096x64_S1000x64_1_0_0_1_n_n_wf : DotDims.WF S1000x4096 S4096x64 S1000x64 [1] [0] [0] [1] [] []
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S802816.size a
  hwx1_0 : ∀ i : grid1.Coords, EltTy.bits .i32 = 32 ∨ (Rect.block (s := S802816) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S802816x64.size a
  hwx1_2 : ∀ i : grid1.Coords, EltTy.bits .f32 = 32 ∨ (Rect.block (s := S802816x64) S4096x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096.size a ≤ S802816.size a
  hwx2_0 : ∀ i : grid2.Coords, EltTy.bits .i32 = 32 ∨ (Rect.block (s := S802816) S4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S802816x64.size a
  hwx2_1 : ∀ i : grid2.Coords, EltTy.bits .f32 = 32 ∨ (Rect.block (s := S802816x64) S4096x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x64.size a ≤ S50000x64.size a
  hwx2_2 : ∀ i : grid2.Coords, EltTy.bits .f32 = 32 ∨ (Rect.block (s := S50000x64) S1000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S192x64.size a ≤ S192x64.size a
  hwx3_2 : ∀ i : grid3.Coords, EltTy.bits .f32 = 32 ∨ (Rect.block (s := S192x64) S192x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192x64.size a ≤ S192x64.size a
  hwx3_3 : ∀ i : grid3.Coords, EltTy.bits .f32 = 32 ∨ (Rect.block (s := S192x64) S192x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x192.size a ≤ S1x192.size a
  hwx3_4 : ∀ i : grid3.Coords, EltTy.bits .f32 = 32 ∨ (Rect.block (s := S1x192) S1x192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x192.size a ≤ S1x192.size a
  hwx3_5 : ∀ i : grid3.Coords, EltTy.bits .f32 = 32 ∨ (Rect.block (s := S1x192) S1x192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S802816.size a
  hwx5_0 : ∀ i : grid5.Coords, EltTy.bits .i32 = 32 ∨ (Rect.block (s := S802816) S4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S50000x64.size a
  hwx5_1 : ∀ i : grid5.Coords, EltTy.bits .f32 = 32 ∨ (Rect.block (s := S50000x64) S1000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x64.size a ≤ S802816x64.size a
  hwx5_2 : ∀ i : grid5.Coords, EltTy.bits .f32 = 32 ∨ (Rect.block (s := S802816x64) S4096x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096.size a ≤ S802816.size a
  hwx6_0 : ∀ i : grid6.Coords, EltTy.bits .i32 = 32 ∨ (Rect.block (s := S802816) S4096.size (cc6_transform_0 i) (hinb6_0 i)).WholeWords (EltTy.packing .i32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x64.size a ≤ S802816x64.size a
  hwx6_1 : ∀ i : grid6.Coords, EltTy.bits .f32 = 32 ∨ (Rect.block (s := S802816x64) S4096x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x64.size a ≤ S50000x64.size a
  hwx6_2 : ∀ i : grid6.Coords, EltTy.bits .f32 = 32 ∨ (Rect.block (s := S50000x64) S1000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S50000x64.size a
  hwx7_1 : ∀ i : grid7.Coords, EltTy.bits .f32 = 32 ∨ (Rect.block (s := S50000x64) S2000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S192x64.size a ≤ S192x64.size a
  hwx7_2 : ∀ i : grid7.Coords, EltTy.bits .f32 = 32 ∨ (Rect.block (s := S192x64) S192x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S192x64.size a ≤ S192x64.size a
  hwx7_3 : ∀ i : grid7.Coords, EltTy.bits .f32 = 32 ∨ (Rect.block (s := S192x64) S192x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x192.size a ≤ S1x192.size a
  hwx7_4 : ∀ i : grid7.Coords, EltTy.bits .f32 = 32 ∨ (Rect.block (s := S1x192) S1x192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x192.size a ≤ S1x192.size a
  hwx7_5 : ∀ i : grid7.Coords, EltTy.bits .f32 = 32 ∨ (Rect.block (s := S1x192) S1x192.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x64.size a ≤ S50000x64.size a
  hwx7_6 : ∀ i : grid7.Coords, EltTy.bits .f32 = 32 ∨ (Rect.block (s := S50000x64) S2000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096.size a ≤ S802816.size a
  hwx9_0 : ∀ i : grid9.Coords, EltTy.bits .i32 = 32 ∨ (Rect.block (s := S802816) S4096.size (cc9_transform_0 i) (hinb9_0 i)).WholeWords (EltTy.packing .i32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1000x64.size a ≤ S50000x64.size a
  hwx9_1 : ∀ i : grid9.Coords, EltTy.bits .f32 = 32 ∨ (Rect.block (s := S50000x64) S1000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x64.size a ≤ S802816x64.size a
  hwx9_2 : ∀ i : grid9.Coords, EltTy.bits .f32 = 32 ∨ (Rect.block (s := S802816x64) S4096x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096.size a ≤ S802816.size a
  hwx10_0 : ∀ i : grid10.Coords, EltTy.bits .i32 = 32 ∨ (Rect.block (s := S802816) S4096.size (cc10_transform_0 i) (hinb10_0 i)).WholeWords (EltTy.packing .i32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4096x64.size a ≤ S802816x64.size a
  hwx10_1 : ∀ i : grid10.Coords, EltTy.bits .f32 = 32 ∨ (Rect.block (s := S802816x64) S4096x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1000x64.size a ≤ S50000x64.size a
  hwx10_2 : ∀ i : grid10.Coords, EltTy.bits .f32 = 32 ∨ (Rect.block (s := S50000x64) S1000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x64.size a ≤ S50000x64.size a
  hwx11_0 : ∀ i : grid11.Coords, EltTy.bits .f32 = 32 ∨ (Rect.block (s := S50000x64) S2000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x64.size a ≤ S50000x64.size a
  hwx11_1 : ∀ i : grid11.Coords, EltTy.bits .f32 = 32 ∨ (Rect.block (s := S50000x64) S2000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S192x64.size a ≤ S192x64.size a
  hwx11_2 : ∀ i : grid11.Coords, EltTy.bits .f32 = 32 ∨ (Rect.block (s := S192x64) S192x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S192x64.size a ≤ S192x64.size a
  hwx11_3 : ∀ i : grid11.Coords, EltTy.bits .f32 = 32 ∨ (Rect.block (s := S192x64) S192x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x192.size a ≤ S1x192.size a
  hwx11_4 : ∀ i : grid11.Coords, EltTy.bits .f32 = 32 ∨ (Rect.block (s := S1x192) S1x192.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S1x192.size a ≤ S1x192.size a
  hwx11_5 : ∀ i : grid11.Coords, EltTy.bits .f32 = 32 ∨ (Rect.block (s := S1x192) S1x192.size (cc11_transform_5 i) (hinb11_5 i)).WholeWords (EltTy.packing .f32)
  hstage11_6 : ∀ j, (stage11_6 j).IsWhole
  nbuf11_6 : grid11.bufCount reads11_6 false = 2
  hreads11_6 : ∀ i i' : grid11.Coords, (∀ a, reads11_6 a = true → i a = i' a) → cc11_transform_6 i = cc11_transform_6 i'
  hinb11_6 : ∀ (i : grid11.Coords) a, (cc11_transform_6 i a + 1) * S2000x64.size a ≤ S50000x64.size a
  hwx11_6 : ∀ i : grid11.Coords, EltTy.bits .f32 = 32 ∨ (Rect.block (s := S50000x64) S2000x64.size (cc11_transform_6 i) (hinb11_6 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf
def dot_S1000x4096_S4096x64_S1000x64_1_0_0_1_n_n : DotDims S1000x4096 S4096x64 S1000x64 where
  lhsContracting := [1]
  rhsContracting := [0]
  lhsNonContracting := [0]
  rhsNonContracting := [1]
  lhsBatch := []
  rhsBatch := []
  wf := dot_S1000x4096_S4096x64_S1000x64_1_0_0_1_n_n_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S4096x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S192x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg4) S192x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v1) S1x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v2) S1x192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v8) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v8) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg1) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v9) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v3) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v9) S1000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v10) S4096x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v4) S4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v10) S4096x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S1000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v11) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v8) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg3) S192x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg4) S192x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v1) S1x192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v2) S1x192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v12) S2000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v12) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg1) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v0) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v13) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v3) S4096.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v13) S1000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v14) S4096x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v4) S4096.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v14) S4096x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v15) S1000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v15) S2000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v12) S2000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg3) S192x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg4) S192x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v1) S1x192.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v2) S1x192.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v16) S2000x64.size cc11_transform_6 reads11_6 true false 2 stage11_6 sem11_6
    hrank11 hreads11_6 hinb11_6 nbuf11_6 (Memref.isWhole_whole _) hwx11_6 hstage11_6

abbrev win11 : Fin 7 → Pipeline.Window sig grid11 := fun | 0 => win11_0 | 1 => win11_1 | 2 => win11_2 | 3 => win11_3 | 4 => win11_4 | 5 => win11_5 | 6 => win11_6 | ⟨_ + 7, h⟩ => absurd h (Nat.not_lt.2 (Nat.le_add_left _ _))
abbrev spec11 : Fin 7 → Pipeline.WinSpec sig grid11.rank := fun w => (win11 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S192x64 : Shape := ⟨2, ![192, 64]⟩
abbrev S192 : Shape := ⟨1, ![192]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S64x192 : Shape := ⟨2, ![64, 192]⟩
abbrev S50000x192 : Shape := ⟨2, ![50000, 192]⟩
abbrev S1x192 : Shape := ⟨2, ![1, 192]⟩

abbrev nBuf : Space → Nat
  | .hbm => 192
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S192x64, .f32⟩
  | 4 => ⟨S192x64, .f32⟩
  | 5 => ⟨S192, .f32⟩
  | 6 => ⟨S192, .f32⟩
  | 7 => ⟨S800000, .i32⟩
  | 8 => ⟨S800000, .i32⟩
  | 9 => ⟨S64x64, .f32⟩
  | 10 => ⟨S50000x64, .f32⟩
  | 11 => ⟨S1x64, .f32⟩
  | 12 => ⟨S50000x64, .f32⟩
  | 13 => ⟨S50000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S_, .f32⟩
  | 24 => ⟨S50000x64, .f32⟩
  | 25 => ⟨S800000x1, .i32⟩
  | 26 => ⟨S50000x64, .f32⟩
  | 27 => ⟨S64x192, .f32⟩
  | 28 => ⟨S50000x192, .f32⟩
  | 29 => ⟨S1x192, .f32⟩
  | 30 => ⟨S50000x192, .f32⟩
  | 31 => ⟨S50000x192, .f32⟩
  | 32 => ⟨S64x192, .f32⟩
  | 33 => ⟨S50000x192, .f32⟩
  | 34 => ⟨S1x192, .f32⟩
  | 35 => ⟨S50000x192, .f32⟩
  | 36 => ⟨S50000x192, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S50000x64, .f32⟩
  | 43 => ⟨S50000x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S64x64, .f32⟩
  | 71 => ⟨S50000x64, .f32⟩
  | 72 => ⟨S1x64, .f32⟩
  | 73 => ⟨S50000x64, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S64x192, .f32⟩
  | 89 => ⟨S50000x192, .f32⟩
  | 90 => ⟨S1x192, .f32⟩
  | 91 => ⟨S50000x192, .f32⟩
  | 92 => ⟨S50000x192, .f32⟩
  | 93 => ⟨S64x192, .f32⟩
  | 94 => ⟨S50000x192, .f32⟩
  | 95 => ⟨S1x192, .f32⟩
  | 96 => ⟨S50000x192, .f32⟩
  | 97 => ⟨S50000x192, .f32⟩
  | 98 => ⟨S50000x64, .f32⟩
  | 99 => ⟨S50000x64, .f32⟩
  | 100 => ⟨S50000x64, .f32⟩
  | 101 => ⟨S50000x64, .f32⟩
  | 102 => ⟨S50000x64, .f32⟩
  | 103 => ⟨S50000x64, .f32⟩
  | 104 => ⟨S50000x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S64x64, .f32⟩
  | 4 => ⟨S50000x64, .f32⟩
  | 5 => ⟨S1x64, .f32⟩
  | 6 => ⟨S50000x64, .f32⟩
  | 7 => ⟨S50000x64, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S64x192, .f32⟩
  | 22 => ⟨S50000x192, .f32⟩
  | 23 => ⟨S1x192, .f32⟩
  | 24 => ⟨S50000x192, .f32⟩
  | 25 => ⟨S50000x192, .f32⟩
  | 26 => ⟨S64x192, .f32⟩
  | 27 => ⟨S50000x192, .f32⟩
  | 28 => ⟨S1x192, .f32⟩
  | 29 => ⟨S50000x192, .f32⟩
  | 30 => ⟨S50000x192, .f32⟩
  | 31 => ⟨S50000x64, .f32⟩
  | 32 => ⟨S50000x64, .f32⟩
  | 33 => ⟨S50000x64, .f32⟩
  | 34 => ⟨S50000x64, .f32⟩
  | 35 => ⟨S50000x64, .f32⟩
  | 36 => ⟨S50000x64, .f32⟩
  | 37 => ⟨S50000x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S_, .f32⟩
  | 44 => ⟨S50000x64, .f32⟩
  | 45 => ⟨S50000x64, .f32⟩
  | 46 => ⟨S50000x64, .f32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_6 : Ref sig .tc := ⟨.hbm, 75, rfl⟩
abbrev main_v58 : Ref sig .tc := ⟨.hbm, 76, rfl⟩
abbrev main_v59 : Ref sig .tc := ⟨.hbm, 77, rfl⟩
abbrev main_c_7 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_cst_10 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_11 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_13 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_14 : Ref sig .tc := ⟨.hbm, 136, rfl⟩
abbrev main_v111 : Ref sig .tc := ⟨.hbm, 137, rfl⟩
abbrev main_v112 : Ref sig .tc := ⟨.hbm, 138, rfl⟩
abbrev main_c_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_16 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst_17 : Ref sig .tc := ⟨.hbm, 168, rfl⟩
abbrev main_v140 : Ref sig .tc := ⟨.hbm, 169, rfl⟩
abbrev main_v141 : Ref sig .tc := ⟨.hbm, 170, rfl⟩
abbrev main_cst_18 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_19 : Ref sig .tc := ⟨.hbm, 177, rfl⟩
abbrev main_v147 : Ref sig .tc := ⟨.hbm, 178, rfl⟩
abbrev main_v148 : Ref sig .tc := ⟨.hbm, 179, rfl⟩
abbrev main_cst_20 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_21 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.KRegLin0.lean ====
/-
  The first dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer: the body loads and stores nothing smaller. -/
abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- What the body leaves in the output's staging buffer: its one store, of the dense layer of the three input blocks. -/
def out0_3 (x0 : Vec F S5000x64 .f32) (x1 : Vec F S64x64 .f32) (x2 : Vec F S1x64 .f32) : Vec F S5000x64 .f32 :=
  View.canon [⟨r0_0, k0_pay1 (View.ld x0 r0_0) (View.ld x1 r0_1) (View.ld x2 r0_2)⟩]

/-- The one store covers the buffer. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_node_linear_kernel i arg1 harg1 arg2 harg2 arg3 harg3 arg4 harg4) K := by
  simp only [cc0_node_linear_kernel_eq_skeleton]; unfold cc0_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body at point t each input's
    buffer at its block and the output's at the dense layer of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KRegGather1Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body clears its accumulator when the node-block coordinate is zero. -/
abbrev cond1_0 (i : grid1.Coords) : Prop := (Scalar.cmpi .ne (Scalar.extui (Scalar.cmpi .eq (BitVec.ofNat 32 (i 1).val) 0#32)) 0#32) = 1#1
/-- That is at the points ≡ 0 (mod 50): the first point of each edge block. -/
theorem hcond1_0 : ∀ t : Fin cfg1.N, cond1_0 (grid1.coords t) ↔ t.val % 50 = 0 :=
  (by decide +kernel : ∀ t : Fin grid1.N, cond1_0 (grid1.coords t) ↔ t.val % 50 = 0)

/-- One staging buffer of the output window, through which its contents are stated. -/
abbrev VO1_2 : View sig .tc .vmem S4096x64 .f32 := (Memref.whole cc1_stg2_0 : Memref sig .tc .vmem S4096x64 .f32).view
/-- Each window's current staging memref at point t, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S4096x64 .f32 := Memref.whole cc1_scratch0
abbrev VS1_0 : View sig .tc .vmem S4096x64 .f32 := scM1_0.view

/-- The region's invariant at entry, with the accumulator as a memref owned at some contents; the other buffers of the
    kernel regions stay closed. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun1_A (c : Dev nD) (i : grid1.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond1_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1_gather_kernel i arg2 harg2 arg3 harg3 arg4 harg4 arg5 harg5) K } := by
  refine ⟨?_, ?_, fun E K => ?run⟩
  case run =>
    simp only [cc1_gather_kernel_eq_skeleton]; unfold cc1_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun1_B (c : Dev nD) (i : grid1.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond1_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1_gather_kernel i arg2 harg2 arg3 harg3 arg4 harg4 arg5 harg5) K } := by
  refine ⟨?_, ?_, fun E K => ?run⟩
  case run =>
    simp only [cc1_gather_kernel_eq_skeleton]; unfold cc1_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegGather1.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegGather1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover1_A_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) (y : S4096x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S4096x64.size (by sl_kernel_rfl) y
def out1_A_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) : Vec F S4096x64 .f32 :=
  VO1_2.read (Elt F) (VO1_2.writes (Elt F) VO1_2.junk (kernelRun1_A c i arg2 harg2 arg3 harg3 arg4 harg4 arg5 harg5 hc0 x0 x1).1)
/-- Its stores into the accumulator cover it; what they leave. -/
theorem scover1_A_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) (y : S4096x64.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S4096x64.size (by sl_kernel_rfl) y
def sout1_A_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) : Vec F S4096x64 .f32 :=
  VS1_0.read (Elt F) (VS1_0.writes (Elt F) VS1_0.junk (kernelRun1_A c i arg2 harg2 arg3 harg3 arg4 harg4 arg5 harg5 hc0 x0 x1).2.1)

/-- The same of the later-point case, over what the point before left in the accumulator. -/
theorem cover1_B_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) (y : S4096x64.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S4096x64.size (by sl_kernel_rfl) y
def out1_B_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) : Vec F S4096x64 .f32 :=
  VO1_2.read (Elt F) (VO1_2.writes (Elt F) VO1_2.junk (kernelRun1_B c i arg2 harg2 arg3 harg3 arg4 harg4 arg5 harg5 hc0 x0 x1 xs0).1)
theorem scover1_B_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) (y : S4096x64.Idx) :
    ∃ pc ∈ (kernelRun1_B c i arg2 harg2 arg3 harg3 arg4 harg4 arg5 harg5 hc0 x0 x1 xs0).2.1, y ∈ pc.1.set :=
  View.cover_of_tiledL (kernelRun1_B c i arg2 harg2 arg3 harg3 arg4 harg4 arg5 harg5 hc0 x0 x1 xs0).2.1 S4096x64.size (by sl_kernel_rfl) y
def sout1_B_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) : Vec F S4096x64 .f32 :=
  VS1_0.read (Elt F) (VS1_0.writes (Elt F) VS1_0.junk (kernelRun1_B c i arg2 harg2 arg3 harg3 arg4 harg4 arg5 harg5 hc0 x0 x1 xs0).2.1)

/-- THE ACCUMULATION: what the output's staging buffer and the accumulator hold after the body at position n. -/
def outsAt1 (c : Dev nD) : (n : ℕ) → n < cfg1.N → Vec F S4096x64 .f32 × Vec F S4096x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 50 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 50 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 50 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of the pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 50 = 0
  · rw [outsAt1_A V c t h0]
    unfold out1_A_2 sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · rw [outsAt1_B V c t h0]
    unfold out1_B_2 sout1_B_0; (try dsimp only)
    have hz : t.val ≠ 0 := fun hz => h0 (by rw [hz])
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (fun h => h0 ((hcond1_0 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the launch's. -/
theorem Phi_zero1 (c : Dev nD) : (dat1 V c).Φ 0 = Pipeline.ΦA spec1 c := rfl

/-- After the last point the invariant gives the launch's back: the accumulator's contents are forgotten. -/
theorem Phi_last1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 9800 from N_1]; decide), PhiA1_eq]
  iintro ⟨⟨HS0, Hrest⟩, Hg⟩
  isplitl [HS0 Hrest]
  · isplitl [HS0]
    · iexists _; iexact HS0
    iexact Hrest
  iexact Hg

end Cert.Kernel.Reg

end
-- ==== Proof.KRegScatter2Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body clears its accumulator when the edge-block coordinate is zero. -/
abbrev cond2_0 (i : grid2.Coords) : Prop := (Scalar.cmpi .ne (Scalar.extui (Scalar.cmpi .eq (BitVec.ofNat 32 (i 1).val) 0#32)) 0#32) = 1#1
/-- That is at the points ≡ 0 (mod 196): the first point of each node block. -/
theorem hcond2_0 : ∀ t : Fin cfg2.N, cond2_0 (grid2.coords t) ↔ t.val % 196 = 0 :=
  (by decide +kernel : ∀ t : Fin grid2.N, cond2_0 (grid2.coords t) ↔ t.val % 196 = 0)

/-- One staging buffer of the output window, through which its contents are stated. -/
abbrev VO2_2 : View sig .tc .vmem S1000x64 .f32 := (Memref.whole cc2_stg2_0 : Memref sig .tc .vmem S1000x64 .f32).view
/-- Each window's current staging memref at point t, and its wholeness. -/
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x64 .f32 := win2_2.stage (cfg2.slots t 2)
abbrev hs2_2 (t : Fin cfg2.N) : (ms2_2 t).IsWhole := hstage2_2 ((cfg2.slots t 2).cast nbuf2_2)
/-- The accumulator: a whole buffer of the kernel's own. -/
abbrev scM2_0 : Memref sig .tc .vmem S1000x64 .f32 := Memref.whole cc2_scratch0
abbrev VS2_0 : View sig .tc .vmem S1000x64 .f32 := scM2_0.view

/-- The region's invariant at entry, with the accumulator as a memref owned at some contents; the other buffers of the
    kernel regions stay closed. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun2_A (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond2_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_scatter_kernel i arg2 harg2 arg3 harg3 arg4 harg4 arg5 harg5) K } := by
  refine ⟨?_, ?_, fun E K => ?run⟩
  case run =>
    simp only [cc2_scatter_kernel_eq_skeleton]; unfold cc2_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun2_B (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond2_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_scatter_kernel i arg2 harg2 arg3 harg3 arg4 harg4 arg5 harg5) K } := by
  refine ⟨?_, ?_, fun E K => ?run⟩
  case run =>
    simp only [cc2_scatter_kernel_eq_skeleton]; unfold cc2_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegScatter2.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegScatter2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover2_A_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) (y : S1000x64.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S1000x64.size (by sl_kernel_rfl) y
def out2_A_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) : Vec F S1000x64 .f32 :=
  VO2_2.read (Elt F) (VO2_2.writes (Elt F) VO2_2.junk (kernelRun2_A c i arg2 harg2 arg3 harg3 arg4 harg4 arg5 harg5 hc0 x0 x1).1)
/-- Its stores into the accumulator cover it; what they leave. -/
theorem scover2_A_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) (y : S1000x64.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S1000x64.size (by sl_kernel_rfl) y
def sout2_A_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) : Vec F S1000x64 .f32 :=
  VS2_0.read (Elt F) (VS2_0.writes (Elt F) VS2_0.junk (kernelRun2_A c i arg2 harg2 arg3 harg3 arg4 harg4 arg5 harg5 hc0 x0 x1).2.1)

/-- The same of the later-point case, over what the point before left in the accumulator. -/
theorem cover2_B_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) (y : S1000x64.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S1000x64.size (by sl_kernel_rfl) y
def out2_B_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) : Vec F S1000x64 .f32 :=
  VO2_2.read (Elt F) (VO2_2.writes (Elt F) VO2_2.junk (kernelRun2_B c i arg2 harg2 arg3 harg3 arg4 harg4 arg5 harg5 hc0 x0 x1 xs0).1)
theorem scover2_B_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) (y : S1000x64.Idx) :
    ∃ pc ∈ (kernelRun2_B c i arg2 harg2 arg3 harg3 arg4 harg4 arg5 harg5 hc0 x0 x1 xs0).2.1, y ∈ pc.1.set :=
  View.cover_of_tiledL (kernelRun2_B c i arg2 harg2 arg3 harg3 arg4 harg4 arg5 harg5 hc0 x0 x1 xs0).2.1 S1000x64.size (by sl_kernel_rfl) y
def sout2_B_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) : Vec F S1000x64 .f32 :=
  VS2_0.read (Elt F) (VS2_0.writes (Elt F) VS2_0.junk (kernelRun2_B c i arg2 harg2 arg3 harg3 arg4 harg4 arg5 harg5 hc0 x0 x1 xs0).2.1)

/-- THE ACCUMULATION: what the output's staging buffer and the accumulator hold after the body at position n. -/
def outsAt2 (c : Dev nD) : (n : ℕ) → n < cfg2.N → Vec F S1000x64 .f32 × Vec F S1000x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 196 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 196 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 196 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 196 = 0
  · rw [outsAt2_A V c t h0]
    unfold out2_A_2 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
  · rw [outsAt2_B V c t h0]
    unfold out2_B_2 sout2_B_0; (try dsimp only)
    have hz : t.val ≠ 0 := fun hz => h0 (by rw [hz])
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_B c (grid2.coords t) _ _ _ _ _ _ _ _ (fun h => h0 ((hcond2_0 t).mp h)) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _)

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the launch's. -/
theorem Phi_zero2 (c : Dev nD) : (dat2 V c).Φ 0 = Pipeline.ΦA spec2 c := rfl

/-- After the last point the invariant gives the launch's back: the accumulator's contents are forgotten. -/
theorem Phi_last2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 9800 from N_2]; decide), PhiA2_eq]
  iintro ⟨⟨HS0, Hrest⟩, Hg⟩
  isplitl [HS0 Hrest]
  · isplitl [HS0]
    · iexists _; iexact HS0
    iexact Hrest
  iexact Hg

end Cert.Kernel.Reg

end
-- ==== Proof.KRegGru3.lean ====
/-
  The first recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each staging buffer: the body loads and stores nothing smaller. -/
abbrev r3_0 : Rect S2000x64 := Rect.unit (s := S2000x64) ![0, 0] S2000x64.size inb_S2000x64_S2000x64_0_0
abbrev r3_2 : Rect S192x64 := Rect.unit (s := S192x64) ![0, 0] S192x64.size inb_S192x64_S192x64_0_0
abbrev r3_4 : Rect S1x192 := Rect.unit (s := S1x192) ![0, 0] S1x192.size inb_S1x192_S1x192_0_0

/-- What the body leaves in the output's staging buffer: its one store, of the recurrent cell of the six input blocks. -/
def out3_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r3_0, k3_pay1 (View.ld x0 r3_0) (View.ld x1 r3_0) (View.ld x2 r3_2) (View.ld x3 r3_2) (View.ld x4 r3_4) (View.ld x5 r3_4)⟩]

/-- The one store covers the buffer. -/
theorem cover3_6 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel3 (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3_gru_kernel i arg1 harg1 arg2 harg2 arg3 harg3 arg4 harg4 arg5 harg5 arg6 harg6 arg7 harg7) K := by
  simp only [cc3_gru_kernel_eq_skeleton]; unfold cc3_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of the pipeline on core c: the arrays as the region finds them; after the body at point t each input's
    buffer at its block and the output's at the recurrent cell of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.KRegLin4.lean ====
/-
  The second dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of each staging buffer: the body loads and stores nothing smaller. -/
abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-- What the body leaves in the output's staging buffer: its one store, of the dense layer of the three input blocks. -/
def out4_3 (x0 : Vec F S5000x64 .f32) (x1 : Vec F S64x64 .f32) (x2 : Vec F S1x64 .f32) : Vec F S5000x64 .f32 :=
  View.canon [⟨r4_0, k4_pay1 (View.ld x0 r4_0) (View.ld x1 r4_1) (View.ld x2 r4_2)⟩]

/-- The one store covers the buffer. -/
theorem cover4_3 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_node_linear_kernel i arg1 harg1 arg2 harg2 arg3 harg3 arg4 harg4) K := by
  simp only [cc4_node_linear_kernel_eq_skeleton]; unfold cc4_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of the pipeline on core c: the arrays as the region finds them; after the body at point t each input's
    buffer at its block and the output's at the dense layer of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.KRegGather5Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The body clears its accumulator when the node-block coordinate is zero. -/
abbrev cond5_0 (i : grid5.Coords) : Prop := (Scalar.cmpi .ne (Scalar.extui (Scalar.cmpi .eq (BitVec.ofNat 32 (i 1).val) 0#32)) 0#32) = 1#1
/-- That is at the points ≡ 0 (mod 50): the first point of each edge block. -/
theorem hcond5_0 : ∀ t : Fin cfg5.N, cond5_0 (grid5.coords t) ↔ t.val % 50 = 0 :=
  (by decide +kernel : ∀ t : Fin grid5.N, cond5_0 (grid5.coords t) ↔ t.val % 50 = 0)

/-- One staging buffer of the output window, through which its contents are stated. -/
abbrev VO5_2 : View sig .tc .vmem S4096x64 .f32 := (Memref.whole cc5_stg2_0 : Memref sig .tc .vmem S4096x64 .f32).view
/-- Each window's current staging memref at point t, and its wholeness. -/
abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .f32 := win5_2.stage (cfg5.slots t 2)
abbrev hs5_2 (t : Fin cfg5.N) : (ms5_2 t).IsWhole := hstage5_2 ((cfg5.slots t 2).cast nbuf5_2)
/-- The accumulator: a whole buffer of the kernel's own. -/
abbrev scM5_0 : Memref sig .tc .vmem S4096x64 .f32 := Memref.whole cc5_scratch0
abbrev VS5_0 : View sig .tc .vmem S4096x64 .f32 := scM5_0.view

/-- The region's invariant at entry, with the accumulator as a memref owned at some contents; the other buffers of the
    kernel regions stay closed. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun5_A (c : Dev nD) (i : grid5.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond5_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc5_gather_kernel i arg2 harg2 arg3 harg3 arg4 harg4 arg5 harg5) K } := by
  refine ⟨?_, ?_, fun E K => ?run⟩
  case run =>
    simp only [cc5_gather_kernel_eq_skeleton]; unfold cc5_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun5_B (c : Dev nD) (i : grid5.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond5_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc5_gather_kernel i arg2 harg2 arg3 harg3 arg4 harg4 arg5 harg5) K } := by
  refine ⟨?_, ?_, fun E K => ?run⟩
  case run =>
    simp only [cc5_gather_kernel_eq_skeleton]; unfold cc5_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegGather5.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegGather5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover5_A_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) (y : S4096x64.Idx) :
    ∃ pc ∈ (kernelRun5_A c i arg2 harg2 arg3 harg3 arg4 harg4 arg5 harg5 hc0 x0 x1).1, y ∈ pc.1.set :=
  View.cover_of_tiledL (kernelRun5_A c i arg2 harg2 arg3 harg3 arg4 harg4 arg5 harg5 hc0 x0 x1).1 S4096x64.size (by sl_kernel_rfl) y
def out5_A_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) : Vec F S4096x64 .f32 :=
  VO5_2.read (Elt F) (VO5_2.writes (Elt F) VO5_2.junk (kernelRun5_A c i arg2 harg2 arg3 harg3 arg4 harg4 arg5 harg5 hc0 x0 x1).1)
/-- Its stores into the accumulator cover it; what they leave. -/
theorem scover5_A_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) (y : S4096x64.Idx) :
    ∃ pc ∈ (kernelRun5_A c i arg2 harg2 arg3 harg3 arg4 harg4 arg5 harg5 hc0 x0 x1).2.1, y ∈ pc.1.set :=
  View.cover_of_tiledL (kernelRun5_A c i arg2 harg2 arg3 harg3 arg4 harg4 arg5 harg5 hc0 x0 x1).2.1 S4096x64.size (by sl_kernel_rfl) y
def sout5_A_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) : Vec F S4096x64 .f32 :=
  VS5_0.read (Elt F) (VS5_0.writes (Elt F) VS5_0.junk (kernelRun5_A c i arg2 harg2 arg3 harg3 arg4 harg4 arg5 harg5 hc0 x0 x1).2.1)

/-- The same of the later-point case, over what the point before left in the accumulator. -/
theorem cover5_B_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) (y : S4096x64.Idx) :
    ∃ pc ∈ (kernelRun5_B c i arg2 harg2 arg3 harg3 arg4 harg4 arg5 harg5 hc0 x0 x1 xs0).1, y ∈ pc.1.set :=
  View.cover_of_tiledL (kernelRun5_B c i arg2 harg2 arg3 harg3 arg4 harg4 arg5 harg5 hc0 x0 x1 xs0).1 S4096x64.size (by sl_kernel_rfl) y
def out5_B_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) : Vec F S4096x64 .f32 :=
  VO5_2.read (Elt F) (VO5_2.writes (Elt F) VO5_2.junk (kernelRun5_B c i arg2 harg2 arg3 harg3 arg4 harg4 arg5 harg5 hc0 x0 x1 xs0).1)
theorem scover5_B_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) (y : S4096x64.Idx) :
    ∃ pc ∈ (kernelRun5_B c i arg2 harg2 arg3 harg3 arg4 harg4 arg5 harg5 hc0 x0 x1 xs0).2.1, y ∈ pc.1.set :=
  View.cover_of_tiledL (kernelRun5_B c i arg2 harg2 arg3 harg3 arg4 harg4 arg5 harg5 hc0 x0 x1 xs0).2.1 S4096x64.size (by sl_kernel_rfl) y
def sout5_B_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) : Vec F S4096x64 .f32 :=
  VS5_0.read (Elt F) (VS5_0.writes (Elt F) VS5_0.junk (kernelRun5_B c i arg2 harg2 arg3 harg3 arg4 harg4 arg5 harg5 hc0 x0 x1 xs0).2.1)

/-- THE ACCUMULATION: what the output's staging buffer and the accumulator hold after the body at position n. -/
def outsAt5 (c : Dev nD) : (n : ℕ) → n < cfg5.N → Vec F S4096x64 .f32 × Vec F S4096x64 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (iblk5 V c 0 ⟨0, hn⟩) (iblk5 V c 1 ⟨0, hn⟩),
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (iblk5 V c 0 ⟨0, hn⟩) (iblk5 V c 1 ⟨0, hn⟩))
  | n + 1, hn =>
    if h0 : (n + 1) % 50 = 0 then
      (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (iblk5 V c 0 ⟨n + 1, hn⟩) (iblk5 V c 1 ⟨n + 1, hn⟩),
        sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (iblk5 V c 0 ⟨n + 1, hn⟩) (iblk5 V c 1 ⟨n + 1, hn⟩))
    else
      (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (outsAt5 c n (Nat.lt_of_succ_lt hn)).2,
        sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 50 = 0) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (iblk5 V c 0 t) (iblk5 V c 1 t),
      sout5_A_0 c (grid5.coords t) (ms5_0 t) (hs5_0 t) (ms5_1 t) (hs5_1 t) (ms5_2 t) (hs5_2 t) scM5_0 (Memref.isWhole_whole _) ((hcond5_0 t).mpr h0) (iblk5 V c 0 t) (iblk5 V c 1 t)) := by
  obtain ⟨n, hn⟩ := t
  cases n with
  | zero => exact rfl
  | succ n => exact (dif_pos h0).trans rfl

theorem outsAt5_B (c : Dev nD) (t : Fin cfg5.N) (h0 : ¬t.val % 50 = 0) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (iblk5 V c 0 t) (iblk5 V c 1 t) (outsAt5 V c (t.val - 1) (Nat.lt_of_le_of_lt (Nat.sub_le _ _) t.isLt)).2,
      sout5_B_0 c (grid5.coords t) (ms5_0 t) (hs5_0 t) (ms5_1 t) (hs5_1 t) (ms5_2 t) (hs5_2 t) scM5_0 (Memref.isWhole_whole _) (fun h => h0 ((hcond5_0 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of the pipeline on core c. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))
/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [after5_0, after5_1, after5_2]
  by_cases h0 : t.val % 50 = 0
  · rw [outsAt5_A V c t h0]
    unfold out5_A_2 sout5_A_0; (try dsimp only)
    by_cases hz : t.val = 0
    · rw [PhiS5_castSucc V c t, PhiS5_zero V c _ _ hz, PhiA5_eq]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (iblk5 V c 0 t) (iblk5 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_A_2 c _ _ _ _ _ _ _ _ _ _ _ _)
    · rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (iblk5 V c 0 t) (iblk5 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_A_2 c _ _ _ _ _ _ _ _ _ _ _ _)
  · rw [outsAt5_B V c t h0]
    unfold out5_B_2 sout5_B_0; (try dsimp only)
    have hz : t.val ≠ 0 := fun hz => h0 (by rw [hz])
    rw [PhiS5_castSucc V c t, PhiS5_pos V c _ _ hz]
    iintro ⟨⟨⟨HS0, Hrest⟩, Hg⟩, Ho, ⟨%d0, H0⟩, ⟨%d1, H1⟩, ⟨%d2, H2⟩⟩
    iapply ((kernelRun5_B c (grid5.coords t) _ _ _ _ _ _ _ _ (fun h => h0 ((hcond5_0 t).mp h)) (iblk5 V c 0 t) (iblk5 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover5_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _ _ _)

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

/-- The invariant before the first point is the launch's. -/
theorem Phi_zero5 (c : Dev nD) : (dat5 V c).Φ 0 = Pipeline.ΦA spec5 c := rfl

/-- After the last point the invariant gives the launch's back: the accumulator's contents are forgotten. -/
theorem Phi_last5 (c : Dev nD) : (dat5 V c).Φ (Fin.last cfg5.N) ⊢ Pipeline.ΦA spec5 c := by
  rw [show (dat5 V c).Φ (Fin.last cfg5.N) = PhiS5 V c cfg5.N (Nat.le_refl _) from rfl,
    PhiS5_pos V c _ _ (by rw [show cfg5.N = 9800 from N_5]; decide), PhiA5_eq]
  iintro ⟨⟨HS0, Hrest⟩, Hg⟩
  isplitl [HS0 Hrest]
  · isplitl [HS0]
    · iexists _; iexact HS0
    iexact Hrest
  iexact Hg

end Cert.Kernel.Reg

end
-- ==== Proof.KRegScatter6Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The body clears its accumulator when the edge-block coordinate is zero. -/
abbrev cond6_0 (i : grid6.Coords) : Prop := (Scalar.cmpi .ne (Scalar.extui (Scalar.cmpi .eq (BitVec.ofNat 32 (i 1).val) 0#32)) 0#32) = 1#1
/-- That is at the points ≡ 0 (mod 196): the first point of each node block. -/
theorem hcond6_0 : ∀ t : Fin cfg6.N, cond6_0 (grid6.coords t) ↔ t.val % 196 = 0 :=
  (by decide +kernel : ∀ t : Fin grid6.N, cond6_0 (grid6.coords t) ↔ t.val % 196 = 0)

/-- One staging buffer of the output window, through which its contents are stated. -/
abbrev VO6_2 : View sig .tc .vmem S1000x64 .f32 := (Memref.whole cc6_stg2_0 : Memref sig .tc .vmem S1000x64 .f32).view
/-- Each window's current staging memref at point t, and its wholeness. -/
abbrev ms6_0 (t : Fin cfg6.N) : Memref sig .tc .vmem S4096 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1000x64 .f32 := win6_2.stage (cfg6.slots t 2)
abbrev hs6_2 (t : Fin cfg6.N) : (ms6_2 t).IsWhole := hstage6_2 ((cfg6.slots t 2).cast nbuf6_2)
/-- The accumulator: a whole buffer of the kernel's own. -/
abbrev scM6_0 : Memref sig .tc .vmem S1000x64 .f32 := Memref.whole cc6_scratch0
abbrev VS6_0 : View sig .tc .vmem S1000x64 .f32 := scM6_0.view

/-- The region's invariant at entry, with the accumulator as a memref owned at some contents; the other buffers of the
    kernel regions stay closed. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun6_A (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond6_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc6_scatter_kernel i arg2 harg2 arg3 harg3 arg4 harg4 arg5 harg5) K } := by
  refine ⟨?_, ?_, fun E K => ?run⟩
  case run =>
    simp only [cc6_scatter_kernel_eq_skeleton]; unfold cc6_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun6_B (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond6_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc6_scatter_kernel i arg2 harg2 arg3 harg3 arg4 harg4 arg5 harg5) K } := by
  refine ⟨?_, ?_, fun E K => ?run⟩
  case run =>
    simp only [cc6_scatter_kernel_eq_skeleton]; unfold cc6_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegScatter6.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegScatter6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover6_A_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) (y : S1000x64.Idx) :
    ∃ pc ∈ (kernelRun6_A c i arg2 harg2 arg3 harg3 arg4 harg4 arg5 harg5 hc0 x0 x1).1, y ∈ pc.1.set :=
  View.cover_of_tiledL (kernelRun6_A c i arg2 harg2 arg3 harg3 arg4 harg4 arg5 harg5 hc0 x0 x1).1 S1000x64.size (by sl_kernel_rfl) y
def out6_A_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) : Vec F S1000x64 .f32 :=
  VO6_2.read (Elt F) (VO6_2.writes (Elt F) VO6_2.junk (kernelRun6_A c i arg2 harg2 arg3 harg3 arg4 harg4 arg5 harg5 hc0 x0 x1).1)
/-- Its stores into the accumulator cover it; what they leave. -/
theorem scover6_A_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) (y : S1000x64.Idx) :
    ∃ pc ∈ (kernelRun6_A c i arg2 harg2 arg3 harg3 arg4 harg4 arg5 harg5 hc0 x0 x1).2.1, y ∈ pc.1.set :=
  View.cover_of_tiledL (kernelRun6_A c i arg2 harg2 arg3 harg3 arg4 harg4 arg5 harg5 hc0 x0 x1).2.1 S1000x64.size (by sl_kernel_rfl) y
def sout6_A_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) : Vec F S1000x64 .f32 :=
  VS6_0.read (Elt F) (VS6_0.writes (Elt F) VS6_0.junk (kernelRun6_A c i arg2 harg2 arg3 harg3 arg4 harg4 arg5 harg5 hc0 x0 x1).2.1)

/-- The same of the later-point case, over what the point before left in the accumulator. -/
theorem cover6_B_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) (y : S1000x64.Idx) :
    ∃ pc ∈ (kernelRun6_B c i arg2 harg2 arg3 harg3 arg4 harg4 arg5 harg5 hc0 x0 x1 xs0).1, y ∈ pc.1.set :=
  View.cover_of_tiledL (kernelRun6_B c i arg2 harg2 arg3 harg3 arg4 harg4 arg5 harg5 hc0 x0 x1 xs0).1 S1000x64.size (by sl_kernel_rfl) y
def out6_B_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) : Vec F S1000x64 .f32 :=
  VO6_2.read (Elt F) (VO6_2.writes (Elt F) VO6_2.junk (kernelRun6_B c i arg2 harg2 arg3 harg3 arg4 harg4 arg5 harg5 hc0 x0 x1 xs0).1)
theorem scover6_B_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) (y : S1000x64.Idx) :
    ∃ pc ∈ (kernelRun6_B c i arg2 harg2 arg3 harg3 arg4 harg4 arg5 harg5 hc0 x0 x1 xs0).2.1, y ∈ pc.1.set :=
  View.cover_of_tiledL (kernelRun6_B c i arg2 harg2 arg3 harg3 arg4 harg4 arg5 harg5 hc0 x0 x1 xs0).2.1 S1000x64.size (by sl_kernel_rfl) y
def sout6_B_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) : Vec F S1000x64 .f32 :=
  VS6_0.read (Elt F) (VS6_0.writes (Elt F) VS6_0.junk (kernelRun6_B c i arg2 harg2 arg3 harg3 arg4 harg4 arg5 harg5 hc0 x0 x1 xs0).2.1)

/-- THE ACCUMULATION: what the output's staging buffer and the accumulator hold after the body at position n. -/
def outsAt6 (c : Dev nD) : (n : ℕ) → n < cfg6.N → Vec F S1000x64 .f32 × Vec F S1000x64 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (iblk6 V c 0 ⟨0, hn⟩) (iblk6 V c 1 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (iblk6 V c 0 ⟨0, hn⟩) (iblk6 V c 1 ⟨0, hn⟩))
  | n + 1, hn =>
    if h0 : (n + 1) % 196 = 0 then
      (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (iblk6 V c 0 ⟨n + 1, hn⟩) (iblk6 V c 1 ⟨n + 1, hn⟩),
        sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (iblk6 V c 0 ⟨n + 1, hn⟩) (iblk6 V c 1 ⟨n + 1, hn⟩))
    else
      (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (iblk6 V c 0 ⟨n + 1, hn⟩) (iblk6 V c 1 ⟨n + 1, hn⟩) (outsAt6 c n (Nat.lt_of_succ_lt hn)).2,
        sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (iblk6 V c 0 ⟨n + 1, hn⟩) (iblk6 V c 1 ⟨n + 1, hn⟩) (outsAt6 c n (Nat.lt_of_succ_lt hn)).2)

theorem outsAt6_A (c : Dev nD) (t : Fin cfg6.N) (h0 : t.val % 196 = 0) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (iblk6 V c 0 t) (iblk6 V c 1 t),
      sout6_A_0 c (grid6.coords t) (ms6_0 t) (hs6_0 t) (ms6_1 t) (hs6_1 t) (ms6_2 t) (hs6_2 t) scM6_0 (Memref.isWhole_whole _) ((hcond6_0 t).mpr h0) (iblk6 V c 0 t) (iblk6 V c 1 t)) := by
  obtain ⟨n, hn⟩ := t
  cases n with
  | zero => exact rfl
  | succ n => exact (dif_pos h0).trans rfl

theorem outsAt6_B (c : Dev nD) (t : Fin cfg6.N) (h0 : ¬t.val % 196 = 0) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (iblk6 V c 0 t) (iblk6 V c 1 t) (outsAt6 V c (t.val - 1) (Nat.lt_of_le_of_lt (Nat.sub_le _ _) t.isLt)).2,
      sout6_B_0 c (grid6.coords t) (ms6_0 t) (hs6_0 t) (ms6_1 t) (hs6_1 t) (ms6_2 t) (hs6_2 t) scM6_0 (Memref.isWhole_whole _) (fun h => h0 ((hcond6_0 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of the pipeline on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2]
  by_cases h0 : t.val % 196 = 0
  · rw [outsAt6_A V c t h0]
    unfold out6_A_2 sout6_A_0; (try dsimp only)
    by_cases hz : t.val = 0
    · rw [PhiS6_castSucc V c t, PhiS6_zero V c _ _ hz, PhiA6_eq]
      iintro ⟨⟨⟨HS0, Hrest⟩, Hg⟩, Ho, ⟨%d0, H0⟩, ⟨%d1, H1⟩, ⟨%d2, H2⟩⟩
      iapply ((kernelRun6_A c (grid6.coords t) _ _ _ _ _ _ _ _ ((hcond6_0 t).mpr h0) (iblk6 V c 0 t) (iblk6 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_A_2 c _ _ _ _ _ _ _ _ _ _ _ _)
    · rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_A c (grid6.coords t) _ _ _ _ _ _ _ _ ((hcond6_0 t).mpr h0) (iblk6 V c 0 t) (iblk6 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_A_2 c _ _ _ _ _ _ _ _ _ _ _ _)
  · rw [outsAt6_B V c t h0]
    unfold out6_B_2 sout6_B_0; (try dsimp only)
    have hz : t.val ≠ 0 := fun hz => h0 (by rw [hz])
    rw [PhiS6_castSucc V c t, PhiS6_pos V c _ _ hz]
    iintro ⟨⟨⟨HS0, Hrest⟩, Hg⟩, Ho, ⟨%d0, H0⟩, ⟨%d1, H1⟩, ⟨%d2, H2⟩⟩
    iapply ((kernelRun6_B c (grid6.coords t) _ _ _ _ _ _ _ _ (fun h => h0 ((hcond6_0 t).mp h)) (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover6_B_2 c _ _ _ _ _ _ _ _ _ _ _ _ _)

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

/-- The invariant before the first point is the launch's. -/
theorem Phi_zero6 (c : Dev nD) : (dat6 V c).Φ 0 = Pipeline.ΦA spec6 c := rfl

/-- After the last point the invariant gives the launch's back: the accumulator's contents are forgotten. -/
theorem Phi_last6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 9800 from N_6]; decide), PhiA6_eq]
  iintro ⟨⟨HS0, Hrest⟩, Hg⟩
  isplitl [HS0 Hrest]
  · isplitl [HS0]
    · iexists _; iexact HS0
    iexact Hrest
  iexact Hg

end Cert.Kernel.Reg

end
-- ==== Proof.KRegGru7.lean ====
/-
  The second recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- The whole rectangle of each staging buffer: the body loads and stores nothing smaller. -/
abbrev r7_0 : Rect S2000x64 := Rect.unit (s := S2000x64) ![0, 0] S2000x64.size inb_S2000x64_S2000x64_0_0
abbrev r7_2 : Rect S192x64 := Rect.unit (s := S192x64) ![0, 0] S192x64.size inb_S192x64_S192x64_0_0
abbrev r7_4 : Rect S1x192 := Rect.unit (s := S1x192) ![0, 0] S1x192.size inb_S1x192_S1x192_0_0

/-- What the body leaves in the output's staging buffer: its one store, of the recurrent cell of the six input blocks. -/
def out7_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r7_0, k7_pay1 (View.ld x0 r7_0) (View.ld x1 r7_0) (View.ld x2 r7_2) (View.ld x3 r7_2) (View.ld x4 r7_4) (View.ld x5 r7_4)⟩]

/-- The one store covers the buffer. -/
theorem cover7_6 (p0 : Vec F S2000x64 .f32) (y : S2000x64.Idx) :
    ∃ pc ∈ ([⟨r7_0, p0⟩] : List (View.Piece (Elt F) S2000x64 .f32)), y ∈ pc.1.set :=
  View.cover_of_tiled [⟨r7_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel7 (c : Dev nD) (E : Set ℕ) (i : grid7.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E (cc7_gru_kernel i arg1 harg1 arg2 harg2 arg3 harg3 arg4 harg4 arg5 harg5 arg6 harg6 arg7 harg7) K := by
  simp only [cc7_gru_kernel_eq_skeleton]; unfold cc7_gru_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of the pipeline on core c: the arrays as the region finds them; after the body at point t each input's
    buffer at its block and the output's at the recurrent cell of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) :
    (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.KRegLin8.lean ====
/-
  The third dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole rectangle of each staging buffer: the body loads and stores nothing smaller. -/
abbrev r8_0 : Rect S5000x64 := Rect.unit (s := S5000x64) ![0, 0] S5000x64.size inb_S5000x64_S5000x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0

/-- What the body leaves in the output's staging buffer: its one store, of the dense layer of the three input blocks. -/
def out8_3 (x0 : Vec F S5000x64 .f32) (x1 : Vec F S64x64 .f32) (x2 : Vec F S1x64 .f32) : Vec F S5000x64 .f32 :=
  View.canon [⟨r8_0, k8_pay1 (View.ld x0 r8_0) (View.ld x1 r8_1) (View.ld x2 r8_2)⟩]

/-- The one store covers the buffer. -/
theorem cover8_3 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel8 (c : Dev nD) (E : Set ℕ) (i : grid8.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8_node_linear_kernel i arg1 harg1 arg2 harg2 arg3 harg3 arg4 harg4) K := by
  simp only [cc8_node_linear_kernel_eq_skeleton]; unfold cc8_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of the pipeline on core c: the arrays as the region finds them; after the body at point t each input's
    buffer at its block and the output's at the dense layer of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.KRegGather9Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The body clears its accumulator when the node-block coordinate is zero. -/
abbrev cond9_0 (i : grid9.Coords) : Prop := (Scalar.cmpi .ne (Scalar.extui (Scalar.cmpi .eq (BitVec.ofNat 32 (i 1).val) 0#32)) 0#32) = 1#1
/-- That is at the points ≡ 0 (mod 50): the first point of each edge block. -/
theorem hcond9_0 : ∀ t : Fin cfg9.N, cond9_0 (grid9.coords t) ↔ t.val % 50 = 0 :=
  (by decide +kernel : ∀ t : Fin grid9.N, cond9_0 (grid9.coords t) ↔ t.val % 50 = 0)

/-- One staging buffer of the output window, through which its contents are stated. -/
abbrev VO9_2 : View sig .tc .vmem S4096x64 .f32 := (Memref.whole cc9_stg2_0 : Memref sig .tc .vmem S4096x64 .f32).view
/-- Each window's current staging memref at point t, and its wholeness. -/
abbrev ms9_0 (t : Fin cfg9.N) : Memref sig .tc .vmem S4096 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1000x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S4096x64 .f32 := win9_2.stage (cfg9.slots t 2)
abbrev hs9_2 (t : Fin cfg9.N) : (ms9_2 t).IsWhole := hstage9_2 ((cfg9.slots t 2).cast nbuf9_2)
/-- The accumulator: a whole buffer of the kernel's own. -/
abbrev scM9_0 : Memref sig .tc .vmem S4096x64 .f32 := Memref.whole cc9_scratch0
abbrev VS9_0 : View sig .tc .vmem S4096x64 .f32 := scM9_0.view

/-- The region's invariant at entry, with the accumulator as a memref owned at some contents; the other buffers of the
    kernel regions stay closed. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun9_A (c : Dev nD) (i : grid9.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond9_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc9_gather_kernel i arg2 harg2 arg3 harg3 arg4 harg4 arg5 harg5) K } := by
  refine ⟨?_, ?_, fun E K => ?run⟩
  case run =>
    simp only [cc9_gather_kernel_eq_skeleton]; unfold cc9_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun9_B (c : Dev nD) (i : grid9.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond9_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc9_gather_kernel i arg2 harg2 arg3 harg3 arg4 harg4 arg5 harg5) K } := by
  refine ⟨?_, ?_, fun E K => ?run⟩
  case run =>
    simp only [cc9_gather_kernel_eq_skeleton]; unfold cc9_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegGather9.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegGather9Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover9_A_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) (y : S4096x64.Idx) :
    ∃ pc ∈ (kernelRun9_A c i arg2 harg2 arg3 harg3 arg4 harg4 arg5 harg5 hc0 x0 x1).1, y ∈ pc.1.set :=
  View.cover_of_tiledL (kernelRun9_A c i arg2 harg2 arg3 harg3 arg4 harg4 arg5 harg5 hc0 x0 x1).1 S4096x64.size (by sl_kernel_rfl) y
def out9_A_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) : Vec F S4096x64 .f32 :=
  VO9_2.read (Elt F) (VO9_2.writes (Elt F) VO9_2.junk (kernelRun9_A c i arg2 harg2 arg3 harg3 arg4 harg4 arg5 harg5 hc0 x0 x1).1)
/-- Its stores into the accumulator cover it; what they leave. -/
theorem scover9_A_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) (y : S4096x64.Idx) :
    ∃ pc ∈ (kernelRun9_A c i arg2 harg2 arg3 harg3 arg4 harg4 arg5 harg5 hc0 x0 x1).2.1, y ∈ pc.1.set :=
  View.cover_of_tiledL (kernelRun9_A c i arg2 harg2 arg3 harg3 arg4 harg4 arg5 harg5 hc0 x0 x1).2.1 S4096x64.size (by sl_kernel_rfl) y
def sout9_A_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) : Vec F S4096x64 .f32 :=
  VS9_0.read (Elt F) (VS9_0.writes (Elt F) VS9_0.junk (kernelRun9_A c i arg2 harg2 arg3 harg3 arg4 harg4 arg5 harg5 hc0 x0 x1).2.1)

/-- The same of the later-point case, over what the point before left in the accumulator. -/
theorem cover9_B_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) (y : S4096x64.Idx) :
    ∃ pc ∈ (kernelRun9_B c i arg2 harg2 arg3 harg3 arg4 harg4 arg5 harg5 hc0 x0 x1 xs0).1, y ∈ pc.1.set :=
  View.cover_of_tiledL (kernelRun9_B c i arg2 harg2 arg3 harg3 arg4 harg4 arg5 harg5 hc0 x0 x1 xs0).1 S4096x64.size (by sl_kernel_rfl) y
def out9_B_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) : Vec F S4096x64 .f32 :=
  VO9_2.read (Elt F) (VO9_2.writes (Elt F) VO9_2.junk (kernelRun9_B c i arg2 harg2 arg3 harg3 arg4 harg4 arg5 harg5 hc0 x0 x1 xs0).1)
theorem scover9_B_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) (y : S4096x64.Idx) :
    ∃ pc ∈ (kernelRun9_B c i arg2 harg2 arg3 harg3 arg4 harg4 arg5 harg5 hc0 x0 x1 xs0).2.1, y ∈ pc.1.set :=
  View.cover_of_tiledL (kernelRun9_B c i arg2 harg2 arg3 harg3 arg4 harg4 arg5 harg5 hc0 x0 x1 xs0).2.1 S4096x64.size (by sl_kernel_rfl) y
def sout9_B_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) : Vec F S4096x64 .f32 :=
  VS9_0.read (Elt F) (VS9_0.writes (Elt F) VS9_0.junk (kernelRun9_B c i arg2 harg2 arg3 harg3 arg4 harg4 arg5 harg5 hc0 x0 x1 xs0).2.1)

/-- THE ACCUMULATION: what the output's staging buffer and the accumulator hold after the body at position n. -/
def outsAt9 (c : Dev nD) : (n : ℕ) → n < cfg9.N → Vec F S4096x64 .f32 × Vec F S4096x64 .f32
  | 0, hn => (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (iblk9 V c 0 ⟨0, hn⟩) (iblk9 V c 1 ⟨0, hn⟩),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (iblk9 V c 0 ⟨0, hn⟩) (iblk9 V c 1 ⟨0, hn⟩))
  | n + 1, hn =>
    if h0 : (n + 1) % 50 = 0 then
      (out9_A_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (iblk9 V c 0 ⟨n + 1, hn⟩) (iblk9 V c 1 ⟨n + 1, hn⟩),
        sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (iblk9 V c 0 ⟨n + 1, hn⟩) (iblk9 V c 1 ⟨n + 1, hn⟩))
    else
      (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (iblk9 V c 0 ⟨n + 1, hn⟩) (iblk9 V c 1 ⟨n + 1, hn⟩) (outsAt9 c n (Nat.lt_of_succ_lt hn)).2,
        sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (iblk9 V c 0 ⟨n + 1, hn⟩) (iblk9 V c 1 ⟨n + 1, hn⟩) (outsAt9 c n (Nat.lt_of_succ_lt hn)).2)

theorem outsAt9_A (c : Dev nD) (t : Fin cfg9.N) (h0 : t.val % 50 = 0) :
    outsAt9 V c t.val t.isLt = (out9_A_2 c (grid9.coords t) (ms9_0 t) (hs9_0 t) (ms9_1 t) (hs9_1 t) (ms9_2 t) (hs9_2 t) scM9_0 (Memref.isWhole_whole _) ((hcond9_0 t).mpr h0) (iblk9 V c 0 t) (iblk9 V c 1 t),
      sout9_A_0 c (grid9.coords t) (ms9_0 t) (hs9_0 t) (ms9_1 t) (hs9_1 t) (ms9_2 t) (hs9_2 t) scM9_0 (Memref.isWhole_whole _) ((hcond9_0 t).mpr h0) (iblk9 V c 0 t) (iblk9 V c 1 t)) := by
  obtain ⟨n, hn⟩ := t
  cases n with
  | zero => exact rfl
  | succ n => exact (dif_pos h0).trans rfl

theorem outsAt9_B (c : Dev nD) (t : Fin cfg9.N) (h0 : ¬t.val % 50 = 0) :
    outsAt9 V c t.val t.isLt = (out9_B_2 c (grid9.coords t) (ms9_0 t) (hs9_0 t) (ms9_1 t) (hs9_1 t) (ms9_2 t) (hs9_2 t) scM9_0 (Memref.isWhole_whole _) (fun h => h0 ((hcond9_0 t).mp h)) (iblk9 V c 0 t) (iblk9 V c 1 t) (outsAt9 V c (t.val - 1) (Nat.lt_of_le_of_lt (Nat.sub_le _ _) t.isLt)).2,
      sout9_B_0 c (grid9.coords t) (ms9_0 t) (hs9_0 t) (ms9_1 t) (hs9_1 t) (ms9_2 t) (hs9_2 t) scM9_0 (Memref.isWhole_whole _) (fun h => h0 ((hcond9_0 t).mp h)) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2)
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The proof data of the pipeline on core c. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point t, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))
/-- and what it returns. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2]
  by_cases h0 : t.val % 50 = 0
  · rw [outsAt9_A V c t h0]
    unfold out9_A_2 sout9_A_0; (try dsimp only)
    by_cases hz : t.val = 0
    · rw [PhiS9_castSucc V c t, PhiS9_zero V c _ _ hz, PhiA9_eq]
      iintro ⟨⟨⟨HS0, Hrest⟩, Hg⟩, Ho, ⟨%d0, H0⟩, ⟨%d1, H1⟩, ⟨%d2, H2⟩⟩
      iapply ((kernelRun9_A c (grid9.coords t) _ _ _ _ _ _ _ _ ((hcond9_0 t).mpr h0) (iblk9 V c 0 t) (iblk9 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_A_2 c _ _ _ _ _ _ _ _ _ _ _ _)
    · rw [PhiS9_castSucc V c t, PhiS9_pos V c _ _ hz]
      iintro ⟨⟨⟨HS0, Hrest⟩, Hg⟩, Ho, ⟨%d0, H0⟩, ⟨%d1, H1⟩, ⟨%d2, H2⟩⟩
      iapply ((kernelRun9_A c (grid9.coords t) _ _ _ _ _ _ _ _ ((hcond9_0 t).mpr h0) (iblk9 V c 0 t) (iblk9 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_A_2 c _ _ _ _ _ _ _ _ _ _ _ _)
  · rw [outsAt9_B V c t h0]
    unfold out9_B_2 sout9_B_0; (try dsimp only)
    have hz : t.val ≠ 0 := fun hz => h0 (by rw [hz])
    rw [PhiS9_castSucc V c t, PhiS9_pos V c _ _ hz]
    iintro ⟨⟨⟨HS0, Hrest⟩, Hg⟩, Ho, ⟨%d0, H0⟩, ⟨%d1, H1⟩, ⟨%d2, H2⟩⟩
    iapply ((kernelRun9_B c (grid9.coords t) _ _ _ _ _ _ _ _ (fun h => h0 ((hcond9_0 t).mp h)) (iblk9 V c 0 t) (iblk9 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover9_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover9_B_2 c _ _ _ _ _ _ _ _ _ _ _ _ _)

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

/-- The invariant before the first point is the launch's. -/
theorem Phi_zero9 (c : Dev nD) : (dat9 V c).Φ 0 = Pipeline.ΦA spec9 c := rfl

/-- After the last point the invariant gives the launch's back: the accumulator's contents are forgotten. -/
theorem Phi_last9 (c : Dev nD) : (dat9 V c).Φ (Fin.last cfg9.N) ⊢ Pipeline.ΦA spec9 c := by
  rw [show (dat9 V c).Φ (Fin.last cfg9.N) = PhiS9 V c cfg9.N (Nat.le_refl _) from rfl,
    PhiS9_pos V c _ _ (by rw [show cfg9.N = 9800 from N_9]; decide), PhiA9_eq]
  iintro ⟨⟨HS0, Hrest⟩, Hg⟩
  isplitl [HS0 Hrest]
  · isplitl [HS0]
    · iexists _; iexact HS0
    iexact Hrest
  iexact Hg

end Cert.Kernel.Reg

end
-- ==== Proof.KRegScatter10Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The body clears its accumulator when the edge-block coordinate is zero. -/
abbrev cond10_0 (i : grid10.Coords) : Prop := (Scalar.cmpi .ne (Scalar.extui (Scalar.cmpi .eq (BitVec.ofNat 32 (i 1).val) 0#32)) 0#32) = 1#1
/-- That is at the points ≡ 0 (mod 196): the first point of each node block. -/
theorem hcond10_0 : ∀ t : Fin cfg10.N, cond10_0 (grid10.coords t) ↔ t.val % 196 = 0 :=
  (by decide +kernel : ∀ t : Fin grid10.N, cond10_0 (grid10.coords t) ↔ t.val % 196 = 0)

/-- One staging buffer of the output window, through which its contents are stated. -/
abbrev VO10_2 : View sig .tc .vmem S1000x64 .f32 := (Memref.whole cc10_stg2_0 : Memref sig .tc .vmem S1000x64 .f32).view
/-- Each window's current staging memref at point t, and its wholeness. -/
abbrev ms10_0 (t : Fin cfg10.N) : Memref sig .tc .vmem S4096 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S4096x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1000x64 .f32 := win10_2.stage (cfg10.slots t 2)
abbrev hs10_2 (t : Fin cfg10.N) : (ms10_2 t).IsWhole := hstage10_2 ((cfg10.slots t 2).cast nbuf10_2)
/-- The accumulator: a whole buffer of the kernel's own. -/
abbrev scM10_0 : Memref sig .tc .vmem S1000x64 .f32 := Memref.whole cc10_scratch0
abbrev VS10_0 : View sig .tc .vmem S1000x64 .f32 := scM10_0.view

/-- The region's invariant at entry, with the accumulator as a memref owned at some contents; the other buffers of the
    kernel regions stay closed. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun10_A (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond10_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc10_scatter_kernel i arg2 harg2 arg3 harg3 arg4 harg4 arg5 harg5) K } := by
  refine ⟨?_, ?_, fun E K => ?run⟩
  case run =>
    simp only [cc10_scatter_kernel_eq_skeleton]; unfold cc10_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun10_B (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond10_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc10_scatter_kernel i arg2 harg2 arg3 harg3 arg4 harg4 arg5 harg5) K } := by
  refine ⟨?_, ?_, fun E K => ?run⟩
  case run =>
    simp only [cc10_scatter_kernel_eq_skeleton]; unfold cc10_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.KRegScatter10.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KRegScatter10Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover10_A_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) (y : S1000x64.Idx) :
    ∃ pc ∈ (kernelRun10_A c i arg2 harg2 arg3 harg3 arg4 harg4 arg5 harg5 hc0 x0 x1).1, y ∈ pc.1.set :=
  View.cover_of_tiledL (kernelRun10_A c i arg2 harg2 arg3 harg3 arg4 harg4 arg5 harg5 hc0 x0 x1).1 S1000x64.size (by sl_kernel_rfl) y
def out10_A_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) : Vec F S1000x64 .f32 :=
  VO10_2.read (Elt F) (VO10_2.writes (Elt F) VO10_2.junk (kernelRun10_A c i arg2 harg2 arg3 harg3 arg4 harg4 arg5 harg5 hc0 x0 x1).1)
/-- Its stores into the accumulator cover it; what they leave. -/
theorem scover10_A_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) (y : S1000x64.Idx) :
    ∃ pc ∈ (kernelRun10_A c i arg2 harg2 arg3 harg3 arg4 harg4 arg5 harg5 hc0 x0 x1).2.1, y ∈ pc.1.set :=
  View.cover_of_tiledL (kernelRun10_A c i arg2 harg2 arg3 harg3 arg4 harg4 arg5 harg5 hc0 x0 x1).2.1 S1000x64.size (by sl_kernel_rfl) y
def sout10_A_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) : Vec F S1000x64 .f32 :=
  VS10_0.read (Elt F) (VS10_0.writes (Elt F) VS10_0.junk (kernelRun10_A c i arg2 harg2 arg3 harg3 arg4 harg4 arg5 harg5 hc0 x0 x1).2.1)

/-- The same of the later-point case, over what the point before left in the accumulator. -/
theorem cover10_B_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) (y : S1000x64.Idx) :
    ∃ pc ∈ (kernelRun10_B c i arg2 harg2 arg3 harg3 arg4 harg4 arg5 harg5 hc0 x0 x1 xs0).1, y ∈ pc.1.set :=
  View.cover_of_tiledL (kernelRun10_B c i arg2 harg2 arg3 harg3 arg4 harg4 arg5 harg5 hc0 x0 x1 xs0).1 S1000x64.size (by sl_kernel_rfl) y
def out10_B_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) : Vec F S1000x64 .f32 :=
  VO10_2.read (Elt F) (VO10_2.writes (Elt F) VO10_2.junk (kernelRun10_B c i arg2 harg2 arg3 harg3 arg4 harg4 arg5 harg5 hc0 x0 x1 xs0).1)
theorem scover10_B_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) (y : S1000x64.Idx) :
    ∃ pc ∈ (kernelRun10_B c i arg2 harg2 arg3 harg3 arg4 harg4 arg5 harg5 hc0 x0 x1 xs0).2.1, y ∈ pc.1.set :=
  View.cover_of_tiledL (kernelRun10_B c i arg2 harg2 arg3 harg3 arg4 harg4 arg5 harg5 hc0 x0 x1 xs0).2.1 S1000x64.size (by sl_kernel_rfl) y
def sout10_B_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) : Vec F S1000x64 .f32 :=
  VS10_0.read (Elt F) (VS10_0.writes (Elt F) VS10_0.junk (kernelRun10_B c i arg2 harg2 arg3 harg3 arg4 harg4 arg5 harg5 hc0 x0 x1 xs0).2.1)

/-- THE ACCUMULATION: what the output's staging buffer and the accumulator hold after the body at position n. -/
def outsAt10 (c : Dev nD) : (n : ℕ) → n < cfg10.N → Vec F S1000x64 .f32 × Vec F S1000x64 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (iblk10 V c 0 ⟨0, hn⟩) (iblk10 V c 1 ⟨0, hn⟩),
      sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (iblk10 V c 0 ⟨0, hn⟩) (iblk10 V c 1 ⟨0, hn⟩))
  | n + 1, hn =>
    if h0 : (n + 1) % 196 = 0 then
      (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (iblk10 V c 0 ⟨n + 1, hn⟩) (iblk10 V c 1 ⟨n + 1, hn⟩),
        sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (iblk10 V c 0 ⟨n + 1, hn⟩) (iblk10 V c 1 ⟨n + 1, hn⟩))
    else
      (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (iblk10 V c 0 ⟨n + 1, hn⟩) (iblk10 V c 1 ⟨n + 1, hn⟩) (outsAt10 c n (Nat.lt_of_succ_lt hn)).2,
        sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val % 196 = 0) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (iblk10 V c 0 t) (iblk10 V c 1 t),
      sout10_A_0 c (grid10.coords t) (ms10_0 t) (hs10_0 t) (ms10_1 t) (hs10_1 t) (ms10_2 t) (hs10_2 t) scM10_0 (Memref.isWhole_whole _) ((hcond10_0 t).mpr h0) (iblk10 V c 0 t) (iblk10 V c 1 t)) := by
  obtain ⟨n, hn⟩ := t
  cases n with
  | zero => exact rfl
  | succ n => exact (dif_pos h0).trans rfl

theorem outsAt10_B (c : Dev nD) (t : Fin cfg10.N) (h0 : ¬t.val % 196 = 0) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (iblk10 V c 0 t) (iblk10 V c 1 t) (outsAt10 V c (t.val - 1) (Nat.lt_of_le_of_lt (Nat.sub_le _ _) t.isLt)).2,
      sout10_B_0 c (grid10.coords t) (ms10_0 t) (hs10_0 t) (ms10_1 t) (hs10_1 t) (ms10_2 t) (hs10_2 t) scM10_0 (Memref.isWhole_whole _) (fun h => h0 ((hcond10_0 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2)
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2)
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The proof data of the pipeline on core c. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))
/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [after10_0, after10_1, after10_2]
  by_cases h0 : t.val % 196 = 0
  · rw [outsAt10_A V c t h0]
    unfold out10_A_2 sout10_A_0; (try dsimp only)
    by_cases hz : t.val = 0
    · rw [PhiS10_castSucc V c t, PhiS10_zero V c _ _ hz, PhiA10_eq]
      iintro ⟨⟨⟨HS0, Hrest⟩, Hg⟩, Ho, ⟨%d0, H0⟩, ⟨%d1, H1⟩, ⟨%d2, H2⟩⟩
      iapply ((kernelRun10_A c (grid10.coords t) _ _ _ _ _ _ _ _ ((hcond10_0 t).mpr h0) (iblk10 V c 0 t) (iblk10 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_A_2 c _ _ _ _ _ _ _ _ _ _ _ _)
    · rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_A c (grid10.coords t) _ _ _ _ _ _ _ _ ((hcond10_0 t).mpr h0) (iblk10 V c 0 t) (iblk10 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_A_2 c _ _ _ _ _ _ _ _ _ _ _ _)
  · rw [outsAt10_B V c t h0]
    unfold out10_B_2 sout10_B_0; (try dsimp only)
    have hz : t.val ≠ 0 := fun hz => h0 (by rw [hz])
    rw [PhiS10_castSucc V c t, PhiS10_pos V c _ _ hz]
    iintro ⟨⟨⟨HS0, Hrest⟩, Hg⟩, Ho, ⟨%d0, H0⟩, ⟨%d1, H1⟩, ⟨%d2, H2⟩⟩
    iapply ((kernelRun10_B c (grid10.coords t) _ _ _ _ _ _ _ _ (fun h => h0 ((hcond10_0 t).mp h)) (iblk10 V c 0 t) (iblk10 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover10_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _ _ _)

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

/-- The invariant before the first point is the launch's. -/
theorem Phi_zero10 (c : Dev nD) : (dat10 V c).Φ 0 = Pipeline.ΦA spec10 c := rfl

/-- After the last point the invariant gives the launch's back: the accumulator's contents are forgotten. -/
theorem Phi_last10 (c : Dev nD) : (dat10 V c).Φ (Fin.last cfg10.N) ⊢ Pipeline.ΦA spec10 c := by
  rw [show (dat10 V c).Φ (Fin.last cfg10.N) = PhiS10 V c cfg10.N (Nat.le_refl _) from rfl,
    PhiS10_pos V c _ _ (by rw [show cfg10.N = 9800 from N_10]; decide), PhiA10_eq]
  iintro ⟨⟨HS0, Hrest⟩, Hg⟩
  isplitl [HS0 Hrest]
  · isplitl [HS0]
    · iexists _; iexact HS0
    iexact Hrest
  iexact Hg

end Cert.Kernel.Reg

end
-- ==== Proof.KRegGru11.lean ====
/-
  The third recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- The whole rectangle of each staging buffer: the body loads and stores nothing smaller. -/
abbrev r11_0 : Rect S2000x64 := Rect.unit (s := S2000x64) ![0, 0] S2000x64.size inb_S2000x64_S2000x64_0_0
abbrev r11_2 : Rect S192x64 := Rect.unit (s := S192x64) ![0, 0] S192x64.size inb_S192x64_S192x64_0_0
abbrev r11_4 : Rect S1x192 := Rect.unit (s := S1x192) ![0, 0] S1x192.size inb_S1x192_S1x192_0_0

/-- What the body leaves in the output's staging buffer: its one store, of the recurrent cell of the six input blocks. -/
def out11_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r11_0, k11_pay1 (View.ld x0 r11_0) (View.ld x1 r11_0) (View.ld x2 r11_2) (View.ld x3 r11_2) (View.ld x4 r11_4) (View.ld x5 r11_4)⟩]

/-- The one store covers the buffer. -/
theorem cover11_6 (p0 : Vec F S2000x64 .f32) (y : S2000x64.Idx) :
    ∃ pc ∈ ([⟨r11_0, p0⟩] : List (View.Piece (Elt F) S2000x64 .f32)), y ∈ pc.1.set :=
  View.cover_of_tiled [⟨r11_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel11 (c : Dev nD) (E : Set ℕ) (i : grid11.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11_gru_kernel i arg1 harg1 arg2 harg2 arg3 harg3 arg4 harg4 arg5 harg5 arg6 harg6 arg7 harg7) K := by
  simp only [cc11_gru_kernel_eq_skeleton]; unfold cc11_gru_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The proof data of the pipeline on core c: the arrays as the region finds them; after the body at point t each input's
    buffer at its block and the output's at the recurrent cell of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) :
    (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is called with at point t, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.KAsmVals.lean ====
/-
  The buffer contents between the twelve regions of the program.  A region changes one buffer — its output array, which
  ends holding what the pipeline's write-backs leave — and every other buffer keeps what it held when the region was
  entered; so the contents at each boundary are a fold through the program from the launch memory, and every argument array
  reaches the end as launched.  Also: every pipeline's proof data, each at its region's entry contents.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.Gen.Kernel.Regions
import proofs.«163112_j15616501088829_2_alg».proof.Proof.KRegLin0
import proofs.«163112_j15616501088829_2_alg».proof.Proof.KRegGather1
import proofs.«163112_j15616501088829_2_alg».proof.Proof.KRegScatter2
import proofs.«163112_j15616501088829_2_alg».proof.Proof.KRegGru3
import proofs.«163112_j15616501088829_2_alg».proof.Proof.KRegLin4
import proofs.«163112_j15616501088829_2_alg».proof.Proof.KRegGather5
import proofs.«163112_j15616501088829_2_alg».proof.Proof.KRegScatter6
import proofs.«163112_j15616501088829_2_alg».proof.Proof.KRegGru7
import proofs.«163112_j15616501088829_2_alg».proof.Proof.KRegLin8
import proofs.«163112_j15616501088829_2_alg».proof.Proof.KRegGather9
import proofs.«163112_j15616501088829_2_alg».proof.Proof.KRegScatter10
import proofs.«163112_j15616501088829_2_alg».proof.Proof.KRegGru11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents when the first region is entered: the launch memory after the host operations that reshape the bias
    vectors and pad the edge words. -/
def X4 (c : Dev nD) : Valuation τ sig (Elt F) := Gen.V4 m c
/-- The same read at the TensorCore's references. -/
abbrev Y4 : (c : Dev nD) → (b : Ref sig .tc) → Buf (Elt F) ((c : Thread nD τ).loc b) := fun c b => X4 m c b

/-- After region 0: its arrays at what the pipeline leaves, every other buffer as entered. -/
def X5 (c : Dev nD) : Valuation τ sig (Elt F) :=
  Pipeline.withArrays spec0 c (X4 m c) fun w => (dat0 (Y4 m) c).arrAt w cfg0.N
theorem X5_arr (c : Dev nD) (w : Fin cfg0.W) :
    X5 m c (Proc.devRef .tc (Pipeline.arrRef spec0 w)) = (dat0 (Y4 m) c).arrAt w cfg0.N := by
  unfold X5; exact Pipeline.withArrays_arr spec0 launch0.win.arr_inj c _ _ w
theorem X5_of_ne (c : Dev nD) (b : Ref sig .tc) (hb : ∀ w, Pipeline.arrRef spec0 w ≠ b) :
    X5 m c (Proc.devRef .tc b) = X4 m c (Proc.devRef .tc b) := by
  unfold X5; exact Pipeline.withArrays_of_ne spec0 c _ _ b hb
abbrev Y5 : (c : Dev nD) → (b : Ref sig .tc) → Buf (Elt F) ((c : Thread nD τ).loc b) := fun c b => X5 m c b
theorem hF0 (c : Dev nD) (w : Fin cfg0.W) : (dat0 (Y4 m) c).arrAt w cfg0.N = Y5 m c (Pipeline.arrRef spec0 w) :=
  (X5_arr m c w).symm
theorem hrest0 (c : Dev nD) : ∀ b, b ∉ Finset.univ.image (Pipeline.arrRef spec0) → Y5 m c b = Y4 m c b :=
  fun b hb => X5_of_ne m c b fun w e => hb (Finset.mem_image.mpr ⟨w, Finset.mem_univ _, e⟩)
/-- Region 0 changes only its output array main_v5: an input array is read back as entered, any other buffer bypasses it. -/
theorem X5_keep (c : Dev nD) (b : Ref sig .tc) (hb : b ≠ main_v5) : X5 m c (Proc.devRef .tc b) = X4 m c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    exact (X5_arr m c w).trans (((dat0 (Y4 m) c).arrAt_in w hin _).trans (A_eq0 (Y4 m) c w))
  · exact X5_of_ne m c b fun w e => h ⟨w, e⟩

/-- After region 1: its arrays at what the pipeline leaves, every other buffer as entered. -/
def X6 (c : Dev nD) : Valuation τ sig (Elt F) :=
  Pipeline.withArrays spec1 c (X5 m c) fun w => (dat1 (Y5 m) c).arrAt w cfg1.N
theorem X6_arr (c : Dev nD) (w : Fin cfg1.W) :
    X6 m c (Proc.devRef .tc (Pipeline.arrRef spec1 w)) = (dat1 (Y5 m) c).arrAt w cfg1.N := by
  unfold X6; exact Pipeline.withArrays_arr spec1 launch1.win.arr_inj c _ _ w
theorem X6_of_ne (c : Dev nD) (b : Ref sig .tc) (hb : ∀ w, Pipeline.arrRef spec1 w ≠ b) :
    X6 m c (Proc.devRef .tc b) = X5 m c (Proc.devRef .tc b) := by
  unfold X6; exact Pipeline.withArrays_of_ne spec1 c _ _ b hb
abbrev Y6 : (c : Dev nD) → (b : Ref sig .tc) → Buf (Elt F) ((c : Thread nD τ).loc b) := fun c b => X6 m c b
theorem hF1 (c : Dev nD) (w : Fin cfg1.W) : (dat1 (Y5 m) c).arrAt w cfg1.N = Y6 m c (Pipeline.arrRef spec1 w) :=
  (X6_arr m c w).symm
theorem hrest1 (c : Dev nD) : ∀ b, b ∉ Finset.univ.image (Pipeline.arrRef spec1) → Y6 m c b = Y5 m c b :=
  fun b hb => X6_of_ne m c b fun w e => hb (Finset.mem_image.mpr ⟨w, Finset.mem_univ _, e⟩)
/-- Region 1 changes only its output array main_v6: an input array is read back as entered, any other buffer bypasses it. -/
theorem X6_keep (c : Dev nD) (b : Ref sig .tc) (hb : b ≠ main_v6) : X6 m c (Proc.devRef .tc b) = X5 m c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, hb => exact absurd rfl hb
    exact (X6_arr m c w).trans (((dat1 (Y5 m) c).arrAt_in w hin _).trans (A_eq1 (Y5 m) c w))
  · exact X6_of_ne m c b fun w e => h ⟨w, e⟩

/-- After region 2: its arrays at what the pipeline leaves, every other buffer as entered. -/
def X7 (c : Dev nD) : Valuation τ sig (Elt F) :=
  Pipeline.withArrays spec2 c (X6 m c) fun w => (dat2 (Y6 m) c).arrAt w cfg2.N
theorem X7_arr (c : Dev nD) (w : Fin cfg2.W) :
    X7 m c (Proc.devRef .tc (Pipeline.arrRef spec2 w)) = (dat2 (Y6 m) c).arrAt w cfg2.N := by
  unfold X7; exact Pipeline.withArrays_arr spec2 launch2.win.arr_inj c _ _ w
theorem X7_of_ne (c : Dev nD) (b : Ref sig .tc) (hb : ∀ w, Pipeline.arrRef spec2 w ≠ b) :
    X7 m c (Proc.devRef .tc b) = X6 m c (Proc.devRef .tc b) := by
  unfold X7; exact Pipeline.withArrays_of_ne spec2 c _ _ b hb
abbrev Y7 : (c : Dev nD) → (b : Ref sig .tc) → Buf (Elt F) ((c : Thread nD τ).loc b) := fun c b => X7 m c b
theorem hF2 (c : Dev nD) (w : Fin cfg2.W) : (dat2 (Y6 m) c).arrAt w cfg2.N = Y7 m c (Pipeline.arrRef spec2 w) :=
  (X7_arr m c w).symm
theorem hrest2 (c : Dev nD) : ∀ b, b ∉ Finset.univ.image (Pipeline.arrRef spec2) → Y7 m c b = Y6 m c b :=
  fun b hb => X7_of_ne m c b fun w e => hb (Finset.mem_image.mpr ⟨w, Finset.mem_univ _, e⟩)
/-- Region 2 changes only its output array main_v7: an input array is read back as entered, any other buffer bypasses it. -/
theorem X7_keep (c : Dev nD) (b : Ref sig .tc) (hb : b ≠ main_v7) : X7 m c (Proc.devRef .tc b) = X6 m c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, hb => exact absurd rfl hb
    exact (X7_arr m c w).trans (((dat2 (Y6 m) c).arrAt_in w hin _).trans (A_eq2 (Y6 m) c w))
  · exact X7_of_ne m c b fun w e => h ⟨w, e⟩

/-- After region 3: its arrays at what the pipeline leaves, every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)
/-- Region 3 changes only its output array main_v8: an input array is read back as entered, any other buffer bypasses it. -/
theorem X8_keep (c : Dev nD) (b : Ref sig .tc) (hb : b ≠ main_v8) : X8 m c (Proc.devRef .tc b) = X7 m c (Proc.devRef .tc b) := by
  by_cases h : ∃ w, Pipeline.arrRef spec3 w = b
  · obtain ⟨w, rfl⟩ := h
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X8_arr m c w).trans (((dat3 (Y7 m) c).arrAt_in w hin _).trans (A_eq3 (Y7 m) c w))
  · exact X8_of_ne m c b fun w e => h ⟨w, e⟩

/-- After region 4: its arrays at what the pipeline leaves, every other buffer as entered. -/
def X9 (c : Dev nD) : Valuation τ sig (Elt F) :=
  Pipeline.withArrays spec4 c (X8 m c) fun w => (dat4 (Y8 m) c).arrAt w cfg4.N
theorem X9_arr (c : Dev nD) (w : Fin cfg4.W) :
    X9 m c (Proc.devRef .tc (Pipeline.arrRef spec4 w)) = (dat4 (Y8 m) c).arrAt w cfg4.N := by
  unfold X9; exact Pipeline.withArrays_arr spec4 launch4.win.arr_inj c _ _ w
theorem X9_of_ne (c : Dev nD) (b : Ref sig .tc) (hb : ∀ w, Pipeline.arrRef spec4 w ≠ b) :
    X9 m c (Proc.devRef .tc b) = X8 m c (Proc.devRef .tc b) := by
  unfold X9; exact Pipeline.withArrays_of_ne spec4 c _ _ b hb
abbrev Y9 : (c : Dev nD) → (b : Ref sig .tc) → Buf (Elt F) ((c : Thread nD τ).loc b) := fun c b => X9 m c b
theorem hF4 (c : Dev nD) (w : Fin cfg4.W) : (dat4 (Y8 m) c).arrAt w cfg4.N = Y9 m c (Pipeline.arrRef spec4 w) :=
  (X9_arr m c w).symm
theorem hrest4 (c : Dev nD) : ∀ b, b ∉ Finset.univ.image (Pipeline.arrRef spec4) → Y9 m c b = Y8 m c b :=
  fun b hb => X9_of_ne m c b fun w e => hb (Finset.mem_image.mpr ⟨w, Finset.mem_univ _, e⟩)
/-- Region 4 changes only its output array main_v9: an input array is read back as entered, any other buffer bypasses it. -/
theorem X9_keep (c : Dev nD) (b : Ref sig .tc) (hb : b ≠ main_v9) : X9 m c (Proc.devRef .tc b) = X8 m c (Proc.devRef .tc b) := by
  by_cases h : ∃ w, Pipeline.arrRef spec4 w = b
  · obtain ⟨w, rfl⟩ := h
    have hin : (cfg4.win w).isOut = false := by
      match w, hb with
      | ⟨0, _⟩, _ => rfl
      | ⟨1, _⟩, _ => rfl
      | ⟨2, _⟩, _ => rfl
      | ⟨3, _⟩, hb => exact absurd rfl hb
    exact (X9_arr m c w).trans (((dat4 (Y8 m) c).arrAt_in w hin _).trans (A_eq4 (Y8 m) c w))
  · exact X9_of_ne m c b fun w e => h ⟨w, e⟩

/-- After region 5: its arrays at what the pipeline leaves, every other buffer as entered. -/
def X10 (c : Dev nD) : Valuation τ sig (Elt F) :=
  Pipeline.withArrays spec5 c (X9 m c) fun w => (dat5 (Y9 m) c).arrAt w cfg5.N
theorem X10_arr (c : Dev nD) (w : Fin cfg5.W) :
    X10 m c (Proc.devRef .tc (Pipeline.arrRef spec5 w)) = (dat5 (Y9 m) c).arrAt w cfg5.N := by
  unfold X10; exact Pipeline.withArrays_arr spec5 launch5.win.arr_inj c _ _ w
theorem X10_of_ne (c : Dev nD) (b : Ref sig .tc) (hb : ∀ w, Pipeline.arrRef spec5 w ≠ b) :
    X10 m c (Proc.devRef .tc b) = X9 m c (Proc.devRef .tc b) := by
  unfold X10; exact Pipeline.withArrays_of_ne spec5 c _ _ b hb
abbrev Y10 : (c : Dev nD) → (b : Ref sig .tc) → Buf (Elt F) ((c : Thread nD τ).loc b) := fun c b => X10 m c b
theorem hF5 (c : Dev nD) (w : Fin cfg5.W) : (dat5 (Y9 m) c).arrAt w cfg5.N = Y10 m c (Pipeline.arrRef spec5 w) :=
  (X10_arr m c w).symm
theorem hrest5 (c : Dev nD) : ∀ b, b ∉ Finset.univ.image (Pipeline.arrRef spec5) → Y10 m c b = Y9 m c b :=
  fun b hb => X10_of_ne m c b fun w e => hb (Finset.mem_image.mpr ⟨w, Finset.mem_univ _, e⟩)
/-- Region 5 changes only its output array main_v10: an input array is read back as entered, any other buffer bypasses it. -/
theorem X10_keep (c : Dev nD) (b : Ref sig .tc) (hb : b ≠ main_v10) : X10 m c (Proc.devRef .tc b) = X9 m c (Proc.devRef .tc b) := by
  by_cases h : ∃ w, Pipeline.arrRef spec5 w = b
  · obtain ⟨w, rfl⟩ := h
    have hin : (cfg5.win w).isOut = false := by
      match w, hb with
      | ⟨0, _⟩, _ => rfl
      | ⟨1, _⟩, _ => rfl
      | ⟨2, _⟩, hb => exact absurd rfl hb
    exact (X10_arr m c w).trans (((dat5 (Y9 m) c).arrAt_in w hin _).trans (A_eq5 (Y9 m) c w))
  · exact X10_of_ne m c b fun w e => h ⟨w, e⟩

/-- After region 6: its arrays at what the pipeline leaves, every other buffer as entered. -/
def X11 (c : Dev nD) : Valuation τ sig (Elt F) :=
  Pipeline.withArrays spec6 c (X10 m c) fun w => (dat6 (Y10 m) c).arrAt w cfg6.N
theorem X11_arr (c : Dev nD) (w : Fin cfg6.W) :
    X11 m c (Proc.devRef .tc (Pipeline.arrRef spec6 w)) = (dat6 (Y10 m) c).arrAt w cfg6.N := by
  unfold X11; exact Pipeline.withArrays_arr spec6 launch6.win.arr_inj c _ _ w
theorem X11_of_ne (c : Dev nD) (b : Ref sig .tc) (hb : ∀ w, Pipeline.arrRef spec6 w ≠ b) :
    X11 m c (Proc.devRef .tc b) = X10 m c (Proc.devRef .tc b) := by
  unfold X11; exact Pipeline.withArrays_of_ne spec6 c _ _ b hb
abbrev Y11 : (c : Dev nD) → (b : Ref sig .tc) → Buf (Elt F) ((c : Thread nD τ).loc b) := fun c b => X11 m c b
theorem hF6 (c : Dev nD) (w : Fin cfg6.W) : (dat6 (Y10 m) c).arrAt w cfg6.N = Y11 m c (Pipeline.arrRef spec6 w) :=
  (X11_arr m c w).symm
theorem hrest6 (c : Dev nD) : ∀ b, b ∉ Finset.univ.image (Pipeline.arrRef spec6) → Y11 m c b = Y10 m c b :=
  fun b hb => X11_of_ne m c b fun w e => hb (Finset.mem_image.mpr ⟨w, Finset.mem_univ _, e⟩)
/-- Region 6 changes only its output array main_v11: an input array is read back as entered, any other buffer bypasses it. -/
theorem X11_keep (c : Dev nD) (b : Ref sig .tc) (hb : b ≠ main_v11) : X11 m c (Proc.devRef .tc b) = X10 m c (Proc.devRef .tc b) := by
  by_cases h : ∃ w, Pipeline.arrRef spec6 w = b
  · obtain ⟨w, rfl⟩ := h
    have hin : (cfg6.win w).isOut = false := by
      match w, hb with
      | ⟨0, _⟩, _ => rfl
      | ⟨1, _⟩, _ => rfl
      | ⟨2, _⟩, hb => exact absurd rfl hb
    exact (X11_arr m c w).trans (((dat6 (Y10 m) c).arrAt_in w hin _).trans (A_eq6 (Y10 m) c w))
  · exact X11_of_ne m c b fun w e => h ⟨w, e⟩

/-- After region 7: its arrays at what the pipeline leaves, every other buffer as entered. -/
def X12 (c : Dev nD) : Valuation τ sig (Elt F) :=
  Pipeline.withArrays spec7 c (X11 m c) fun w => (dat7 (Y11 m) c).arrAt w cfg7.N
theorem X12_arr (c : Dev nD) (w : Fin cfg7.W) :
    X12 m c (Proc.devRef .tc (Pipeline.arrRef spec7 w)) = (dat7 (Y11 m) c).arrAt w cfg7.N := by
  unfold X12; exact Pipeline.withArrays_arr spec7 launch7.win.arr_inj c _ _ w
theorem X12_of_ne (c : Dev nD) (b : Ref sig .tc) (hb : ∀ w, Pipeline.arrRef spec7 w ≠ b) :
    X12 m c (Proc.devRef .tc b) = X11 m c (Proc.devRef .tc b) := by
  unfold X12; exact Pipeline.withArrays_of_ne spec7 c _ _ b hb
abbrev Y12 : (c : Dev nD) → (b : Ref sig .tc) → Buf (Elt F) ((c : Thread nD τ).loc b) := fun c b => X12 m c b
theorem hF7 (c : Dev nD) (w : Fin cfg7.W) : (dat7 (Y11 m) c).arrAt w cfg7.N = Y12 m c (Pipeline.arrRef spec7 w) :=
  (X12_arr m c w).symm
theorem hrest7 (c : Dev nD) : ∀ b, b ∉ Finset.univ.image (Pipeline.arrRef spec7) → Y12 m c b = Y11 m c b :=
  fun b hb => X12_of_ne m c b fun w e => hb (Finset.mem_image.mpr ⟨w, Finset.mem_univ _, e⟩)
/-- Region 7 changes only its output array main_v12: an input array is read back as entered, any other buffer bypasses it. -/
theorem X12_keep (c : Dev nD) (b : Ref sig .tc) (hb : b ≠ main_v12) : X12 m c (Proc.devRef .tc b) = X11 m c (Proc.devRef .tc b) := by
  by_cases h : ∃ w, Pipeline.arrRef spec7 w = b
  · obtain ⟨w, rfl⟩ := h
    have hin : (cfg7.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X12_arr m c w).trans (((dat7 (Y11 m) c).arrAt_in w hin _).trans (A_eq7 (Y11 m) c w))
  · exact X12_of_ne m c b fun w e => h ⟨w, e⟩

/-- After region 8: its arrays at what the pipeline leaves, every other buffer as entered. -/
def X13 (c : Dev nD) : Valuation τ sig (Elt F) :=
  Pipeline.withArrays spec8 c (X12 m c) fun w => (dat8 (Y12 m) c).arrAt w cfg8.N
theorem X13_arr (c : Dev nD) (w : Fin cfg8.W) :
    X13 m c (Proc.devRef .tc (Pipeline.arrRef spec8 w)) = (dat8 (Y12 m) c).arrAt w cfg8.N := by
  unfold X13; exact Pipeline.withArrays_arr spec8 launch8.win.arr_inj c _ _ w
theorem X13_of_ne (c : Dev nD) (b : Ref sig .tc) (hb : ∀ w, Pipeline.arrRef spec8 w ≠ b) :
    X13 m c (Proc.devRef .tc b) = X12 m c (Proc.devRef .tc b) := by
  unfold X13; exact Pipeline.withArrays_of_ne spec8 c _ _ b hb
abbrev Y13 : (c : Dev nD) → (b : Ref sig .tc) → Buf (Elt F) ((c : Thread nD τ).loc b) := fun c b => X13 m c b
theorem hF8 (c : Dev nD) (w : Fin cfg8.W) : (dat8 (Y12 m) c).arrAt w cfg8.N = Y13 m c (Pipeline.arrRef spec8 w) :=
  (X13_arr m c w).symm
theorem hrest8 (c : Dev nD) : ∀ b, b ∉ Finset.univ.image (Pipeline.arrRef spec8) → Y13 m c b = Y12 m c b :=
  fun b hb => X13_of_ne m c b fun w e => hb (Finset.mem_image.mpr ⟨w, Finset.mem_univ _, e⟩)
/-- Region 8 changes only its output array main_v13: an input array is read back as entered, any other buffer bypasses it. -/
theorem X13_keep (c : Dev nD) (b : Ref sig .tc) (hb : b ≠ main_v13) : X13 m c (Proc.devRef .tc b) = X12 m c (Proc.devRef .tc b) := by
  by_cases h : ∃ w, Pipeline.arrRef spec8 w = b
  · obtain ⟨w, rfl⟩ := h
    have hin : (cfg8.win w).isOut = false := by
      match w, hb with
      | ⟨0, _⟩, _ => rfl
      | ⟨1, _⟩, _ => rfl
      | ⟨2, _⟩, _ => rfl
      | ⟨3, _⟩, hb => exact absurd rfl hb
    exact (X13_arr m c w).trans (((dat8 (Y12 m) c).arrAt_in w hin _).trans (A_eq8 (Y12 m) c w))
  · exact X13_of_ne m c b fun w e => h ⟨w, e⟩

/-- After region 9: its arrays at what the pipeline leaves, every other buffer as entered. -/
def X14 (c : Dev nD) : Valuation τ sig (Elt F) :=
  Pipeline.withArrays spec9 c (X13 m c) fun w => (dat9 (Y13 m) c).arrAt w cfg9.N
theorem X14_arr (c : Dev nD) (w : Fin cfg9.W) :
    X14 m c (Proc.devRef .tc (Pipeline.arrRef spec9 w)) = (dat9 (Y13 m) c).arrAt w cfg9.N := by
  unfold X14; exact Pipeline.withArrays_arr spec9 launch9.win.arr_inj c _ _ w
theorem X14_of_ne (c : Dev nD) (b : Ref sig .tc) (hb : ∀ w, Pipeline.arrRef spec9 w ≠ b) :
    X14 m c (Proc.devRef .tc b) = X13 m c (Proc.devRef .tc b) := by
  unfold X14; exact Pipeline.withArrays_of_ne spec9 c _ _ b hb
abbrev Y14 : (c : Dev nD) → (b : Ref sig .tc) → Buf (Elt F) ((c : Thread nD τ).loc b) := fun c b => X14 m c b
theorem hF9 (c : Dev nD) (w : Fin cfg9.W) : (dat9 (Y13 m) c).arrAt w cfg9.N = Y14 m c (Pipeline.arrRef spec9 w) :=
  (X14_arr m c w).symm
theorem hrest9 (c : Dev nD) : ∀ b, b ∉ Finset.univ.image (Pipeline.arrRef spec9) → Y14 m c b = Y13 m c b :=
  fun b hb => X14_of_ne m c b fun w e => hb (Finset.mem_image.mpr ⟨w, Finset.mem_univ _, e⟩)
/-- Region 9 changes only its output array main_v14: an input array is read back as entered, any other buffer bypasses it. -/
theorem X14_keep (c : Dev nD) (b : Ref sig .tc) (hb : b ≠ main_v14) : X14 m c (Proc.devRef .tc b) = X13 m c (Proc.devRef .tc b) := by
  by_cases h : ∃ w, Pipeline.arrRef spec9 w = b
  · obtain ⟨w, rfl⟩ := h
    have hin : (cfg9.win w).isOut = false := by
      match w, hb with
      | ⟨0, _⟩, _ => rfl
      | ⟨1, _⟩, _ => rfl
      | ⟨2, _⟩, hb => exact absurd rfl hb
    exact (X14_arr m c w).trans (((dat9 (Y13 m) c).arrAt_in w hin _).trans (A_eq9 (Y13 m) c w))
  · exact X14_of_ne m c b fun w e => h ⟨w, e⟩

/-- After region 10: its arrays at what the pipeline leaves, every other buffer as entered. -/
def X15 (c : Dev nD) : Valuation τ sig (Elt F) :=
  Pipeline.withArrays spec10 c (X14 m c) fun w => (dat10 (Y14 m) c).arrAt w cfg10.N
theorem X15_arr (c : Dev nD) (w : Fin cfg10.W) :
    X15 m c (Proc.devRef .tc (Pipeline.arrRef spec10 w)) = (dat10 (Y14 m) c).arrAt w cfg10.N := by
  unfold X15; exact Pipeline.withArrays_arr spec10 launch10.win.arr_inj c _ _ w
theorem X15_of_ne (c : Dev nD) (b : Ref sig .tc) (hb : ∀ w, Pipeline.arrRef spec10 w ≠ b) :
    X15 m c (Proc.devRef .tc b) = X14 m c (Proc.devRef .tc b) := by
  unfold X15; exact Pipeline.withArrays_of_ne spec10 c _ _ b hb
abbrev Y15 : (c : Dev nD) → (b : Ref sig .tc) → Buf (Elt F) ((c : Thread nD τ).loc b) := fun c b => X15 m c b
theorem hF10 (c : Dev nD) (w : Fin cfg10.W) : (dat10 (Y14 m) c).arrAt w cfg10.N = Y15 m c (Pipeline.arrRef spec10 w) :=
  (X15_arr m c w).symm
theorem hrest10 (c : Dev nD) : ∀ b, b ∉ Finset.univ.image (Pipeline.arrRef spec10) → Y15 m c b = Y14 m c b :=
  fun b hb => X15_of_ne m c b fun w e => hb (Finset.mem_image.mpr ⟨w, Finset.mem_univ _, e⟩)
/-- Region 10 changes only its output array main_v15: an input array is read back as entered, any other buffer bypasses it. -/
theorem X15_keep (c : Dev nD) (b : Ref sig .tc) (hb : b ≠ main_v15) : X15 m c (Proc.devRef .tc b) = X14 m c (Proc.devRef .tc b) := by
  by_cases h : ∃ w, Pipeline.arrRef spec10 w = b
  · obtain ⟨w, rfl⟩ := h
    have hin : (cfg10.win w).isOut = false := by
      match w, hb with
      | ⟨0, _⟩, _ => rfl
      | ⟨1, _⟩, _ => rfl
      | ⟨2, _⟩, hb => exact absurd rfl hb
    exact (X15_arr m c w).trans (((dat10 (Y14 m) c).arrAt_in w hin _).trans (A_eq10 (Y14 m) c w))
  · exact X15_of_ne m c b fun w e => h ⟨w, e⟩

/-- After region 11: its arrays at what the pipeline leaves, every other buffer as entered. -/
def X16 (c : Dev nD) : Valuation τ sig (Elt F) :=
  Pipeline.withArrays spec11 c (X15 m c) fun w => (dat11 (Y15 m) c).arrAt w cfg11.N
theorem X16_arr (c : Dev nD) (w : Fin cfg11.W) :
    X16 m c (Proc.devRef .tc (Pipeline.arrRef spec11 w)) = (dat11 (Y15 m) c).arrAt w cfg11.N := by
  unfold X16; exact Pipeline.withArrays_arr spec11 launch11.win.arr_inj c _ _ w
theorem X16_of_ne (c : Dev nD) (b : Ref sig .tc) (hb : ∀ w, Pipeline.arrRef spec11 w ≠ b) :
    X16 m c (Proc.devRef .tc b) = X15 m c (Proc.devRef .tc b) := by
  unfold X16; exact Pipeline.withArrays_of_ne spec11 c _ _ b hb
abbrev Y16 : (c : Dev nD) → (b : Ref sig .tc) → Buf (Elt F) ((c : Thread nD τ).loc b) := fun c b => X16 m c b
theorem hF11 (c : Dev nD) (w : Fin cfg11.W) : (dat11 (Y15 m) c).arrAt w cfg11.N = Y16 m c (Pipeline.arrRef spec11 w) :=
  (X16_arr m c w).symm
theorem hrest11 (c : Dev nD) : ∀ b, b ∉ Finset.univ.image (Pipeline.arrRef spec11) → Y16 m c b = Y15 m c b :=
  fun b hb => X16_of_ne m c b fun w e => hb (Finset.mem_image.mpr ⟨w, Finset.mem_univ _, e⟩)
/-- Region 11 changes only its output array main_v16: an input array is read back as entered, any other buffer bypasses it. -/
theorem X16_keep (c : Dev nD) (b : Ref sig .tc) (hb : b ≠ main_v16) : X16 m c (Proc.devRef .tc b) = X15 m c (Proc.devRef .tc b) := by
  by_cases h : ∃ w, Pipeline.arrRef spec11 w = b
  · obtain ⟨w, rfl⟩ := h
    have hin : (cfg11.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X16_arr m c w).trans (((dat11 (Y15 m) c).arrAt_in w hin _).trans (A_eq11 (Y15 m) c w))
  · exact X16_of_ne m c b fun w e => h ⟨w, e⟩

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Y4 m) c
  | ⟨1, _⟩ => fun c => dat1 (Y5 m) c
  | ⟨2, _⟩ => fun c => dat2 (Y6 m) c
  | ⟨3, _⟩ => fun c => dat3 (Y7 m) c
  | ⟨4, _⟩ => fun c => dat4 (Y8 m) c
  | ⟨5, _⟩ => fun c => dat5 (Y9 m) c
  | ⟨6, _⟩ => fun c => dat6 (Y10 m) c
  | ⟨7, _⟩ => fun c => dat7 (Y11 m) c
  | ⟨8, _⟩ => fun c => dat8 (Y12 m) c
  | ⟨9, _⟩ => fun c => dat9 (Y13 m) c
  | ⟨10, _⟩ => fun c => dat10 (Y14 m) c
  | ⟨11, _⟩ => fun c => dat11 (Y15 m) c

end Cert.Kernel.Reg

end
-- ==== Proof.KAsmCommon.lean ====
/-
  What rides beside the buffers through every segment of the run — the core's generator register at some state and its
  dues, at nothing — and the last thread state.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KAsmVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L₀ : GSem nD τ sig → Finset Unit := fun _ => ∅
abbrev lv₀ : GSem nD τ sig → Unit → ℕ := fun _ _ => 0
/-- The generator register at some state, nothing owed. -/
abbrev Rst (c : Dev nD) : sProp 𝕄 := iprop((∃ r, prngReg c r) ∗ ∃ W, owes (c : Thread nD τ) (0 : CellTallies nD τ sig Unit) W)
/-- The last thread state without the dues: every unscoped buffer at the last boundary's contents, the generator register
    at some state. -/
abbrev Tₙ (c : Dev nD) : sProp 𝕄 := iprop(StableHlo.held (c : Thread nD τ) (Pipeline.ucRefs τ sig) (X16 m c) ∗ ∃ r, prngReg c r)

end Cert.Kernel.Reg

end
-- ==== Proof.KAsmRegsA.lean ====
/-
  The regions 0 to 3 of the program as segments of its run: each is entered with every unscoped buffer at the contents the
  segment before left and leaves them at the contents after it.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KAsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it.  Its arrays are split out of the unscoped buffers and put back at what the pipeline leaves; the generator
    register goes into the region's invariant and comes back; nothing is owed; the kernel has no semaphore of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Y4 m) c).loose
  hwaits := Pipeline.hwaits_of_owed_zero _ _ _ _ L₀ lv₀ 0 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec0 c (Y4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y4 m c) (Y5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it.  Its arrays are split out of the unscoped buffers and put back at what the pipeline leaves; the generator
    register goes into the region's invariant and comes back; nothing is owed; the kernel has no semaphore of its own. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Y5 m) c).loose
  hwaits := Pipeline.hwaits_of_owed_zero _ _ _ _ L₀ lv₀ 1 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec1 c (Y5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Y5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y5 m c) (Y6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it.  Its arrays are split out of the unscoped buffers and put back at what the pipeline leaves; the generator
    register goes into the region's invariant and comes back; nothing is owed; the kernel has no semaphore of its own. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Y6 m) c).loose
  hwaits := Pipeline.hwaits_of_owed_zero _ _ _ _ L₀ lv₀ 2 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec2 c (Y6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Y6 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y6 m c) (Y7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it.  Its arrays are split out of the unscoped buffers and put back at what the pipeline leaves; the generator
    register goes into the region's invariant and comes back; nothing is owed; the kernel has no semaphore of its own. -/
def reg3 : Pipeline.RegionSeg (pcfgs (F := F)) adm (pdats m) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ L₀ lv₀ 3 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KAsmRegsB.lean ====
/-
  The regions 4 to 7 of the program as segments of its run: each is entered with every unscoped buffer at the contents the
  segment before left and leaves them at the contents after it.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KAsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered from every unscoped buffer at the contents before it, left at the contents
    after it.  Its arrays are split out of the unscoped buffers and put back at what the pipeline leaves; the generator
    register goes into the region's invariant and comes back; nothing is owed; the kernel has no semaphore of its own. -/
def reg4 : Pipeline.RegionSeg (pcfgs (F := F)) adm (pdats m) () defs₀ 𝒱₀ L₀ lv₀ 4 where
  win := launch4.win.to₀
  block_pos := launch4.block_pos
  stage_whole := launch4.stage_whole
  K := PEmpty
  osem k := k.elim
  ho := Pipeline.OwnSemFacts.none _
  hbody c := (body_obligation4 (Y8 m) c).loose
  hwaits := Pipeline.hwaits_of_owed_zero _ _ _ _ L₀ lv₀ 4 fun _ _ => rfl
  pre c := iprop(StableHlo.held (c : Thread nD τ) (Pipeline.ucRefs τ sig) (X8 m c) ∗ Rst c)
  post c := iprop(StableHlo.held (c : Thread nD τ) (Pipeline.ucRefs τ sig) (X9 m c) ∗ Rst c)
  X c := iprop(∃ r, prngReg c r)
  Y c := iprop(∃ r, prngReg c r)
  Z c := Pipeline.unscopedRest (Ix := Unit) (Name := ℕ) (U := UR sig nD τ) (Lvl := ℕ) spec4 c (Y8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Y8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Y8 m c) (Y9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it.  Its arrays are split out of the unscoped buffers and put back at what the pipeline leaves; the generator
    register goes into the region's invariant and comes back; nothing is owed; the kernel has no semaphore of its own. -/
def reg5 : Pipeline.RegionSeg (pcfgs (F := F)) adm (pdats m) () defs₀ 𝒱₀ L₀ lv₀ 5 where
  win := launch5.win.to₀
  block_pos := launch5.block_pos
  stage_whole := launch5.stage_whole
  K := PEmpty
  osem k := k.elim
  ho := Pipeline.OwnSemFacts.none _
  hbody c := (body_obligation5 (Y9 m) c).loose
  hwaits := Pipeline.hwaits_of_owed_zero _ _ _ _ L₀ lv₀ 5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (Y9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Y9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Y9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Y9 m c) (Y10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it.  Its arrays are split out of the unscoped buffers and put back at what the pipeline leaves; the generator
    register goes into the region's invariant and comes back; nothing is owed; the kernel has no semaphore of its own. -/
def reg6 : Pipeline.RegionSeg (pcfgs (F := F)) adm (pdats m) () defs₀ 𝒱₀ L₀ lv₀ 6 where
  win := launch6.win.to₀
  block_pos := launch6.block_pos
  stage_whole := launch6.stage_whole
  K := PEmpty
  osem k := k.elim
  ho := Pipeline.OwnSemFacts.none _
  hbody c := (body_obligation6 (Y10 m) c).loose
  hwaits := Pipeline.hwaits_of_owed_zero _ _ _ _ L₀ lv₀ 6 fun _ _ => rfl
  pre c := iprop(StableHlo.held (c : Thread nD τ) (Pipeline.ucRefs τ sig) (X10 m c) ∗ Rst c)
  post c := iprop(StableHlo.held (c : Thread nD τ) (Pipeline.ucRefs τ sig) (X11 m c) ∗ Rst c)
  X c := iprop(∃ r, prngReg c r)
  Y c := iprop(∃ r, prngReg c r)
  Z c := Pipeline.unscopedRest (Ix := Unit) (Name := ℕ) (U := UR sig nD τ) (Lvl := ℕ) spec6 c (Y10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Y10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Y10 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Y10 m c) (Y11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at the contents
    after it.  Its arrays are split out of the unscoped buffers and put back at what the pipeline leaves; the generator
    register goes into the region's invariant and comes back; nothing is owed; the kernel has no semaphore of its own. -/
def reg7 : Pipeline.RegionSeg (pcfgs (F := F)) adm (pdats m) () defs₀ 𝒱₀ L₀ lv₀ 7 where
  win := launch7.win.to₀
  block_pos := launch7.block_pos
  stage_whole := launch7.stage_whole
  K := PEmpty
  osem k := k.elim
  ho := Pipeline.OwnSemFacts.none _
  hbody c := (body_obligation7 (Y11 m) c).loose
  hwaits := Pipeline.hwaits_of_owed_zero _ _ _ _ L₀ lv₀ 7 fun _ _ => rfl
  pre c := iprop(StableHlo.held (c : Thread nD τ) (Pipeline.ucRefs τ sig) (X11 m c) ∗ Rst c)
  post c := iprop(StableHlo.held (c : Thread nD τ) (Pipeline.ucRefs τ sig) (X12 m c) ∗ Rst c)
  X c := iprop(∃ r, prngReg c r)
  Y c := iprop(∃ r, prngReg c r)
  Z c := Pipeline.unscopedRest (Ix := Unit) (Name := ℕ) (U := UR sig nD τ) (Lvl := ℕ) spec7 c (Y11 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Y11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Y11 m c) (Y12 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KAsmRegsC.lean ====
/-
  The regions 8 to 11 of the program as segments of its run: each is entered with every unscoped buffer at the contents the
  segment before left and leaves them at the contents after it.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.KAsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered from every unscoped buffer at the contents before it, left at the contents
    after it.  Its arrays are split out of the unscoped buffers and put back at what the pipeline leaves; the generator
    register goes into the region's invariant and comes back; nothing is owed; the kernel has no semaphore of its own. -/
def reg8 : Pipeline.RegionSeg (pcfgs (F := F)) adm (pdats m) () defs₀ 𝒱₀ L₀ lv₀ 8 where
  win := launch8.win.to₀
  block_pos := launch8.block_pos
  stage_whole := launch8.stage_whole
  K := PEmpty
  osem k := k.elim
  ho := Pipeline.OwnSemFacts.none _
  hbody c := (body_obligation8 (Y12 m) c).loose
  hwaits := Pipeline.hwaits_of_owed_zero _ _ _ _ L₀ lv₀ 8 fun _ _ => rfl
  pre c := iprop(StableHlo.held (c : Thread nD τ) (Pipeline.ucRefs τ sig) (X12 m c) ∗ Rst c)
  post c := iprop(StableHlo.held (c : Thread nD τ) (Pipeline.ucRefs τ sig) (X13 m c) ∗ Rst c)
  X c := iprop(∃ r, prngReg c r)
  Y c := iprop(∃ r, prngReg c r)
  Z c := Pipeline.unscopedRest (Ix := Unit) (Name := ℕ) (U := UR sig nD τ) (Lvl := ℕ) spec8 c (Y12 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Y12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Y12 m c) (Y13 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at the contents
    after it.  Its arrays are split out of the unscoped buffers and put back at what the pipeline leaves; the generator
    register goes into the region's invariant and comes back; nothing is owed; the kernel has no semaphore of its own. -/
def reg9 : Pipeline.RegionSeg (pcfgs (F := F)) adm (pdats m) () defs₀ 𝒱₀ L₀ lv₀ 9 where
  win := launch9.win.to₀
  block_pos := launch9.block_pos
  stage_whole := launch9.stage_whole
  K := PEmpty
  osem k := k.elim
  ho := Pipeline.OwnSemFacts.none _
  hbody c := (body_obligation9 (Y13 m) c).loose
  hwaits := Pipeline.hwaits_of_owed_zero _ _ _ _ L₀ lv₀ 9 fun _ _ => rfl
  pre c := iprop(StableHlo.held (c : Thread nD τ) (Pipeline.ucRefs τ sig) (X13 m c) ∗ Rst c)
  post c := iprop(StableHlo.held (c : Thread nD τ) (Pipeline.ucRefs τ sig) (X14 m c) ∗ Rst c)
  X c := iprop(∃ r, prngReg c r)
  Y c := iprop(∃ r, prngReg c r)
  Z c := Pipeline.unscopedRest (Ix := Unit) (Name := ℕ) (U := UR sig nD τ) (Lvl := ℕ) spec9 c (Y13 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Y13 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Y13 m c) (Y14 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents before it, left at the contents
    after it.  Its arrays are split out of the unscoped buffers and put back at what the pipeline leaves; the generator
    register goes into the region's invariant and comes back; nothing is owed; the kernel has no semaphore of its own. -/
def reg10 : Pipeline.RegionSeg (pcfgs (F := F)) adm (pdats m) () defs₀ 𝒱₀ L₀ lv₀ 10 where
  win := launch10.win.to₀
  block_pos := launch10.block_pos
  stage_whole := launch10.stage_whole
  K := PEmpty
  osem k := k.elim
  ho := Pipeline.OwnSemFacts.none _
  hbody c := (body_obligation10 (Y14 m) c).loose
  hwaits := Pipeline.hwaits_of_owed_zero _ _ _ _ L₀ lv₀ 10 fun _ _ => rfl
  pre c := iprop(StableHlo.held (c : Thread nD τ) (Pipeline.ucRefs τ sig) (X14 m c) ∗ Rst c)
  post c := iprop(StableHlo.held (c : Thread nD τ) (Pipeline.ucRefs τ sig) (X15 m c) ∗ Rst c)
  X c := iprop(∃ r, prngReg c r)
  Y c := iprop(∃ r, prngReg c r)
  Z c := Pipeline.unscopedRest (Ix := Unit) (Name := ℕ) (U := UR sig nD τ) (Lvl := ℕ) spec10 c (Y14 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Y14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Y14 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Y14 m c) (Y15 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents before it, left at the contents
    after it.  Its arrays are split out of the unscoped buffers and put back at what the pipeline leaves; the generator
    register goes into the region's invariant and comes back; nothing is owed; the kernel has no semaphore of its own. -/
def reg11 : Pipeline.RegionSeg (pcfgs (F := F)) adm (pdats m) () defs₀ 𝒱₀ L₀ lv₀ 11 where
  win := launch11.win.to₀
  block_pos := launch11.block_pos
  stage_whole := launch11.stage_whole
  K := PEmpty
  osem k := k.elim
  ho := Pipeline.OwnSemFacts.none _
  hbody c := (body_obligation11 (Y15 m) c).loose
  hwaits := Pipeline.hwaits_of_owed_zero _ _ _ _ L₀ lv₀ 11 fun _ _ => rfl
  pre c := iprop(StableHlo.held (c : Thread nD τ) (Pipeline.ucRefs τ sig) (X15 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (Y15 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Y15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Y15 m c) (Y16 m c) ((pdats m 11 c).arrAt · cfg11.N) (hF11 m c) (hrest11 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Reg

end
-- ==== Proof.KAsmRun.lean ====
/-
  The run of the whole program: its sixteen segments — four stretches of host operations, then the twelve regions — chained
  from the launch memory, every weakly fair execution terminating with each unscoped buffer at the last boundary's contents.
  Read at the arguments, those are the launch contents; read at the result buffer, what the last region leaves.
-/
import proofs.«163112_j15616501088829_2_alg».proof.Proof.Gen.Kernel.Launch
import proofs.«163112_j15616501088829_2_alg».proof.Proof.Gen.Kernel.Skeleton
import proofs.«163112_j15616501088829_2_alg».proof.Proof.Gen.Kernel.Points
import proofs.«163112_j15616501088829_2_alg».proof.Proof.Gen.Kernel.Regions
import proofs.«163112_j15616501088829_2_alg».proof.Proof.KAsmRegsA
import proofs.«163112_j15616501088829_2_alg».proof.Proof.KAsmRegsB
import proofs.«163112_j15616501088829_2_alg».proof.Proof.KAsmRegsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides along at every boundary. -/
abbrev Erest : Fin 13 → Dev nD → sProp 𝕄 := fun _ c => Rst c

/-- The program's segments in order. -/
abbrev segsOf (c : Dev nD) : List (Pipeline.Seg (pcfgs (F := F)) adm (pdats m) () defs₀ 𝒱₀ L₀ lv₀) :=
  Gen.segs m 𝒱₀ L₀ lv₀ Erest () (pdats m) (reg0 m) (reg1 m) (reg2 m) (reg3 m) (reg4 m) (reg5 m) (reg6 m) (reg7 m) (reg8 m) (reg9 m) (reg10 m) (reg11 m) c

set_option backward.isDefEq.respectTransparency.types false in
set_option maxHeartbeats 4000000 in
/-- THE RUN: from any memory with zero counters every weakly fair execution of the program terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X16 m c b) :=
  Pipeline.θ_run_regions_kit_dev (pcfgs (F := F)) adm (pdats m) () cellOf_inj emb₁ defs₀ 𝒱₀ L₀ lv₀ m ρ main (segsOf m)
    (fun c Q => by
      rewrite [main_chain c, Pipeline.Seg.run_eq_chain,
        show (segsOf m c).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          Prog.lift (.customCall (Pipeline.entry 11) ()) ] from rfl]
      exact .rfl)
    (fun c => by simp only [segsOf, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := fun c => ⟨.rfl, .rfl, .rfl, .rfl, .rfl, .rfl, .rfl, .rfl, .rfl, .rfl, .rfl, .rfl, .rfl, .rfl, .rfl, .rfl, .rfl⟩)
    (hinit := by
      refine Pipeline.initEach L₀ lv₀ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X16 m c b)
    (hfin := fun c s' => by
      iintro ⟨⟨Hh, -⟩, HSI⟩
      unfold StableHlo.held
      imodintro
      iapply (pointsTo_read_all (Pipeline.ucRefs τ sig) (fun b => (((c : Thread nD τ)).1, b)) (X16 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and that is no region's output reaches the end as launched. -/
theorem X16_through (c : Dev nD) (b : Ref sig .tc)
    (h0 : b ∉ Gen.hostOps0_W) (h1 : b ∉ Gen.hostOps0_1_W) (h2 : b ∉ Gen.hostOps0_2_W) (h3 : b ∉ Gen.hostOps0_3_W)
    (h5 : b ≠ main_v5) (h6 : b ≠ main_v6) (h7 : b ≠ main_v7) (h8 : b ≠ main_v8) (h9 : b ≠ main_v9) (h10 : b ≠ main_v10)
    (h11 : b ≠ main_v11) (h12 : b ≠ main_v12) (h13 : b ≠ main_v13) (h14 : b ≠ main_v14) (h15 : b ≠ main_v15) (h16 : b ≠ main_v16) :
    X16 m c (Proc.devRef .tc b) = m ((c : Thread nD τ).loc b) :=
  (X16_keep m c b h16).trans <| (X15_keep m c b h15).trans <| (X14_keep m c b h14).trans <| (X13_keep m c b h13).trans <|
  (X12_keep m c b h12).trans <| (X11_keep m c b h11).trans <| (X10_keep m c b h10).trans <| (X9_keep m c b h9).trans <|
  (X8_keep m c b h8).trans <| (X7_keep m c b h7).trans <| (X6_keep m c b h6).trans <| (X5_keep m c b h5).trans <|
  (show X4 m c (Proc.devRef .tc b) = Gen.V4 m c (Proc.devRef .tc b) from rfl).trans <|
  (Gen.V4_of m c b h3).trans <| (Gen.V3_of m c b h2).trans <| (Gen.V2_of m c b h1).trans <| (Gen.V1_of m c b h0).trans rfl

/-- THE RUN, read at the arguments and at the result: every argument array ends as launched, the result buffer at what the
    last region leaves. -/
theorem run_args : θ_run defs (onTc (τ := τ) (main (F := F))) ⟨m, fun _ => 0, ρ⟩ (fun r => ∀ c : Dev nD,
      r.2.mem ((c.tc : Thread nD τ).loc main_v16) = X16 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v16 (by decide)),
    (h c _ (mem_uc main_arg0 (by decide))).trans (X16_through m c main_arg0 (by decide) (by decide) (by decide) (by decide) (by decide) (by decide) (by decide) (by decide) (by decide) (by decide) (by decide) (by decide) (by decide) (by decide) (by decide) (by decide)),
    (h c _ (mem_uc main_arg1 (by decide))).trans (X16_through m c main_arg1 (by decide) (by decide) (by decide) (by decide) (by decide) (by decide) (by decide) (by decide) (by decide) (by decide) (by decide) (by decide) (by decide) (by decide) (by decide) (by decide)),
    (h c _ (mem_uc main_arg2 (by decide))).trans (X16_through m c main_arg2 (by decide) (by decide) (by decide) (by decide) (by decide) (by decide) (by decide) (by decide) (by decide) (by decide) (by decide) (by decide) (by decide) (by decide) (by decide) (by decide)),
    (h c _ (mem_uc main_arg3 (by decide))).trans (X16_through m c main_arg3 (by decide) (by decide) (by decide) (by decide) (by decide) (by decide) (by decide) (by decide) (by decide) (by decide) (by decide) (by decide) (by decide) (by decide) (by decide) (by decide)),
    (h c _ (mem_uc main_arg4 (by decide))).trans (X16_through m c main_arg4 (by decide) (by decide) (by decide) (by decide) (by decide) (by decide) (by decide) (by decide) (by decide) (by decide) (by decide) (by decide) (by decide) (by decide) (by decide) (by decide)),
    (h c _ (mem_uc main_arg5 (by decide))).trans (X16_through m c main_arg5 (by decide) (by decide) (by decide) (by decide) (by decide) (by decide) (by decide) (by decide) (by decide) (by decide) (by decide) (by decide) (by decide) (by decide) (by decide) (by decide)),
    (h c _ (mem_uc main_arg6 (by decide))).trans (X16_through m c main_arg6 (by decide) (by decide) (by decide) (by decide) (by decide) (by decide) (by decide) (by decide) (by decide) (by decide) (by decide) (by decide) (by decide) (by decide) (by decide) (by decide)),
    (h c _ (mem_uc main_arg7 (by decide))).trans (X16_through m c main_arg7 (by decide) (by decide) (by decide) (by decide) (by decide) (by decide) (by decide) (by decide) (by decide) (by decide) (by decide) (by decide) (by decide) (by decide) (by decide) (by decide)),
    (h c _ (mem_uc main_arg8 (by decide))).trans (X16_through m c main_arg8 (by decide) (by decide) (by decide) (by decide) (by decide) (by decide) (by decide) (by decide) (by decide) (by decide) (by decide) (by decide) (by decide) (by decide) (by decide) (by decide))⟩)
    (run_all m ρ)

end Cert.Kernel.Reg

end
-- ==== Proof.RegLin0.lean ====
/-
  The first dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of each staging buffer: the body loads and stores nothing smaller. -/
abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-- What the body leaves in the output's staging buffer: its one store, of the dense layer of the three input blocks. -/
def out0_3 (x0 : Vec F S5000x64 .f32) (x1 : Vec F S64x64 .f32) (x2 : Vec F S1x64 .f32) : Vec F S5000x64 .f32 :=
  View.canon [⟨r0_0, k0_pay1 (View.ld x0 r0_0) (View.ld x1 r0_1) (View.ld x2 r0_2)⟩]

/-- The one store covers the buffer. -/
theorem cover0_3 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_node_linear_kernel i arg1 harg1 arg2 harg2 arg3 harg3 arg4 harg4) K := by
  simp only [cc0_node_linear_kernel_eq_skeleton]; unfold cc0_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the pipeline on core c: the arrays as the region finds them; after the body at point t each input's
    buffer at its block and the output's at the dense layer of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.RegGather1Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body clears its accumulator when the node-block coordinate is zero. -/
abbrev cond1_0 (i : grid1.Coords) : Prop := (Scalar.cmpi .ne (Scalar.extui (Scalar.cmpi .eq (BitVec.ofNat 32 (i 1).val) 0#32)) 0#32) = 1#1
/-- That is at the points ≡ 0 (mod 50): the first point of each edge block. -/
theorem hcond1_0 : ∀ t : Fin cfg1.N, cond1_0 (grid1.coords t) ↔ t.val % 50 = 0 :=
  (by decide +kernel : ∀ t : Fin grid1.N, cond1_0 (grid1.coords t) ↔ t.val % 50 = 0)

/-- One staging buffer of the output window, through which its contents are stated. -/
abbrev VO1_2 : View sig .tc .vmem S4096x64 .f32 := (Memref.whole cc1_stg2_0 : Memref sig .tc .vmem S4096x64 .f32).view
/-- Each window's current staging memref at point t, and its wholeness. -/
abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
/-- The accumulator: a whole buffer of the kernel's own. -/
abbrev scM1_0 : Memref sig .tc .vmem S4096x64 .f32 := Memref.whole cc1_scratch0
abbrev VS1_0 : View sig .tc .vmem S4096x64 .f32 := scM1_0.view

/-- The region's invariant at entry, with the accumulator as a memref owned at some contents; the other buffers of the
    kernel regions stay closed. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun1_A (c : Dev nD) (i : grid1.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond1_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1_gather_kernel i arg2 harg2 arg3 harg3 arg4 harg4 arg5 harg5) K } := by
  refine ⟨?_, ?_, fun E K => ?run⟩
  case run =>
    simp only [cc1_gather_kernel_eq_skeleton]; unfold cc1_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun1_B (c : Dev nD) (i : grid1.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond1_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc1_gather_kernel i arg2 harg2 arg3 harg3 arg4 harg4 arg5 harg5) K } := by
  refine ⟨?_, ?_, fun E K => ?run⟩
  case run =>
    simp only [cc1_gather_kernel_eq_skeleton]; unfold cc1_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegGather1.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegGather1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover1_A_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) (y : S4096x64.Idx) :
    ∃ pc ∈ (kernelRun1_A c i arg2 harg2 arg3 harg3 arg4 harg4 arg5 harg5 hc0 x0 x1).1, y ∈ pc.1.set :=
  View.cover_of_tiledL (kernelRun1_A c i arg2 harg2 arg3 harg3 arg4 harg4 arg5 harg5 hc0 x0 x1).1 S4096x64.size (by sl_kernel_rfl) y
def out1_A_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) : Vec F S4096x64 .f32 :=
  VO1_2.read (Elt F) (VO1_2.writes (Elt F) VO1_2.junk (kernelRun1_A c i arg2 harg2 arg3 harg3 arg4 harg4 arg5 harg5 hc0 x0 x1).1)
/-- Its stores into the accumulator cover it; what they leave. -/
theorem scover1_A_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) (y : S4096x64.Idx) :
    ∃ pc ∈ (kernelRun1_A c i arg2 harg2 arg3 harg3 arg4 harg4 arg5 harg5 hc0 x0 x1).2.1, y ∈ pc.1.set :=
  View.cover_of_tiledL (kernelRun1_A c i arg2 harg2 arg3 harg3 arg4 harg4 arg5 harg5 hc0 x0 x1).2.1 S4096x64.size (by sl_kernel_rfl) y
def sout1_A_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond1_0 i) (x0 : Vec F S4096 .i32) (x1 : Vec F S1000x64 .f32) : Vec F S4096x64 .f32 :=
  VS1_0.read (Elt F) (VS1_0.writes (Elt F) VS1_0.junk (kernelRun1_A c i arg2 harg2 arg3 harg3 arg4 harg4 arg5 harg5 hc0 x0 x1).2.1)

/-- The same of the later-point case, over what the point before left in the accumulator. -/
theorem cover1_B_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) (y : S4096x64.Idx) :
    ∃ pc ∈ (kernelRun1_B c i arg2 harg2 arg3 harg3 arg4 harg4 arg5 harg5 hc0 x0 x1 xs0).1, y ∈ pc.1.set :=
  View.cover_of_tiledL (kernelRun1_B c i arg2 harg2 arg3 harg3 arg4 harg4 arg5 harg5 hc0 x0 x1 xs0).1 S4096x64.size (by sl_kernel_rfl) y
def out1_B_2 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) : Vec F S4096x64 .f32 :=
  VO1_2.read (Elt F) (VO1_2.writes (Elt F) VO1_2.junk (kernelRun1_B c i arg2 harg2 arg3 harg3 arg4 harg4 arg5 harg5 hc0 x0 x1 xs0).1)
theorem scover1_B_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) (y : S4096x64.Idx) :
    ∃ pc ∈ (kernelRun1_B c i arg2 harg2 arg3 harg3 arg4 harg4 arg5 harg5 hc0 x0 x1 xs0).2.1, y ∈ pc.1.set :=
  View.cover_of_tiledL (kernelRun1_B c i arg2 harg2 arg3 harg3 arg4 harg4 arg5 harg5 hc0 x0 x1 xs0).2.1 S4096x64.size (by sl_kernel_rfl) y
def sout1_B_0 (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond1_0 i) (x0 : Vec F S4096 .i32) (x1 : Vec F S1000x64 .f32) (xs0 : Vec F S4096x64 .f32) : Vec F S4096x64 .f32 :=
  VS1_0.read (Elt F) (VS1_0.writes (Elt F) VS1_0.junk (kernelRun1_B c i arg2 harg2 arg3 harg3 arg4 harg4 arg5 harg5 hc0 x0 x1 xs0).2.1)

/-- THE ACCUMULATION: what the output's staging buffer and the accumulator hold after the body at position n. -/
def outsAt1 (c : Dev nD) : (n : ℕ) → n < cfg1.N → Vec F S4096x64 .f32 × Vec F S4096x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (iblk1 V c 0 ⟨0, hn⟩) (iblk1 V c 1 ⟨0, hn⟩))
  | n + 1, hn =>
    if h0 : (n + 1) % 50 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩),
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2,
        sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 50 = 0) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t),
      sout1_A_0 c (grid1.coords t) (ms1_0 t) (hs1_0 t) (ms1_1 t) (hs1_1 t) (ms1_2 t) (hs1_2 t) scM1_0 (Memref.isWhole_whole _) ((hcond1_0 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 50 = 0) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) scM1_0 (Memref.isWhole_whole _) (fun h => h0 ((hcond1_0 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of the pipeline on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2]
  by_cases h0 : t.val % 50 = 0
  · rw [outsAt1_A V c t h0]
    unfold out1_A_2 sout1_A_0; (try dsimp only)
    by_cases hz : t.val = 0
    · rw [PhiS1_castSucc V c t, PhiS1_zero V c _ _ hz, PhiA1_eq]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
    · rw [PhiS1_castSucc V c t, PhiS1_pos V c _ _ hz]
      iintro ⟨⟨⟨HS0, Hrest⟩, Hg⟩, Ho, ⟨%d0, H0⟩, ⟨%d1, H1⟩, ⟨%d2, H2⟩⟩
      iapply ((kernelRun1_A c (grid1.coords t) _ _ _ _ _ _ _ _ ((hcond1_0 t).mpr h0) (iblk1 V c 0 t) (iblk1 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _)
  · rw [outsAt1_B V c t h0]
    unfold out1_B_2 sout1_B_0; (try dsimp only)
    have hz : t.val ≠ 0 := fun hz => h0 (by rw [hz])
    rw [PhiS1_castSucc V c t, PhiS1_pos V c _ _ hz]
    iintro ⟨⟨⟨HS0, Hrest⟩, Hg⟩, Ho, ⟨%d0, H0⟩, ⟨%d1, H1⟩, ⟨%d2, H2⟩⟩
    iapply ((kernelRun1_B c (grid1.coords t) _ _ _ _ _ _ _ _ (fun h => h0 ((hcond1_0 t).mp h)) (iblk1 V c 0 t) (iblk1 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _ _ _)

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the launch's. -/
theorem Phi_zero1 (c : Dev nD) : (dat1 V c).Φ 0 = Pipeline.ΦA spec1 c := rfl

/-- After the last point the invariant gives the launch's back: the accumulator's contents are forgotten. -/
theorem Phi_last1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_pos V c _ _ (by rw [show cfg1.N = 9800 from N_1]; decide), PhiA1_eq]
  iintro ⟨⟨HS0, Hrest⟩, Hg⟩
  isplitl [HS0 Hrest]
  · isplitl [HS0]
    · iexists _; iexact HS0
    iexact Hrest
  iexact Hg

end Cert.KernelIdeal.Reg

end
-- ==== Proof.RegScatter2Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The body clears its accumulator when the edge-block coordinate is zero. -/
abbrev cond2_0 (i : grid2.Coords) : Prop := (Scalar.cmpi .ne (Scalar.extui (Scalar.cmpi .eq (BitVec.ofNat 32 (i 1).val) 0#32)) 0#32) = 1#1
/-- That is at the points ≡ 0 (mod 196): the first point of each node block. -/
theorem hcond2_0 : ∀ t : Fin cfg2.N, cond2_0 (grid2.coords t) ↔ t.val % 196 = 0 :=
  (by decide +kernel : ∀ t : Fin grid2.N, cond2_0 (grid2.coords t) ↔ t.val % 196 = 0)

/-- One staging buffer of the output window, through which its contents are stated. -/
abbrev VO2_2 : View sig .tc .vmem S1000x64 .f32 := (Memref.whole cc2_stg2_0 : Memref sig .tc .vmem S1000x64 .f32).view
/-- Each window's current staging memref at point t, and its wholeness. -/
abbrev ms2_0 (t : Fin cfg2.N) : Memref sig .tc .vmem S4096 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x64 .f32 := win2_2.stage (cfg2.slots t 2)
abbrev hs2_2 (t : Fin cfg2.N) : (ms2_2 t).IsWhole := hstage2_2 ((cfg2.slots t 2).cast nbuf2_2)
/-- The accumulator: a whole buffer of the kernel's own. -/
abbrev scM2_0 : Memref sig .tc .vmem S1000x64 .f32 := Memref.whole cc2_scratch0
abbrev VS2_0 : View sig .tc .vmem S1000x64 .f32 := scM2_0.view

/-- The region's invariant at entry, with the accumulator as a memref owned at some contents; the other buffers of the
    kernel regions stay closed. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun2_A (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond2_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_scatter_kernel i arg2 harg2 arg3 harg3 arg4 harg4 arg5 harg5) K } := by
  refine ⟨?_, ?_, fun E K => ?run⟩
  case run =>
    simp only [cc2_scatter_kernel_eq_skeleton]; unfold cc2_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun2_B (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond2_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc2_scatter_kernel i arg2 harg2 arg3 harg3 arg4 harg4 arg5 harg5) K } := by
  refine ⟨?_, ?_, fun E K => ?run⟩
  case run =>
    simp only [cc2_scatter_kernel_eq_skeleton]; unfold cc2_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegScatter2.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegScatter2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover2_A_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) (y : S1000x64.Idx) :
    ∃ pc ∈ (kernelRun2_A c i arg2 harg2 arg3 harg3 arg4 harg4 arg5 harg5 hc0 x0 x1).1, y ∈ pc.1.set :=
  View.cover_of_tiledL (kernelRun2_A c i arg2 harg2 arg3 harg3 arg4 harg4 arg5 harg5 hc0 x0 x1).1 S1000x64.size (by sl_kernel_rfl) y
def out2_A_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) : Vec F S1000x64 .f32 :=
  VO2_2.read (Elt F) (VO2_2.writes (Elt F) VO2_2.junk (kernelRun2_A c i arg2 harg2 arg3 harg3 arg4 harg4 arg5 harg5 hc0 x0 x1).1)
/-- Its stores into the accumulator cover it; what they leave. -/
theorem scover2_A_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) (y : S1000x64.Idx) :
    ∃ pc ∈ (kernelRun2_A c i arg2 harg2 arg3 harg3 arg4 harg4 arg5 harg5 hc0 x0 x1).2.1, y ∈ pc.1.set :=
  View.cover_of_tiledL (kernelRun2_A c i arg2 harg2 arg3 harg3 arg4 harg4 arg5 harg5 hc0 x0 x1).2.1 S1000x64.size (by sl_kernel_rfl) y
def sout2_A_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond2_0 i) (x0 : Vec F S4096 .i32) (x1 : Vec F S4096x64 .f32) : Vec F S1000x64 .f32 :=
  VS2_0.read (Elt F) (VS2_0.writes (Elt F) VS2_0.junk (kernelRun2_A c i arg2 harg2 arg3 harg3 arg4 harg4 arg5 harg5 hc0 x0 x1).2.1)

/-- The same of the later-point case, over what the point before left in the accumulator. -/
theorem cover2_B_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) (y : S1000x64.Idx) :
    ∃ pc ∈ (kernelRun2_B c i arg2 harg2 arg3 harg3 arg4 harg4 arg5 harg5 hc0 x0 x1 xs0).1, y ∈ pc.1.set :=
  View.cover_of_tiledL (kernelRun2_B c i arg2 harg2 arg3 harg3 arg4 harg4 arg5 harg5 hc0 x0 x1 xs0).1 S1000x64.size (by sl_kernel_rfl) y
def out2_B_2 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) : Vec F S1000x64 .f32 :=
  VO2_2.read (Elt F) (VO2_2.writes (Elt F) VO2_2.junk (kernelRun2_B c i arg2 harg2 arg3 harg3 arg4 harg4 arg5 harg5 hc0 x0 x1 xs0).1)
theorem scover2_B_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) (y : S1000x64.Idx) :
    ∃ pc ∈ (kernelRun2_B c i arg2 harg2 arg3 harg3 arg4 harg4 arg5 harg5 hc0 x0 x1 xs0).2.1, y ∈ pc.1.set :=
  View.cover_of_tiledL (kernelRun2_B c i arg2 harg2 arg3 harg3 arg4 harg4 arg5 harg5 hc0 x0 x1 xs0).2.1 S1000x64.size (by sl_kernel_rfl) y
def sout2_B_0 (c : Dev nD) (i : grid2.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond2_0 i) (x0 : Vec F S4096 .i32) (x1 : Vec F S4096x64 .f32) (xs0 : Vec F S1000x64 .f32) : Vec F S1000x64 .f32 :=
  VS2_0.read (Elt F) (VS2_0.writes (Elt F) VS2_0.junk (kernelRun2_B c i arg2 harg2 arg3 harg3 arg4 harg4 arg5 harg5 hc0 x0 x1 xs0).2.1)

/-- THE ACCUMULATION: what the output's staging buffer and the accumulator hold after the body at position n. -/
def outsAt2 (c : Dev nD) : (n : ℕ) → n < cfg2.N → Vec F S1000x64 .f32 × Vec F S1000x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (iblk2 V c 0 ⟨0, hn⟩) (iblk2 V c 1 ⟨0, hn⟩))
  | n + 1, hn =>
    if h0 : (n + 1) % 196 = 0 then
      (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩),
        sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (iblk2 V c 0 ⟨n + 1, hn⟩) (iblk2 V c 1 ⟨n + 1, hn⟩))
    else
      (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2,
        sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 196 = 0) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t),
      sout2_A_0 c (grid2.coords t) (ms2_0 t) (hs2_0 t) (ms2_1 t) (hs2_1 t) (ms2_2 t) (hs2_2 t) scM2_0 (Memref.isWhole_whole _) ((hcond2_0 t).mpr h0) (iblk2 V c 0 t) (iblk2 V c 1 t)) := by
  obtain ⟨n, hn⟩ := t
  cases n with
  | zero => exact rfl
  | succ n => exact (dif_pos h0).trans rfl

theorem outsAt2_B (c : Dev nD) (t : Fin cfg2.N) (h0 : ¬t.val % 196 = 0) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) scM2_0 (Memref.isWhole_whole _) (fun h => h0 ((hcond2_0 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-- The proof data of the pipeline on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2]
  by_cases h0 : t.val % 196 = 0
  · rw [outsAt2_A V c t h0]
    unfold out2_A_2 sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
    · rw [PhiS2_castSucc V c t, PhiS2_pos V c _ _ hz]
      iintro ⟨⟨⟨HS0, Hrest⟩, Hg⟩, Ho, ⟨%d0, H0⟩, ⟨%d1, H1⟩, ⟨%d2, H2⟩⟩
      iapply ((kernelRun2_A c (grid2.coords t) _ _ _ _ _ _ _ _ ((hcond2_0 t).mpr h0) (iblk2 V c 0 t) (iblk2 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_A_2 c _ _ _ _ _ _ _ _ _ _ _ _)
  · rw [outsAt2_B V c t h0]
    unfold out2_B_2 sout2_B_0; (try dsimp only)
    have hz : t.val ≠ 0 := fun hz => h0 (by rw [hz])
    rw [PhiS2_castSucc V c t, PhiS2_pos V c _ _ hz]
    iintro ⟨⟨⟨HS0, Hrest⟩, Hg⟩, Ho, ⟨%d0, H0⟩, ⟨%d1, H1⟩, ⟨%d2, H2⟩⟩
    iapply ((kernelRun2_B c (grid2.coords t) _ _ _ _ _ _ _ _ (fun h => h0 ((hcond2_0 t).mp h)) (iblk2 V c 0 t) (iblk2 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_B_2 c _ _ _ _ _ _ _ _ _ _ _ _ _)

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- The invariant before the first point is the launch's. -/
theorem Phi_zero2 (c : Dev nD) : (dat2 V c).Φ 0 = Pipeline.ΦA spec2 c := rfl

/-- After the last point the invariant gives the launch's back: the accumulator's contents are forgotten. -/
theorem Phi_last2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by rw [show cfg2.N = 9800 from N_2]; decide), PhiA2_eq]
  iintro ⟨⟨HS0, Hrest⟩, Hg⟩
  isplitl [HS0 Hrest]
  · isplitl [HS0]
    · iexists _; iexact HS0
    iexact Hrest
  iexact Hg

end Cert.KernelIdeal.Reg

end
-- ==== Proof.RegGru3.lean ====
/-
  The first recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- The whole rectangle of each staging buffer: the body loads and stores nothing smaller. -/
abbrev r3_0 : Rect S2000x64 := Rect.unit (s := S2000x64) ![0, 0] S2000x64.size inb_S2000x64_S2000x64_0_0
abbrev r3_2 : Rect S192x64 := Rect.unit (s := S192x64) ![0, 0] S192x64.size inb_S192x64_S192x64_0_0
abbrev r3_4 : Rect S1x192 := Rect.unit (s := S1x192) ![0, 0] S1x192.size inb_S1x192_S1x192_0_0

/-- What the body leaves in the output's staging buffer: its one store, of the recurrent cell of the six input blocks. -/
def out3_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r3_0, k3_pay1 (View.ld x0 r3_0) (View.ld x1 r3_0) (View.ld x2 r3_2) (View.ld x3 r3_2) (View.ld x4 r3_4) (View.ld x5 r3_4)⟩]

/-- The one store covers the buffer. -/
theorem cover3_6 (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel3 (c : Dev nD) (E : Set ℕ) (i : grid3.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E (cc3_gru_kernel i arg1 harg1 arg2 harg2 arg3 harg3 arg4 harg4 arg5 harg5 arg6 harg6 arg7 harg7) K := by
  simp only [cc3_gru_kernel_eq_skeleton]; unfold cc3_gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3_6 _)

/-- The proof data of the pipeline on core c: the arrays as the region finds them; after the body at point t each input's
    buffer at its block and the output's at the recurrent cell of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- What the body is called with at point t, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.RegLin4.lean ====
/-
  The second dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole rectangle of each staging buffer: the body loads and stores nothing smaller. -/
abbrev r4_0 : Rect S5000x64 := Rect.unit (s := S5000x64) ![0, 0] S5000x64.size inb_S5000x64_S5000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0

/-- What the body leaves in the output's staging buffer: its one store, of the dense layer of the three input blocks. -/
def out4_3 (x0 : Vec F S5000x64 .f32) (x1 : Vec F S64x64 .f32) (x2 : Vec F S1x64 .f32) : Vec F S5000x64 .f32 :=
  View.canon [⟨r4_0, k4_pay1 (View.ld x0 r4_0) (View.ld x1 r4_1) (View.ld x2 r4_2)⟩]

/-- The one store covers the buffer. -/
theorem cover4_3 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel4 (c : Dev nD) (E : Set ℕ) (i : grid4.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4_node_linear_kernel i arg1 harg1 arg2 harg2 arg3 harg3 arg4 harg4) K := by
  simp only [cc4_node_linear_kernel_eq_skeleton]; unfold cc4_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of the pipeline on core c: the arrays as the region finds them; after the body at point t each input's
    buffer at its block and the output's at the dense layer of the input blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.RegGather5Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The body clears its accumulator when the node-block coordinate is zero. -/
abbrev cond5_0 (i : grid5.Coords) : Prop := (Scalar.cmpi .ne (Scalar.extui (Scalar.cmpi .eq (BitVec.ofNat 32 (i 1).val) 0#32)) 0#32) = 1#1
/-- That is at the points ≡ 0 (mod 50): the first point of each edge block. -/
theorem hcond5_0 : ∀ t : Fin cfg5.N, cond5_0 (grid5.coords t) ↔ t.val % 50 = 0 :=
  (by decide +kernel : ∀ t : Fin grid5.N, cond5_0 (grid5.coords t) ↔ t.val % 50 = 0)

/-- One staging buffer of the output window, through which its contents are stated. -/
abbrev VO5_2 : View sig .tc .vmem S4096x64 .f32 := (Memref.whole cc5_stg2_0 : Memref sig .tc .vmem S4096x64 .f32).view
/-- Each window's current staging memref at point t, and its wholeness. -/
abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1000x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .f32 := win5_2.stage (cfg5.slots t 2)
abbrev hs5_2 (t : Fin cfg5.N) : (ms5_2 t).IsWhole := hstage5_2 ((cfg5.slots t 2).cast nbuf5_2)
/-- The accumulator: a whole buffer of the kernel's own. -/
abbrev scM5_0 : Memref sig .tc .vmem S4096x64 .f32 := Memref.whole cc5_scratch0
abbrev VS5_0 : View sig .tc .vmem S4096x64 .f32 := scM5_0.view

/-- The region's invariant at entry, with the accumulator as a memref owned at some contents; the other buffers of the
    kernel regions stay closed. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun5_A (c : Dev nD) (i : grid5.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond5_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc5_gather_kernel i arg2 harg2 arg3 harg3 arg4 harg4 arg5 harg5) K } := by
  refine ⟨?_, ?_, fun E K => ?run⟩
  case run =>
    simp only [cc5_gather_kernel_eq_skeleton]; unfold cc5_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun5_B (c : Dev nD) (i : grid5.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond5_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc5_gather_kernel i arg2 harg2 arg3 harg3 arg4 harg4 arg5 harg5) K } := by
  refine ⟨?_, ?_, fun E K => ?run⟩
  case run =>
    simp only [cc5_gather_kernel_eq_skeleton]; unfold cc5_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegGather5.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegGather5Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover5_A_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) (y : S4096x64.Idx) :
    ∃ pc ∈ (kernelRun5_A c i arg2 harg2 arg3 harg3 arg4 harg4 arg5 harg5 hc0 x0 x1).1, y ∈ pc.1.set :=
  View.cover_of_tiledL (kernelRun5_A c i arg2 harg2 arg3 harg3 arg4 harg4 arg5 harg5 hc0 x0 x1).1 S4096x64.size (by sl_kernel_rfl) y
def out5_A_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) : Vec F S4096x64 .f32 :=
  VO5_2.read (Elt F) (VO5_2.writes (Elt F) VO5_2.junk (kernelRun5_A c i arg2 harg2 arg3 harg3 arg4 harg4 arg5 harg5 hc0 x0 x1).1)
/-- Its stores into the accumulator cover it; what they leave. -/
theorem scover5_A_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) (y : S4096x64.Idx) :
    ∃ pc ∈ (kernelRun5_A c i arg2 harg2 arg3 harg3 arg4 harg4 arg5 harg5 hc0 x0 x1).2.1, y ∈ pc.1.set :=
  View.cover_of_tiledL (kernelRun5_A c i arg2 harg2 arg3 harg3 arg4 harg4 arg5 harg5 hc0 x0 x1).2.1 S4096x64.size (by sl_kernel_rfl) y
def sout5_A_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond5_0 i) (x0 : Vec F S4096 .i32) (x1 : Vec F S1000x64 .f32) : Vec F S4096x64 .f32 :=
  VS5_0.read (Elt F) (VS5_0.writes (Elt F) VS5_0.junk (kernelRun5_A c i arg2 harg2 arg3 harg3 arg4 harg4 arg5 harg5 hc0 x0 x1).2.1)

/-- The same of the later-point case, over what the point before left in the accumulator. -/
theorem cover5_B_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) (y : S4096x64.Idx) :
    ∃ pc ∈ (kernelRun5_B c i arg2 harg2 arg3 harg3 arg4 harg4 arg5 harg5 hc0 x0 x1 xs0).1, y ∈ pc.1.set :=
  View.cover_of_tiledL (kernelRun5_B c i arg2 harg2 arg3 harg3 arg4 harg4 arg5 harg5 hc0 x0 x1 xs0).1 S4096x64.size (by sl_kernel_rfl) y
def out5_B_2 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) : Vec F S4096x64 .f32 :=
  VO5_2.read (Elt F) (VO5_2.writes (Elt F) VO5_2.junk (kernelRun5_B c i arg2 harg2 arg3 harg3 arg4 harg4 arg5 harg5 hc0 x0 x1 xs0).1)
theorem scover5_B_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) (y : S4096x64.Idx) :
    ∃ pc ∈ (kernelRun5_B c i arg2 harg2 arg3 harg3 arg4 harg4 arg5 harg5 hc0 x0 x1 xs0).2.1, y ∈ pc.1.set :=
  View.cover_of_tiledL (kernelRun5_B c i arg2 harg2 arg3 harg3 arg4 harg4 arg5 harg5 hc0 x0 x1 xs0).2.1 S4096x64.size (by sl_kernel_rfl) y
def sout5_B_0 (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond5_0 i) (x0 : Vec F S4096 .i32) (x1 : Vec F S1000x64 .f32) (xs0 : Vec F S4096x64 .f32) : Vec F S4096x64 .f32 :=
  VS5_0.read (Elt F) (VS5_0.writes (Elt F) VS5_0.junk (kernelRun5_B c i arg2 harg2 arg3 harg3 arg4 harg4 arg5 harg5 hc0 x0 x1 xs0).2.1)

/-- THE ACCUMULATION: what the output's staging buffer and the accumulator hold after the body at position n. -/
def outsAt5 (c : Dev nD) : (n : ℕ) → n < cfg5.N → Vec F S4096x64 .f32 × Vec F S4096x64 .f32
  | 0, hn => (out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (iblk5 V c 0 ⟨0, hn⟩) (iblk5 V c 1 ⟨0, hn⟩),
      sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) scM5_0 (Memref.isWhole_whole _) ((hcond5_0 ⟨0, hn⟩).mpr (Nat.zero_mod _)) (iblk5 V c 0 ⟨0, hn⟩) (iblk5 V c 1 ⟨0, hn⟩))
  | n + 1, hn =>
    if h0 : (n + 1) % 50 = 0 then
      (out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (iblk5 V c 0 ⟨n + 1, hn⟩) (iblk5 V c 1 ⟨n + 1, hn⟩),
        sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) ((hcond5_0 ⟨n + 1, hn⟩).mpr h0) (iblk5 V c 0 ⟨n + 1, hn⟩) (iblk5 V c 1 ⟨n + 1, hn⟩))
    else
      (out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (outsAt5 c n (Nat.lt_of_succ_lt hn)).2,
        sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) scM5_0 (Memref.isWhole_whole _) (fun h => h0 ((hcond5_0 ⟨n + 1, hn⟩).mp h)) (iblk5 V c 0 ⟨n + 1, hn⟩) (iblk5 V c 1 ⟨n + 1, hn⟩) (outsAt5 c n (Nat.lt_of_succ_lt hn)).2)

theorem outsAt5_A (c : Dev nD) (t : Fin cfg5.N) (h0 : t.val % 50 = 0) :
    outsAt5 V c t.val t.isLt = (out5_A_2 c (grid5.coords t) (ms5_0 t) (hs5_0 t) (ms5_1 t) (hs5_1 t) (ms5_2 t) (hs5_2 t) scM5_0 (Memref.isWhole_whole _) ((hcond5_0 t).mpr h0) (iblk5 V c 0 t) (iblk5 V c 1 t),
      sout5_A_0 c (grid5.coords t) (ms5_0 t) (hs5_0 t) (ms5_1 t) (hs5_1 t) (ms5_2 t) (hs5_2 t) scM5_0 (Memref.isWhole_whole _) ((hcond5_0 t).mpr h0) (iblk5 V c 0 t) (iblk5 V c 1 t)) := by
  obtain ⟨n, hn⟩ := t
  cases n with
  | zero => exact rfl
  | succ n => exact (dif_pos h0).trans rfl

theorem outsAt5_B (c : Dev nD) (t : Fin cfg5.N) (h0 : ¬t.val % 50 = 0) :
    outsAt5 V c t.val t.isLt = (out5_B_2 c (grid5.coords t) (ms5_0 t) (hs5_0 t) (ms5_1 t) (hs5_1 t) (ms5_2 t) (hs5_2 t) scM5_0 (Memref.isWhole_whole _) (fun h => h0 ((hcond5_0 t).mp h)) (iblk5 V c 0 t) (iblk5 V c 1 t) (outsAt5 V c (t.val - 1) (Nat.lt_of_le_of_lt (Nat.sub_le _ _) t.isLt)).2,
      sout5_B_0 c (grid5.coords t) (ms5_0 t) (hs5_0 t) (ms5_1 t) (hs5_1 t) (ms5_2 t) (hs5_2 t) scM5_0 (Memref.isWhole_whole _) (fun h => h0 ((hcond5_0 t).mp h)) (iblk5 V c 0 t) (iblk5 V c 1 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(owns (c : Thread nD τ) scM5_0 fullShare ((outsAt5 V c n hn).2)
      ∗ Pipeline.scopedRestBut (Ix := Unit) (Name := ℕ) (U := UR sig nD τ) (Lvl := ℕ) (Val := Elt F) spec5 c [cc5_scratch0]) ∗ (∃ r, prngReg c r)) := rfl
theorem PhiS5_pos (c : Dev nD) (n : ℕ) (h : n ≤ cfg5.N) (hz : n ≠ 0) :
    PhiS5 V c n h = iprop(iprop(owns (c : Thread nD τ) scM5_0 fullShare ((outsAt5 V c (n - 1) (by omega)).2)
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of the pipeline on core c. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt).1 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point t, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))
/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).owesAt () t.succ = (dat5 V c).owesAt () t.castSucc from rfl]
  rw [show (dat5 V c).Φ t.succ = PhiS5 V c (t.val + 1) t.isLt from rfl, PhiS5_succ]
  rw [after5_0, after5_1, after5_2]
  by_cases h0 : t.val % 50 = 0
  · rw [outsAt5_A V c t h0]
    unfold out5_A_2 sout5_A_0; (try dsimp only)
    by_cases hz : t.val = 0
    · rw [PhiS5_castSucc V c t, PhiS5_zero V c _ _ hz, PhiA5_eq]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (iblk5 V c 0 t) (iblk5 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_A_2 c _ _ _ _ _ _ _ _ _ _ _ _)
    · rw [PhiS5_castSucc V c t, PhiS5_pos V c _ _ hz]
      iintro ⟨⟨⟨HS0, Hrest⟩, Hg⟩, Ho, ⟨%d0, H0⟩, ⟨%d1, H1⟩, ⟨%d2, H2⟩⟩
      iapply ((kernelRun5_A c (grid5.coords t) _ _ _ _ _ _ _ _ ((hcond5_0 t).mpr h0) (iblk5 V c 0 t) (iblk5 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover5_A_2 c _ _ _ _ _ _ _ _ _ _ _ _)
  · rw [outsAt5_B V c t h0]
    unfold out5_B_2 sout5_B_0; (try dsimp only)
    have hz : t.val ≠ 0 := fun hz => h0 (by rw [hz])
    rw [PhiS5_castSucc V c t, PhiS5_pos V c _ _ hz]
    iintro ⟨⟨⟨HS0, Hrest⟩, Hg⟩, Ho, ⟨%d0, H0⟩, ⟨%d1, H1⟩, ⟨%d2, H2⟩⟩
    iapply ((kernelRun5_B c (grid5.coords t) _ _ _ _ _ _ _ _ (fun h => h0 ((hcond5_0 t).mp h)) (iblk5 V c 0 t) (iblk5 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover5_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _ _ _)

/-- The pipeline library's body obligation, at every point. -/
theorem body_obligation5 (c : Dev nD) : BodyObligation (dat5 (F := F) V c) (defs₀ (F := F)) Variants.none () Set.univ := fun t => by
  rw [bigSep_W5, bigSep_W5]
  exact sound_body5 V c t

/-- The invariant before the first point is the launch's. -/
theorem Phi_zero5 (c : Dev nD) : (dat5 V c).Φ 0 = Pipeline.ΦA spec5 c := rfl

/-- After the last point the invariant gives the launch's back: the accumulator's contents are forgotten. -/
theorem Phi_last5 (c : Dev nD) : (dat5 V c).Φ (Fin.last cfg5.N) ⊢ Pipeline.ΦA spec5 c := by
  rw [show (dat5 V c).Φ (Fin.last cfg5.N) = PhiS5 V c cfg5.N (Nat.le_refl _) from rfl,
    PhiS5_pos V c _ _ (by rw [show cfg5.N = 9800 from N_5]; decide), PhiA5_eq]
  iintro ⟨⟨HS0, Hrest⟩, Hg⟩
  isplitl [HS0 Hrest]
  · isplitl [HS0]
    · iexists _; iexact HS0
    iexact Hrest
  iexact Hg

end Cert.KernelIdeal.Reg

end
-- ==== Proof.RegScatter6Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The body clears its accumulator when the edge-block coordinate is zero. -/
abbrev cond6_0 (i : grid6.Coords) : Prop := (Scalar.cmpi .ne (Scalar.extui (Scalar.cmpi .eq (BitVec.ofNat 32 (i 1).val) 0#32)) 0#32) = 1#1
/-- That is at the points ≡ 0 (mod 196): the first point of each node block. -/
theorem hcond6_0 : ∀ t : Fin cfg6.N, cond6_0 (grid6.coords t) ↔ t.val % 196 = 0 :=
  (by decide +kernel : ∀ t : Fin grid6.N, cond6_0 (grid6.coords t) ↔ t.val % 196 = 0)

/-- One staging buffer of the output window, through which its contents are stated. -/
abbrev VO6_2 : View sig .tc .vmem S1000x64 .f32 := (Memref.whole cc6_stg2_0 : Memref sig .tc .vmem S1000x64 .f32).view
/-- Each window's current staging memref at point t, and its wholeness. -/
abbrev ms6_0 (t : Fin cfg6.N) : Memref sig .tc .vmem S4096 .i32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S4096x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1000x64 .f32 := win6_2.stage (cfg6.slots t 2)
abbrev hs6_2 (t : Fin cfg6.N) : (ms6_2 t).IsWhole := hstage6_2 ((cfg6.slots t 2).cast nbuf6_2)
/-- The accumulator: a whole buffer of the kernel's own. -/
abbrev scM6_0 : Memref sig .tc .vmem S1000x64 .f32 := Memref.whole cc6_scratch0
abbrev VS6_0 : View sig .tc .vmem S1000x64 .f32 := scM6_0.view

/-- The region's invariant at entry, with the accumulator as a memref owned at some contents; the other buffers of the
    kernel regions stay closed. -/
theorem PhiA6_eq (c : Dev nD) :
    (Pipeline.ΦA spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun6_A (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond6_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc6_scatter_kernel i arg2 harg2 arg3 harg3 arg4 harg4 arg5 harg5) K } := by
  refine ⟨?_, ?_, fun E K => ?run⟩
  case run =>
    simp only [cc6_scatter_kernel_eq_skeleton]; unfold cc6_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun6_B (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond6_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc6_scatter_kernel i arg2 harg2 arg3 harg3 arg4 harg4 arg5 harg5) K } := by
  refine ⟨?_, ?_, fun E K => ?run⟩
  case run =>
    simp only [cc6_scatter_kernel_eq_skeleton]; unfold cc6_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegScatter6.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegScatter6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover6_A_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) (y : S1000x64.Idx) :
    ∃ pc ∈ (kernelRun6_A c i arg2 harg2 arg3 harg3 arg4 harg4 arg5 harg5 hc0 x0 x1).1, y ∈ pc.1.set :=
  View.cover_of_tiledL (kernelRun6_A c i arg2 harg2 arg3 harg3 arg4 harg4 arg5 harg5 hc0 x0 x1).1 S1000x64.size (by sl_kernel_rfl) y
def out6_A_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) : Vec F S1000x64 .f32 :=
  VO6_2.read (Elt F) (VO6_2.writes (Elt F) VO6_2.junk (kernelRun6_A c i arg2 harg2 arg3 harg3 arg4 harg4 arg5 harg5 hc0 x0 x1).1)
/-- Its stores into the accumulator cover it; what they leave. -/
theorem scover6_A_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) (y : S1000x64.Idx) :
    ∃ pc ∈ (kernelRun6_A c i arg2 harg2 arg3 harg3 arg4 harg4 arg5 harg5 hc0 x0 x1).2.1, y ∈ pc.1.set :=
  View.cover_of_tiledL (kernelRun6_A c i arg2 harg2 arg3 harg3 arg4 harg4 arg5 harg5 hc0 x0 x1).2.1 S1000x64.size (by sl_kernel_rfl) y
def sout6_A_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond6_0 i) (x0 : Vec F S4096 .i32) (x1 : Vec F S4096x64 .f32) : Vec F S1000x64 .f32 :=
  VS6_0.read (Elt F) (VS6_0.writes (Elt F) VS6_0.junk (kernelRun6_A c i arg2 harg2 arg3 harg3 arg4 harg4 arg5 harg5 hc0 x0 x1).2.1)

/-- The same of the later-point case, over what the point before left in the accumulator. -/
theorem cover6_B_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) (y : S1000x64.Idx) :
    ∃ pc ∈ (kernelRun6_B c i arg2 harg2 arg3 harg3 arg4 harg4 arg5 harg5 hc0 x0 x1 xs0).1, y ∈ pc.1.set :=
  View.cover_of_tiledL (kernelRun6_B c i arg2 harg2 arg3 harg3 arg4 harg4 arg5 harg5 hc0 x0 x1 xs0).1 S1000x64.size (by sl_kernel_rfl) y
def out6_B_2 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) : Vec F S1000x64 .f32 :=
  VO6_2.read (Elt F) (VO6_2.writes (Elt F) VO6_2.junk (kernelRun6_B c i arg2 harg2 arg3 harg3 arg4 harg4 arg5 harg5 hc0 x0 x1 xs0).1)
theorem scover6_B_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) (y : S1000x64.Idx) :
    ∃ pc ∈ (kernelRun6_B c i arg2 harg2 arg3 harg3 arg4 harg4 arg5 harg5 hc0 x0 x1 xs0).2.1, y ∈ pc.1.set :=
  View.cover_of_tiledL (kernelRun6_B c i arg2 harg2 arg3 harg3 arg4 harg4 arg5 harg5 hc0 x0 x1 xs0).2.1 S1000x64.size (by sl_kernel_rfl) y
def sout6_B_0 (c : Dev nD) (i : grid6.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond6_0 i) (x0 : Vec F S4096 .i32) (x1 : Vec F S4096x64 .f32) (xs0 : Vec F S1000x64 .f32) : Vec F S1000x64 .f32 :=
  VS6_0.read (Elt F) (VS6_0.writes (Elt F) VS6_0.junk (kernelRun6_B c i arg2 harg2 arg3 harg3 arg4 harg4 arg5 harg5 hc0 x0 x1 xs0).2.1)

/-- THE ACCUMULATION: what the output's staging buffer and the accumulator hold after the body at position n. -/
def outsAt6 (c : Dev nD) : (n : ℕ) → n < cfg6.N → Vec F S1000x64 .f32 × Vec F S1000x64 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (iblk6 V c 0 ⟨0, hn⟩) (iblk6 V c 1 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) ((hcond6_0 ⟨0, hn⟩).mpr (Nat.zero_mod _)) (iblk6 V c 0 ⟨0, hn⟩) (iblk6 V c 1 ⟨0, hn⟩))
  | n + 1, hn =>
    if h0 : (n + 1) % 196 = 0 then
      (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (iblk6 V c 0 ⟨n + 1, hn⟩) (iblk6 V c 1 ⟨n + 1, hn⟩),
        sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) ((hcond6_0 ⟨n + 1, hn⟩).mpr h0) (iblk6 V c 0 ⟨n + 1, hn⟩) (iblk6 V c 1 ⟨n + 1, hn⟩))
    else
      (out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (iblk6 V c 0 ⟨n + 1, hn⟩) (iblk6 V c 1 ⟨n + 1, hn⟩) (outsAt6 c n (Nat.lt_of_succ_lt hn)).2,
        sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (fun h => h0 ((hcond6_0 ⟨n + 1, hn⟩).mp h)) (iblk6 V c 0 ⟨n + 1, hn⟩) (iblk6 V c 1 ⟨n + 1, hn⟩) (outsAt6 c n (Nat.lt_of_succ_lt hn)).2)

theorem outsAt6_A (c : Dev nD) (t : Fin cfg6.N) (h0 : t.val % 196 = 0) :
    outsAt6 V c t.val t.isLt = (out6_A_2 c (grid6.coords t) (ms6_0 t) (hs6_0 t) (ms6_1 t) (hs6_1 t) (ms6_2 t) (hs6_2 t) scM6_0 (Memref.isWhole_whole _) ((hcond6_0 t).mpr h0) (iblk6 V c 0 t) (iblk6 V c 1 t),
      sout6_A_0 c (grid6.coords t) (ms6_0 t) (hs6_0 t) (ms6_1 t) (hs6_1 t) (ms6_2 t) (hs6_2 t) scM6_0 (Memref.isWhole_whole _) ((hcond6_0 t).mpr h0) (iblk6 V c 0 t) (iblk6 V c 1 t)) := by
  obtain ⟨n, hn⟩ := t
  cases n with
  | zero => exact rfl
  | succ n => exact (dif_pos h0).trans rfl

theorem outsAt6_B (c : Dev nD) (t : Fin cfg6.N) (h0 : ¬t.val % 196 = 0) :
    outsAt6 V c t.val t.isLt = (out6_B_2 c (grid6.coords t) (ms6_0 t) (hs6_0 t) (ms6_1 t) (hs6_1 t) (ms6_2 t) (hs6_2 t) scM6_0 (Memref.isWhole_whole _) (fun h => h0 ((hcond6_0 t).mp h)) (iblk6 V c 0 t) (iblk6 V c 1 t) (outsAt6 V c (t.val - 1) (Nat.lt_of_le_of_lt (Nat.sub_le _ _) t.isLt)).2,
      sout6_B_0 c (grid6.coords t) (ms6_0 t) (hs6_0 t) (ms6_1 t) (hs6_1 t) (ms6_2 t) (hs6_2 t) scM6_0 (Memref.isWhole_whole _) (fun h => h0 ((hcond6_0 t).mp h)) (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl
theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-- The proof data of the pipeline on core c. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point t, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))
/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [after6_0, after6_1, after6_2]
  by_cases h0 : t.val % 196 = 0
  · rw [outsAt6_A V c t h0]
    unfold out6_A_2 sout6_A_0; (try dsimp only)
    by_cases hz : t.val = 0
    · rw [PhiS6_castSucc V c t, PhiS6_zero V c _ _ hz, PhiA6_eq]
      iintro ⟨⟨⟨HS0, Hrest⟩, Hg⟩, Ho, ⟨%d0, H0⟩, ⟨%d1, H1⟩, ⟨%d2, H2⟩⟩
      iapply ((kernelRun6_A c (grid6.coords t) _ _ _ _ _ _ _ _ ((hcond6_0 t).mpr h0) (iblk6 V c 0 t) (iblk6 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_A_2 c _ _ _ _ _ _ _ _ _ _ _ _)
    · rw [PhiS6_castSucc V c t, PhiS6_pos V c _ _ hz]
      iintro ⟨⟨⟨HS0, Hrest⟩, Hg⟩, Ho, ⟨%d0, H0⟩, ⟨%d1, H1⟩, ⟨%d2, H2⟩⟩
      iapply ((kernelRun6_A c (grid6.coords t) _ _ _ _ _ _ _ _ ((hcond6_0 t).mpr h0) (iblk6 V c 0 t) (iblk6 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover6_A_2 c _ _ _ _ _ _ _ _ _ _ _ _)
  · rw [outsAt6_B V c t h0]
    unfold out6_B_2 sout6_B_0; (try dsimp only)
    have hz : t.val ≠ 0 := fun hz => h0 (by rw [hz])
    rw [PhiS6_castSucc V c t, PhiS6_pos V c _ _ hz]
    iintro ⟨⟨⟨HS0, Hrest⟩, Hg⟩, Ho, ⟨%d0, H0⟩, ⟨%d1, H1⟩, ⟨%d2, H2⟩⟩
    iapply ((kernelRun6_B c (grid6.coords t) _ _ _ _ _ _ _ _ (fun h => h0 ((hcond6_0 t).mp h)) (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover6_B_2 c _ _ _ _ _ _ _ _ _ _ _ _ _)

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

/-- The invariant before the first point is the launch's. -/
theorem Phi_zero6 (c : Dev nD) : (dat6 V c).Φ 0 = Pipeline.ΦA spec6 c := rfl

/-- After the last point the invariant gives the launch's back: the accumulator's contents are forgotten. -/
theorem Phi_last6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 9800 from N_6]; decide), PhiA6_eq]
  iintro ⟨⟨HS0, Hrest⟩, Hg⟩
  isplitl [HS0 Hrest]
  · isplitl [HS0]
    · iexists _; iexact HS0
    iexact Hrest
  iexact Hg

end Cert.KernelIdeal.Reg

end
-- ==== Proof.RegGru7.lean ====
/-
  The second recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- The whole rectangle of each staging buffer: the body loads and stores nothing smaller. -/
abbrev r7_0 : Rect S2000x64 := Rect.unit (s := S2000x64) ![0, 0] S2000x64.size inb_S2000x64_S2000x64_0_0
abbrev r7_2 : Rect S192x64 := Rect.unit (s := S192x64) ![0, 0] S192x64.size inb_S192x64_S192x64_0_0
abbrev r7_4 : Rect S1x192 := Rect.unit (s := S1x192) ![0, 0] S1x192.size inb_S1x192_S1x192_0_0

/-- What the body leaves in the output's staging buffer: its one store, of the recurrent cell of the six input blocks. -/
def out7_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r7_0, k7_pay1 (View.ld x0 r7_0) (View.ld x1 r7_0) (View.ld x2 r7_2) (View.ld x3 r7_2) (View.ld x4 r7_4) (View.ld x5 r7_4)⟩]

/-- The one store covers the buffer. -/
theorem cover7_6 (p0 : Vec F S2000x64 .f32) (y : S2000x64.Idx) :
    ∃ pc ∈ ([⟨r7_0, p0⟩] : List (View.Piece (Elt F) S2000x64 .f32)), y ∈ pc.1.set :=
  View.cover_of_tiled [⟨r7_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel7 (c : Dev nD) (E : Set ℕ) (i : grid7.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)) -∗ K ⟨⟩))
      ⊢ wp frame (wpE (defs₀ (F := F)) Variants.none c none) E (cc7_gru_kernel i arg1 harg1 arg2 harg2 arg3 harg3 arg4 harg4 arg5 harg5 arg6 harg6 arg7 harg7) K := by
  simp only [cc7_gru_kernel_eq_skeleton]; unfold cc7_gru_kernel_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover7_6 _)

/-- The proof data of the pipeline on core c: the arrays as the region finds them; after the body at point t each input's
    buffer at its block and the output's at the recurrent cell of the input blocks; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) :
    (dat7 V c).after 6 t = out7_6 (iblk7 V c 0 t) (iblk7 V c 1 t) (iblk7 V c 2 t) (iblk7 V c 3 t) (iblk7 V c 4 t) (iblk7 V c 5 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d

/-- What the body is called with at point t, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t))

/-- The body at any point: the inputs' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel7 c Set.univ _ _ _ _ _ _ _ _ _ _ _ _ _ _ _ (iblk7 V c 0 t) (iblk7 V c 1 t) (iblk7 V c 2 t) (iblk7 V c 3 t) (iblk7 V c 4 t) (iblk7 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.RegLin8.lean ====
/-
  The third dense layer's region: every grid point stages a block of 5000 node rows, the whole weight matrix and the bias
  row, and the body stores the layer's 5000 rows into the output's staging buffer, which the pipeline writes back.  Stated at
  the buffer contents V the region is entered with: what each window's buffer holds at a point, what the body leaves, the
  proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole rectangle of each staging buffer: the body loads and stores nothing smaller. -/
abbrev r8_0 : Rect S5000x64 := Rect.unit (s := S5000x64) ![0, 0] S5000x64.size inb_S5000x64_S5000x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0

/-- What the body leaves in the output's staging buffer: its one store, of the dense layer of the three input blocks. -/
def out8_3 (x0 : Vec F S5000x64 .f32) (x1 : Vec F S64x64 .f32) (x2 : Vec F S1x64 .f32) : Vec F S5000x64 .f32 :=
  View.canon [⟨r8_0, k8_pay1 (View.ld x0 r8_0) (View.ld x1 r8_1) (View.ld x2 r8_2)⟩]

/-- The one store covers the buffer. -/
theorem cover8_3 (p0 : Vec F S5000x64 .f32) (y : S5000x64.Idx) :
    ∃ pc ∈ ([⟨r8_0, p0⟩] : List (View.Piece (Elt F) S5000x64 .f32)), y ∈ pc.1.set :=
  View.cover_of_tiled [⟨r8_0, p0⟩] S5000x64.size (by rfl) y

set_option maxHeartbeats 1000000 in
/-- The body on whole staging memrefs, the inputs' at contents x0, x1, x2 and the output's at anything, runs to the
    continuation holding the inputs' as they were and the output's at the dense layer of them. -/
theorem sound_kernel8 (c : Dev nD) (E : Set ℕ) (i : grid8.Coords)
    (arg1 : Memref sig .tc .vmem S5000x64 .f32) (harg1 : arg1.IsWhole) (arg2 : Memref sig .tc .vmem S64x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8_node_linear_kernel i arg1 harg1 arg2 harg2 arg3 harg3 arg4 harg4) K := by
  simp only [cc8_node_linear_kernel_eq_skeleton]; unfold cc8_node_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of the pipeline on core c: the arrays as the region finds them; after the body at point t each input's
    buffer at its block and the output's at the dense layer of the input blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point t, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.RegGather9Runs.lean ====
/-
  The row gather's region: a grid of 196 edge blocks by 50 node blocks.  At a point the pipeline stages the edge block's
  4096 source words and the node block's 1000 rows; the body keeps a 4096×64 accumulator in a buffer of its own across the
  50 points of an edge block — cleared at the first, added to at each — and copies it into the output's staging buffer,
  which the pipeline writes back after the last.  This module: the windows' blocks, when the body clears the
  accumulator, and the body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The body clears its accumulator when the node-block coordinate is zero. -/
abbrev cond9_0 (i : grid9.Coords) : Prop := (Scalar.cmpi .ne (Scalar.extui (Scalar.cmpi .eq (BitVec.ofNat 32 (i 1).val) 0#32)) 0#32) = 1#1
/-- That is at the points ≡ 0 (mod 50): the first point of each edge block. -/
theorem hcond9_0 : ∀ t : Fin cfg9.N, cond9_0 (grid9.coords t) ↔ t.val % 50 = 0 :=
  (by decide +kernel : ∀ t : Fin grid9.N, cond9_0 (grid9.coords t) ↔ t.val % 50 = 0)

/-- One staging buffer of the output window, through which its contents are stated. -/
abbrev VO9_2 : View sig .tc .vmem S4096x64 .f32 := (Memref.whole cc9_stg2_0 : Memref sig .tc .vmem S4096x64 .f32).view
/-- Each window's current staging memref at point t, and its wholeness. -/
abbrev ms9_0 (t : Fin cfg9.N) : Memref sig .tc .vmem S4096 .i32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S1000x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S4096x64 .f32 := win9_2.stage (cfg9.slots t 2)
abbrev hs9_2 (t : Fin cfg9.N) : (ms9_2 t).IsWhole := hstage9_2 ((cfg9.slots t 2).cast nbuf9_2)
/-- The accumulator: a whole buffer of the kernel's own. -/
abbrev scM9_0 : Memref sig .tc .vmem S4096x64 .f32 := Memref.whole cc9_scratch0
abbrev VS9_0 : View sig .tc .vmem S4096x64 .f32 := scM9_0.view

/-- The region's invariant at entry, with the accumulator as a memref owned at some contents; the other buffers of the
    kernel regions stay closed. -/
theorem PhiA9_eq (c : Dev nD) :
    (Pipeline.ΦA spec9 c : sProp 𝕄)
      = iprop(iprop(iprop((∃ d, owns (c : Thread nD τ) scM9_0 fullShare d))
          ∗ Pipeline.scopedRestBut (Ix := Unit) (Name := ℕ) (U := UR sig nD τ) (Lvl := ℕ) (Val := Elt F) spec9 c [cc9_scratch0]) ∗ (∃ r, prngReg c r)) := by
  unfold Pipeline.ΦA; rw [scopedRest9_split]; simp only [scM9_0, owns_whole]; try rfl

set_option maxHeartbeats 2000000 in
/-- The body at the FIRST point of an edge block: the inputs' memrefs at their contents, the output's and the
    accumulator's at anything; it runs to the continuation with the inputs as they were and the stores into the output's
    buffer and into the accumulator as pieces (last first), which the run finds. -/
noncomputable def kernelRun9_A (c : Dev nD) (i : grid9.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : cond9_0 i)
    (x0 : Vec F S4096 .i32) (x1 : Vec F S1000x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc9_gather_kernel i arg2 harg2 arg3 harg3 arg4 harg4 arg5 harg5) K } := by
  refine ⟨?_, ?_, fun E K => ?run⟩
  case run =>
    simp only [cc9_gather_kernel_eq_skeleton]; unfold cc9_gather_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of an edge block: the accumulator at what the point before left (xs0). -/
noncomputable def kernelRun9_B (c : Dev nD) (i : grid9.Coords) (arg2 : Memref sig .tc .vmem S4096 .i32) (harg2 : arg2.IsWhole)
    (arg3 : Memref sig .tc .vmem S1000x64 .f32) (harg3 : arg3.IsWhole) (arg4 : Memref sig .tc .vmem S4096x64 .f32) (harg4 : arg4.IsWhole)
    (arg5 : Memref sig .tc .vmem S4096x64 .f32) (harg5 : arg5.IsWhole) (hc0 : ¬cond9_0 i)
    (x0 : Vec F S4096 .i32) (x1 : Vec F S1000x64 .f32) (xs0 : Vec F S4096x64 .f32) :
    Σ' (L2 : List (View.Piece (Elt F) S4096x64 .f32)), { LS0 : List (View.Piece (Elt F) S4096x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc9_gather_kernel i arg2 harg2 arg3 harg3 arg4 harg4 arg5 harg5) K } := by
  refine ⟨?_, ?_, fun E K => ?run⟩
  case run =>
    simp only [cc9_gather_kernel_eq_skeleton]; unfold cc9_gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegGather9.lean ====
/-
  The row gather's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegGather9Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover9_A_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) (y : S4096x64.Idx) :
    ∃ pc ∈ (kernelRun9_A c i arg2 harg2 arg3 harg3 arg4 harg4 arg5 harg5 hc0 x0 x1).1, y ∈ pc.1.set :=
  View.cover_of_tiledL (kernelRun9_A c i arg2 harg2 arg3 harg3 arg4 harg4 arg5 harg5 hc0 x0 x1).1 S4096x64.size (by sl_kernel_rfl) y
def out9_A_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) : Vec F S4096x64 .f32 :=
  VO9_2.read (Elt F) (VO9_2.writes (Elt F) VO9_2.junk (kernelRun9_A c i arg2 harg2 arg3 harg3 arg4 harg4 arg5 harg5 hc0 x0 x1).1)
/-- Its stores into the accumulator cover it; what they leave. -/
theorem scover9_A_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) (y : S4096x64.Idx) :
    ∃ pc ∈ (kernelRun9_A c i arg2 harg2 arg3 harg3 arg4 harg4 arg5 harg5 hc0 x0 x1).2.1, y ∈ pc.1.set :=
  View.cover_of_tiledL (kernelRun9_A c i arg2 harg2 arg3 harg3 arg4 harg4 arg5 harg5 hc0 x0 x1).2.1 S4096x64.size (by sl_kernel_rfl) y
def sout9_A_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : cond9_0 i) (x0 : Vec F S4096 .i32) (x1 : Vec F S1000x64 .f32) : Vec F S4096x64 .f32 :=
  VS9_0.read (Elt F) (VS9_0.writes (Elt F) VS9_0.junk (kernelRun9_A c i arg2 harg2 arg3 harg3 arg4 harg4 arg5 harg5 hc0 x0 x1).2.1)

/-- The same of the later-point case, over what the point before left in the accumulator. -/
theorem cover9_B_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) (y : S4096x64.Idx) :
    ∃ pc ∈ (kernelRun9_B c i arg2 harg2 arg3 harg3 arg4 harg4 arg5 harg5 hc0 x0 x1 xs0).1, y ∈ pc.1.set :=
  View.cover_of_tiledL (kernelRun9_B c i arg2 harg2 arg3 harg3 arg4 harg4 arg5 harg5 hc0 x0 x1 xs0).1 S4096x64.size (by sl_kernel_rfl) y
def out9_B_2 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) : Vec F S4096x64 .f32 :=
  VO9_2.read (Elt F) (VO9_2.writes (Elt F) VO9_2.junk (kernelRun9_B c i arg2 harg2 arg3 harg3 arg4 harg4 arg5 harg5 hc0 x0 x1 xs0).1)
theorem scover9_B_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) (y : S4096x64.Idx) :
    ∃ pc ∈ (kernelRun9_B c i arg2 harg2 arg3 harg3 arg4 harg4 arg5 harg5 hc0 x0 x1 xs0).2.1, y ∈ pc.1.set :=
  View.cover_of_tiledL (kernelRun9_B c i arg2 harg2 arg3 harg3 arg4 harg4 arg5 harg5 hc0 x0 x1 xs0).2.1 S4096x64.size (by sl_kernel_rfl) y
def sout9_B_0 (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬cond9_0 i) (x0 : Vec F S4096 .i32) (x1 : Vec F S1000x64 .f32) (xs0 : Vec F S4096x64 .f32) : Vec F S4096x64 .f32 :=
  VS9_0.read (Elt F) (VS9_0.writes (Elt F) VS9_0.junk (kernelRun9_B c i arg2 harg2 arg3 harg3 arg4 harg4 arg5 harg5 hc0 x0 x1 xs0).2.1)

/-- THE ACCUMULATION: what the output's staging buffer and the accumulator hold after the body at position n. -/
def outsAt9 (c : Dev nD) : (n : ℕ) → n < cfg9.N → Vec F S4096x64 .f32 × Vec F S4096x64 .f32
  | 0, hn => (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (iblk9 V c 0 ⟨0, hn⟩) (iblk9 V c 1 ⟨0, hn⟩),
      sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (iblk9 V c 0 ⟨0, hn⟩) (iblk9 V c 1 ⟨0, hn⟩))
  | n + 1, hn =>
    if h0 : (n + 1) % 50 = 0 then
      (out9_A_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (iblk9 V c 0 ⟨n + 1, hn⟩) (iblk9 V c 1 ⟨n + 1, hn⟩),
        sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (iblk9 V c 0 ⟨n + 1, hn⟩) (iblk9 V c 1 ⟨n + 1, hn⟩))
    else
      (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (iblk9 V c 0 ⟨n + 1, hn⟩) (iblk9 V c 1 ⟨n + 1, hn⟩) (outsAt9 c n (Nat.lt_of_succ_lt hn)).2,
        sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (iblk9 V c 0 ⟨n + 1, hn⟩) (iblk9 V c 1 ⟨n + 1, hn⟩) (outsAt9 c n (Nat.lt_of_succ_lt hn)).2)

theorem outsAt9_A (c : Dev nD) (t : Fin cfg9.N) (h0 : t.val % 50 = 0) :
    outsAt9 V c t.val t.isLt = (out9_A_2 c (grid9.coords t) (ms9_0 t) (hs9_0 t) (ms9_1 t) (hs9_1 t) (ms9_2 t) (hs9_2 t) scM9_0 (Memref.isWhole_whole _) ((hcond9_0 t).mpr h0) (iblk9 V c 0 t) (iblk9 V c 1 t),
      sout9_A_0 c (grid9.coords t) (ms9_0 t) (hs9_0 t) (ms9_1 t) (hs9_1 t) (ms9_2 t) (hs9_2 t) scM9_0 (Memref.isWhole_whole _) ((hcond9_0 t).mpr h0) (iblk9 V c 0 t) (iblk9 V c 1 t)) := by
  obtain ⟨n, hn⟩ := t
  cases n with
  | zero => exact rfl
  | succ n => exact (dif_pos h0).trans rfl

theorem outsAt9_B (c : Dev nD) (t : Fin cfg9.N) (h0 : ¬t.val % 50 = 0) :
    outsAt9 V c t.val t.isLt = (out9_B_2 c (grid9.coords t) (ms9_0 t) (hs9_0 t) (ms9_1 t) (hs9_1 t) (ms9_2 t) (hs9_2 t) scM9_0 (Memref.isWhole_whole _) (fun h => h0 ((hcond9_0 t).mp h)) (iblk9 V c 0 t) (iblk9 V c 1 t) (outsAt9 V c (t.val - 1) (Nat.lt_of_le_of_lt (Nat.sub_le _ _) t.isLt)).2,
      sout9_B_0 c (grid9.coords t) (ms9_0 t) (hs9_0 t) (ms9_1 t) (hs9_1 t) (ms9_2 t) (hs9_2 t) scM9_0 (Memref.isWhole_whole _) (fun h => h0 ((hcond9_0 t).mp h)) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS9 (c : Dev nD) : (n : ℕ) → n ≤ cfg9.N → sProp 𝕄
  | 0, _ => Pipeline.ΦA spec9 c
  | n + 1, hn => iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r))

theorem PhiS9_zero (c : Dev nD) (n : ℕ) (h : n ≤ cfg9.N) (hz : n = 0) : PhiS9 V c n h = Pipeline.ΦA spec9 c := by
  subst hz; rfl
theorem PhiS9_succ (c : Dev nD) (n : ℕ) (hn : n < cfg9.N) :
    PhiS9 V c (n + 1) hn = iprop(iprop(owns (c : Thread nD τ) scM9_0 fullShare ((outsAt9 V c n hn).2)
      ∗ Pipeline.scopedRestBut (Ix := Unit) (Name := ℕ) (U := UR sig nD τ) (Lvl := ℕ) (Val := Elt F) spec9 c [cc9_scratch0]) ∗ (∃ r, prngReg c r)) := rfl
theorem PhiS9_pos (c : Dev nD) (n : ℕ) (h : n ≤ cfg9.N) (hz : n ≠ 0) :
    PhiS9 V c n h = iprop(iprop(owns (c : Thread nD τ) scM9_0 fullShare ((outsAt9 V c (n - 1) (by omega)).2)
      ∗ Pipeline.scopedRestBut (Ix := Unit) (Name := ℕ) (U := UR sig nD τ) (Lvl := ℕ) (Val := Elt F) spec9 c [cc9_scratch0]) ∗ (∃ r, prngReg c r)) := by
  cases n with
  | zero => exact absurd rfl hz
  | succ n => rfl

/-- The proof data of the pipeline on core c. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem PhiS9_castSucc (c : Dev nD) (t : Fin cfg9.N) :
    (dat9 V c).Φ t.castSucc = PhiS9 V c t.val (Nat.le_of_lt t.isLt) := by
  dsimp only [dat9]; simp only [Fin.coe_castSucc]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point t, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))
/-- and what it returns. -/
def bodyPost9 (c : Dev nD) (t : Fin cfg9.N) : sProp 𝕄 :=
  iprop((dat9 V c).Φ t.succ ∗ (dat9 V c).owesAt () t.succ
    ∗ owns (c : Thread nD τ) (ms9_0 t) fullShare ((dat9 V c).after 0 t)
    ∗ owns (c : Thread nD τ) (ms9_1 t) fullShare ((dat9 V c).after 1 t)
    ∗ owns (c : Thread nD τ) (ms9_2 t) fullShare ((dat9 V c).after 2 t))

set_option maxHeartbeats 4000000 in
/-- The body at any point: the inputs' memrefs hold their blocks; the point is the first of its edge block or a later one;
    the invariant hands the body the accumulator (at anything at the first point of the grid, at what the point before left
    afterwards) and takes it back at this point's contents. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  rw [after9_0, after9_1, after9_2]
  by_cases h0 : t.val % 50 = 0
  · rw [outsAt9_A V c t h0]
    unfold out9_A_2 sout9_A_0; (try dsimp only)
    by_cases hz : t.val = 0
    · rw [PhiS9_castSucc V c t, PhiS9_zero V c _ _ hz, PhiA9_eq]
      iintro ⟨⟨⟨HS0, Hrest⟩, Hg⟩, Ho, ⟨%d0, H0⟩, ⟨%d1, H1⟩, ⟨%d2, H2⟩⟩
      iapply ((kernelRun9_A c (grid9.coords t) _ _ _ _ _ _ _ _ ((hcond9_0 t).mpr h0) (iblk9 V c 0 t) (iblk9 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_A_2 c _ _ _ _ _ _ _ _ _ _ _ _)
    · rw [PhiS9_castSucc V c t, PhiS9_pos V c _ _ hz]
      iintro ⟨⟨⟨HS0, Hrest⟩, Hg⟩, Ho, ⟨%d0, H0⟩, ⟨%d1, H1⟩, ⟨%d2, H2⟩⟩
      iapply ((kernelRun9_A c (grid9.coords t) _ _ _ _ _ _ _ _ ((hcond9_0 t).mpr h0) (iblk9 V c 0 t) (iblk9 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover9_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover9_A_2 c _ _ _ _ _ _ _ _ _ _ _ _)
  · rw [outsAt9_B V c t h0]
    unfold out9_B_2 sout9_B_0; (try dsimp only)
    have hz : t.val ≠ 0 := fun hz => h0 (by rw [hz])
    rw [PhiS9_castSucc V c t, PhiS9_pos V c _ _ hz]
    iintro ⟨⟨⟨HS0, Hrest⟩, Hg⟩, Ho, ⟨%d0, H0⟩, ⟨%d1, H1⟩, ⟨%d2, H2⟩⟩
    iapply ((kernelRun9_B c (grid9.coords t) _ _ _ _ _ _ _ _ (fun h => h0 ((hcond9_0 t).mp h)) (iblk9 V c 0 t) (iblk9 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover9_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover9_B_2 c _ _ _ _ _ _ _ _ _ _ _ _ _)

/-- The pipeline library's body obligation, at every point. -/
theorem body_obligation9 (c : Dev nD) : BodyObligation (dat9 (F := F) V c) (defs₀ (F := F)) Variants.none () Set.univ := fun t => by
  rw [bigSep_W9, bigSep_W9]
  exact sound_body9 V c t

/-- The invariant before the first point is the launch's. -/
theorem Phi_zero9 (c : Dev nD) : (dat9 V c).Φ 0 = Pipeline.ΦA spec9 c := rfl

/-- After the last point the invariant gives the launch's back: the accumulator's contents are forgotten. -/
theorem Phi_last9 (c : Dev nD) : (dat9 V c).Φ (Fin.last cfg9.N) ⊢ Pipeline.ΦA spec9 c := by
  rw [show (dat9 V c).Φ (Fin.last cfg9.N) = PhiS9 V c cfg9.N (Nat.le_refl _) from rfl,
    PhiS9_pos V c _ _ (by rw [show cfg9.N = 9800 from N_9]; decide), PhiA9_eq]
  iintro ⟨⟨HS0, Hrest⟩, Hg⟩
  isplitl [HS0 Hrest]
  · isplitl [HS0]
    · iexists _; iexact HS0
    iexact Hrest
  iexact Hg

end Cert.KernelIdeal.Reg

end
-- ==== Proof.RegScatter10Runs.lean ====
/-
  The scatter-sum's region: a grid of 50 node blocks by 196 edge blocks.  At a point the pipeline stages the edge block's
  4096 target words and its 4096 message rows; the body keeps a 1000×64 accumulator in a buffer of its own across the 196
  points of a node block — cleared at the first, added to at each — and copies it into the output's staging buffer, which
  the pipeline writes back after the last.  This module: the windows' blocks, when the body clears the accumulator, and the
  body run in each of the two cases.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The body clears its accumulator when the edge-block coordinate is zero. -/
abbrev cond10_0 (i : grid10.Coords) : Prop := (Scalar.cmpi .ne (Scalar.extui (Scalar.cmpi .eq (BitVec.ofNat 32 (i 1).val) 0#32)) 0#32) = 1#1
/-- That is at the points ≡ 0 (mod 196): the first point of each node block. -/
theorem hcond10_0 : ∀ t : Fin cfg10.N, cond10_0 (grid10.coords t) ↔ t.val % 196 = 0 :=
  (by decide +kernel : ∀ t : Fin grid10.N, cond10_0 (grid10.coords t) ↔ t.val % 196 = 0)

/-- One staging buffer of the output window, through which its contents are stated. -/
abbrev VO10_2 : View sig .tc .vmem S1000x64 .f32 := (Memref.whole cc10_stg2_0 : Memref sig .tc .vmem S1000x64 .f32).view
/-- Each window's current staging memref at point t, and its wholeness. -/
abbrev ms10_0 (t : Fin cfg10.N) : Memref sig .tc .vmem S4096 .i32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S4096x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1000x64 .f32 := win10_2.stage (cfg10.slots t 2)
abbrev hs10_2 (t : Fin cfg10.N) : (ms10_2 t).IsWhole := hstage10_2 ((cfg10.slots t 2).cast nbuf10_2)
/-- The accumulator: a whole buffer of the kernel's own. -/
abbrev scM10_0 : Memref sig .tc .vmem S1000x64 .f32 := Memref.whole cc10_scratch0
abbrev VS10_0 : View sig .tc .vmem S1000x64 .f32 := scM10_0.view

/-- The region's invariant at entry, with the accumulator as a memref owned at some contents; the other buffers of the
    kernel regions stay closed. -/
theorem PhiA10_eq (c : Dev nD) :
    (Pipeline.ΦA spec10 c : sProp 𝕄)
      = iprop(iprop(iprop((∃ d, owns (c : Thread nD τ) scM10_0 fullShare d))
          ∗ Pipeline.scopedRestBut (Ix := Unit) (Name := ℕ) (U := UR sig nD τ) (Lvl := ℕ) (Val := Elt F) spec10 c [cc10_scratch0]) ∗ (∃ r, prngReg c r)) := by
  unfold Pipeline.ΦA; rw [scopedRest10_split]; simp only [scM10_0, owns_whole]; try rfl

set_option maxHeartbeats 2000000 in
/-- The body at the FIRST point of a node block: the inputs' memrefs at their contents, the output's and the
    accumulator's at anything; it runs to the continuation with the inputs as they were and the stores into the output's
    buffer and into the accumulator as pieces (last first), which the run finds. -/
noncomputable def kernelRun10_A (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : cond10_0 i)
    (x0 : Vec F S4096 .i32) (x1 : Vec F S4096x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc10_scatter_kernel i arg2 harg2 arg3 harg3 arg4 harg4 arg5 harg5) K } := by
  refine ⟨?_, ?_, fun E K => ?run⟩
  case run =>
    simp only [cc10_scatter_kernel_eq_skeleton]; unfold cc10_scatter_kernel_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

set_option maxHeartbeats 2000000 in
/-- The body at a LATER point of a node block: the accumulator at what the point before left (xs0). -/
noncomputable def kernelRun10_B (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬cond10_0 i)
    (x0 : Vec F S4096 .i32) (x1 : Vec F S4096x64 .f32) (xs0 : Vec F S1000x64 .f32) :
    Σ' (L2 : List (View.Piece (Elt F) S1000x64 .f32)), { LS0 : List (View.Piece (Elt F) S1000x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0)) -∗ K ⟨⟩))
          ⊢ wp frame (wpE (defs₀ (F := F)) Variants.none c none) E (cc10_scatter_kernel i arg2 harg2 arg3 harg3 arg4 harg4 arg5 harg5) K } := by
  refine ⟨?_, ?_, fun E K => ?run⟩
  case run =>
    simp only [cc10_scatter_kernel_eq_skeleton]; unfold cc10_scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.RegScatter10.lean ====
/-
  The scatter-sum's region, continued: what each case of the body leaves in the output's staging buffer and in the accumulator,
  those contents point by point along the grid, the region's invariant (the accumulator at what the point before left),
  the pipeline's proof data and the body obligation at every point.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.RegScatter10Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first-point case's stores into the output's buffer cover it; what they leave. -/
theorem cover10_A_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) (y : S1000x64.Idx) :
    ∃ pc ∈ (kernelRun10_A c i arg2 harg2 arg3 harg3 arg4 harg4 arg5 harg5 hc0 x0 x1).1, y ∈ pc.1.set :=
  View.cover_of_tiledL (kernelRun10_A c i arg2 harg2 arg3 harg3 arg4 harg4 arg5 harg5 hc0 x0 x1).1 S1000x64.size (by sl_kernel_rfl) y
def out10_A_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) : Vec F S1000x64 .f32 :=
  VO10_2.read (Elt F) (VO10_2.writes (Elt F) VO10_2.junk (kernelRun10_A c i arg2 harg2 arg3 harg3 arg4 harg4 arg5 harg5 hc0 x0 x1).1)
/-- Its stores into the accumulator cover it; what they leave. -/
theorem scover10_A_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) (y : S1000x64.Idx) :
    ∃ pc ∈ (kernelRun10_A c i arg2 harg2 arg3 harg3 arg4 harg4 arg5 harg5 hc0 x0 x1).2.1, y ∈ pc.1.set :=
  View.cover_of_tiledL (kernelRun10_A c i arg2 harg2 arg3 harg3 arg4 harg4 arg5 harg5 hc0 x0 x1).2.1 S1000x64.size (by sl_kernel_rfl) y
def sout10_A_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : cond10_0 i) (x0 : Vec F S4096 .i32) (x1 : Vec F S4096x64 .f32) : Vec F S1000x64 .f32 :=
  VS10_0.read (Elt F) (VS10_0.writes (Elt F) VS10_0.junk (kernelRun10_A c i arg2 harg2 arg3 harg3 arg4 harg4 arg5 harg5 hc0 x0 x1).2.1)

/-- The same of the later-point case, over what the point before left in the accumulator. -/
theorem cover10_B_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) (y : S1000x64.Idx) :
    ∃ pc ∈ (kernelRun10_B c i arg2 harg2 arg3 harg3 arg4 harg4 arg5 harg5 hc0 x0 x1 xs0).1, y ∈ pc.1.set :=
  View.cover_of_tiledL (kernelRun10_B c i arg2 harg2 arg3 harg3 arg4 harg4 arg5 harg5 hc0 x0 x1 xs0).1 S1000x64.size (by sl_kernel_rfl) y
def out10_B_2 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) : Vec F S1000x64 .f32 :=
  VO10_2.read (Elt F) (VO10_2.writes (Elt F) VO10_2.junk (kernelRun10_B c i arg2 harg2 arg3 harg3 arg4 harg4 arg5 harg5 hc0 x0 x1 xs0).1)
theorem scover10_B_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) (y : S1000x64.Idx) :
    ∃ pc ∈ (kernelRun10_B c i arg2 harg2 arg3 harg3 arg4 harg4 arg5 harg5 hc0 x0 x1 xs0).2.1, y ∈ pc.1.set :=
  View.cover_of_tiledL (kernelRun10_B c i arg2 harg2 arg3 harg3 arg4 harg4 arg5 harg5 hc0 x0 x1 xs0).2.1 S1000x64.size (by sl_kernel_rfl) y
def sout10_B_0 (c : Dev nD) (i : grid10.Coords) (arg2 : Memref sig .tc .vmem S4096 .i32) (harg2 : arg2.IsWhole) (arg3 : Memref sig .tc .vmem S4096x64 .f32) (harg3 : arg3.IsWhole) (arg4 : Memref sig .tc .vmem S1000x64 .f32) (harg4 : arg4.IsWhole) (arg5 : Memref sig .tc .vmem S1000x64 .f32) (harg5 : arg5.IsWhole) (hc0 : ¬cond10_0 i) (x0 : Vec F S4096 .i32) (x1 : Vec F S4096x64 .f32) (xs0 : Vec F S1000x64 .f32) : Vec F S1000x64 .f32 :=
  VS10_0.read (Elt F) (VS10_0.writes (Elt F) VS10_0.junk (kernelRun10_B c i arg2 harg2 arg3 harg3 arg4 harg4 arg5 harg5 hc0 x0 x1 xs0).2.1)

/-- THE ACCUMULATION: what the output's staging buffer and the accumulator hold after the body at position n. -/
def outsAt10 (c : Dev nD) : (n : ℕ) → n < cfg10.N → Vec F S1000x64 .f32 × Vec F S1000x64 .f32
  | 0, hn => (out10_A_2 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (iblk10 V c 0 ⟨0, hn⟩) (iblk10 V c 1 ⟨0, hn⟩),
      sout10_A_0 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) scM10_0 (Memref.isWhole_whole _) ((hcond10_0 ⟨0, hn⟩).mpr (Nat.zero_mod _)) (iblk10 V c 0 ⟨0, hn⟩) (iblk10 V c 1 ⟨0, hn⟩))
  | n + 1, hn =>
    if h0 : (n + 1) % 196 = 0 then
      (out10_A_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (iblk10 V c 0 ⟨n + 1, hn⟩) (iblk10 V c 1 ⟨n + 1, hn⟩),
        sout10_A_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) ((hcond10_0 ⟨n + 1, hn⟩).mpr h0) (iblk10 V c 0 ⟨n + 1, hn⟩) (iblk10 V c 1 ⟨n + 1, hn⟩))
    else
      (out10_B_2 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (iblk10 V c 0 ⟨n + 1, hn⟩) (iblk10 V c 1 ⟨n + 1, hn⟩) (outsAt10 c n (Nat.lt_of_succ_lt hn)).2,
        sout10_B_0 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) scM10_0 (Memref.isWhole_whole _) (fun h => h0 ((hcond10_0 ⟨n + 1, hn⟩).mp h)) (iblk10 V c 0 ⟨n + 1, hn⟩) (iblk10 V c 1 ⟨n + 1, hn⟩) (outsAt10 c n (Nat.lt_of_succ_lt hn)).2)

theorem outsAt10_A (c : Dev nD) (t : Fin cfg10.N) (h0 : t.val % 196 = 0) :
    outsAt10 V c t.val t.isLt = (out10_A_2 c (grid10.coords t) (ms10_0 t) (hs10_0 t) (ms10_1 t) (hs10_1 t) (ms10_2 t) (hs10_2 t) scM10_0 (Memref.isWhole_whole _) ((hcond10_0 t).mpr h0) (iblk10 V c 0 t) (iblk10 V c 1 t),
      sout10_A_0 c (grid10.coords t) (ms10_0 t) (hs10_0 t) (ms10_1 t) (hs10_1 t) (ms10_2 t) (hs10_2 t) scM10_0 (Memref.isWhole_whole _) ((hcond10_0 t).mpr h0) (iblk10 V c 0 t) (iblk10 V c 1 t)) := by
  obtain ⟨n, hn⟩ := t
  cases n with
  | zero => exact rfl
  | succ n => exact (dif_pos h0).trans rfl

theorem outsAt10_B (c : Dev nD) (t : Fin cfg10.N) (h0 : ¬t.val % 196 = 0) :
    outsAt10 V c t.val t.isLt = (out10_B_2 c (grid10.coords t) (ms10_0 t) (hs10_0 t) (ms10_1 t) (hs10_1 t) (ms10_2 t) (hs10_2 t) scM10_0 (Memref.isWhole_whole _) (fun h => h0 ((hcond10_0 t).mp h)) (iblk10 V c 0 t) (iblk10 V c 1 t) (outsAt10 V c (t.val - 1) (Nat.lt_of_le_of_lt (Nat.sub_le _ _) t.isLt)).2,
      sout10_B_0 c (grid10.coords t) (ms10_0 t) (hs10_0 t) (ms10_1 t) (hs10_1 t) (ms10_2 t) (hs10_2 t) scM10_0 (Memref.isWhole_whole _) (fun h => h0 ((hcond10_0 t).mp h)) (iblk10 V c 0 t) (iblk10 V c 1 t) (outsAt10 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at entry the launch's; afterwards the accumulator at what the point before
    left in it, the other regions' buffers closed, the generator register at some state. -/
def PhiS10 (c : Dev nD) : (n : ℕ) → n ≤ cfg10.N → sProp 𝕄
  | 0, _ => Pipeline.ΦA spec10 c
  | n + 1, hn => iprop(iprop(owns (c : Thread nD τ) scM10_0 fullShare ((outsAt10 V c n hn).2)
      ∗ Pipeline.scopedRestBut (Ix := Unit) (Name := ℕ) (U := UR sig nD τ) (Lvl := ℕ) (Val := Elt F) spec10 c [cc10_scratch0]) ∗ (∃ r, prngReg c r))

theorem PhiS10_zero (c : Dev nD) (n : ℕ) (h : n ≤ cfg10.N) (hz : n = 0) : PhiS10 V c n h = Pipeline.ΦA spec10 c := by
  subst hz; rfl
theorem PhiS10_succ (c : Dev nD) (n : ℕ) (hn : n < cfg10.N) :
    PhiS10 V c (n + 1) hn = iprop(iprop(owns (c : Thread nD τ) scM10_0 fullShare ((outsAt10 V c n hn).2)
      ∗ Pipeline.scopedRestBut (Ix := Unit) (Name := ℕ) (U := UR sig nD τ) (Lvl := ℕ) (Val := Elt F) spec10 c [cc10_scratch0]) ∗ (∃ r, prngReg c r)) := rfl
theorem PhiS10_pos (c : Dev nD) (n : ℕ) (h : n ≤ cfg10.N) (hz : n ≠ 0) :
    PhiS10 V c n h = iprop(iprop(owns (c : Thread nD τ) scM10_0 fullShare ((outsAt10 V c (n - 1) (by omega)).2)
      ∗ Pipeline.scopedRestBut (Ix := Unit) (Name := ℕ) (U := UR sig nD τ) (Lvl := ℕ) (Val := Elt F) spec10 c [cc10_scratch0]) ∗ (∃ r, prngReg c r)) := by
  cases n with
  | zero => exact absurd rfl hz
  | succ n => rfl

/-- The proof data of the pipeline on core c. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => (outsAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]
theorem PhiS10_castSucc (c : Dev nD) (t : Fin cfg10.N) :
    (dat10 V c).Φ t.castSucc = PhiS10 V c t.val (Nat.le_of_lt t.isLt) := by
  dsimp only [dat10]; simp only [Fin.coe_castSucc]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = (outsAt10 V c t.val t.isLt).1 := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point t, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))
/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t))

set_option maxHeartbeats 4000000 in
/-- The body at any point: the inputs' memrefs hold their blocks; the point is the first of its node block or a later one;
    the invariant hands the body the accumulator (at anything at the first point of the grid, at what the point before left
    afterwards) and takes it back at this point's contents. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl]
  rw [show (dat10 V c).Φ t.succ = PhiS10 V c (t.val + 1) t.isLt from rfl, PhiS10_succ]
  rw [after10_0, after10_1, after10_2]
  by_cases h0 : t.val % 196 = 0
  · rw [outsAt10_A V c t h0]
    unfold out10_A_2 sout10_A_0; (try dsimp only)
    by_cases hz : t.val = 0
    · rw [PhiS10_castSucc V c t, PhiS10_zero V c _ _ hz, PhiA10_eq]
      iintro ⟨⟨⟨HS0, Hrest⟩, Hg⟩, Ho, ⟨%d0, H0⟩, ⟨%d1, H1⟩, ⟨%d2, H2⟩⟩
      iapply ((kernelRun10_A c (grid10.coords t) _ _ _ _ _ _ _ _ ((hcond10_0 t).mpr h0) (iblk10 V c 0 t) (iblk10 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_A_2 c _ _ _ _ _ _ _ _ _ _ _ _)
    · rw [PhiS10_castSucc V c t, PhiS10_pos V c _ _ hz]
      iintro ⟨⟨⟨HS0, Hrest⟩, Hg⟩, Ho, ⟨%d0, H0⟩, ⟨%d1, H1⟩, ⟨%d2, H2⟩⟩
      iapply ((kernelRun10_A c (grid10.coords t) _ _ _ _ _ _ _ _ ((hcond10_0 t).mpr h0) (iblk10 V c 0 t) (iblk10 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover10_A_0 c _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover10_A_2 c _ _ _ _ _ _ _ _ _ _ _ _)
  · rw [outsAt10_B V c t h0]
    unfold out10_B_2 sout10_B_0; (try dsimp only)
    have hz : t.val ≠ 0 := fun hz => h0 (by rw [hz])
    rw [PhiS10_castSucc V c t, PhiS10_pos V c _ _ hz]
    iintro ⟨⟨⟨HS0, Hrest⟩, Hg⟩, Ho, ⟨%d0, H0⟩, ⟨%d1, H1⟩, ⟨%d2, H2⟩⟩
    iapply ((kernelRun10_B c (grid10.coords t) _ _ _ _ _ _ _ _ (fun h => h0 ((hcond10_0 t).mp h)) (iblk10 V c 0 t) (iblk10 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover10_B_0 c _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover10_B_2 c _ _ _ _ _ _ _ _ _ _ _ _ _)

/-- The pipeline library's body obligation, at every point. -/
theorem body_obligation10 (c : Dev nD) : BodyObligation (dat10 (F := F) V c) (defs₀ (F := F)) Variants.none () Set.univ := fun t => by
  rw [bigSep_W10, bigSep_W10]
  exact sound_body10 V c t

/-- The invariant before the first point is the launch's. -/
theorem Phi_zero10 (c : Dev nD) : (dat10 V c).Φ 0 = Pipeline.ΦA spec10 c := rfl

/-- After the last point the invariant gives the launch's back: the accumulator's contents are forgotten. -/
theorem Phi_last10 (c : Dev nD) : (dat10 V c).Φ (Fin.last cfg10.N) ⊢ Pipeline.ΦA spec10 c := by
  rw [show (dat10 V c).Φ (Fin.last cfg10.N) = PhiS10 V c cfg10.N (Nat.le_refl _) from rfl,
    PhiS10_pos V c _ _ (by rw [show cfg10.N = 9800 from N_10]; decide), PhiA10_eq]
  iintro ⟨⟨HS0, Hrest⟩, Hg⟩
  isplitl [HS0 Hrest]
  · isplitl [HS0]
    · iexists _; iexact HS0
    iexact Hrest
  iexact Hg

end Cert.KernelIdeal.Reg

end
-- ==== Proof.RegGru11.lean ====
/-
  The third recurrent cell's region: every grid point stages a block of 2000 rows of the aggregated messages and of the
  node states, the two whole gate matrices and the two bias rows, and the body stores the cell's 2000 new rows into the
  output's staging buffer, which the pipeline writes back.  Stated at the buffer contents V the region is entered with:
  what each window's buffer holds at a point, what the body leaves, the proof data of the pipeline and its body obligation.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's current staging buffer holds its block at every point, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- The whole rectangle of each staging buffer: the body loads and stores nothing smaller. -/
abbrev r11_0 : Rect S2000x64 := Rect.unit (s := S2000x64) ![0, 0] S2000x64.size inb_S2000x64_S2000x64_0_0
abbrev r11_2 : Rect S192x64 := Rect.unit (s := S192x64) ![0, 0] S192x64.size inb_S192x64_S192x64_0_0
abbrev r11_4 : Rect S1x192 := Rect.unit (s := S1x192) ![0, 0] S1x192.size inb_S1x192_S1x192_0_0

/-- What the body leaves in the output's staging buffer: its one store, of the recurrent cell of the six input blocks. -/
def out11_6 (x0 : Vec F S2000x64 .f32) (x1 : Vec F S2000x64 .f32) (x2 : Vec F S192x64 .f32) (x3 : Vec F S192x64 .f32) (x4 : Vec F S1x192 .f32) (x5 : Vec F S1x192 .f32) : Vec F S2000x64 .f32 :=
  View.canon [⟨r11_0, k11_pay1 (View.ld x0 r11_0) (View.ld x1 r11_0) (View.ld x2 r11_2) (View.ld x3 r11_2) (View.ld x4 r11_4) (View.ld x5 r11_4)⟩]

/-- The one store covers the buffer. -/
theorem cover11_6 (p0 : Vec F S2000x64 .f32) (y : S2000x64.Idx) :
    ∃ pc ∈ ([⟨r11_0, p0⟩] : List (View.Piece (Elt F) S2000x64 .f32)), y ∈ pc.1.set :=
  View.cover_of_tiled [⟨r11_0, p0⟩] S2000x64.size (by rfl) y

set_option maxHeartbeats 1000000 in
/-- The body on whole staging memrefs, the inputs' at contents x0 … x5 and the output's at anything, runs to the
    continuation holding the inputs' as they were and the output's at the recurrent cell of them. -/
theorem sound_kernel11 (c : Dev nD) (E : Set ℕ) (i : grid11.Coords)
    (arg1 : Memref sig .tc .vmem S2000x64 .f32) (harg1 : arg1.IsWhole) (arg2 : Memref sig .tc .vmem S2000x64 .f32) (harg2 : arg2.IsWhole)
    (arg3 : Memref sig .tc .vmem S192x64 .f32) (harg3 : arg3.IsWhole) (arg4 : Memref sig .tc .vmem S192x64 .f32) (harg4 : arg4.IsWhole)
    (arg5 : Memref sig .tc .vmem S1x192 .f32) (harg5 : arg5.IsWhole) (arg6 : Memref sig .tc .vmem S1x192 .f32) (harg6 : arg6.IsWhole)
    (arg7 : Memref sig .tc .vmem S2000x64 .f32) (harg7 : arg7.IsWhole)
    (x0 : Vec F S2000x64 .f32) (x1 : Vec F S2000x64 .f32) (x2 : Vec F S192x64 .f32) (x3 : Vec F S192x64 .f32) (x4 : Vec F S1x192 .f32) (x5 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out11_6 x0 x1 x2 x3 x4 x5)) -∗ K ⟨⟩))
      ⊢ wp frame (wpE (defs₀ (F := F)) Variants.none c none) E (cc11_gru_kernel i arg1 harg1 arg2 harg2 arg3 harg3 arg4 harg4 arg5 harg5 arg6 harg6 arg7 harg7) K := by
  simp only [cc11_gru_kernel_eq_skeleton]; unfold cc11_gru_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover11_6 _)

/-- The proof data of the pipeline on core c: the arrays as the region finds them; after the body at point t each input's
    buffer at its block and the output's at the recurrent cell of the input blocks; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => out11_6 (iblk11 V c 0 t) (iblk11 V c 1 t) (iblk11 V c 2 t) (iblk11 V c 3 t) (iblk11 V c 4 t) (iblk11 V c 5 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) :
    (dat11 V c).after 6 t = out11_6 (iblk11 V c 0 t) (iblk11 V c 1 t) (iblk11 V c 2 t) (iblk11 V c 3 t) (iblk11 V c 4 t) (iblk11 V c 5 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d

/-- What the body is called with at point t, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t))

/-- The body at any point: the inputs' memrefs hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel11 c Set.univ _ _ _ _ _ _ _ _ _ _ _ _ _ _ _ (iblk11 V c 0 t) (iblk11 V c 1 t) (iblk11 V c 2 t) (iblk11 V c 3 t) (iblk11 V c 4 t) (iblk11 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.AsmVals.lean ====
/-
  The buffer contents between the twelve regions of the program.  A region changes one buffer — its output array, which
  ends holding what the pipeline's write-backs leave — and every other buffer keeps what it held when the region was
  entered; so the contents at each boundary are a fold through the program from the launch memory, and every argument array
  reaches the end as launched.  Also: every pipeline's proof data, each at its region's entry contents.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.Gen.KernelIdeal.Regions
import proofs.«163112_j15616501088829_2_alg».proof.Proof.RegLin0
import proofs.«163112_j15616501088829_2_alg».proof.Proof.RegGather1
import proofs.«163112_j15616501088829_2_alg».proof.Proof.RegScatter2
import proofs.«163112_j15616501088829_2_alg».proof.Proof.RegGru3
import proofs.«163112_j15616501088829_2_alg».proof.Proof.RegLin4
import proofs.«163112_j15616501088829_2_alg».proof.Proof.RegGather5
import proofs.«163112_j15616501088829_2_alg».proof.Proof.RegScatter6
import proofs.«163112_j15616501088829_2_alg».proof.Proof.RegGru7
import proofs.«163112_j15616501088829_2_alg».proof.Proof.RegLin8
import proofs.«163112_j15616501088829_2_alg».proof.Proof.RegGather9
import proofs.«163112_j15616501088829_2_alg».proof.Proof.RegScatter10
import proofs.«163112_j15616501088829_2_alg».proof.Proof.RegGru11
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The contents when the first region is entered: the launch memory after the host operations that reshape the bias
    vectors and pad the edge words. -/
def X4 (c : Dev nD) : Valuation τ sig (Elt F) := Gen.V4 m c
/-- The same read at the TensorCore's references. -/
abbrev Y4 : (c : Dev nD) → (b : Ref sig .tc) → Buf (Elt F) ((c : Thread nD τ).loc b) := fun c b => X4 m c b

/-- After region 0: its arrays at what the pipeline leaves, every other buffer as entered. -/
def X5 (c : Dev nD) : Valuation τ sig (Elt F) :=
  Pipeline.withArrays spec0 c (X4 m c) fun w => (dat0 (Y4 m) c).arrAt w cfg0.N
theorem X5_arr (c : Dev nD) (w : Fin cfg0.W) :
    X5 m c (Proc.devRef .tc (Pipeline.arrRef spec0 w)) = (dat0 (Y4 m) c).arrAt w cfg0.N := by
  unfold X5; exact Pipeline.withArrays_arr spec0 launch0.win.arr_inj c _ _ w
theorem X5_of_ne (c : Dev nD) (b : Ref sig .tc) (hb : ∀ w, Pipeline.arrRef spec0 w ≠ b) :
    X5 m c (Proc.devRef .tc b) = X4 m c (Proc.devRef .tc b) := by
  unfold X5; exact Pipeline.withArrays_of_ne spec0 c _ _ b hb
abbrev Y5 : (c : Dev nD) → (b : Ref sig .tc) → Buf (Elt F) ((c : Thread nD τ).loc b) := fun c b => X5 m c b
theorem hF0 (c : Dev nD) (w : Fin cfg0.W) : (dat0 (Y4 m) c).arrAt w cfg0.N = Y5 m c (Pipeline.arrRef spec0 w) :=
  (X5_arr m c w).symm
theorem hrest0 (c : Dev nD) : ∀ b, b ∉ Finset.univ.image (Pipeline.arrRef spec0) → Y5 m c b = Y4 m c b :=
  fun b hb => X5_of_ne m c b fun w e => hb (Finset.mem_image.mpr ⟨w, Finset.mem_univ _, e⟩)
/-- Region 0 changes only its output array main_v5: an input array is read back as entered, any other buffer bypasses it. -/
theorem X5_keep (c : Dev nD) (b : Ref sig .tc) (hb : b ≠ main_v5) : X5 m c (Proc.devRef .tc b) = X4 m c (Proc.devRef .tc b) := by
  by_cases h : ∃ w, Pipeline.arrRef spec0 w = b
  · obtain ⟨w, rfl⟩ := h
    have hin : (cfg0.win w).isOut = false := by
      match w, hb with
      | ⟨0, _⟩, _ => rfl
      | ⟨1, _⟩, _ => rfl
      | ⟨2, _⟩, _ => rfl
      | ⟨3, _⟩, hb => exact absurd rfl hb
    exact (X5_arr m c w).trans (((dat0 (Y4 m) c).arrAt_in w hin _).trans (A_eq0 (Y4 m) c w))
  · exact X5_of_ne m c b fun w e => h ⟨w, e⟩

/-- After region 1: its arrays at what the pipeline leaves, every other buffer as entered. -/
def X6 (c : Dev nD) : Valuation τ sig (Elt F) :=
  Pipeline.withArrays spec1 c (X5 m c) fun w => (dat1 (Y5 m) c).arrAt w cfg1.N
theorem X6_arr (c : Dev nD) (w : Fin cfg1.W) :
    X6 m c (Proc.devRef .tc (Pipeline.arrRef spec1 w)) = (dat1 (Y5 m) c).arrAt w cfg1.N := by
  unfold X6; exact Pipeline.withArrays_arr spec1 launch1.win.arr_inj c _ _ w
theorem X6_of_ne (c : Dev nD) (b : Ref sig .tc) (hb : ∀ w, Pipeline.arrRef spec1 w ≠ b) :
    X6 m c (Proc.devRef .tc b) = X5 m c (Proc.devRef .tc b) := by
  unfold X6; exact Pipeline.withArrays_of_ne spec1 c _ _ b hb
abbrev Y6 : (c : Dev nD) → (b : Ref sig .tc) → Buf (Elt F) ((c : Thread nD τ).loc b) := fun c b => X6 m c b
theorem hF1 (c : Dev nD) (w : Fin cfg1.W) : (dat1 (Y5 m) c).arrAt w cfg1.N = Y6 m c (Pipeline.arrRef spec1 w) :=
  (X6_arr m c w).symm
theorem hrest1 (c : Dev nD) : ∀ b, b ∉ Finset.univ.image (Pipeline.arrRef spec1) → Y6 m c b = Y5 m c b :=
  fun b hb => X6_of_ne m c b fun w e => hb (Finset.mem_image.mpr ⟨w, Finset.mem_univ _, e⟩)
/-- Region 1 changes only its output array main_v6: an input array is read back as entered, any other buffer bypasses it. -/
theorem X6_keep (c : Dev nD) (b : Ref sig .tc) (hb : b ≠ main_v6) : X6 m c (Proc.devRef .tc b) = X5 m c (Proc.devRef .tc b) := by
  by_cases h : ∃ w, Pipeline.arrRef spec1 w = b
  · obtain ⟨w, rfl⟩ := h
    have hin : (cfg1.win w).isOut = false := by
      match w, hb with
      | ⟨0, _⟩, _ => rfl
      | ⟨1, _⟩, _ => rfl
      | ⟨2, _⟩, hb => exact absurd rfl hb
    exact (X6_arr m c w).trans (((dat1 (Y5 m) c).arrAt_in w hin _).trans (A_eq1 (Y5 m) c w))
  · exact X6_of_ne m c b fun w e => h ⟨w, e⟩

/-- After region 2: its arrays at what the pipeline leaves, every other buffer as entered. -/
def X7 (c : Dev nD) : Valuation τ sig (Elt F) :=
  Pipeline.withArrays spec2 c (X6 m c) fun w => (dat2 (Y6 m) c).arrAt w cfg2.N
theorem X7_arr (c : Dev nD) (w : Fin cfg2.W) :
    X7 m c (Proc.devRef .tc (Pipeline.arrRef spec2 w)) = (dat2 (Y6 m) c).arrAt w cfg2.N := by
  unfold X7; exact Pipeline.withArrays_arr spec2 launch2.win.arr_inj c _ _ w
theorem X7_of_ne (c : Dev nD) (b : Ref sig .tc) (hb : ∀ w, Pipeline.arrRef spec2 w ≠ b) :
    X7 m c (Proc.devRef .tc b) = X6 m c (Proc.devRef .tc b) := by
  unfold X7; exact Pipeline.withArrays_of_ne spec2 c _ _ b hb
abbrev Y7 : (c : Dev nD) → (b : Ref sig .tc) → Buf (Elt F) ((c : Thread nD τ).loc b) := fun c b => X7 m c b
theorem hF2 (c : Dev nD) (w : Fin cfg2.W) : (dat2 (Y6 m) c).arrAt w cfg2.N = Y7 m c (Pipeline.arrRef spec2 w) :=
  (X7_arr m c w).symm
theorem hrest2 (c : Dev nD) : ∀ b, b ∉ Finset.univ.image (Pipeline.arrRef spec2) → Y7 m c b = Y6 m c b :=
  fun b hb => X7_of_ne m c b fun w e => hb (Finset.mem_image.mpr ⟨w, Finset.mem_univ _, e⟩)
/-- Region 2 changes only its output array main_v7: an input array is read back as entered, any other buffer bypasses it. -/
theorem X7_keep (c : Dev nD) (b : Ref sig .tc) (hb : b ≠ main_v7) : X7 m c (Proc.devRef .tc b) = X6 m c (Proc.devRef .tc b) := by
  by_cases h : ∃ w, Pipeline.arrRef spec2 w = b
  · obtain ⟨w, rfl⟩ := h
    have hin : (cfg2.win w).isOut = false := by
      match w, hb with
      | ⟨0, _⟩, _ => rfl
      | ⟨1, _⟩, _ => rfl
      | ⟨2, _⟩, hb => exact absurd rfl hb
    exact (X7_arr m c w).trans (((dat2 (Y6 m) c).arrAt_in w hin _).trans (A_eq2 (Y6 m) c w))
  · exact X7_of_ne m c b fun w e => h ⟨w, e⟩

/-- After region 3: its arrays at what the pipeline leaves, every other buffer as entered. -/
def X8 (c : Dev nD) : Valuation τ sig (Elt F) :=
  Pipeline.withArrays spec3 c (X7 m c) fun w => (dat3 (Y7 m) c).arrAt w cfg3.N
theorem X8_arr (c : Dev nD) (w : Fin cfg3.W) :
    X8 m c (Proc.devRef .tc (Pipeline.arrRef spec3 w)) = (dat3 (Y7 m) c).arrAt w cfg3.N := by
  unfold X8; exact Pipeline.withArrays_arr spec3 launch3.win.arr_inj c _ _ w
theorem X8_of_ne (c : Dev nD) (b : Ref sig .tc) (hb : ∀ w, Pipeline.arrRef spec3 w ≠ b) :
    X8 m c (Proc.devRef .tc b) = X7 m c (Proc.devRef .tc b) := by
  unfold X8; exact Pipeline.withArrays_of_ne spec3 c _ _ b hb
abbrev Y8 : (c : Dev nD) → (b : Ref sig .tc) → Buf (Elt F) ((c : Thread nD τ).loc b) := fun c b => X8 m c b
theorem hF3 (c : Dev nD) (w : Fin cfg3.W) : (dat3 (Y7 m) c).arrAt w cfg3.N = Y8 m c (Pipeline.arrRef spec3 w) :=
  (X8_arr m c w).symm
theorem hrest3 (c : Dev nD) : ∀ b, b ∉ Finset.univ.image (Pipeline.arrRef spec3) → Y8 m c b = Y7 m c b :=
  fun b hb => X8_of_ne m c b fun w e => hb (Finset.mem_image.mpr ⟨w, Finset.mem_univ _, e⟩)
/-- Region 3 changes only its output array main_v8: an input array is read back as entered, any other buffer bypasses it. -/
theorem X8_keep (c : Dev nD) (b : Ref sig .tc) (hb : b ≠ main_v8) : X8 m c (Proc.devRef .tc b) = X7 m c (Proc.devRef .tc b) := by
  by_cases h : ∃ w, Pipeline.arrRef spec3 w = b
  · obtain ⟨w, rfl⟩ := h
    have hin : (cfg3.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X8_arr m c w).trans (((dat3 (Y7 m) c).arrAt_in w hin _).trans (A_eq3 (Y7 m) c w))
  · exact X8_of_ne m c b fun w e => h ⟨w, e⟩

/-- After region 4: its arrays at what the pipeline leaves, every other buffer as entered. -/
def X9 (c : Dev nD) : Valuation τ sig (Elt F) :=
  Pipeline.withArrays spec4 c (X8 m c) fun w => (dat4 (Y8 m) c).arrAt w cfg4.N
theorem X9_arr (c : Dev nD) (w : Fin cfg4.W) :
    X9 m c (Proc.devRef .tc (Pipeline.arrRef spec4 w)) = (dat4 (Y8 m) c).arrAt w cfg4.N := by
  unfold X9; exact Pipeline.withArrays_arr spec4 launch4.win.arr_inj c _ _ w
theorem X9_of_ne (c : Dev nD) (b : Ref sig .tc) (hb : ∀ w, Pipeline.arrRef spec4 w ≠ b) :
    X9 m c (Proc.devRef .tc b) = X8 m c (Proc.devRef .tc b) := by
  unfold X9; exact Pipeline.withArrays_of_ne spec4 c _ _ b hb
abbrev Y9 : (c : Dev nD) → (b : Ref sig .tc) → Buf (Elt F) ((c : Thread nD τ).loc b) := fun c b => X9 m c b
theorem hF4 (c : Dev nD) (w : Fin cfg4.W) : (dat4 (Y8 m) c).arrAt w cfg4.N = Y9 m c (Pipeline.arrRef spec4 w) :=
  (X9_arr m c w).symm
theorem hrest4 (c : Dev nD) : ∀ b, b ∉ Finset.univ.image (Pipeline.arrRef spec4) → Y9 m c b = Y8 m c b :=
  fun b hb => X9_of_ne m c b fun w e => hb (Finset.mem_image.mpr ⟨w, Finset.mem_univ _, e⟩)
/-- Region 4 changes only its output array main_v9: an input array is read back as entered, any other buffer bypasses it. -/
theorem X9_keep (c : Dev nD) (b : Ref sig .tc) (hb : b ≠ main_v9) : X9 m c (Proc.devRef .tc b) = X8 m c (Proc.devRef .tc b) := by
  by_cases h : ∃ w, Pipeline.arrRef spec4 w = b
  · obtain ⟨w, rfl⟩ := h
    have hin : (cfg4.win w).isOut = false := by
      match w, hb with
      | ⟨0, _⟩, _ => rfl
      | ⟨1, _⟩, _ => rfl
      | ⟨2, _⟩, _ => rfl
      | ⟨3, _⟩, hb => exact absurd rfl hb
    exact (X9_arr m c w).trans (((dat4 (Y8 m) c).arrAt_in w hin _).trans (A_eq4 (Y8 m) c w))
  · exact X9_of_ne m c b fun w e => h ⟨w, e⟩

/-- After region 5: its arrays at what the pipeline leaves, every other buffer as entered. -/
def X10 (c : Dev nD) : Valuation τ sig (Elt F) :=
  Pipeline.withArrays spec5 c (X9 m c) fun w => (dat5 (Y9 m) c).arrAt w cfg5.N
theorem X10_arr (c : Dev nD) (w : Fin cfg5.W) :
    X10 m c (Proc.devRef .tc (Pipeline.arrRef spec5 w)) = (dat5 (Y9 m) c).arrAt w cfg5.N := by
  unfold X10; exact Pipeline.withArrays_arr spec5 launch5.win.arr_inj c _ _ w
theorem X10_of_ne (c : Dev nD) (b : Ref sig .tc) (hb : ∀ w, Pipeline.arrRef spec5 w ≠ b) :
    X10 m c (Proc.devRef .tc b) = X9 m c (Proc.devRef .tc b) := by
  unfold X10; exact Pipeline.withArrays_of_ne spec5 c _ _ b hb
abbrev Y10 : (c : Dev nD) → (b : Ref sig .tc) → Buf (Elt F) ((c : Thread nD τ).loc b) := fun c b => X10 m c b
theorem hF5 (c : Dev nD) (w : Fin cfg5.W) : (dat5 (Y9 m) c).arrAt w cfg5.N = Y10 m c (Pipeline.arrRef spec5 w) :=
  (X10_arr m c w).symm
theorem hrest5 (c : Dev nD) : ∀ b, b ∉ Finset.univ.image (Pipeline.arrRef spec5) → Y10 m c b = Y9 m c b :=
  fun b hb => X10_of_ne m c b fun w e => hb (Finset.mem_image.mpr ⟨w, Finset.mem_univ _, e⟩)
/-- Region 5 changes only its output array main_v10: an input array is read back as entered, any other buffer bypasses it. -/
theorem X10_keep (c : Dev nD) (b : Ref sig .tc) (hb : b ≠ main_v10) : X10 m c (Proc.devRef .tc b) = X9 m c (Proc.devRef .tc b) := by
  by_cases h : ∃ w, Pipeline.arrRef spec5 w = b
  · obtain ⟨w, rfl⟩ := h
    have hin : (cfg5.win w).isOut = false := by
      match w, hb with
      | ⟨0, _⟩, _ => rfl
      | ⟨1, _⟩, _ => rfl
      | ⟨2, _⟩, hb => exact absurd rfl hb
    exact (X10_arr m c w).trans (((dat5 (Y9 m) c).arrAt_in w hin _).trans (A_eq5 (Y9 m) c w))
  · exact X10_of_ne m c b fun w e => h ⟨w, e⟩

/-- After region 6: its arrays at what the pipeline leaves, every other buffer as entered. -/
def X11 (c : Dev nD) : Valuation τ sig (Elt F) :=
  Pipeline.withArrays spec6 c (X10 m c) fun w => (dat6 (Y10 m) c).arrAt w cfg6.N
theorem X11_arr (c : Dev nD) (w : Fin cfg6.W) :
    X11 m c (Proc.devRef .tc (Pipeline.arrRef spec6 w)) = (dat6 (Y10 m) c).arrAt w cfg6.N := by
  unfold X11; exact Pipeline.withArrays_arr spec6 launch6.win.arr_inj c _ _ w
theorem X11_of_ne (c : Dev nD) (b : Ref sig .tc) (hb : ∀ w, Pipeline.arrRef spec6 w ≠ b) :
    X11 m c (Proc.devRef .tc b) = X10 m c (Proc.devRef .tc b) := by
  unfold X11; exact Pipeline.withArrays_of_ne spec6 c _ _ b hb
abbrev Y11 : (c : Dev nD) → (b : Ref sig .tc) → Buf (Elt F) ((c : Thread nD τ).loc b) := fun c b => X11 m c b
theorem hF6 (c : Dev nD) (w : Fin cfg6.W) : (dat6 (Y10 m) c).arrAt w cfg6.N = Y11 m c (Pipeline.arrRef spec6 w) :=
  (X11_arr m c w).symm
theorem hrest6 (c : Dev nD) : ∀ b, b ∉ Finset.univ.image (Pipeline.arrRef spec6) → Y11 m c b = Y10 m c b :=
  fun b hb => X11_of_ne m c b fun w e => hb (Finset.mem_image.mpr ⟨w, Finset.mem_univ _, e⟩)
/-- Region 6 changes only its output array main_v11: an input array is read back as entered, any other buffer bypasses it. -/
theorem X11_keep (c : Dev nD) (b : Ref sig .tc) (hb : b ≠ main_v11) : X11 m c (Proc.devRef .tc b) = X10 m c (Proc.devRef .tc b) := by
  by_cases h : ∃ w, Pipeline.arrRef spec6 w = b
  · obtain ⟨w, rfl⟩ := h
    have hin : (cfg6.win w).isOut = false := by
      match w, hb with
      | ⟨0, _⟩, _ => rfl
      | ⟨1, _⟩, _ => rfl
      | ⟨2, _⟩, hb => exact absurd rfl hb
    exact (X11_arr m c w).trans (((dat6 (Y10 m) c).arrAt_in w hin _).trans (A_eq6 (Y10 m) c w))
  · exact X11_of_ne m c b fun w e => h ⟨w, e⟩

/-- After region 7: its arrays at what the pipeline leaves, every other buffer as entered. -/
def X12 (c : Dev nD) : Valuation τ sig (Elt F) :=
  Pipeline.withArrays spec7 c (X11 m c) fun w => (dat7 (Y11 m) c).arrAt w cfg7.N
theorem X12_arr (c : Dev nD) (w : Fin cfg7.W) :
    X12 m c (Proc.devRef .tc (Pipeline.arrRef spec7 w)) = (dat7 (Y11 m) c).arrAt w cfg7.N := by
  unfold X12; exact Pipeline.withArrays_arr spec7 launch7.win.arr_inj c _ _ w
theorem X12_of_ne (c : Dev nD) (b : Ref sig .tc) (hb : ∀ w, Pipeline.arrRef spec7 w ≠ b) :
    X12 m c (Proc.devRef .tc b) = X11 m c (Proc.devRef .tc b) := by
  unfold X12; exact Pipeline.withArrays_of_ne spec7 c _ _ b hb
abbrev Y12 : (c : Dev nD) → (b : Ref sig .tc) → Buf (Elt F) ((c : Thread nD τ).loc b) := fun c b => X12 m c b
theorem hF7 (c : Dev nD) (w : Fin cfg7.W) : (dat7 (Y11 m) c).arrAt w cfg7.N = Y12 m c (Pipeline.arrRef spec7 w) :=
  (X12_arr m c w).symm
theorem hrest7 (c : Dev nD) : ∀ b, b ∉ Finset.univ.image (Pipeline.arrRef spec7) → Y12 m c b = Y11 m c b :=
  fun b hb => X12_of_ne m c b fun w e => hb (Finset.mem_image.mpr ⟨w, Finset.mem_univ _, e⟩)
/-- Region 7 changes only its output array main_v12: an input array is read back as entered, any other buffer bypasses it. -/
theorem X12_keep (c : Dev nD) (b : Ref sig .tc) (hb : b ≠ main_v12) : X12 m c (Proc.devRef .tc b) = X11 m c (Proc.devRef .tc b) := by
  by_cases h : ∃ w, Pipeline.arrRef spec7 w = b
  · obtain ⟨w, rfl⟩ := h
    have hin : (cfg7.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X12_arr m c w).trans (((dat7 (Y11 m) c).arrAt_in w hin _).trans (A_eq7 (Y11 m) c w))
  · exact X12_of_ne m c b fun w e => h ⟨w, e⟩

/-- After region 8: its arrays at what the pipeline leaves, every other buffer as entered. -/
def X13 (c : Dev nD) : Valuation τ sig (Elt F) :=
  Pipeline.withArrays spec8 c (X12 m c) fun w => (dat8 (Y12 m) c).arrAt w cfg8.N
theorem X13_arr (c : Dev nD) (w : Fin cfg8.W) :
    X13 m c (Proc.devRef .tc (Pipeline.arrRef spec8 w)) = (dat8 (Y12 m) c).arrAt w cfg8.N := by
  unfold X13; exact Pipeline.withArrays_arr spec8 launch8.win.arr_inj c _ _ w
theorem X13_of_ne (c : Dev nD) (b : Ref sig .tc) (hb : ∀ w, Pipeline.arrRef spec8 w ≠ b) :
    X13 m c (Proc.devRef .tc b) = X12 m c (Proc.devRef .tc b) := by
  unfold X13; exact Pipeline.withArrays_of_ne spec8 c _ _ b hb
abbrev Y13 : (c : Dev nD) → (b : Ref sig .tc) → Buf (Elt F) ((c : Thread nD τ).loc b) := fun c b => X13 m c b
theorem hF8 (c : Dev nD) (w : Fin cfg8.W) : (dat8 (Y12 m) c).arrAt w cfg8.N = Y13 m c (Pipeline.arrRef spec8 w) :=
  (X13_arr m c w).symm
theorem hrest8 (c : Dev nD) : ∀ b, b ∉ Finset.univ.image (Pipeline.arrRef spec8) → Y13 m c b = Y12 m c b :=
  fun b hb => X13_of_ne m c b fun w e => hb (Finset.mem_image.mpr ⟨w, Finset.mem_univ _, e⟩)
/-- Region 8 changes only its output array main_v13: an input array is read back as entered, any other buffer bypasses it. -/
theorem X13_keep (c : Dev nD) (b : Ref sig .tc) (hb : b ≠ main_v13) : X13 m c (Proc.devRef .tc b) = X12 m c (Proc.devRef .tc b) := by
  by_cases h : ∃ w, Pipeline.arrRef spec8 w = b
  · obtain ⟨w, rfl⟩ := h
    have hin : (cfg8.win w).isOut = false := by
      match w, hb with
      | ⟨0, _⟩, _ => rfl
      | ⟨1, _⟩, _ => rfl
      | ⟨2, _⟩, _ => rfl
      | ⟨3, _⟩, hb => exact absurd rfl hb
    exact (X13_arr m c w).trans (((dat8 (Y12 m) c).arrAt_in w hin _).trans (A_eq8 (Y12 m) c w))
  · exact X13_of_ne m c b fun w e => h ⟨w, e⟩

/-- After region 9: its arrays at what the pipeline leaves, every other buffer as entered. -/
def X14 (c : Dev nD) : Valuation τ sig (Elt F) :=
  Pipeline.withArrays spec9 c (X13 m c) fun w => (dat9 (Y13 m) c).arrAt w cfg9.N
theorem X14_arr (c : Dev nD) (w : Fin cfg9.W) :
    X14 m c (Proc.devRef .tc (Pipeline.arrRef spec9 w)) = (dat9 (Y13 m) c).arrAt w cfg9.N := by
  unfold X14; exact Pipeline.withArrays_arr spec9 launch9.win.arr_inj c _ _ w
theorem X14_of_ne (c : Dev nD) (b : Ref sig .tc) (hb : ∀ w, Pipeline.arrRef spec9 w ≠ b) :
    X14 m c (Proc.devRef .tc b) = X13 m c (Proc.devRef .tc b) := by
  unfold X14; exact Pipeline.withArrays_of_ne spec9 c _ _ b hb
abbrev Y14 : (c : Dev nD) → (b : Ref sig .tc) → Buf (Elt F) ((c : Thread nD τ).loc b) := fun c b => X14 m c b
theorem hF9 (c : Dev nD) (w : Fin cfg9.W) : (dat9 (Y13 m) c).arrAt w cfg9.N = Y14 m c (Pipeline.arrRef spec9 w) :=
  (X14_arr m c w).symm
theorem hrest9 (c : Dev nD) : ∀ b, b ∉ Finset.univ.image (Pipeline.arrRef spec9) → Y14 m c b = Y13 m c b :=
  fun b hb => X14_of_ne m c b fun w e => hb (Finset.mem_image.mpr ⟨w, Finset.mem_univ _, e⟩)
/-- Region 9 changes only its output array main_v14: an input array is read back as entered, any other buffer bypasses it. -/
theorem X14_keep (c : Dev nD) (b : Ref sig .tc) (hb : b ≠ main_v14) : X14 m c (Proc.devRef .tc b) = X13 m c (Proc.devRef .tc b) := by
  by_cases h : ∃ w, Pipeline.arrRef spec9 w = b
  · obtain ⟨w, rfl⟩ := h
    have hin : (cfg9.win w).isOut = false := by
      match w, hb with
      | ⟨0, _⟩, _ => rfl
      | ⟨1, _⟩, _ => rfl
      | ⟨2, _⟩, hb => exact absurd rfl hb
    exact (X14_arr m c w).trans (((dat9 (Y13 m) c).arrAt_in w hin _).trans (A_eq9 (Y13 m) c w))
  · exact X14_of_ne m c b fun w e => h ⟨w, e⟩

/-- After region 10: its arrays at what the pipeline leaves, every other buffer as entered. -/
def X15 (c : Dev nD) : Valuation τ sig (Elt F) :=
  Pipeline.withArrays spec10 c (X14 m c) fun w => (dat10 (Y14 m) c).arrAt w cfg10.N
theorem X15_arr (c : Dev nD) (w : Fin cfg10.W) :
    X15 m c (Proc.devRef .tc (Pipeline.arrRef spec10 w)) = (dat10 (Y14 m) c).arrAt w cfg10.N := by
  unfold X15; exact Pipeline.withArrays_arr spec10 launch10.win.arr_inj c _ _ w
theorem X15_of_ne (c : Dev nD) (b : Ref sig .tc) (hb : ∀ w, Pipeline.arrRef spec10 w ≠ b) :
    X15 m c (Proc.devRef .tc b) = X14 m c (Proc.devRef .tc b) := by
  unfold X15; exact Pipeline.withArrays_of_ne spec10 c _ _ b hb
abbrev Y15 : (c : Dev nD) → (b : Ref sig .tc) → Buf (Elt F) ((c : Thread nD τ).loc b) := fun c b => X15 m c b
theorem hF10 (c : Dev nD) (w : Fin cfg10.W) : (dat10 (Y14 m) c).arrAt w cfg10.N = Y15 m c (Pipeline.arrRef spec10 w) :=
  (X15_arr m c w).symm
theorem hrest10 (c : Dev nD) : ∀ b, b ∉ Finset.univ.image (Pipeline.arrRef spec10) → Y15 m c b = Y14 m c b :=
  fun b hb => X15_of_ne m c b fun w e => hb (Finset.mem_image.mpr ⟨w, Finset.mem_univ _, e⟩)
/-- Region 10 changes only its output array main_v15: an input array is read back as entered, any other buffer bypasses it. -/
theorem X15_keep (c : Dev nD) (b : Ref sig .tc) (hb : b ≠ main_v15) : X15 m c (Proc.devRef .tc b) = X14 m c (Proc.devRef .tc b) := by
  by_cases h : ∃ w, Pipeline.arrRef spec10 w = b
  · obtain ⟨w, rfl⟩ := h
    have hin : (cfg10.win w).isOut = false := by
      match w, hb with
      | ⟨0, _⟩, _ => rfl
      | ⟨1, _⟩, _ => rfl
      | ⟨2, _⟩, hb => exact absurd rfl hb
    exact (X15_arr m c w).trans (((dat10 (Y14 m) c).arrAt_in w hin _).trans (A_eq10 (Y14 m) c w))
  · exact X15_of_ne m c b fun w e => h ⟨w, e⟩

/-- After region 11: its arrays at what the pipeline leaves, every other buffer as entered. -/
def X16 (c : Dev nD) : Valuation τ sig (Elt F) :=
  Pipeline.withArrays spec11 c (X15 m c) fun w => (dat11 (Y15 m) c).arrAt w cfg11.N
theorem X16_arr (c : Dev nD) (w : Fin cfg11.W) :
    X16 m c (Proc.devRef .tc (Pipeline.arrRef spec11 w)) = (dat11 (Y15 m) c).arrAt w cfg11.N := by
  unfold X16; exact Pipeline.withArrays_arr spec11 launch11.win.arr_inj c _ _ w
theorem X16_of_ne (c : Dev nD) (b : Ref sig .tc) (hb : ∀ w, Pipeline.arrRef spec11 w ≠ b) :
    X16 m c (Proc.devRef .tc b) = X15 m c (Proc.devRef .tc b) := by
  unfold X16; exact Pipeline.withArrays_of_ne spec11 c _ _ b hb
abbrev Y16 : (c : Dev nD) → (b : Ref sig .tc) → Buf (Elt F) ((c : Thread nD τ).loc b) := fun c b => X16 m c b
theorem hF11 (c : Dev nD) (w : Fin cfg11.W) : (dat11 (Y15 m) c).arrAt w cfg11.N = Y16 m c (Pipeline.arrRef spec11 w) :=
  (X16_arr m c w).symm
theorem hrest11 (c : Dev nD) : ∀ b, b ∉ Finset.univ.image (Pipeline.arrRef spec11) → Y16 m c b = Y15 m c b :=
  fun b hb => X16_of_ne m c b fun w e => hb (Finset.mem_image.mpr ⟨w, Finset.mem_univ _, e⟩)
/-- Region 11 changes only its output array main_v16: an input array is read back as entered, any other buffer bypasses it. -/
theorem X16_keep (c : Dev nD) (b : Ref sig .tc) (hb : b ≠ main_v16) : X16 m c (Proc.devRef .tc b) = X15 m c (Proc.devRef .tc b) := by
  by_cases h : ∃ w, Pipeline.arrRef spec11 w = b
  · obtain ⟨w, rfl⟩ := h
    have hin : (cfg11.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, _ => rfl
      | ⟨6, _⟩, hb => exact absurd rfl hb
    exact (X16_arr m c w).trans (((dat11 (Y15 m) c).arrAt_in w hin _).trans (A_eq11 (Y15 m) c w))
  · exact X16_of_ne m c b fun w e => h ⟨w, e⟩

/-- Every pipeline's proof data, each at its region's entry contents. -/
def pdats : (p : Fin 12) → (c : Dev nD) → Dat τ (Elt F) Unit ℕ (UR sig nD τ) ℕ (Pipeline.pin (pcfgs (F := F)) adm p) c
  | ⟨0, _⟩ => fun c => dat0 (Y4 m) c
  | ⟨1, _⟩ => fun c => dat1 (Y5 m) c
  | ⟨2, _⟩ => fun c => dat2 (Y6 m) c
  | ⟨3, _⟩ => fun c => dat3 (Y7 m) c
  | ⟨4, _⟩ => fun c => dat4 (Y8 m) c
  | ⟨5, _⟩ => fun c => dat5 (Y9 m) c
  | ⟨6, _⟩ => fun c => dat6 (Y10 m) c
  | ⟨7, _⟩ => fun c => dat7 (Y11 m) c
  | ⟨8, _⟩ => fun c => dat8 (Y12 m) c
  | ⟨9, _⟩ => fun c => dat9 (Y13 m) c
  | ⟨10, _⟩ => fun c => dat10 (Y14 m) c
  | ⟨11, _⟩ => fun c => dat11 (Y15 m) c

end Cert.KernelIdeal.Reg

end
-- ==== Proof.AsmCommon.lean ====
/-
  What rides beside the buffers through every segment of the run — the core's generator register at some state and its
  dues, at nothing — and the last thread state.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.AsmVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
/-- No core owes another anything: no level is assigned. -/
abbrev L₀ : GSem nD τ sig → Finset Unit := fun _ => ∅
abbrev lv₀ : GSem nD τ sig → Unit → ℕ := fun _ _ => 0
/-- The generator register at some state, nothing owed. -/
abbrev Rst (c : Dev nD) : sProp 𝕄 := iprop((∃ r, prngReg c r) ∗ ∃ W, owes (c : Thread nD τ) (0 : CellTallies nD τ sig Unit) W)
/-- The last thread state without the dues: every unscoped buffer at the last boundary's contents, the generator register
    at some state. -/
abbrev Tₙ (c : Dev nD) : sProp 𝕄 := iprop(StableHlo.held (c : Thread nD τ) (Pipeline.ucRefs τ sig) (X16 m c) ∗ ∃ r, prngReg c r)

end Cert.KernelIdeal.Reg

end
-- ==== Proof.AsmRegsA.lean ====
/-
  The regions 0 to 3 of the program as segments of its run: each is entered with every unscoped buffer at the contents the
  segment before left and leaves them at the contents after it.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.AsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 0 over the thread state: entered from every unscoped buffer at the contents before it, left at the contents
    after it.  Its arrays are split out of the unscoped buffers and put back at what the pipeline leaves; the generator
    register goes into the region's invariant and comes back; nothing is owed; the kernel has no semaphore of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Y4 m) c).loose
  hwaits := Pipeline.hwaits_of_owed_zero _ _ _ _ L₀ lv₀ 0 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec0 c (Y4 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Y4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Y4 m c) (Y5 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it.  Its arrays are split out of the unscoped buffers and put back at what the pipeline leaves; the generator
    register goes into the region's invariant and comes back; nothing is owed; the kernel has no semaphore of its own. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Y5 m) c).loose
  hwaits := Pipeline.hwaits_of_owed_zero _ _ _ _ L₀ lv₀ 1 fun _ _ => rfl
  pre c := iprop(StableHlo.held (c : Thread nD τ) (Pipeline.ucRefs τ sig) (X5 m c) ∗ Rst c)
  post c := iprop(StableHlo.held (c : Thread nD τ) (Pipeline.ucRefs τ sig) (X6 m c) ∗ Rst c)
  X c := iprop(∃ r, prngReg c r)
  Y c := iprop(∃ r, prngReg c r)
  Z c := Pipeline.unscopedRest (Ix := Unit) (Name := ℕ) (U := UR sig nD τ) (Lvl := ℕ) spec1 c (Y5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Y5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Y5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Y5 m c) (Y6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it.  Its arrays are split out of the unscoped buffers and put back at what the pipeline leaves; the generator
    register goes into the region's invariant and comes back; nothing is owed; the kernel has no semaphore of its own. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Y6 m) c).loose
  hwaits := Pipeline.hwaits_of_owed_zero _ _ _ _ L₀ lv₀ 2 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec2 c (Y6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Y6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from Phi_last2 (Y6 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Y6 m c) (Y7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the contents
    after it.  Its arrays are split out of the unscoped buffers and put back at what the pipeline leaves; the generator
    register goes into the region's invariant and comes back; nothing is owed; the kernel has no semaphore of its own. -/
def reg3 : Pipeline.RegionSeg (pcfgs (F := F)) adm (pdats m) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (Y7 m) c).loose
  hwaits := Pipeline.hwaits_of_owed_zero _ _ _ _ L₀ lv₀ 3 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec3 c (Y7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Y7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Y7 m c) (Y8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.AsmRegsB.lean ====
/-
  The regions 4 to 7 of the program as segments of its run: each is entered with every unscoped buffer at the contents the
  segment before left and leaves them at the contents after it.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.AsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 4 over the thread state: entered from every unscoped buffer at the contents before it, left at the contents
    after it.  Its arrays are split out of the unscoped buffers and put back at what the pipeline leaves; the generator
    register goes into the region's invariant and comes back; nothing is owed; the kernel has no semaphore of its own. -/
def reg4 : Pipeline.RegionSeg (pcfgs (F := F)) adm (pdats m) () defs₀ 𝒱₀ L₀ lv₀ 4 where
  win := launch4.win.to₀
  block_pos := launch4.block_pos
  stage_whole := launch4.stage_whole
  K := PEmpty
  osem k := k.elim
  ho := Pipeline.OwnSemFacts.none _
  hbody c := (body_obligation4 (Y8 m) c).loose
  hwaits := Pipeline.hwaits_of_owed_zero _ _ _ _ L₀ lv₀ 4 fun _ _ => rfl
  pre c := iprop(StableHlo.held (c : Thread nD τ) (Pipeline.ucRefs τ sig) (X8 m c) ∗ Rst c)
  post c := iprop(StableHlo.held (c : Thread nD τ) (Pipeline.ucRefs τ sig) (X9 m c) ∗ Rst c)
  X c := iprop(∃ r, prngReg c r)
  Y c := iprop(∃ r, prngReg c r)
  Z c := Pipeline.unscopedRest (Ix := Unit) (Name := ℕ) (U := UR sig nD τ) (Lvl := ℕ) spec4 c (Y8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Y8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Y8 m c) (Y9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the contents before it, left at the contents
    after it.  Its arrays are split out of the unscoped buffers and put back at what the pipeline leaves; the generator
    register goes into the region's invariant and comes back; nothing is owed; the kernel has no semaphore of its own. -/
def reg5 : Pipeline.RegionSeg (pcfgs (F := F)) adm (pdats m) () defs₀ 𝒱₀ L₀ lv₀ 5 where
  win := launch5.win.to₀
  block_pos := launch5.block_pos
  stage_whole := launch5.stage_whole
  K := PEmpty
  osem k := k.elim
  ho := Pipeline.OwnSemFacts.none _
  hbody c := (body_obligation5 (Y9 m) c).loose
  hwaits := Pipeline.hwaits_of_owed_zero _ _ _ _ L₀ lv₀ 5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (Y9 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Y9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from Phi_last5 (Y9 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Y9 m c) (Y10 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the contents before it, left at the contents
    after it.  Its arrays are split out of the unscoped buffers and put back at what the pipeline leaves; the generator
    register goes into the region's invariant and comes back; nothing is owed; the kernel has no semaphore of its own. -/
def reg6 : Pipeline.RegionSeg (pcfgs (F := F)) adm (pdats m) () defs₀ 𝒱₀ L₀ lv₀ 6 where
  win := launch6.win.to₀
  block_pos := launch6.block_pos
  stage_whole := launch6.stage_whole
  K := PEmpty
  osem k := k.elim
  ho := Pipeline.OwnSemFacts.none _
  hbody c := (body_obligation6 (Y10 m) c).loose
  hwaits := Pipeline.hwaits_of_owed_zero _ _ _ _ L₀ lv₀ 6 fun _ _ => rfl
  pre c := iprop(StableHlo.held (c : Thread nD τ) (Pipeline.ucRefs τ sig) (X10 m c) ∗ Rst c)
  post c := iprop(StableHlo.held (c : Thread nD τ) (Pipeline.ucRefs τ sig) (X11 m c) ∗ Rst c)
  X c := iprop(∃ r, prngReg c r)
  Y c := iprop(∃ r, prngReg c r)
  Z c := Pipeline.unscopedRest (Ix := Unit) (Name := ℕ) (U := UR sig nD τ) (Lvl := ℕ) spec6 c (Y10 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Y10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from Phi_last6 (Y10 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Y10 m c) (Y11 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at the contents before it, left at the contents
    after it.  Its arrays are split out of the unscoped buffers and put back at what the pipeline leaves; the generator
    register goes into the region's invariant and comes back; nothing is owed; the kernel has no semaphore of its own. -/
def reg7 : Pipeline.RegionSeg (pcfgs (F := F)) adm (pdats m) () defs₀ 𝒱₀ L₀ lv₀ 7 where
  win := launch7.win.to₀
  block_pos := launch7.block_pos
  stage_whole := launch7.stage_whole
  K := PEmpty
  osem k := k.elim
  ho := Pipeline.OwnSemFacts.none _
  hbody c := (body_obligation7 (Y11 m) c).loose
  hwaits := Pipeline.hwaits_of_owed_zero _ _ _ _ L₀ lv₀ 7 fun _ _ => rfl
  pre c := iprop(StableHlo.held (c : Thread nD τ) (Pipeline.ucRefs τ sig) (X11 m c) ∗ Rst c)
  post c := iprop(StableHlo.held (c : Thread nD τ) (Pipeline.ucRefs τ sig) (X12 m c) ∗ Rst c)
  X c := iprop(∃ r, prngReg c r)
  Y c := iprop(∃ r, prngReg c r)
  Z c := Pipeline.unscopedRest (Ix := Unit) (Name := ℕ) (U := UR sig nD τ) (Lvl := ℕ) spec7 c (Y11 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Y11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Y11 m c) (Y12 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.AsmRegsC.lean ====
/-
  The regions 8 to 11 of the program as segments of its run: each is entered with every unscoped buffer at the contents the
  segment before left and leaves them at the contents after it.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.AsmCommon
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- Region 8 over the thread state: entered from every unscoped buffer at the contents before it, left at the contents
    after it.  Its arrays are split out of the unscoped buffers and put back at what the pipeline leaves; the generator
    register goes into the region's invariant and comes back; nothing is owed; the kernel has no semaphore of its own. -/
def reg8 : Pipeline.RegionSeg (pcfgs (F := F)) adm (pdats m) () defs₀ 𝒱₀ L₀ lv₀ 8 where
  win := launch8.win.to₀
  block_pos := launch8.block_pos
  stage_whole := launch8.stage_whole
  K := PEmpty
  osem k := k.elim
  ho := Pipeline.OwnSemFacts.none _
  hbody c := (body_obligation8 (Y12 m) c).loose
  hwaits := Pipeline.hwaits_of_owed_zero _ _ _ _ L₀ lv₀ 8 fun _ _ => rfl
  pre c := iprop(StableHlo.held (c : Thread nD τ) (Pipeline.ucRefs τ sig) (X12 m c) ∗ Rst c)
  post c := iprop(StableHlo.held (c : Thread nD τ) (Pipeline.ucRefs τ sig) (X13 m c) ∗ Rst c)
  X c := iprop(∃ r, prngReg c r)
  Y c := iprop(∃ r, prngReg c r)
  Z c := Pipeline.unscopedRest (Ix := Unit) (Name := ℕ) (U := UR sig nD τ) (Lvl := ℕ) spec8 c (Y12 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Y12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Y12 m c) (Y13 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at the contents before it, left at the contents
    after it.  Its arrays are split out of the unscoped buffers and put back at what the pipeline leaves; the generator
    register goes into the region's invariant and comes back; nothing is owed; the kernel has no semaphore of its own. -/
def reg9 : Pipeline.RegionSeg (pcfgs (F := F)) adm (pdats m) () defs₀ 𝒱₀ L₀ lv₀ 9 where
  win := launch9.win.to₀
  block_pos := launch9.block_pos
  stage_whole := launch9.stage_whole
  K := PEmpty
  osem k := k.elim
  ho := Pipeline.OwnSemFacts.none _
  hbody c := (body_obligation9 (Y13 m) c).loose
  hwaits := Pipeline.hwaits_of_owed_zero _ _ _ _ L₀ lv₀ 9 fun _ _ => rfl
  pre c := iprop(StableHlo.held (c : Thread nD τ) (Pipeline.ucRefs τ sig) (X13 m c) ∗ Rst c)
  post c := iprop(StableHlo.held (c : Thread nD τ) (Pipeline.ucRefs τ sig) (X14 m c) ∗ Rst c)
  X c := iprop(∃ r, prngReg c r)
  Y c := iprop(∃ r, prngReg c r)
  Z c := Pipeline.unscopedRest (Ix := Unit) (Name := ℕ) (U := UR sig nD τ) (Lvl := ℕ) spec9 c (Y13 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Y13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from Phi_last9 (Y13 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Y13 m c) (Y14 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at the contents before it, left at the contents
    after it.  Its arrays are split out of the unscoped buffers and put back at what the pipeline leaves; the generator
    register goes into the region's invariant and comes back; nothing is owed; the kernel has no semaphore of its own. -/
def reg10 : Pipeline.RegionSeg (pcfgs (F := F)) adm (pdats m) () defs₀ 𝒱₀ L₀ lv₀ 10 where
  win := launch10.win.to₀
  block_pos := launch10.block_pos
  stage_whole := launch10.stage_whole
  K := PEmpty
  osem k := k.elim
  ho := Pipeline.OwnSemFacts.none _
  hbody c := (body_obligation10 (Y14 m) c).loose
  hwaits := Pipeline.hwaits_of_owed_zero _ _ _ _ L₀ lv₀ 10 fun _ _ => rfl
  pre c := iprop(StableHlo.held (c : Thread nD τ) (Pipeline.ucRefs τ sig) (X14 m c) ∗ Rst c)
  post c := iprop(StableHlo.held (c : Thread nD τ) (Pipeline.ucRefs τ sig) (X15 m c) ∗ Rst c)
  X c := iprop(∃ r, prngReg c r)
  Y c := iprop(∃ r, prngReg c r)
  Z c := Pipeline.unscopedRest (Ix := Unit) (Name := ℕ) (U := UR sig nD τ) (Lvl := ℕ) spec10 c (Y14 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Y14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from Phi_last10 (Y14 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Y14 m c) (Y15 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11 over the thread state: entered from every unscoped buffer at the contents before it, left at the contents
    after it.  Its arrays are split out of the unscoped buffers and put back at what the pipeline leaves; the generator
    register goes into the region's invariant and comes back; nothing is owed; the kernel has no semaphore of its own. -/
def reg11 : Pipeline.RegionSeg (pcfgs (F := F)) adm (pdats m) () defs₀ 𝒱₀ L₀ lv₀ 11 where
  win := launch11.win.to₀
  block_pos := launch11.block_pos
  stage_whole := launch11.stage_whole
  K := PEmpty
  osem k := k.elim
  ho := Pipeline.OwnSemFacts.none _
  hbody c := (body_obligation11 (Y15 m) c).loose
  hwaits := Pipeline.hwaits_of_owed_zero _ _ _ _ L₀ lv₀ 11 fun _ _ => rfl
  pre c := iprop(StableHlo.held (c : Thread nD τ) (Pipeline.ucRefs τ sig) (X15 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec11 c (Y15 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Y15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Y15 m c) (Y16 m c) ((pdats m 11 c).arrAt · cfg11.N) (hF11 m c) (hrest11 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Reg

end
-- ==== Proof.AsmRun.lean ====
/-
  The run of the whole program: its sixteen segments — four stretches of host operations, then the twelve regions — chained
  from the launch memory, every weakly fair execution terminating with each unscoped buffer at the last boundary's contents.
  Read at the arguments, those are the launch contents; read at the result buffer, what the last region leaves.
-/
import proofs.«163112_j15616501088829_2_alg».proof.Proof.Gen.KernelIdeal.Launch
import proofs.«163112_j15616501088829_2_alg».proof.Proof.Gen.KernelIdeal.Skeleton
import proofs.«163112_j15616501088829_2_alg».proof.Proof.Gen.KernelIdeal.Points
import proofs.«163112_j15616501088829_2_alg».proof.Proof.Gen.KernelIdeal.Regions
import proofs.«163112_j15616501088829_2_alg».proof.Proof.AsmRegsA
import proofs.«163112_j15616501088829_2_alg».proof.Proof.AsmRegsB
import proofs.«163112_j15616501088829_2_alg».proof.Proof.AsmRegsC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What rides along at every boundary. -/
abbrev Erest : Fin 13 → Dev nD → sProp 𝕄 := fun _ c => Rst c

/-- The program's segments in order. -/
abbrev segsOf (c : Dev nD) : List (Pipeline.Seg (pcfgs (F := F)) adm (pdats m) () defs₀ 𝒱₀ L₀ lv₀) :=
  Gen.segs m 𝒱₀ L₀ lv₀ Erest () (pdats m) (reg0 m) (reg1 m) (reg2 m) (reg3 m) (reg4 m) (reg5 m) (reg6 m) (reg7 m) (reg8 m) (reg9 m) (reg10 m) (reg11 m) c

set_option backward.isDefEq.respectTransparency.types false in
set_option maxHeartbeats 4000000 in
/-- THE RUN: from any memory with zero counters every weakly fair execution of the program terminates, nothing faulting, and
    every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X16 m c b) :=
  Pipeline.θ_run_regions_kit_dev (pcfgs (F := F)) adm (pdats m) () cellOf_inj emb₁ defs₀ 𝒱₀ L₀ lv₀ m ρ main (segsOf m)
    (fun c Q => by
      rewrite [main_chain c, Pipeline.Seg.run_eq_chain,
        show (segsOf m c).map Pipeline.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          Prog.lift (.customCall (Pipeline.entry 8) ()),
          Prog.lift (.customCall (Pipeline.entry 9) ()),
          Prog.lift (.customCall (Pipeline.entry 10) ()),
          Prog.lift (.customCall (Pipeline.entry 11) ()) ] from rfl]
      exact .rfl)
    (fun c => by simp only [segsOf, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c)) (Tₙ := Tₙ m)
    (hch := fun c => ⟨.rfl, .rfl, .rfl, .rfl, .rfl, .rfl, .rfl, .rfl, .rfl, .rfl, .rfl, .rfl, .rfl, .rfl, .rfl, .rfl, .rfl⟩)
    (hinit := by
      refine Pipeline.initEach L₀ lv₀ fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X16 m c b)
    (hfin := fun c s' => by
      iintro ⟨⟨Hh, -⟩, HSI⟩
      unfold StableHlo.held
      imodintro
      iapply (pointsTo_read_all (Pipeline.ucRefs τ sig) (fun b => (((c : Thread nD τ)).1, b)) (X16 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no host stretch writes and that is no region's output reaches the end as launched. -/
theorem X16_through (c : Dev nD) (b : Ref sig .tc)
    (h0 : b ∉ Gen.hostOps0_W) (h1 : b ∉ Gen.hostOps0_1_W) (h2 : b ∉ Gen.hostOps0_2_W) (h3 : b ∉ Gen.hostOps0_3_W)
    (h5 : b ≠ main_v5) (h6 : b ≠ main_v6) (h7 : b ≠ main_v7) (h8 : b ≠ main_v8) (h9 : b ≠ main_v9) (h10 : b ≠ main_v10)
    (h11 : b ≠ main_v11) (h12 : b ≠ main_v12) (h13 : b ≠ main_v13) (h14 : b ≠ main_v14) (h15 : b ≠ main_v15) (h16 : b ≠ main_v16) :
    X16 m c (Proc.devRef .tc b) = m ((c : Thread nD τ).loc b) :=
  (X16_keep m c b h16).trans <| (X15_keep m c b h15).trans <| (X14_keep m c b h14).trans <| (X13_keep m c b h13).trans <|
  (X12_keep m c b h12).trans <| (X11_keep m c b h11).trans <| (X10_keep m c b h10).trans <| (X9_keep m c b h9).trans <|
  (X8_keep m c b h8).trans <| (X7_keep m c b h7).trans <| (X6_keep m c b h6).trans <| (X5_keep m c b h5).trans <|
  (show X4 m c (Proc.devRef .tc b) = Gen.V4 m c (Proc.devRef .tc b) from rfl).trans <|
  (Gen.V4_of m c b h3).trans <| (Gen.V3_of m c b h2).trans <| (Gen.V2_of m c b h1).trans <| (Gen.V1_of m c b h0).trans rfl

/-- THE RUN, read at the arguments and at the result: every argument array ends as launched, the result buffer at what the
    last region leaves. -/
theorem run_args : θ_run defs (onTc (τ := τ) (main (F := F))) ⟨m, fun _ => 0, ρ⟩ (fun r => ∀ c : Dev nD,
      r.2.mem ((c.tc : Thread nD τ).loc main_v16) = X16 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨h c _ (mem_uc main_v16 (by decide)),
    (h c _ (mem_uc main_arg0 (by decide))).trans (X16_through m c main_arg0 (by decide) (by decide) (by decide) (by decide) (by decide) (by decide) (by decide) (by decide) (by decide) (by decide) (by decide) (by decide) (by decide) (by decide) (by decide) (by decide)),
    (h c _ (mem_uc main_arg1 (by decide))).trans (X16_through m c main_arg1 (by decide) (by decide) (by decide) (by decide) (by decide) (by decide) (by decide) (by decide) (by decide) (by decide) (by decide) (by decide) (by decide) (by decide) (by decide) (by decide)),
    (h c _ (mem_uc main_arg2 (by decide))).trans (X16_through m c main_arg2 (by decide) (by decide) (by decide) (by decide) (by decide) (by decide) (by decide) (by decide) (by decide) (by decide) (by decide) (by decide) (by decide) (by decide) (by decide) (by decide)),
    (h c _ (mem_uc main_arg3 (by decide))).trans (X16_through m c main_arg3 (by decide) (by decide) (by decide) (by decide) (by decide) (by decide) (by decide) (by decide) (by decide) (by decide) (by decide) (by decide) (by decide) (by decide) (by decide) (by decide)),
    (h c _ (mem_uc main_arg4 (by decide))).trans (X16_through m c main_arg4 (by decide) (by decide) (by decide) (by decide) (by decide) (by decide) (by decide) (by decide) (by decide) (by decide) (by decide) (by decide) (by decide) (by decide) (by decide) (by decide)),
    (h c _ (mem_uc main_arg5 (by decide))).trans (X16_through m c main_arg5 (by decide) (by decide) (by decide) (by decide) (by decide) (by decide) (by decide) (by decide) (by decide) (by decide) (by decide) (by decide) (by decide) (by decide) (by decide) (by decide)),
    (h c _ (mem_uc main_arg6 (by decide))).trans (X16_through m c main_arg6 (by decide) (by decide) (by decide) (by decide) (by decide) (by decide) (by decide) (by decide) (by decide) (by decide) (by decide) (by decide) (by decide) (by decide) (by decide) (by decide)),
    (h c _ (mem_uc main_arg7 (by decide))).trans (X16_through m c main_arg7 (by decide) (by decide) (by decide) (by decide) (by decide) (by decide) (by decide) (by decide) (by decide) (by decide) (by decide) (by decide) (by decide) (by decide) (by decide) (by decide)),
    (h c _ (mem_uc main_arg8 (by decide))).trans (X16_through m c main_arg8 (by decide) (by decide) (by decide) (by decide) (by decide) (by decide) (by decide) (by decide) (by decide) (by decide) (by decide) (by decide) (by decide) (by decide) (by decide) (by decide))⟩)
    (run_all m ρ)

end Cert.KernelIdeal.Reg

end
-- ==== Proof.HostReads.lean ====
/-
  The contents of the kernel program's buffers after its first host operations.

  Before its first kernel region the program reshapes the three bias vectors to one-row matrices and pads the two edge
  tables from 800000 to 802816 words with the word of all ones.  No argument is written.  Read at an index: a one-row bias
  matrix holds the bias vector's entries; a padded table holds the table's words followed by 2816 words of all ones.
-/
import proofs.«163112_j15616501088829_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.TcCoe Idealize.ShloMosaic.ValueIdx
open Idealize.ShloMosaic.StableHlo

/-! ## A table padded at its end, read at an index -/

/-- A table of 800000 words padded at its end with 2816 copies of a word reads, at e, the table's word e when e is below
    800000 and the padding word otherwise. -/
theorem pad_tail_apply (x : S800000.Idx → BitVec 32) (w : BitVec 32)
    (hp : S800000.Pads (![0] : Fin 1 → Nat) ![2816] ![0] S802816) (hu : 0 < S_.numel) (e : Fin 802816) :
    pad S802816 ![0] ![2816] ![0] x (constantI S_ 32 w) hp hu (ix1 e)
      = if h : e.val < 800000 then x (ix1 ⟨e.val, h⟩) else w := by
  unfold pad
  by_cases h : e.val < 800000
  · have hin : ∀ a : Fin S800000.rank, (![0] : Fin 1 → Nat) a ≤ ((ix1 e : S802816.Idx) (a.cast hp.1)).val
        ∧ (((ix1 e : S802816.Idx) (a.cast hp.1)).val - (![0] : Fin 1 → Nat) a) % ((![0] : Fin 1 → Nat) a + 1) = 0
        ∧ (((ix1 e : S802816.Idx) (a.cast hp.1)).val - (![0] : Fin 1 → Nat) a) / ((![0] : Fin 1 → Nat) a + 1) < S800000.size a := by
      intro a
      match a with
      | ⟨0, _⟩ =>
        refine ⟨Nat.zero_le _, ?_, ?_⟩
        · show (e.val - 0) % (0 + 1) = 0
          omega
        · show (e.val - 0) / (0 + 1) < 800000
          omega
    rw [dif_pos hin, dif_pos h]
    refine congrArg x (funext fun a => Fin.ext ?_)
    match a with
    | ⟨0, _⟩ =>
      show (e.val - 0) / (0 + 1) = e.val
      omega
  · rw [dif_neg h, dif_neg]
    · rfl
    · intro hin
      have h2 := (hin (⟨0, Nat.one_pos⟩ : Fin 1)).2.2
      have h3 : (e.val - 0) / (0 + 1) < 800000 := h2
      omega

variable (m : (ℓ : Loc nD τ sig) → Buf (Elt Ideal) ℓ) (c : Dev nD)

/-! ## The arguments are as launched -/

theorem v4_arg0 : Gen.V4 m c (Proc.devRef .tc main_arg0) = m ((c : Thread nD τ).loc main_arg0) :=
  (V4_of m c main_arg0 (by decide)).trans <| (V3_of m c main_arg0 (by decide)).trans <|
    (V2_of m c main_arg0 (by decide)).trans <| (V1_of m c main_arg0 (by decide)).trans rfl
theorem v4_arg1 : Gen.V4 m c (Proc.devRef .tc main_arg1) = m ((c : Thread nD τ).loc main_arg1) :=
  (V4_of m c main_arg1 (by decide)).trans <| (V3_of m c main_arg1 (by decide)).trans <|
    (V2_of m c main_arg1 (by decide)).trans <| (V1_of m c main_arg1 (by decide)).trans rfl
theorem v4_arg2 : Gen.V4 m c (Proc.devRef .tc main_arg2) = m ((c : Thread nD τ).loc main_arg2) :=
  (V4_of m c main_arg2 (by decide)).trans <| (V3_of m c main_arg2 (by decide)).trans <|
    (V2_of m c main_arg2 (by decide)).trans <| (V1_of m c main_arg2 (by decide)).trans rfl
theorem v4_arg3 : Gen.V4 m c (Proc.devRef .tc main_arg3) = m ((c : Thread nD τ).loc main_arg3) :=
  (V4_of m c main_arg3 (by decide)).trans <| (V3_of m c main_arg3 (by decide)).trans <|
    (V2_of m c main_arg3 (by decide)).trans <| (V1_of m c main_arg3 (by decide)).trans rfl
theorem v4_arg4 : Gen.V4 m c (Proc.devRef .tc main_arg4) = m ((c : Thread nD τ).loc main_arg4) :=
  (V4_of m c main_arg4 (by decide)).trans <| (V3_of m c main_arg4 (by decide)).trans <|
    (V2_of m c main_arg4 (by decide)).trans <| (V1_of m c main_arg4 (by decide)).trans rfl
theorem v4_arg5 : Gen.V4 m c (Proc.devRef .tc main_arg5) = m ((c : Thread nD τ).loc main_arg5) :=
  (V4_of m c main_arg5 (by decide)).trans <| (V3_of m c main_arg5 (by decide)).trans <|
    (V2_of m c main_arg5 (by decide)).trans <| (V1_of m c main_arg5 (by decide)).trans rfl
theorem v4_arg6 : Gen.V4 m c (Proc.devRef .tc main_arg6) = m ((c : Thread nD τ).loc main_arg6) :=
  (V4_of m c main_arg6 (by decide)).trans <| (V3_of m c main_arg6 (by decide)).trans <|
    (V2_of m c main_arg6 (by decide)).trans <| (V1_of m c main_arg6 (by decide)).trans rfl
theorem v4_arg7 : Gen.V4 m c (Proc.devRef .tc main_arg7) = m ((c : Thread nD τ).loc main_arg7) :=
  (V4_of m c main_arg7 (by decide)).trans <| (V3_of m c main_arg7 (by decide)).trans <|
    (V2_of m c main_arg7 (by decide)).trans <| (V1_of m c main_arg7 (by decide)).trans rfl
theorem v4_arg8 : Gen.V4 m c (Proc.devRef .tc main_arg8) = m ((c : Thread nD τ).loc main_arg8) :=
  (V4_of m c main_arg8 (by decide)).trans <| (V3_of m c main_arg8 (by decide)).trans <|
    (V2_of m c main_arg8 (by decide)).trans <| (V1_of m c main_arg8 (by decide)).trans rfl

/-! ## The one-row bias matrices -/

/-- The one-row matrix of the layer's bias is the bias vector reshaped. -/
theorem v1_v0_eq : (Gen.V1 m c (Proc.devRef .tc main_v0) : S1x64.Idx → EReal)
    = shapeCast S1x64 (m ((c : Thread nD τ).loc main_arg2) : S64.Idx → EReal) shapeCasts_S64_S1x64 := by
  show StableHlo.after hostOps0 (Gen.V0 m c) (Proc.devRef .tc main_v0) = _
  after_results
  rfl

/-- The one-row matrix of the first gate bias is the bias vector reshaped. -/
theorem v1_v1_eq : (Gen.V1 m c (Proc.devRef .tc main_v1) : S1x192.Idx → EReal)
    = shapeCast S1x192 (m ((c : Thread nD τ).loc main_arg5) : S192.Idx → EReal) shapeCasts_S192_S1x192 := by
  show StableHlo.after hostOps0 (Gen.V0 m c) (Proc.devRef .tc main_v1) = _
  after_results
  rfl

/-- The one-row matrix of the second gate bias is the bias vector reshaped. -/
theorem v1_v2_eq : (Gen.V1 m c (Proc.devRef .tc main_v2) : S1x192.Idx → EReal)
    = shapeCast S1x192 (m ((c : Thread nD τ).loc main_arg6) : S192.Idx → EReal) shapeCasts_S192_S1x192 := by
  show StableHlo.after hostOps0 (Gen.V0 m c) (Proc.devRef .tc main_v2) = _
  after_results
  rfl

/-- The layer's bias row at column j is the bias vector's entry j. -/
theorem v4_v0 (j : Fin 64) :
    (Gen.V4 m c (Proc.devRef .tc main_v0) : S1x64.Idx → EReal) (ix2 (0 : Fin 1) j)
      = (m ((c : Thread nD τ).loc main_arg2) : S64.Idx → EReal) (ix1 j) := by
  have e : (Gen.V4 m c (Proc.devRef .tc main_v0) : S1x64.Idx → EReal) = _ :=
    (V4_of m c main_v0 (by decide)).trans <| (V3_of m c main_v0 (by decide)).trans <|
      (V2_of m c main_v0 (by decide)).trans (v1_v0_eq m c)
  rw [e]
  exact shapeCast_a_1a_apply _ _ 0 j

/-- The first gate bias row at column j is the bias vector's entry j. -/
theorem v4_v1 (j : Fin 192) :
    (Gen.V4 m c (Proc.devRef .tc main_v1) : S1x192.Idx → EReal) (ix2 (0 : Fin 1) j)
      = (m ((c : Thread nD τ).loc main_arg5) : S192.Idx → EReal) (ix1 j) := by
  have e : (Gen.V4 m c (Proc.devRef .tc main_v1) : S1x192.Idx → EReal) = _ :=
    (V4_of m c main_v1 (by decide)).trans <| (V3_of m c main_v1 (by decide)).trans <|
      (V2_of m c main_v1 (by decide)).trans (v1_v1_eq m c)
  rw [e]
  exact shapeCast_a_1a_apply _ _ 0 j

/-- The second gate bias row at column j is the bias vector's entry j. -/
theorem v4_v2 (j : Fin 192) :
    (Gen.V4 m c (Proc.devRef .tc main_v2) : S1x192.Idx → EReal) (ix2 (0 : Fin 1) j)
      = (m ((c : Thread nD τ).loc main_arg6) : S192.Idx → EReal) (ix1 j) := by
  have e : (Gen.V4 m c (Proc.devRef .tc main_v2) : S1x192.Idx → EReal) = _ :=
    (V4_of m c main_v2 (by decide)).trans <| (V3_of m c main_v2 (by decide)).trans <|
      (V2_of m c main_v2 (by decide)).trans (v1_v2_eq m c)
  rw [e]
  exact shapeCast_a_1a_apply _ _ 0 j

/-! ## The padded edge tables -/

/-- The padded source table is the source table padded with the word of all ones. -/
theorem v2_v3_eq : (Gen.V2 m c (Proc.devRef .tc main_v3) : S802816.Idx → BitVec 32)
    = pad S802816 ![0] ![2816] ![0] (m ((c : Thread nD τ).loc main_arg7) : S800000.Idx → BitVec 32)
        (constantI S_ 32 4294967295#32) pads_S800000_S802816_028160 h_S_ := by
  show StableHlo.after hostOps0_1 (Gen.V1 m c) (Proc.devRef .tc main_v3) = _
  after_results
  rfl

/-- The padded target table is the target table padded with the word of all ones. -/
theorem v4_v4_eq : (Gen.V4 m c (Proc.devRef .tc main_v4) : S802816.Idx → BitVec 32)
    = pad S802816 ![0] ![2816] ![0] (m ((c : Thread nD τ).loc main_arg8) : S800000.Idx → BitVec 32)
        (constantI S_ 32 4294967295#32) pads_S800000_S802816_028160 h_S_ := by
  show StableHlo.after hostOps0_3 (Gen.V3 m c) (Proc.devRef .tc main_v4) = _
  after_results
  rfl

/-- The padded source table at e: the source word e, or the word of all ones past the table's end. -/
theorem v4_v3 (e : Fin 802816) :
    (Gen.V4 m c (Proc.devRef .tc main_v3) : S802816.Idx → BitVec 32) (ix1 e)
      = if h : e.val < 800000 then (m ((c : Thread nD τ).loc main_arg7) : S800000.Idx → BitVec 32) (ix1 ⟨e.val, h⟩)
        else 4294967295#32 := by
  have e' : (Gen.V4 m c (Proc.devRef .tc main_v3) : S802816.Idx → BitVec 32) = _ :=
    (V4_of m c main_v3 (by decide)).trans <| (V3_of m c main_v3 (by decide)).trans (v2_v3_eq m c)
  rw [e']
  exact pad_tail_apply _ _ _ _ e

/-- The padded target table at e: the target word e, or the word of all ones past the table's end. -/
theorem v4_v4 (e : Fin 802816) :
    (Gen.V4 m c (Proc.devRef .tc main_v4) : S802816.Idx → BitVec 32) (ix1 e)
      = if h : e.val < 800000 then (m ((c : Thread nD τ).loc main_arg8) : S800000.Idx → BitVec 32) (ix1 ⟨e.val, h⟩)
        else 4294967295#32 := by
  rw [v4_v4_eq m c]
  exact pad_tail_apply _ _ _ _ e

end Cert.KernelIdeal.Val

end
-- ==== Proof.Spec.lean ====
/-
  The function both programs compute: three rounds of a gated graph convolution on 50000 nodes with 64 features and
  800000 edges.  A round transforms every node state by a dense layer,
      wh(n, j) = Σ_k h(n, k) · W(j, k) + b(j),
  sums the transformed states along the edges into their target nodes,
      a(n, j) = Σ over the edges e with dst e = n of wh(src e, j),
  and updates every state by a gated recurrent cell
      gi = a · Wihᵀ + bih,  gh = h · Whhᵀ + bhh,  r = σ(gi_r + gh_r),  z = σ(gi_z + gh_z),
      ñ = tanh(gi_n + r · gh_n),  h' = (1 − z) · ñ + z · h.
  Everything is over the extended reals; arrays are given by their entries.
-/
import Idealize.ShloMosaic.Lib.ValueIdx
import Idealize.ShloMosaic.PureOps.Ideal.Laws

noncomputable section

namespace Cert.Spec

open Idealize.ShloMosaic

/-- Node states and per-node quantities: 50000 rows of 64 entries. -/
abbrev Nodes : Type := Fin 50000 → Fin 64 → EReal

/-- The dense layer at (n, j). -/
def lin (W : Fin 64 → Fin 64 → EReal) (b : Fin 64 → EReal) (h : Nodes) : Nodes :=
  fun n j => (∑ k : Fin 64, h n k * W j k) + b j

/-- The row of the table an edge's source word names, for a word whose signed reading is a row number 0 … 49999 (the only
    words the two programs are compared on; any other word is sent to some row of the table, which nothing relies on). -/
def srcRow (s : BitVec 32) : Fin 50000 := ⟨min s.toInt.toNat 49999, by omega⟩

/-- The sum of the source rows over the edges into node n, at column j.  An edge whose target word, read signed, is no node
    number contributes to no node. -/
def agg (src dst : Fin 800000 → BitVec 32) (wh : Nodes) : Nodes :=
  fun n j => ∑ e : Fin 800000, if (dst e).toInt = (n.val : ℤ) then wh (srcRow (src e)) j else 0

/-- Column j of the reset part, of the update part and of the candidate part of a 192-column gate matrix. -/
def c0 (j : Fin 64) : Fin 192 := ⟨j.val, by have := j.isLt; omega⟩
def c1 (j : Fin 64) : Fin 192 := ⟨64 + j.val, by have := j.isLt; omega⟩
def c2 (j : Fin 64) : Fin 192 := ⟨128 + j.val, by have := j.isLt; omega⟩

/-- A gate pre-activation at (n, c). -/
def gate (W : Fin 192 → Fin 64 → EReal) (b : Fin 192 → EReal) (x : Nodes) (n : Fin 50000) (c : Fin 192) : EReal :=
  (∑ k : Fin 64, x n k * W c k) + b c

/-- The number one, as both programs spell it. -/
def one : EReal := Ideal.ofBits .f32 0x3F800000#32

/-- The recurrent cell's new state. -/
def gru (Wih Whh : Fin 192 → Fin 64 → EReal) (bih bhh : Fin 192 → EReal) (a h : Nodes) : Nodes :=
  fun n j =>
    (one - Ideal.logistic (gate Wih bih a n (c1 j) + gate Whh bhh h n (c1 j)))
      * Ideal.tanh (gate Wih bih a n (c2 j)
          + Ideal.logistic (gate Wih bih a n (c0 j) + gate Whh bhh h n (c0 j)) * gate Whh bhh h n (c2 j))
    + Ideal.logistic (gate Wih bih a n (c1 j) + gate Whh bhh h n (c1 j)) * h n j

/-- One round. -/
def round (W : Fin 64 → Fin 64 → EReal) (b : Fin 64 → EReal) (Wih Whh : Fin 192 → Fin 64 → EReal) (bih bhh : Fin 192 → EReal)
    (src dst : Fin 800000 → BitVec 32) (h : Nodes) : Nodes :=
  gru Wih Whh bih bhh (agg src dst (lin W b h)) h

/-- Three rounds. -/
def out (W : Fin 64 → Fin 64 → EReal) (b : Fin 64 → EReal) (Wih Whh : Fin 192 → Fin 64 → EReal) (bih bhh : Fin 192 → EReal)
    (src dst : Fin 800000 → BitVec 32) (h0 : Nodes) : Nodes :=
  round W b Wih Whh bih bhh src dst (round W b Wih Whh bih bhh src dst (round W b Wih Whh bih bhh src dst h0))

end Cert.Spec

end
-- ==== Proof.LibOneHot.lean ====
/-
  A matrix product with a one-hot row, read at an index, on the extended reals.

  A kernel that may not gather rows compares an index word s with the node numbers base, base+1, …, base+K-1, turns the
  comparison bits into the numbers 0 and 1, and multiplies the resulting row into a K-row matrix: entry f of the result is
      Σ_k [s = base + k] · x k f,
  which is row s - base of the matrix when base ≤ s < base + K and zero otherwise (zero times anything is zero on the
  extended reals, so no finiteness is needed).  Summed over consecutive blocks base = 0, K, 2K, … the blocks' contributions
  add up to row s of the whole table when s names one of its rows, and to zero otherwise.
-/
import Idealize.ShloMosaic.Lib.ValueIdx
import Idealize.ShloMosaic.PureOps.Ideal.Laws
import Mathlib.Tactic

noncomputable section

namespace Cert.LibOneHot

open Idealize.ShloMosaic

/-- The comparison bit of two words, widened to a word and read as a signed integer, is 1 when they are equal and 0
    otherwise. -/
theorem eqWord_toInt (a b : BitVec 32) :
    (((IntOp.cmpi .eq a b).setWidth 32).toInt : ℤ) = if a = b then 1 else 0 := by
  unfold IntOp.cmpi
  by_cases h : a = b
  · subst h; simp
  · have : (a == b) = false := by simpa using h
    simp [this, h]

/-- The same as an extended real. -/
theorem eqWord_real (a b : BitVec 32) :
    (((((IntOp.cmpi .eq a b).setWidth 32).toInt : ℤ) : ℝ) : EReal) = if a = b then 1 else 0 := by
  rw [eqWord_toInt]
  by_cases h : a = b <;> simp [h]

/-- A number below 2^32 is the value of its word. -/
theorem toNat_ofNat_of_lt {n : ℕ} (h : n < 2 ^ 32) : (BitVec.ofNat 32 n).toNat = n := by
  rw [BitVec.toNat_ofNat]; exact Nat.mod_eq_of_lt h

/-- ONE BLOCK.  A one-hot row against the K rows numbered base … base+K-1: the row the word names, if it names one of
    them, and zero otherwise. -/
theorem sum_onehot_block (s : BitVec 32) (base K : ℕ) (hK : base + K ≤ 2 ^ 32) (x : Fin K → EReal) :
    (∑ k : Fin K, (if s = BitVec.ofNat 32 (base + k.val) then (1 : EReal) else 0) * x k)
      = if h : base ≤ s.toNat ∧ s.toNat < base + K then x ⟨s.toNat - base, by omega⟩ else 0 := by
  have hne : ∀ k : Fin K, s = BitVec.ofNat 32 (base + k.val) ↔ s.toNat = base + k.val := by
    intro k
    have hk : base + k.val < 2 ^ 32 := by have := k.isLt; omega
    constructor
    · intro h; rw [h, toNat_ofNat_of_lt hk]
    · intro h; apply BitVec.eq_of_toNat_eq; rw [toNat_ofNat_of_lt hk, h]
  by_cases h : base ≤ s.toNat ∧ s.toNat < base + K
  · rw [dif_pos h]
    rw [Finset.sum_eq_single (⟨s.toNat - base, by omega⟩ : Fin K)]
    · rw [if_pos ((hne _).mpr (by simp only []; omega)), one_mul]
    · intro k _ hk
      rw [if_neg, zero_mul]
      intro hs
      apply hk
      apply Fin.ext
      have := (hne k).mp hs
      simp only []; omega
    · intro h'; exact absurd (Finset.mem_univ _) h'
  · rw [dif_neg h]
    refine Finset.sum_eq_zero fun k _ => ?_
    rw [if_neg, zero_mul]
    intro hs
    have := (hne k).mp hs
    have := k.isLt
    omega

/-- A word whose signed reading lies in [0, N), N ≤ 2^31, has that reading as its value. -/
theorem toNat_of_toInt_range (s : BitVec 32) (N : ℕ) (h0 : 0 ≤ s.toInt) (h1 : s.toInt < (N : ℤ)) :
    s.toNat = s.toInt.toNat ∧ s.toNat < N := by
  have hlt := s.isLt
  rw [BitVec.toInt_eq_toNat_cond] at h0 h1 ⊢
  by_cases hc : 2 * s.toNat < 2 ^ 32
  · simp only [hc, if_true] at h0 h1 ⊢
    constructor
    · simp
    · exact_mod_cast h1
  · simp only [hc, if_false] at h0 h1 ⊢
    exfalso
    omega

/-- A node number below 2^31 is named by exactly the words whose signed reading is that number. -/
theorem ofNat_eq_iff_toInt (s : BitVec 32) (n : ℕ) (hn : n < 2 ^ 31) : BitVec.ofNat 32 n = s ↔ s.toInt = (n : ℤ) := by
  have hlt := s.isLt
  have hn' : n < 2 ^ 32 := by omega
  constructor
  · intro h
    have h2 : 2 * n < 2 ^ 32 := by omega
    rw [← h, BitVec.toInt_eq_toNat_cond, toNat_ofNat_of_lt hn', if_pos h2]
  · intro h
    apply BitVec.eq_of_toNat_eq
    rw [toNat_ofNat_of_lt hn']
    rw [BitVec.toInt_eq_toNat_cond] at h
    by_cases hc : 2 * s.toNat < 2 ^ 32
    · simp only [hc, if_true] at h; exact_mod_cast h.symm
    · simp only [hc, if_false] at h; omega

/-- THE WHOLE TABLE.  A one-hot row against all N rows of a table, for a word whose signed reading is a row number: that
    row — which is also the row a clamping gather reads. -/
theorem sum_onehot_table (s : BitVec 32) (N : ℕ) (hN : N ≤ 2 ^ 31) (hpos : 0 < N) (h0 : 0 ≤ s.toInt) (h1 : s.toInt < (N : ℤ))
    (x : Fin N → EReal) :
    (∑ k : Fin N, (if s = BitVec.ofNat 32 k.val then (1 : EReal) else 0) * x k)
      = x ⟨min s.toInt.toNat (N - 1), by omega⟩ := by
  obtain ⟨he, hlt⟩ := toNat_of_toInt_range s N h0 h1
  have h := sum_onehot_block s 0 N (by omega) x
  simp only [Nat.zero_add] at h
  rw [h, dif_pos ⟨Nat.zero_le _, by omega⟩]
  congr 1
  apply Fin.ext
  simp only [Nat.sub_zero]
  omega

/-- A value built up block by block — nothing before the first block, each block adding its term — is the sum of the
    terms so far. -/
theorem acc_eq_sum {M : Type} [AddCommMonoid M] (A b : ℕ → M) (h0 : A 0 = b 0) (hs : ∀ n, A (n + 1) = A n + b (n + 1)) (n : ℕ) :
    A n = ∑ j ∈ Finset.range (n + 1), b j := by
  induction n with
  | zero => simp [h0]
  | succ n ih => rw [hs, ih, Finset.sum_range_succ _ (n + 1)]

end Cert.LibOneHot

end
-- ==== Proof.LibTiledSum.lean ====
/-
  Finite sums in an additive commutative monoid, regrouped by tiles.

  * A sum over `a * b` indices is the sum over `a` tiles of the sums over the `b` indices of each tile, index `r`
    of tile `t` being `b * t + r` (`sum_fin_mul`).
  * A double sum over `(a * b) × (c * d)` cut into `a × c` tiles of `b × d` and summed tile by tile, the column
    tiles outermost, is the plain double sum (`sum_tiles_mul`; at `4096 = 8 · 512` rows and `10240 = 10 · 1024`
    columns, `sum_tiles`).
  * A sum over `n + k` indices whose last `k` terms vanish is the sum of the first `n` terms (`sum_drop_tail`; at
    `10240 = 10000 + 240`, `sum_drop_pad`).
  * An `80 × 128` array that vanishes except at column `0` of the rows `8 t`, where it holds `acc t`, sums to
    `∑ t, acc t` (`sum_corners`).
-/
import Idealize.ShloMosaic.Lib.ValueIdx
import Mathlib.Algebra.BigOperators.Fin
import Mathlib.Data.Fintype.BigOperators
import Mathlib.Logic.Equiv.Fin.Basic
import Mathlib.Tactic

open scoped BigOperators
open Idealize.ShloMosaic Idealize.ShloMosaic.ValueIdx

namespace Cert.LibTiledSum

variable {M : Type*} [AddCommMonoid M]

/-! ## One axis cut into tiles -/

/-- Index `r` of tile `t`, among `a` tiles of `b` indices each, is below `a * b`. -/
theorem tile_lt {a b : ℕ} (t : Fin a) (r : Fin b) : b * t.val + r.val < a * b := by
  have ht : t.val + 1 ≤ a := t.isLt
  have hr := r.isLt
  calc b * t.val + r.val < b * t.val + b := by omega
    _ = b * (t.val + 1) := by ring
    _ ≤ b * a := Nat.mul_le_mul_left _ ht
    _ = a * b := Nat.mul_comm _ _

/-- A sum over `a * b` indices is the sum over the `a` tiles of the sum over the `b` indices of each tile:
    `∑ n, f n = ∑ t, ∑ r, f (b t + r)`. -/
theorem sum_fin_mul (a b : ℕ) (f : Fin (a * b) → M) :
    ∑ n : Fin (a * b), f n = ∑ t : Fin a, ∑ r : Fin b, f ⟨b * t.val + r.val, tile_lt t r⟩ := by
  rw [← Fintype.sum_prod_type (f := fun p : Fin a × Fin b => f ⟨b * p.1.val + p.2.val, tile_lt p.1 p.2⟩)]
  refine (Fintype.sum_equiv finProdFinEquiv _ _ fun p => ?_).symm
  congr 1
  apply Fin.ext
  rw [finProdFinEquiv_apply_val]
  exact (Nat.add_comm _ _).symm

/-! ## Two axes cut into tiles -/

/-- A double sum over `(a * b) × (c * d)`, cut into `a` row tiles of `b` and `c` column tiles of `d` and summed tile
    by tile with the column tiles outermost, is the plain double sum. -/
theorem sum_tiles_mul (a b c d : ℕ) (f : Fin (a * b) → Fin (c * d) → M) :
    ∑ ci : Fin c, ∑ bi : Fin a, ∑ p : Fin b, ∑ j : Fin d,
        f ⟨b * bi.val + p.val, tile_lt bi p⟩ ⟨d * ci.val + j.val, tile_lt ci j⟩
      = ∑ x : Fin (a * b), ∑ y : Fin (c * d), f x y := by
  calc ∑ ci : Fin c, ∑ bi : Fin a, ∑ p : Fin b, ∑ j : Fin d,
          f ⟨b * bi.val + p.val, tile_lt bi p⟩ ⟨d * ci.val + j.val, tile_lt ci j⟩
      = ∑ bi : Fin a, ∑ ci : Fin c, ∑ p : Fin b, ∑ j : Fin d,
          f ⟨b * bi.val + p.val, tile_lt bi p⟩ ⟨d * ci.val + j.val, tile_lt ci j⟩ := Finset.sum_comm
    _ = ∑ bi : Fin a, ∑ p : Fin b, ∑ ci : Fin c, ∑ j : Fin d,
          f ⟨b * bi.val + p.val, tile_lt bi p⟩ ⟨d * ci.val + j.val, tile_lt ci j⟩ :=
        Finset.sum_congr rfl fun bi _ => Finset.sum_comm
    _ = ∑ bi : Fin a, ∑ p : Fin b, ∑ y : Fin (c * d), f ⟨b * bi.val + p.val, tile_lt bi p⟩ y :=
        Finset.sum_congr rfl fun bi _ => Finset.sum_congr rfl fun p _ =>
          (sum_fin_mul c d (f ⟨b * bi.val + p.val, tile_lt bi p⟩)).symm
    _ = ∑ x : Fin (a * b), ∑ y : Fin (c * d), f x y :=
        (sum_fin_mul a b fun x => ∑ y : Fin (c * d), f x y).symm

/-- A 4096 x 10240 double sum, cut into 8 row tiles of 512 and 10 column tiles of 1024, summed tile by tile. -/
theorem sum_tiles (f : Fin 4096 → Fin 10240 → M) :
    ∑ ci : Fin 10, ∑ bi : Fin 8, ∑ p : Fin 512, ∑ j : Fin 1024,
        f ⟨512 * bi.val + p.val, by omega⟩ ⟨1024 * ci.val + j.val, by omega⟩
      = ∑ b : Fin 4096, ∑ c : Fin 10240, f b c :=
  sum_tiles_mul 8 512 10 1024 f

/-! ## A vanishing tail -/

/-- A sum over `n + k` indices whose last `k` terms vanish is the sum of its first `n` terms. -/
theorem sum_drop_tail {n k : ℕ} (f : Fin (n + k) → M) (g : Fin n → M)
    (hlow : ∀ c : Fin n, f (Fin.castAdd k c) = g c) (hhigh : ∀ c : Fin k, f (Fin.natAdd n c) = 0) :
    ∑ c : Fin (n + k), f c = ∑ c : Fin n, g c := by
  rw [Fin.sum_univ_add, Finset.sum_congr rfl fun c _ => hlow c, Finset.sum_congr rfl fun c _ => hhigh c,
    Finset.sum_const_zero, add_zero]

/-- A sum over 10240 columns whose last 240 terms vanish is the sum over the first 10000. -/
theorem sum_drop_pad (f : Fin 10240 → M) (g : Fin 10000 → M)
    (hlow : ∀ c : Fin 10000, f ⟨c.val, by omega⟩ = g c) (hhigh : ∀ c : Fin 10240, 10000 ≤ c.val → f c = 0) :
    ∑ c : Fin 10240, f c = ∑ c : Fin 10000, g c :=
  sum_drop_tail (n := 10000) (k := 240) f g (fun c => hlow c)
    (fun c => hhigh (Fin.natAdd 10000 c) (Nat.le_add_right 10000 c.val))

/-! ## Corners of 8 × 128 tiles -/

/-- An 80 x 128 array that is zero except at the first lane of every eighth row, where row 8*t holds acc t: its total is the sum of acc. -/
theorem sum_corners (acc : Fin 10 → M) (out : (⟨2, ![80, 128]⟩ : Shape).Idx → M)
    (h : ∀ (r : Fin 80) (l : Fin 128), out (ix2 r l) = if r.val % 8 = 0 ∧ l.val = 0 then acc ⟨r.val / 8, by omega⟩ else 0) :
    ∑ j, out j = ∑ t : Fin 10, acc t := by
  rw [sum_idx2]
  -- in every row only lane 0 contributes
  have hlane : ∀ r : Fin 80, ∑ l : Fin 128, out (ix2 r l)
      = if r.val % 8 = 0 then acc ⟨r.val / 8, by omega⟩ else 0 := by
    intro r
    rw [Finset.sum_eq_single (⟨0, by omega⟩ : Fin 128)]
    · rw [h r ⟨0, by omega⟩]
      by_cases hr : r.val % 8 = 0
      · rw [if_pos ⟨hr, rfl⟩, if_pos hr]
      · rw [if_neg (fun hc => hr hc.1), if_neg hr]
    · intro l _ hl
      rw [h r l, if_neg]
      rintro ⟨_, hl0⟩
      exact hl (Fin.ext hl0)
    · intro hmem
      exact absurd (Finset.mem_univ _) hmem
  rw [Finset.sum_congr rfl fun r _ => hlane r]
  -- the rows, eight at a time: only the first of each eight contributes
  have hrows : ∑ r : Fin 80, (if r.val % 8 = 0 then acc ⟨r.val / 8, by omega⟩ else 0)
      = ∑ t : Fin 10, ∑ q : Fin 8,
          (if (8 * t.val + q.val) % 8 = 0 then acc ⟨(8 * t.val + q.val) / 8, by omega⟩ else 0) :=
    sum_fin_mul 10 8 fun r : Fin (10 * 8) => if r.val % 8 = 0 then acc ⟨r.val / 8, by omega⟩ else 0
  rw [hrows]
  refine Finset.sum_congr rfl fun t _ => ?_
  rw [Finset.sum_eq_single (⟨0, by omega⟩ : Fin 8)]
  · have h0 : (8 * t.val + 0) % 8 = 0 := by omega
    rw [if_pos h0]
    congr 1
    apply Fin.ext
    show (8 * t.val + 0) / 8 = t.val
    omega
  · intro q _ hq
    have hq0 : q.val ≠ 0 := fun hc => hq (Fin.ext hc)
    have hne : ¬ (8 * t.val + q.val) % 8 = 0 := by omega
    rw [if_neg hne]
  · intro hmem
    exact absurd (Finset.mem_univ _) hmem

end Cert.LibTiledSum
-- ==== Proof.OneHotAgg.lean ====
/-
  The edge sum as two products with one-hot rows over padded edge tables.

  A program that may not gather or scatter rows sums the transformed states along the edges by two matrix products.  The
  800000 source words and the 800000 target words are first padded to 802816 words with the word of all ones (−1 read
  signed, which names no node).  For every padded edge e the message is the one-hot row of its source word against the
  whole table,
      msg(e, d) = Σ_j [srcp e = j] · wh(j, d),
  and node n collects
      Σ_e [n = dstp e] · msg(e, d).
  A source word that is a node number picks exactly that node's row; a padding target word equals no node number, so the
  padded edges contribute nothing; what is left is the sum, over the edges into n, of the source rows.
-/
import proofs.«163112_j15616501088829_2_alg».proof.Proof.Spec
import proofs.«163112_j15616501088829_2_alg».proof.Proof.LibOneHot
import proofs.«163112_j15616501088829_2_alg».proof.Proof.LibTiledSum
import Mathlib.Tactic

noncomputable section

namespace Cert.OneHotAgg

open Idealize.ShloMosaic

/-- The word of all ones reads −1 signed. -/
theorem allOnes_toInt : (4294967295#32 : BitVec 32).toInt = -1 := by decide

/-- THE TWO ONE-HOT PRODUCTS over the padded tables are the specification's edge sum. -/
theorem onehot_agg (src dst : Fin 800000 → BitVec 32) (hsrc : ∀ e, 0 ≤ (src e).toInt ∧ (src e).toInt < 50000)
    (srcp dstp : Fin 802816 → BitVec 32)
    (hsp : ∀ e : Fin 802816, srcp e = if h : e.val < 800000 then src ⟨e.val, h⟩ else 4294967295#32)
    (hdp : ∀ e : Fin 802816, dstp e = if h : e.val < 800000 then dst ⟨e.val, h⟩ else 4294967295#32)
    (wh : Cert.Spec.Nodes) (msg : Fin 802816 → Fin 64 → EReal)
    (hmsg : ∀ e d, msg e d = ∑ j : Fin 50000, (if srcp e = BitVec.ofNat 32 j.val then (1 : EReal) else 0) * wh j d)
    (n : Fin 50000) (d : Fin 64) :
    (∑ e : Fin 802816, (if BitVec.ofNat 32 n.val = dstp e then (1 : EReal) else 0) * msg e d)
      = Cert.Spec.agg src dst wh n d := by
  have hn : n.val < 2 ^ 31 := by have := n.isLt; omega
  unfold Cert.Spec.agg
  refine Cert.LibTiledSum.sum_drop_tail (n := 800000) (k := 2816)
    (fun e : Fin 802816 => (if BitVec.ofNat 32 n.val = dstp e then (1 : EReal) else 0) * msg e d)
    (fun e : Fin 800000 => if (dst e).toInt = (n.val : ℤ) then wh (Cert.Spec.srcRow (src e)) d else 0) ?_ ?_
  · -- a true edge: its padded words are its own, and its source word picks its source row
    intro c
    have hc : (Fin.castAdd 2816 c).val < 800000 := c.isLt
    have hd : dstp (Fin.castAdd 2816 c) = dst c := by rw [hdp, dif_pos hc]; exact congrArg dst (Fin.ext rfl)
    have hs : srcp (Fin.castAdd 2816 c) = src c := by rw [hsp, dif_pos hc]; exact congrArg src (Fin.ext rfl)
    have ht := Cert.LibOneHot.sum_onehot_table (src c) 50000 (by norm_num) (by norm_num) (hsrc c).1
      (by exact_mod_cast (hsrc c).2) (fun k => wh k d)
    show (if BitVec.ofNat 32 n.val = dstp (Fin.castAdd 2816 c) then (1 : EReal) else 0) * msg (Fin.castAdd 2816 c) d
      = if (dst c).toInt = (n.val : ℤ) then wh (Cert.Spec.srcRow (src c)) d else 0
    rw [hd, hmsg, hs, ht]
    by_cases h : (dst c).toInt = (n.val : ℤ)
    · rw [if_pos ((Cert.LibOneHot.ofNat_eq_iff_toInt _ _ hn).mpr h), if_pos h, one_mul]
      rfl
    · rw [if_neg (fun h' => h ((Cert.LibOneHot.ofNat_eq_iff_toInt _ _ hn).mp h')), if_neg h, zero_mul]
  · -- a padded edge: its target word names no node
    intro c
    have hc : ¬ (Fin.natAdd 800000 c).val < 800000 := by
      show ¬ (800000 + c.val < 800000)
      omega
    show (if BitVec.ofNat 32 n.val = dstp (Fin.natAdd 800000 c) then (1 : EReal) else 0) * msg (Fin.natAdd 800000 c) d = 0
    rw [hdp, dif_neg hc, if_neg, zero_mul]
    intro h
    have h1 := (Cert.LibOneHot.ofNat_eq_iff_toInt _ _ hn).mp h
    rw [allOnes_toInt] at h1
    omega

end Cert.OneHotAgg

end
-- ==== Proof.RefArgs.lean ====
/-
  The nine argument arrays read by their entries: the weight matrices by (row, column), the bias vectors by position, the
  edge tables by edge, the node states by (node, feature).  The function both programs compute, as a function of the nine
  arrays.
-/
import Idealize.ShloMosaic.Lib.ValueIdx
import proofs.«163112_j15616501088829_2_alg».proof.Proof.Spec

noncomputable section

namespace Cert.Args

open Idealize.ShloMosaic Idealize.ShloMosaic.ValueIdx

/-- A 64×64 matrix by its entries. -/
def mat64 (x : (⟨2, ![64, 64]⟩ : Shape).Idx → EReal) : Fin 64 → Fin 64 → EReal := fun a b => x (ix2 a b)

/-- A vector of 64 by its entries. -/
def vec64 (x : (⟨1, ![64]⟩ : Shape).Idx → EReal) : Fin 64 → EReal := fun a => x (ix1 a)

/-- A 192×64 matrix by its entries. -/
def mat192 (x : (⟨2, ![192, 64]⟩ : Shape).Idx → EReal) : Fin 192 → Fin 64 → EReal := fun a b => x (ix2 a b)

/-- A vector of 192 by its entries. -/
def vec192 (x : (⟨1, ![192]⟩ : Shape).Idx → EReal) : Fin 192 → EReal := fun a => x (ix1 a)

/-- A table of 800000 words by edge. -/
def words (x : (⟨1, ![800000]⟩ : Shape).Idx → BitVec 32) : Fin 800000 → BitVec 32 := fun e => x (ix1 e)

/-- A 50000×64 array of node states by (node, feature). -/
def nodes (x : (⟨2, ![50000, 64]⟩ : Shape).Idx → EReal) : Cert.Spec.Nodes := fun n j => x (ix2 n j)

/-- One round, as a function of the arrays: the node states first, then the layer's weights and bias, the two gate
    matrices, the two gate biases, the edge sources and the edge targets. -/
def round (x0 : (⟨2, ![50000, 64]⟩ : Shape).Idx → EReal) (x1 : (⟨2, ![64, 64]⟩ : Shape).Idx → EReal)
    (x2 : (⟨1, ![64]⟩ : Shape).Idx → EReal) (x3 x4 : (⟨2, ![192, 64]⟩ : Shape).Idx → EReal)
    (x5 x6 : (⟨1, ![192]⟩ : Shape).Idx → EReal) (x7 x8 : (⟨1, ![800000]⟩ : Shape).Idx → BitVec 32) : Cert.Spec.Nodes :=
  Cert.Spec.round (mat64 x1) (vec64 x2) (mat192 x3) (mat192 x4) (vec192 x5) (vec192 x6) (words x7) (words x8) (nodes x0)

/-- The three rounds, as a function of the nine arrays in the programs' argument order. -/
def out (x0 : (⟨2, ![50000, 64]⟩ : Shape).Idx → EReal) (x1 : (⟨2, ![64, 64]⟩ : Shape).Idx → EReal)
    (x2 : (⟨1, ![64]⟩ : Shape).Idx → EReal) (x3 x4 : (⟨2, ![192, 64]⟩ : Shape).Idx → EReal)
    (x5 x6 : (⟨1, ![192]⟩ : Shape).Idx → EReal) (x7 x8 : (⟨1, ![800000]⟩ : Shape).Idx → BitVec 32) : Cert.Spec.Nodes :=
  Cert.Spec.out (mat64 x1) (vec64 x2) (mat192 x3) (mat192 x4) (vec192 x5) (vec192 x6) (words x7) (words x8) (nodes x0)

end Cert.Args

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.PayLinear.lean ====
/-
  The per-node dense layer, read at an index.

  A block of 5000 node rows h (5000×64) is multiplied into the TRANSPOSE of the 64×64 weight matrix W and the bias row is
  added to every row:
      out(n, j) = Σ_k h(n, k) · W(j, k) + b(j).
  (The rounding of both factors to a shorter float format is the identity on the extended reals.)
-/
import proofs.«163112_j15616501088829_2_alg».proof.Proof.Gen.KernelIdeal.Skeleton
import proofs.«163112_j15616501088829_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx
open Cert.KernelIdeal Cert.KernelIdeal.Gen

/-- The dense layer of the first round at (n, j). -/
theorem linear0_apply (v0 : Vec Ideal S5000x64 .f32) (v2 : Vec Ideal S64x64 .f32) (v6 : Vec Ideal S1x64 .f32)
    (n : Fin 5000) (j : Fin 64) :
    k0_pay1 (F := Ideal) v0 v2 v6 (ix2 n j)
      = (∑ k : Fin 64, v0 (ix2 n k) * v2 (ix2 j k)) + v6 (ix2 (0 : Fin 1) j) := by
  unfold k0_pay1
  dsimp only
  simp only [shapeCast_self]
  rw [addf_apply, broadcastTo_1b_ab_apply]
  refine congrArg (· + v6 (ix2 (0 : Fin 1) j)) ?_
  refine (PlainProduct.matmul_zero_apply (M := 5000) (K := 64) (P := 64)
    dot_S5000x64_S64x64_S5000x64_1_0_0_1_n_n_wf none _ _ n j).trans ?_
  refine Finset.sum_congr rfl fun k _ => ?_
  rw [truncf_apply, transpose_ix2_apply, truncf_apply]

/-- The dense layer of the second round at (n, j). -/
theorem linear4_apply (v0 : Vec Ideal S5000x64 .f32) (v3 : Vec Ideal S64x64 .f32) (v7 : Vec Ideal S1x64 .f32)
    (n : Fin 5000) (j : Fin 64) :
    k4_pay1 (F := Ideal) v0 v3 v7 (ix2 n j)
      = (∑ k : Fin 64, v0 (ix2 n k) * v3 (ix2 j k)) + v7 (ix2 (0 : Fin 1) j) := by
  unfold k4_pay1
  dsimp only
  simp only [shapeCast_self]
  rw [addf_apply, broadcastTo_1b_ab_apply]
  refine congrArg (· + v7 (ix2 (0 : Fin 1) j)) ?_
  refine (PlainProduct.matmul_zero_apply (M := 5000) (K := 64) (P := 64)
    dot_S5000x64_S64x64_S5000x64_1_0_0_1_n_n_wf none _ _ n j).trans ?_
  refine Finset.sum_congr rfl fun k _ => ?_
  rw [truncf_apply, transpose_ix2_apply, truncf_apply]

/-- The dense layer of the third round at (n, j). -/
theorem linear8_apply (v0 : Vec Ideal S5000x64 .f32) (v3 : Vec Ideal S64x64 .f32) (v7 : Vec Ideal S1x64 .f32)
    (n : Fin 5000) (j : Fin 64) :
    k8_pay1 (F := Ideal) v0 v3 v7 (ix2 n j)
      = (∑ k : Fin 64, v0 (ix2 n k) * v3 (ix2 j k)) + v7 (ix2 (0 : Fin 1) j) := by
  unfold k8_pay1
  dsimp only
  simp only [shapeCast_self]
  rw [addf_apply, broadcastTo_1b_ab_apply]
  refine congrArg (· + v7 (ix2 (0 : Fin 1) j)) ?_
  refine (PlainProduct.matmul_zero_apply (M := 5000) (K := 64) (P := 64)
    dot_S5000x64_S64x64_S5000x64_1_0_0_1_n_n_wf none _ _ n j).trans ?_
  refine Finset.sum_congr rfl fun k _ => ?_
  rw [truncf_apply, transpose_ix2_apply, truncf_apply]

end Cert.KernelIdeal.Pay

end
-- ==== Proof.ValLin0.lean ====
/-
  What the first dense layer's region leaves in its output array: at every node n and column j the layer
      Σ_k h(n, k) · W(j, k) + b(j)
  of the node table h, the weight matrix W and the bias row b as the region finds them.  Grid point t stages rows
  5000·t … 5000·t + 4999 of h and the whole of W and b, and writes the layer of those rows back to the same rows of the
  output; the ten blocks cover the 50000 rows.
-/
import proofs.«163112_j15616501088829_2_alg».proof.Proof.RegLin0
import proofs.«163112_j15616501088829_2_alg».proof.Proof.PayLinear
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin0_zero : (![0, 0] : Fin 2 → Nat) = fun _ => 0 := funext fun a => by fin_cases a <;> rfl

/-- A table of node rows as a function of the 50000×64 array's index. -/
def lin0_table (f : Cert.Spec.Nodes) : S50000x64.Idx → EReal :=
  fun i => f ⟨(i 0).val, idx2_lt0 i⟩ ⟨(i 1).val, idx2_lt1 i⟩

/-- The layer of the arrays the region is entered with. -/
def lin0_spec (c : Dev nD) : Cert.Spec.Nodes :=
  Cert.Spec.lin (fun a b => (V c main_arg1 : S64x64.Idx → EReal) (ix2 a b)) (fun a => (V c main_v0 : S1x64.Idx → EReal) (ix2 (0 : Fin 1) a))
    (fun a b => (V c main_arg0 : S50000x64.Idx → EReal) (ix2 a b))

/-- Point t's blocks: the node rows' and the output's are block t along the rows, the weights' and the bias's block 0. -/
theorem lin0_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of node rows is row 5000·t + p of the table. -/
theorem lin0_rows (c : Dev nD) (t : Fin cfg0.N) (p : Fin 5000) (k : Fin 64) (n : Fin 50000) (hn : n.val = t.val * 5000 + p.val) :
    (Reg.iblk0 V c 0 t : Vec Ideal S5000x64 .f32) (ix2 p k) = (V c main_arg0 : S50000x64.Idx → EReal) (ix2 n k) := by
  obtain ⟨e0, e1, -⟩ := lin0_index t
  unfold Reg.iblk0
  rw [View.read_apply]
  show (V c main_arg0 : S50000x64.Idx → EReal) _ = _
  refine congrArg _ (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- Point t's block of the weights is the weight matrix. -/
theorem lin0_weights (c : Dev nD) (t : Fin cfg0.N) (j k : Fin 64) :
    (Reg.iblk0 V c 1 t : Vec Ideal S64x64 .f32) (ix2 j k) = (V c main_arg1 : S64x64.Idx → EReal) (ix2 j k) := by
  obtain ⟨-, -, e2, e3, -⟩ := lin0_index t
  unfold Reg.iblk0
  rw [View.read_apply]
  show (V c main_arg1 : S64x64.Idx → EReal) _ = _
  refine congrArg _ (funext fun a => Fin.ext ?_)
  match a with
  | ⟨0, _⟩ => show win0_1.index t (0 : Fin 2) * 64 + 1 * j.val = j.val; omega
  | ⟨1, _⟩ => show win0_1.index t (1 : Fin 2) * 64 + 1 * k.val = k.val; omega

/-- Point t's block of the bias is the bias row. -/
theorem lin0_bias (c : Dev nD) (t : Fin cfg0.N) (j : Fin 64) :
    (Reg.iblk0 V c 2 t : Vec Ideal S1x64 .f32) (ix2 (0 : Fin 1) j) = (V c main_v0 : S1x64.Idx → EReal) (ix2 (0 : Fin 1) j) := by
  obtain ⟨-, -, -, -, e4, e5, -⟩ := lin0_index t
  unfold Reg.iblk0
  rw [View.read_apply]
  show (V c main_v0 : S1x64.Idx → EReal) _ = _
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * j.val = j.val; omega

/-- The body's stored value at row p, column q of point t's block is the layer at node 5000·t + p, column q. -/
theorem lin0_point (c : Dev nD) (t : Fin cfg0.N) (p : Fin 5000) (q : Fin 64) (n : Fin 50000) (j : Fin 64)
    (hn : n.val = t.val * 5000 + p.val) (hj : j.val = q.val) :
    k0_pay1 (F := Ideal) (Reg.iblk0 V c 0 t) (Reg.iblk0 V c 1 t) (Reg.iblk0 V c 2 t) (ix2 p q) = lin0_spec V c n j := by
  obtain rfl : j = q := Fin.ext hj
  rw [Pay.linear0_apply]
  unfold lin0_spec Cert.Spec.lin
  rw [lin0_bias V c t j]
  refine congrArg (· + _) (Finset.sum_congr rfl fun k _ => ?_)
  rw [lin0_rows V c t p k n hn, lin0_weights V c t j k]

/-- What point t writes back is block t of the layer. -/
theorem lin0_flushed (c : Dev nD) (t : Fin cfg0.N) :
    (Reg.dat0 (F := Ideal) V c).flushed 3 t = ((cfg0.win 3).blk t).view.read (Elt Ideal) (lin0_table (lin0_spec V c)) := by
  show (cfg0.win 3).cut (grid0.coords t) ((Reg.dat0 V c).after 3 t) = _
  rw [Reg.after0_3]
  unfold Reg.out0_3
  rw [View.canon_unit_zero lin0_zero]
  simp only [View.ld_unit_zero (S := S5000x64) lin0_zero, View.ld_unit_zero (S := S64x64) lin0_zero, View.ld_unit_zero (S := S1x64) lin0_zero]
  funext y
  obtain ⟨p, q, rfl⟩ : ∃ (p : Fin 5000) (q : Fin 64), y = ix2 p q := ⟨y 0, y 1, eq_ix2 y⟩
  obtain ⟨-, -, -, -, -, -, e6, e7⟩ := lin0_index t
  refine lin0_point V c t p q _ _ ?_ ?_
  · show win0_3.index t (0 : Fin 2) * 5000 + 1 * p.val = t.val * 5000 + p.val; omega
  · show win0_3.index t (1 : Fin 2) * 64 + 1 * q.val = q.val; omega

/-- An index of the output array is in point t's block iff each coordinate is in the block's range on its axis. -/
theorem lin0_mem (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5).slice (win0_3.rect t)).set ↔ _
  rw [View.set_slice_whole, Rect.mem_set_unit]
  exact Iff.rfl

/-- Every row of the output is in some point's block: row r in point r / 5000's. -/
theorem lin0_cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, -, -, e6, e7⟩ := lin0_index t
  refine ⟨t, flush0_3 t, ?_⟩
  rw [lin0_mem]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after the region's last point is the layer, entry by entry. -/
theorem lin0_array (c : Dev nD) : (Reg.dat0 (F := Ideal) V c).arrAt 3 cfg0.N = lin0_table (lin0_spec V c) :=
  (Reg.dat0 (F := Ideal) V c).arrAt_eq_of_cover 3 (lin0_table (lin0_spec V c)) (fun t _ => lin0_flushed V c t) lin0_cover

/-- At node n and column j. -/
theorem lin0_final (c : Dev nD) (n : Fin 50000) (j : Fin 64) :
    (Reg.dat0 (F := Ideal) V c).arrAt 3 cfg0.N (ix2 n j)
      = Cert.Spec.lin (fun a b => (V c main_arg1 : S64x64.Idx → EReal) (ix2 a b)) (fun a => (V c main_v0 : S1x64.Idx → EReal) (ix2 (0 : Fin 1) a))
          (fun a b => (V c main_arg0 : S50000x64.Idx → EReal) (ix2 a b)) n j := by
  rw [lin0_array V c]
  rfl

end Cert.KernelIdeal.Val

end
-- ==== Proof.ValLin4.lean ====
/-
  What the second dense layer's region leaves in its output array: at every node n and column j the layer
      Σ_k h(n, k) · W(j, k) + b(j)
  of the node table h, the weight matrix W and the bias row b as the region finds them.  Grid point t stages rows
  5000·t … 5000·t + 4999 of h and the whole of W and b, and writes the layer of those rows back to the same rows of the
  output; the ten blocks cover the 50000 rows.
-/
import proofs.«163112_j15616501088829_2_alg».proof.Proof.RegLin4
import proofs.«163112_j15616501088829_2_alg».proof.Proof.PayLinear
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin4_zero : (![0, 0] : Fin 2 → Nat) = fun _ => 0 := funext fun a => by fin_cases a <;> rfl

/-- A table of node rows as a function of the 50000×64 array's index. -/
def lin4_table (f : Cert.Spec.Nodes) : S50000x64.Idx → EReal :=
  fun i => f ⟨(i 0).val, idx2_lt0 i⟩ ⟨(i 1).val, idx2_lt1 i⟩

/-- The layer of the arrays the region is entered with. -/
def lin4_spec (c : Dev nD) : Cert.Spec.Nodes :=
  Cert.Spec.lin (fun a b => (V c main_arg1 : S64x64.Idx → EReal) (ix2 a b)) (fun a => (V c main_v0 : S1x64.Idx → EReal) (ix2 (0 : Fin 1) a))
    (fun a b => (V c main_v8 : S50000x64.Idx → EReal) (ix2 a b))

/-- Point t's blocks: the node rows' and the output's are block t along the rows, the weights' and the bias's block 0. -/
theorem lin4_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of point t's block of node rows is row 5000·t + p of the table. -/
theorem lin4_rows (c : Dev nD) (t : Fin cfg4.N) (p : Fin 5000) (k : Fin 64) (n : Fin 50000) (hn : n.val = t.val * 5000 + p.val) :
    (Reg.iblk4 V c 0 t : Vec Ideal S5000x64 .f32) (ix2 p k) = (V c main_v8 : S50000x64.Idx → EReal) (ix2 n k) := by
  obtain ⟨e0, e1, -⟩ := lin4_index t
  unfold Reg.iblk4
  rw [View.read_apply]
  show (V c main_v8 : S50000x64.Idx → EReal) _ = _
  refine congrArg _ (funext fun a => Fin.ext ?_)
  match a with
  | ⟨0, _⟩ => show win4_0.index t (0 : Fin 2) * 5000 + 1 * p.val = n.val; omega
  | ⟨1, _⟩ => show win4_0.index t (1 : Fin 2) * 64 + 1 * k.val = k.val; omega

/-- Point t's block of the weights is the weight matrix. -/
theorem lin4_weights (c : Dev nD) (t : Fin cfg4.N) (j k : Fin 64) :
    (Reg.iblk4 V c 1 t : Vec Ideal S64x64 .f32) (ix2 j k) = (V c main_arg1 : S64x64.Idx → EReal) (ix2 j k) := by
  obtain ⟨-, -, e2, e3, -⟩ := lin4_index t
  unfold Reg.iblk4
  rw [View.read_apply]
  show (V c main_arg1 : S64x64.Idx → EReal) _ = _
  refine congrArg _ (funext fun a => Fin.ext ?_)
  match a with
  | ⟨0, _⟩ => show win4_1.index t (0 : Fin 2) * 64 + 1 * j.val = j.val; omega
  | ⟨1, _⟩ => show win4_1.index t (1 : Fin 2) * 64 + 1 * k.val = k.val; omega

/-- Point t's block of the bias is the bias row. -/
theorem lin4_bias (c : Dev nD) (t : Fin cfg4.N) (j : Fin 64) :
    (Reg.iblk4 V c 2 t : Vec Ideal S1x64 .f32) (ix2 (0 : Fin 1) j) = (V c main_v0 : S1x64.Idx → EReal) (ix2 (0 : Fin 1) j) := by
  obtain ⟨-, -, -, -, e4, e5, -⟩ := lin4_index t
  unfold Reg.iblk4
  rw [View.read_apply]
  show (V c main_v0 : S1x64.Idx → EReal) _ = _
  refine congrArg _ (funext fun a => Fin.ext ?_)
  match a with
  | ⟨0, _⟩ => show win4_2.index t (0 : Fin 2) * 1 + 1 * 0 = 0; omega
  | ⟨1, _⟩ => show win4_2.index t (1 : Fin 2) * 64 + 1 * j.val = j.val; omega

/-- The body's stored value at row p, column q of point t's block is the layer at node 5000·t + p, column q. -/
theorem lin4_point (c : Dev nD) (t : Fin cfg4.N) (p : Fin 5000) (q : Fin 64) (n : Fin 50000) (j : Fin 64)
    (hn : n.val = t.val * 5000 + p.val) (hj : j.val = q.val) :
    k4_pay1 (F := Ideal) (Reg.iblk4 V c 0 t) (Reg.iblk4 V c 1 t) (Reg.iblk4 V c 2 t) (ix2 p q) = lin4_spec V c n j := by
  obtain rfl : j = q := Fin.ext hj
  rw [Pay.linear4_apply]
  unfold lin4_spec Cert.Spec.lin
  rw [lin4_bias V c t j]
  refine congrArg (· + _) (Finset.sum_congr rfl fun k _ => ?_)
  rw [lin4_rows V c t p k n hn, lin4_weights V c t j k]

/-- What point t writes back is block t of the layer. -/
theorem lin4_flushed (c : Dev nD) (t : Fin cfg4.N) :
    (Reg.dat4 (F := Ideal) V c).flushed 3 t = ((cfg4.win 3).blk t).view.read (Elt Ideal) (lin4_table (lin4_spec V c)) := by
  show (cfg4.win 3).cut (grid4.coords t) ((Reg.dat4 V c).after 3 t) = _
  rw [Reg.after4_3]
  unfold Reg.out4_3
  rw [View.canon_unit_zero lin4_zero]
  simp only [View.ld_unit_zero (S := S5000x64) lin4_zero, View.ld_unit_zero (S := S64x64) lin4_zero, View.ld_unit_zero (S := S1x64) lin4_zero]
  funext y
  obtain ⟨p, q, rfl⟩ : ∃ (p : Fin 5000) (q : Fin 64), y = ix2 p q := ⟨y 0, y 1, eq_ix2 y⟩
  obtain ⟨-, -, -, -, -, -, e6, e7⟩ := lin4_index t
  refine lin4_point V c t p q _ _ ?_ ?_
  · show win4_3.index t (0 : Fin 2) * 5000 + 1 * p.val = t.val * 5000 + p.val; omega
  · show win4_3.index t (1 : Fin 2) * 64 + 1 * q.val = q.val; omega

/-- An index of the output array is in point t's block iff each coordinate is in the block's range on its axis. -/
theorem lin4_mem (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v9).slice (win4_3.rect t)).set ↔ _
  rw [View.set_slice_whole, Rect.mem_set_unit]
  exact Iff.rfl

/-- Every row of the output is in some point's block: row r in point r / 5000's. -/
theorem lin4_cover (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  have ht : t.val = (i 0).val / 5000 := rfl
  obtain ⟨-, -, -, -, -, -, e6, e7⟩ := lin4_index t
  refine ⟨t, flush4_3 t, ?_⟩
  rw [lin4_mem]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The output array after the region's last point is the layer, entry by entry. -/
theorem lin4_array (c : Dev nD) : (Reg.dat4 (F := Ideal) V c).arrAt 3 cfg4.N = lin4_table (lin4_spec V c) :=
  (Reg.dat4 (F := Ideal) V c).arrAt_eq_of_cover 3 (lin4_table (lin4_spec V c)) (fun t _ => lin4_flushed V c t) lin4_cover

/-- At node n and column j. -/
theorem lin4_final (c : Dev nD) (n : Fin 50000) (j : Fin 64) :
    (Reg.dat4 (F := Ideal) V c).arrAt 3 cfg4.N (ix2 n j)
      = Cert.Spec.lin (fun a b => (V c main_arg1 : S64x64.Idx → EReal) (ix2 a b)) (fun a => (V c main_v0 : S1x64.Idx → EReal) (ix2 (0 : Fin 1) a))
          (fun a b => (V c main_v8 : S50000x64.Idx → EReal) (ix2 a b)) n j := by
  rw [lin4_array V c]
  rfl

end Cert.KernelIdeal.Val

end
-- ==== Proof.ValLin8.lean ====
/-
  What the third dense layer's region leaves in its output array: at every node n and column j the layer
      Σ_k h(n, k) · W(j, k) + b(j)
  of the node table h, the weight matrix W and the bias row b as the region finds them.  Grid point t stages rows
  5000·t … 5000·t + 4999 of h and the whole of W and b, and writes the layer of those rows back to the same rows of the
  output; the ten blocks cover the 50000 rows.
-/
import proofs.«163112_j15616501088829_2_alg».proof.Proof.RegLin8
import proofs.«163112_j15616501088829_2_alg».proof.Proof.PayLinear
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem lin8_zero : (![0, 0] : Fin 2 → Nat) = fun _ => 0 := funext fun a => by fin_cases a <;> rfl

/-- A table of node rows as a function of the 50000×64 array's index. -/
def lin8_table (f : Cert.Spec.Nodes) : S50000x64.Idx → EReal :=
  fun i => f ⟨(i 0).val, idx2_lt0 i⟩ ⟨(i 1).val, idx2_lt1 i⟩

/-- The layer of the arrays the region is entered with. -/
def lin8_spec (c : Dev nD) : Cert.Spec.Nodes :=
  Cert.Spec.lin (fun a b => (V c main_arg1 : S64x64.Idx → EReal) (ix2 a b)) (fun a => (V c main_v0 : S1x64.Idx → EReal) (ix2 (0 : Fin 1) a))
    (fun a b => (V c main_v12 : S50000x64.Idx → EReal) (ix2 a b))

/-- Point t's blocks: the node rows' and the output's are block t along the rows, the weights' and the bias's block 0. -/
theorem lin8_index : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row p of point t's block of node rows is row 5000·t + p of the table. -/
theorem lin8_rows (c : Dev nD) (t : Fin cfg8.N) (p : Fin 5000) (k : Fin 64) (n : Fin 50000) (hn : n.val = t.val * 5000 + p.val) :
    (Reg.iblk8 V c 0 t : Vec Ideal S5000x64 .f32) (ix2 p k) = (V c main_v12 : S50000x64.Idx → EReal) (ix2 n k) := by
  obtain ⟨e0, e1, -⟩ := lin8_index t
  unfold Reg.iblk8
  rw [View.read_apply]
  show (V c main_v12 : S50000x64.Idx → EReal) _ = _
  refine congrArg _ (funext fun a => Fin.ext ?_)
  match a with
  | ⟨0, _⟩ => show win8_0.index t (0 : Fin 2) * 5000 + 1 * p.val = n.val; omega
  | ⟨1, _⟩ => show win8_0.index t (1 : Fin 2) * 64 + 1 * k.val = k.val; omega

/-- Point t's block of the weights is the weight matrix. -/
theorem lin8_weights (c : Dev nD) (t : Fin cfg8.N) (j k : Fin 64) :
    (Reg.iblk8 V c 1 t : Vec Ideal S64x64 .f32) (ix2 j k) = (V c main_arg1 : S64x64.Idx → EReal) (ix2 j k) := by
  obtain ⟨-, -, e2, e3, -⟩ := lin8_index t
  unfold Reg.iblk8
  rw [View.read_apply]
  show (V c main_arg1 : S64x64.Idx → EReal) _ = _
  refine congrArg _ (funext fun a => Fin.ext ?_)
  match a with
  | ⟨0, _⟩ => show win8_1.index t (0 : Fin 2) * 64 + 1 * j.val = j.val; omega
  | ⟨1, _⟩ => show win8_1.index t (1 : Fin 2) * 64 + 1 * k.val = k.val; omega

/-- Point t's block of the bias is the bias row. -/
theorem lin8_bias (c : Dev nD) (t : Fin cfg8.N) (j : Fin 64) :
    (Reg.iblk8 V c 2 t : Vec Ideal S1x64 .f32) (ix2 (0 : Fin 1) j) = (V c main_v0 : S1x64.Idx → EReal) (ix2 (0 : Fin 1) j) := by
  obtain ⟨-, -, -, -, e4, e5, -⟩ := lin8_index t
  unfold Reg.iblk8
  rw [View.read_apply]
  show (V c main_v0 : S1x64.Idx → EReal) _ = _
  refine congrArg _ (funext fun a => Fin.ext ?_)
  match a with
  | ⟨0, _⟩ => show win8_2.index t (0 : Fin 2) * 1 + 1 * 0 = 0; omega
  | ⟨1, _⟩ => show win8_2.index t (1 : Fin 2) * 64 + 1 * j.val = j.val; omega

/-- The body's stored value at row p, column q of point t's block is the layer at node 5000·t + p, column q. -/
theorem lin8_point (c : Dev nD) (t : Fin cfg8.N) (p : Fin 5000) (q : Fin 64) (n : Fin 50000) (j : Fin 64)
    (hn : n.val = t.val * 5000 + p.val) (hj : j.val = q.val) :
    k8_pay1 (F := Ideal) (Reg.iblk8 V c 0 t) (Reg.iblk8 V c 1 t) (Reg.iblk8 V c 2 t) (ix2 p q) = lin8_spec V c n j := by
  obtain rfl : j = q := Fin.ext hj
  rw [Pay.linear8_apply]
  unfold lin8_spec Cert.Spec.lin
  rw [lin8_bias V c t j]
  refine congrArg (· + _) (Finset.sum_congr rfl fun k _ => ?_)
  rw [lin8_rows V c t p k n hn, lin8_weights V c t j k]

/-- What point t writes back is block t of the layer. -/
theorem lin8_flushed (c : Dev nD) (t : Fin cfg8.N) :
    (Reg.dat8 (F := Ideal) V c).flushed 3 t = ((cfg8.win 3).blk t).view.read (Elt Ideal) (lin8_table (lin8_spec V c)) := by
  show (cfg8.win 3).cut (grid8.coords t) ((Reg.dat8 V c).after 3 t) = _
  rw [Reg.after8_3]
  unfold Reg.out8_3
  rw [View.canon_unit_zero lin8_zero]
  simp only [View.ld_unit_zero (S := S5000x64) lin8_zero, View.ld_unit_zero (S := S64x64) lin8_zero, View.ld_unit_zero (S := S1x64) lin8_zero]
  funext y
  obtain ⟨p, q, rfl⟩ : ∃ (p : Fin 5000) (q : Fin 64), y = ix2 p q := ⟨y 0, y 1, eq_ix2 y⟩
  obtain ⟨-, -, -, -, -, -, e6, e7⟩ := lin8_index t
  refine lin8_point V c t p q _ _ ?_ ?_
  · show win8_3.index t (0 : Fin 2) * 5000 + 1 * p.val = t.val * 5000 + p.val; omega
  · show win8_3.index t (1 : Fin 2) * 64 + 1 * q.val = q.val; omega

/-- An index of the output array is in point t's block iff each coordinate is in the block's range on its axis. -/
theorem lin8_mem (t : Fin cfg8.N) (i : S50000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v13).slice (win8_3.rect t)).set ↔ _
  rw [View.set_slice_whole, Rect.mem_set_unit]
  exact Iff.rfl

/-- Every row of the output is in some point's block: row r in point r / 5000's. -/
theorem lin8_cover (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 10 := N_8
  let t : Fin cfg8.N := ⟨(i 0).val / 5000, by rw [hN]; omega⟩
  have ht : t.val = (i 0).val / 5000 := rfl
  obtain ⟨-, -, -, -, -, -, e6, e7⟩ := lin8_index t
  refine ⟨t, flush8_3 t, ?_⟩
  rw [lin8_mem]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

/-- The output array after the region's last point is the layer, entry by entry. -/
theorem lin8_array (c : Dev nD) : (Reg.dat8 (F := Ideal) V c).arrAt 3 cfg8.N = lin8_table (lin8_spec V c) :=
  (Reg.dat8 (F := Ideal) V c).arrAt_eq_of_cover 3 (lin8_table (lin8_spec V c)) (fun t _ => lin8_flushed V c t) lin8_cover

/-- At node n and column j. -/
theorem lin8_final (c : Dev nD) (n : Fin 50000) (j : Fin 64) :
    (Reg.dat8 (F := Ideal) V c).arrAt 3 cfg8.N (ix2 n j)
      = Cert.Spec.lin (fun a b => (V c main_arg1 : S64x64.Idx → EReal) (ix2 a b)) (fun a => (V c main_v0 : S1x64.Idx → EReal) (ix2 (0 : Fin 1) a))
          (fun a b => (V c main_v12 : S50000x64.Idx → EReal) (ix2 a b)) n j := by
  rw [lin8_array V c]
  rfl

end Cert.KernelIdeal.Val

end
-- ==== Proof.PayGru.lean ====
/-
  The gated recurrent cell, read at an index.

  For a block of 2000 nodes with aggregated messages a and states h (both 2000×64), the body forms the two 2000×192 gate
  pre-activations
      gi(n, c) = Σ_k a(n, k) · Wih(c, k) + bih(c),     gh(n, c) = Σ_k h(n, k) · Whh(c, k) + bhh(c),
  cuts each into its reset, update and candidate parts (columns j, 64 + j, 128 + j), and stores
      r = σ(gi_r + gh_r),  z = σ(gi_z + gh_z),  ñ = tanh(gi_n + r · gh_n),  out = (1 − z) · ñ + z · h.
-/
import proofs.«163112_j15616501088829_2_alg».proof.Proof.Gen.KernelIdeal.Skeleton
import proofs.«163112_j15616501088829_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx
open Cert.KernelIdeal Cert.KernelIdeal.Gen

/-- Column j of the reset part, of the update part and of the candidate part of a 192-column gate matrix. -/
def col0 (j : Fin 64) : Fin 192 := ⟨j.val, by have := j.isLt; omega⟩
def col1 (j : Fin 64) : Fin 192 := ⟨64 + j.val, by have := j.isLt; omega⟩
def col2 (j : Fin 64) : Fin 192 := ⟨128 + j.val, by have := j.isLt; omega⟩

/-- A gate pre-activation at (n, c). -/
def gateAt (a : Vec Ideal S2000x64 .f32) (W : Vec Ideal S192x64 .f32) (b : Vec Ideal S1x192 .f32) (n : Fin 2000) (c : Fin 192) : EReal :=
  (∑ k : Fin 64, a (ix2 n k) * W (ix2 c k)) + b (ix2 (0 : Fin 1) c)

/-- The cell's new state at (n, j). -/
def gruAt (a h : Vec Ideal S2000x64 .f32) (Wih Whh : Vec Ideal S192x64 .f32) (bih bhh : Vec Ideal S1x192 .f32)
    (n : Fin 2000) (j : Fin 64) : EReal :=
  (Scalar.ofBits (F := Ideal) .f32 0x3F800000#32
      - FloatOps.logistic (F := Ideal) (φ := .f32) (gateAt a Wih bih n (col1 j) + gateAt h Whh bhh n (col1 j)))
    * FloatOps.tanh (F := Ideal) (φ := .f32) (gateAt a Wih bih n (col2 j)
        + FloatOps.logistic (F := Ideal) (φ := .f32) (gateAt a Wih bih n (col0 j) + gateAt h Whh bhh n (col0 j)) * gateAt h Whh bhh n (col2 j))
    + FloatOps.logistic (F := Ideal) (φ := .f32) (gateAt a Wih bih n (col1 j) + gateAt h Whh bhh n (col1 j)) * h (ix2 n j)

theorem logistic_at {s : Shape} (v : FVec Ideal s .f32) (i : s.Idx) : logistic v i = FloatOps.logistic (F := Ideal) (φ := .f32) (v i) := rfl
theorem tanh_at {s : Shape} (v : FVec Ideal s .f32) (i : s.Idx) : tanh v i = FloatOps.tanh (F := Ideal) (φ := .f32) (v i) := rfl

/-- One gate matrix — the product with the transposed weights plus the bias row — at (n, c). -/
theorem gate_apply (a : Vec Ideal S2000x64 .f32) (W : Vec Ideal S192x64 .f32) (b : Vec Ideal S1x192 .f32) (n : Fin 2000) (c : Fin 192) :
    addf (matmul (F := Ideal) dot_S2000x64_S64x192_S2000x192_1_0_0_1_n_n none (truncf .bf16 a bitsLt_bf16_f32)
        (transpose S64x192 [1, 0] (truncf .bf16 W bitsLt_bf16_f32) transposes_S192x64_p1_0_S64x192)
        (constant S2000x192 .f32 0x00000000#32))
      (broadcastTo S2000x192 b broadcasts_S1x192_S2000x192) (ix2 n c)
      = gateAt a W b n c := by
  unfold gateAt
  rw [addf_apply, broadcastTo_1b_ab_apply]
  refine congrArg (· + b (ix2 (0 : Fin 1) c)) ?_
  refine (PlainProduct.matmul_zero_apply (M := 2000) (K := 64) (P := 192)
    dot_S2000x64_S64x192_S2000x192_1_0_0_1_n_n_wf none _ _ n c).trans ?_
  refine Finset.sum_congr rfl fun k _ => ?_
  rw [truncf_apply, transpose_ix2_apply, truncf_apply]

/-- The recurrent cell of region 3 at (n, j). -/
theorem gru3_apply (v0 v2 : Vec Ideal S2000x64 .f32) (v5 v8 : Vec Ideal S192x64 .f32) (v12 v17 : Vec Ideal S1x192 .f32) (n : Fin 2000) (j : Fin 64) :
    k3_pay1 (F := Ideal) v0 v2 v5 v8 v12 v17 (ix2 n j) = gruAt v0 v2 v5 v8 v12 v17 n j := by
  unfold k3_pay1
  dsimp only
  simp only [shapeCast_self]
  simp only [addf_apply, mulf_apply, subf_apply, broadcast_apply, logistic_at, tanh_at]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  repeat rw [gate_apply]
  rfl

/-- The recurrent cell of region 7 at (n, j). -/
theorem gru7_apply (v0 v2 : Vec Ideal S2000x64 .f32) (v6 v9 : Vec Ideal S192x64 .f32) (v13 v18 : Vec Ideal S1x192 .f32) (n : Fin 2000) (j : Fin 64) :
    k7_pay1 (F := Ideal) v0 v2 v6 v9 v13 v18 (ix2 n j) = gruAt v0 v2 v6 v9 v13 v18 n j := by
  unfold k7_pay1
  dsimp only
  simp only [shapeCast_self]
  simp only [addf_apply, mulf_apply, subf_apply, broadcast_apply, logistic_at, tanh_at]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  repeat rw [gate_apply]
  rfl

/-- The recurrent cell of region 11 at (n, j). -/
theorem gru11_apply (v0 v2 : Vec Ideal S2000x64 .f32) (v6 v9 : Vec Ideal S192x64 .f32) (v13 v18 : Vec Ideal S1x192 .f32) (n : Fin 2000) (j : Fin 64) :
    k11_pay1 (F := Ideal) v0 v2 v6 v9 v13 v18 (ix2 n j) = gruAt v0 v2 v6 v9 v13 v18 n j := by
  unfold k11_pay1
  dsimp only
  simp only [shapeCast_self]
  simp only [addf_apply, mulf_apply, subf_apply, broadcast_apply, logistic_at, tanh_at]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  rw [slice2_axis1_apply 0 _ slices_S2000x192_o0_0_S2000x64 n j (col0 j) (by simp [col0]),
    slice2_axis1_apply 64 _ slices_S2000x192_o0_64_S2000x64 n j (col1 j) (by simp [col1]),
    slice2_axis1_apply 128 _ slices_S2000x192_o0_128_S2000x64 n j (col2 j) (by simp [col2])]
  repeat rw [gate_apply]
  rfl

end Cert.KernelIdeal.Pay

end
-- ==== Proof.ValGru3.lean ====
/-
  What the first recurrent cell's region leaves in its output array: at every node n and column j the cell's new state
      (1 − z) · ñ + z · h(n, j),   z = σ(gi_z + gh_z),  r = σ(gi_r + gh_r),  ñ = tanh(gi_n + r · gh_n),
  with gi = a · Wihᵀ + bih and gh = h · Whhᵀ + bhh, of the aggregated messages a, the node states h, the two gate matrices
  and the two bias rows as the region finds them.  Grid point t stages rows 2000·t … 2000·t + 1999 of a and of h and the
  whole of the matrices and the bias rows, and writes the cell of those rows back to the same rows of the output; the
  twenty-five blocks cover the 50000 rows.
-/
import proofs.«163112_j15616501088829_2_alg».proof.Proof.RegGru3
import proofs.«163112_j15616501088829_2_alg».proof.Proof.PayGru
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem gru3_zero : (![0, 0] : Fin 2 → Nat) = fun _ => 0 := funext fun a => by fin_cases a <;> rfl

/-- A table of node rows as a function of the 50000×64 array's index. -/
def gru3_table (f : Cert.Spec.Nodes) : S50000x64.Idx → EReal :=
  fun i => f ⟨(i 0).val, idx2_lt0 i⟩ ⟨(i 1).val, idx2_lt1 i⟩

/-- The cell of the arrays the region is entered with. -/
def gru3_spec (c : Dev nD) : Cert.Spec.Nodes :=
  Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v7 : S50000x64.Idx → EReal) (ix2 a b)) (fun a b => (V c main_arg0 : S50000x64.Idx → EReal) (ix2 a b))

/-- Point t's blocks: the messages', the states' and the output's are block t along the rows, the matrices' and the bias
    rows' block 0. -/
theorem gru3_index : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_6.index t (0 : Fin 2) = t.val
    ∧ win3_6.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0 :=
  (by decide +kernel : ∀ t : Fin grid3.N, _)

/-- Row p of point t's block of aggregated messages is row 2000·t + p of the table. -/
theorem gru3_messages (c : Dev nD) (t : Fin cfg3.N) (p : Fin 2000) (k : Fin 64) (n : Fin 50000) (hn : n.val = t.val * 2000 + p.val) :
    (Reg.iblk3 V c 0 t : Vec Ideal S2000x64 .f32) (ix2 p k) = (V c main_v7 : S50000x64.Idx → EReal) (ix2 n k) := by
  have e := gru3_index t
  unfold Reg.iblk3
  rw [View.read_apply]
  show (V c main_v7 : S50000x64.Idx → EReal) _ = _
  refine congrArg _ (funext fun a => Fin.ext ?_)
  match a with
  | ⟨0, _⟩ => show win3_0.index t (0 : Fin 2) * 2000 + 1 * p.val = n.val; omega
  | ⟨1, _⟩ => show win3_0.index t (1 : Fin 2) * 64 + 1 * k.val = k.val; omega

/-- Row p of point t's block of node states is row 2000·t + p of the table. -/
theorem gru3_states (c : Dev nD) (t : Fin cfg3.N) (p : Fin 2000) (k : Fin 64) (n : Fin 50000) (hn : n.val = t.val * 2000 + p.val) :
    (Reg.iblk3 V c 1 t : Vec Ideal S2000x64 .f32) (ix2 p k) = (V c main_arg0 : S50000x64.Idx → EReal) (ix2 n k) := by
  have e := gru3_index t
  unfold Reg.iblk3
  rw [View.read_apply]
  show (V c main_arg0 : S50000x64.Idx → EReal) _ = _
  refine congrArg _ (funext fun a => Fin.ext ?_)
  match a with
  | ⟨0, _⟩ => show win3_1.index t (0 : Fin 2) * 2000 + 1 * p.val = n.val; omega
  | ⟨1, _⟩ => show win3_1.index t (1 : Fin 2) * 64 + 1 * k.val = k.val; omega

/-- Point t's block of the input gate matrix is the whole matrix. -/
theorem gru3_wih (c : Dev nD) (t : Fin cfg3.N) (g : Fin 192) (k : Fin 64) :
    (Reg.iblk3 V c 2 t : Vec Ideal S192x64 .f32) (ix2 g k) = (V c main_arg3 : S192x64.Idx → EReal) (ix2 g k) := by
  have e := gru3_index t
  unfold Reg.iblk3
  rw [View.read_apply]
  show (V c main_arg3 : S192x64.Idx → EReal) _ = _
  refine congrArg _ (funext fun a => Fin.ext ?_)
  match a with
  | ⟨0, _⟩ => show win3_2.index t (0 : Fin 2) * 192 + 1 * g.val = g.val; omega
  | ⟨1, _⟩ => show win3_2.index t (1 : Fin 2) * 64 + 1 * k.val = k.val; omega

/-- Point t's block of the state gate matrix is the whole matrix. -/
theorem gru3_whh (c : Dev nD) (t : Fin cfg3.N) (g : Fin 192) (k : Fin 64) :
    (Reg.iblk3 V c 3 t : Vec Ideal S192x64 .f32) (ix2 g k) = (V c main_arg4 : S192x64.Idx → EReal) (ix2 g k) := by
  have e := gru3_index t
  unfold Reg.iblk3
  rw [View.read_apply]
  show (V c main_arg4 : S192x64.Idx → EReal) _ = _
  refine congrArg _ (funext fun a => Fin.ext ?_)
  match a with
  | ⟨0, _⟩ => show win3_3.index t (0 : Fin 2) * 192 + 1 * g.val = g.val; omega
  | ⟨1, _⟩ => show win3_3.index t (1 : Fin 2) * 64 + 1 * k.val = k.val; omega

/-- Point t's block of the input bias is the whole row. -/
theorem gru3_bih (c : Dev nD) (t : Fin cfg3.N) (g : Fin 192) :
    (Reg.iblk3 V c 4 t : Vec Ideal S1x192 .f32) (ix2 (0 : Fin 1) g) = (V c main_v1 : S1x192.Idx → EReal) (ix2 (0 : Fin 1) g) := by
  have e := gru3_index t
  unfold Reg.iblk3
  rw [View.read_apply]
  show (V c main_v1 : S1x192.Idx → EReal) _ = _
  refine congrArg _ (funext fun a => Fin.ext ?_)
  match a with
  | ⟨0, _⟩ => show win3_4.index t (0 : Fin 2) * 1 + 1 * 0 = 0; omega
  | ⟨1, _⟩ => show win3_4.index t (1 : Fin 2) * 192 + 1 * g.val = g.val; omega

/-- Point t's block of the state bias is the whole row. -/
theorem gru3_bhh (c : Dev nD) (t : Fin cfg3.N) (g : Fin 192) :
    (Reg.iblk3 V c 5 t : Vec Ideal S1x192 .f32) (ix2 (0 : Fin 1) g) = (V c main_v2 : S1x192.Idx → EReal) (ix2 (0 : Fin 1) g) := by
  have e := gru3_index t
  unfold Reg.iblk3
  rw [View.read_apply]
  show (V c main_v2 : S1x192.Idx → EReal) _ = _
  refine congrArg _ (funext fun a => Fin.ext ?_)
  match a with
  | ⟨0, _⟩ => show win3_5.index t (0 : Fin 2) * 1 + 1 * 0 = 0; omega
  | ⟨1, _⟩ => show win3_5.index t (1 : Fin 2) * 192 + 1 * g.val = g.val; omega

/-- The body's stored value at row p, column q of point t's block is the cell at node 2000·t + p, column q. -/
theorem gru3_point (c : Dev nD) (t : Fin cfg3.N) (p : Fin 2000) (q : Fin 64) (n : Fin 50000) (j : Fin 64)
    (hn : n.val = t.val * 2000 + p.val) (hj : j.val = q.val) :
    k3_pay1 (F := Ideal) (Reg.iblk3 V c 0 t) (Reg.iblk3 V c 1 t) (Reg.iblk3 V c 2 t) (Reg.iblk3 V c 3 t)
      (Reg.iblk3 V c 4 t) (Reg.iblk3 V c 5 t) (ix2 p q) = gru3_spec V c n j := by
  obtain rfl : j = q := Fin.ext hj
  rw [Pay.gru3_apply]
  have gi : ∀ g : Fin 192, Pay.gateAt (Reg.iblk3 V c 0 t) (Reg.iblk3 V c 2 t) (Reg.iblk3 V c 4 t) p g
      = Cert.Spec.gate (fun a b => (V c main_arg3 : S192x64.Idx → EReal) (ix2 a b)) (fun a => (V c main_v1 : S1x192.Idx → EReal) (ix2 (0 : Fin 1) a))
          (fun a b => (V c main_v7 : S50000x64.Idx → EReal) (ix2 a b)) n g := fun g => by
    unfold Pay.gateAt Cert.Spec.gate
    rw [gru3_bih V c t g]
    refine congrArg (· + _) (Finset.sum_congr rfl fun k _ => ?_)
    rw [gru3_messages V c t p k n hn, gru3_wih V c t g k]
  have gh : ∀ g : Fin 192, Pay.gateAt (Reg.iblk3 V c 1 t) (Reg.iblk3 V c 3 t) (Reg.iblk3 V c 5 t) p g
      = Cert.Spec.gate (fun a b => (V c main_arg4 : S192x64.Idx → EReal) (ix2 a b)) (fun a => (V c main_v2 : S1x192.Idx → EReal) (ix2 (0 : Fin 1) a))
          (fun a b => (V c main_arg0 : S50000x64.Idx → EReal) (ix2 a b)) n g := fun g => by
    unfold Pay.gateAt Cert.Spec.gate
    rw [gru3_bhh V c t g]
    refine congrArg (· + _) (Finset.sum_congr rfl fun k _ => ?_)
    rw [gru3_states V c t p k n hn, gru3_whh V c t g k]
  unfold Pay.gruAt
  simp only [gi, gh]
  rw [gru3_states V c t p j n hn]
  rfl

/-- What point t writes back is block t of the cell. -/
theorem gru3_flushed (c : Dev nD) (t : Fin cfg3.N) :
    (Reg.dat3 (F := Ideal) V c).flushed 6 t = ((cfg3.win 6).blk t).view.read (Elt Ideal) (gru3_table (gru3_spec V c)) := by
  show (cfg3.win 6).cut (grid3.coords t) ((Reg.dat3 V c).after 6 t) = _
  rw [Reg.after3_6]
  unfold Reg.out3_6
  rw [View.canon_unit_zero gru3_zero]
  simp only [View.ld_unit_zero (S := S2000x64) gru3_zero, View.ld_unit_zero (S := S192x64) gru3_zero, View.ld_unit_zero (S := S1x192) gru3_zero]
  funext y
  obtain ⟨p, q, rfl⟩ : ∃ (p : Fin 2000) (q : Fin 64), y = ix2 p q := ⟨y 0, y 1, eq_ix2 y⟩
  have e := gru3_index t
  refine gru3_point V c t p q _ _ ?_ ?_
  · show win3_6.index t (0 : Fin 2) * 2000 + 1 * p.val = t.val * 2000 + p.val; omega
  · show win3_6.index t (1 : Fin 2) * 64 + 1 * q.val = q.val; omega

/-- An index of the output array is in point t's block iff each coordinate is in the block's range on its axis. -/
theorem gru3_mem (t : Fin cfg3.N) (i : S50000x64.Idx) :
    i ∈ ((cfg3.win 6).blk t).view.set ↔ ∀ a : Fin 2, win3_6.index t a * S2000x64.size a ≤ (i a).val ∧ (i a).val < win3_6.index t a * S2000x64.size a + S2000x64.size a := by
  show i ∈ ((View.whole main_v8).slice (win3_6.rect t)).set ↔ _
  rw [View.set_slice_whole, Rect.mem_set_unit]
  exact Iff.rfl

/-- Every row of the output is in some point's block: row r in point r / 2000's. -/
theorem gru3_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  have ht : t.val = (i 0).val / 2000 := rfl
  have e := gru3_index t
  refine ⟨t, flush3_6 t, ?_⟩
  rw [gru3_mem]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 64 ≤ (i 1).val ∧ (i 1).val < win3_6.index t (1 : Fin 2) * 64 + 64; omega

/-- The output array after the region's last point is the cell, entry by entry. -/
theorem gru3_array (c : Dev nD) : (Reg.dat3 (F := Ideal) V c).arrAt 6 cfg3.N = gru3_table (gru3_spec V c) :=
  (Reg.dat3 (F := Ideal) V c).arrAt_eq_of_cover 6 (gru3_table (gru3_spec V c)) (fun t _ => gru3_flushed V c t) gru3_cover

/-- At node n and column j. -/
theorem gru3_final (c : Dev nD) (n : Fin 50000) (j : Fin 64) :
    (Reg.dat3 (F := Ideal) V c).arrAt 6 cfg3.N (ix2 n j)
      = Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v7 : S50000x64.Idx → EReal) (ix2 a b)) (fun a b => (V c main_arg0 : S50000x64.Idx → EReal) (ix2 a b)) n j := by
  rw [gru3_array V c]
  rfl

end Cert.KernelIdeal.Val

end
-- ==== Proof.ValGru7.lean ====
/-
  What the second recurrent cell's region leaves in its output array: at every node n and column j the cell's new state
      (1 − z) · ñ + z · h(n, j),   z = σ(gi_z + gh_z),  r = σ(gi_r + gh_r),  ñ = tanh(gi_n + r · gh_n),
  with gi = a · Wihᵀ + bih and gh = h · Whhᵀ + bhh, of the aggregated messages a, the node states h, the two gate matrices
  and the two bias rows as the region finds them.  Grid point t stages rows 2000·t … 2000·t + 1999 of a and of h and the
  whole of the matrices and the bias rows, and writes the cell of those rows back to the same rows of the output; the
  twenty-five blocks cover the 50000 rows.
-/
import proofs.«163112_j15616501088829_2_alg».proof.Proof.RegGru7
import proofs.«163112_j15616501088829_2_alg».proof.Proof.PayGru
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem gru7_zero : (![0, 0] : Fin 2 → Nat) = fun _ => 0 := funext fun a => by fin_cases a <;> rfl

/-- A table of node rows as a function of the 50000×64 array's index. -/
def gru7_table (f : Cert.Spec.Nodes) : S50000x64.Idx → EReal :=
  fun i => f ⟨(i 0).val, idx2_lt0 i⟩ ⟨(i 1).val, idx2_lt1 i⟩

/-- The cell of the arrays the region is entered with. -/
def gru7_spec (c : Dev nD) : Cert.Spec.Nodes :=
  Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v11 : S50000x64.Idx → EReal) (ix2 a b)) (fun a b => (V c main_v8 : S50000x64.Idx → EReal) (ix2 a b))

/-- Point t's blocks: the messages', the states' and the output's are block t along the rows, the matrices' and the bias
    rows' block 0. -/
theorem gru7_index : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_6.index t (0 : Fin 2) = t.val
    ∧ win7_6.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0 :=
  (by decide +kernel : ∀ t : Fin grid7.N, _)

/-- Row p of point t's block of aggregated messages is row 2000·t + p of the table. -/
theorem gru7_messages (c : Dev nD) (t : Fin cfg7.N) (p : Fin 2000) (k : Fin 64) (n : Fin 50000) (hn : n.val = t.val * 2000 + p.val) :
    (Reg.iblk7 V c 0 t : Vec Ideal S2000x64 .f32) (ix2 p k) = (V c main_v11 : S50000x64.Idx → EReal) (ix2 n k) := by
  have e := gru7_index t
  unfold Reg.iblk7
  rw [View.read_apply]
  show (V c main_v11 : S50000x64.Idx → EReal) _ = _
  refine congrArg _ (funext fun a => Fin.ext ?_)
  match a with
  | ⟨0, _⟩ => show win7_0.index t (0 : Fin 2) * 2000 + 1 * p.val = n.val; omega
  | ⟨1, _⟩ => show win7_0.index t (1 : Fin 2) * 64 + 1 * k.val = k.val; omega

/-- Row p of point t's block of node states is row 2000·t + p of the table. -/
theorem gru7_states (c : Dev nD) (t : Fin cfg7.N) (p : Fin 2000) (k : Fin 64) (n : Fin 50000) (hn : n.val = t.val * 2000 + p.val) :
    (Reg.iblk7 V c 1 t : Vec Ideal S2000x64 .f32) (ix2 p k) = (V c main_v8 : S50000x64.Idx → EReal) (ix2 n k) := by
  have e := gru7_index t
  unfold Reg.iblk7
  rw [View.read_apply]
  show (V c main_v8 : S50000x64.Idx → EReal) _ = _
  refine congrArg _ (funext fun a => Fin.ext ?_)
  match a with
  | ⟨0, _⟩ => show win7_1.index t (0 : Fin 2) * 2000 + 1 * p.val = n.val; omega
  | ⟨1, _⟩ => show win7_1.index t (1 : Fin 2) * 64 + 1 * k.val = k.val; omega

/-- Point t's block of the input gate matrix is the whole matrix. -/
theorem gru7_wih (c : Dev nD) (t : Fin cfg7.N) (g : Fin 192) (k : Fin 64) :
    (Reg.iblk7 V c 2 t : Vec Ideal S192x64 .f32) (ix2 g k) = (V c main_arg3 : S192x64.Idx → EReal) (ix2 g k) := by
  have e := gru7_index t
  unfold Reg.iblk7
  rw [View.read_apply]
  show (V c main_arg3 : S192x64.Idx → EReal) _ = _
  refine congrArg _ (funext fun a => Fin.ext ?_)
  match a with
  | ⟨0, _⟩ => show win7_2.index t (0 : Fin 2) * 192 + 1 * g.val = g.val; omega
  | ⟨1, _⟩ => show win7_2.index t (1 : Fin 2) * 64 + 1 * k.val = k.val; omega

/-- Point t's block of the state gate matrix is the whole matrix. -/
theorem gru7_whh (c : Dev nD) (t : Fin cfg7.N) (g : Fin 192) (k : Fin 64) :
    (Reg.iblk7 V c 3 t : Vec Ideal S192x64 .f32) (ix2 g k) = (V c main_arg4 : S192x64.Idx → EReal) (ix2 g k) := by
  have e := gru7_index t
  unfold Reg.iblk7
  rw [View.read_apply]
  show (V c main_arg4 : S192x64.Idx → EReal) _ = _
  refine congrArg _ (funext fun a => Fin.ext ?_)
  match a with
  | ⟨0, _⟩ => show win7_3.index t (0 : Fin 2) * 192 + 1 * g.val = g.val; omega
  | ⟨1, _⟩ => show win7_3.index t (1 : Fin 2) * 64 + 1 * k.val = k.val; omega

/-- Point t's block of the input bias is the whole row. -/
theorem gru7_bih (c : Dev nD) (t : Fin cfg7.N) (g : Fin 192) :
    (Reg.iblk7 V c 4 t : Vec Ideal S1x192 .f32) (ix2 (0 : Fin 1) g) = (V c main_v1 : S1x192.Idx → EReal) (ix2 (0 : Fin 1) g) := by
  have e := gru7_index t
  unfold Reg.iblk7
  rw [View.read_apply]
  show (V c main_v1 : S1x192.Idx → EReal) _ = _
  refine congrArg _ (funext fun a => Fin.ext ?_)
  match a with
  | ⟨0, _⟩ => show win7_4.index t (0 : Fin 2) * 1 + 1 * 0 = 0; omega
  | ⟨1, _⟩ => show win7_4.index t (1 : Fin 2) * 192 + 1 * g.val = g.val; omega

/-- Point t's block of the state bias is the whole row. -/
theorem gru7_bhh (c : Dev nD) (t : Fin cfg7.N) (g : Fin 192) :
    (Reg.iblk7 V c 5 t : Vec Ideal S1x192 .f32) (ix2 (0 : Fin 1) g) = (V c main_v2 : S1x192.Idx → EReal) (ix2 (0 : Fin 1) g) := by
  have e := gru7_index t
  unfold Reg.iblk7
  rw [View.read_apply]
  show (V c main_v2 : S1x192.Idx → EReal) _ = _
  refine congrArg _ (funext fun a => Fin.ext ?_)
  match a with
  | ⟨0, _⟩ => show win7_5.index t (0 : Fin 2) * 1 + 1 * 0 = 0; omega
  | ⟨1, _⟩ => show win7_5.index t (1 : Fin 2) * 192 + 1 * g.val = g.val; omega

/-- The body's stored value at row p, column q of point t's block is the cell at node 2000·t + p, column q. -/
theorem gru7_point (c : Dev nD) (t : Fin cfg7.N) (p : Fin 2000) (q : Fin 64) (n : Fin 50000) (j : Fin 64)
    (hn : n.val = t.val * 2000 + p.val) (hj : j.val = q.val) :
    k7_pay1 (F := Ideal) (Reg.iblk7 V c 0 t) (Reg.iblk7 V c 1 t) (Reg.iblk7 V c 2 t) (Reg.iblk7 V c 3 t)
      (Reg.iblk7 V c 4 t) (Reg.iblk7 V c 5 t) (ix2 p q) = gru7_spec V c n j := by
  obtain rfl : j = q := Fin.ext hj
  rw [Pay.gru7_apply]
  have gi : ∀ g : Fin 192, Pay.gateAt (Reg.iblk7 V c 0 t) (Reg.iblk7 V c 2 t) (Reg.iblk7 V c 4 t) p g
      = Cert.Spec.gate (fun a b => (V c main_arg3 : S192x64.Idx → EReal) (ix2 a b)) (fun a => (V c main_v1 : S1x192.Idx → EReal) (ix2 (0 : Fin 1) a))
          (fun a b => (V c main_v11 : S50000x64.Idx → EReal) (ix2 a b)) n g := fun g => by
    unfold Pay.gateAt Cert.Spec.gate
    rw [gru7_bih V c t g]
    refine congrArg (· + _) (Finset.sum_congr rfl fun k _ => ?_)
    rw [gru7_messages V c t p k n hn, gru7_wih V c t g k]
  have gh : ∀ g : Fin 192, Pay.gateAt (Reg.iblk7 V c 1 t) (Reg.iblk7 V c 3 t) (Reg.iblk7 V c 5 t) p g
      = Cert.Spec.gate (fun a b => (V c main_arg4 : S192x64.Idx → EReal) (ix2 a b)) (fun a => (V c main_v2 : S1x192.Idx → EReal) (ix2 (0 : Fin 1) a))
          (fun a b => (V c main_v8 : S50000x64.Idx → EReal) (ix2 a b)) n g := fun g => by
    unfold Pay.gateAt Cert.Spec.gate
    rw [gru7_bhh V c t g]
    refine congrArg (· + _) (Finset.sum_congr rfl fun k _ => ?_)
    rw [gru7_states V c t p k n hn, gru7_whh V c t g k]
  unfold Pay.gruAt
  simp only [gi, gh]
  rw [gru7_states V c t p j n hn]
  rfl

/-- What point t writes back is block t of the cell. -/
theorem gru7_flushed (c : Dev nD) (t : Fin cfg7.N) :
    (Reg.dat7 (F := Ideal) V c).flushed 6 t = ((cfg7.win 6).blk t).view.read (Elt Ideal) (gru7_table (gru7_spec V c)) := by
  show (cfg7.win 6).cut (grid7.coords t) ((Reg.dat7 V c).after 6 t) = _
  rw [Reg.after7_6]
  unfold Reg.out7_6
  rw [View.canon_unit_zero gru7_zero]
  simp only [View.ld_unit_zero (S := S2000x64) gru7_zero, View.ld_unit_zero (S := S192x64) gru7_zero, View.ld_unit_zero (S := S1x192) gru7_zero]
  funext y
  obtain ⟨p, q, rfl⟩ : ∃ (p : Fin 2000) (q : Fin 64), y = ix2 p q := ⟨y 0, y 1, eq_ix2 y⟩
  have e := gru7_index t
  refine gru7_point V c t p q _ _ ?_ ?_
  · show win7_6.index t (0 : Fin 2) * 2000 + 1 * p.val = t.val * 2000 + p.val; omega
  · show win7_6.index t (1 : Fin 2) * 64 + 1 * q.val = q.val; omega

/-- An index of the output array is in point t's block iff each coordinate is in the block's range on its axis. -/
theorem gru7_mem (t : Fin cfg7.N) (i : S50000x64.Idx) :
    i ∈ ((cfg7.win 6).blk t).view.set ↔ ∀ a : Fin 2, win7_6.index t a * S2000x64.size a ≤ (i a).val ∧ (i a).val < win7_6.index t a * S2000x64.size a + S2000x64.size a := by
  show i ∈ ((View.whole main_v12).slice (win7_6.rect t)).set ↔ _
  rw [View.set_slice_whole, Rect.mem_set_unit]
  exact Iff.rfl

/-- Every row of the output is in some point's block: row r in point r / 2000's. -/
theorem gru7_cover (i : S50000x64.Idx) :
    ∃ t : Fin cfg7.N, (cfg7.win 6).flush t = true ∧ i ∈ ((cfg7.win 6).blk t).view.set := by
  have hi0 : (i 0).val < 50000 := (i 0).isLt
  have hi1 : (i 1).val < 64 := (i 1).isLt
  have hN : cfg7.N = 25 := N_7
  let t : Fin cfg7.N := ⟨(i 0).val / 2000, by rw [hN]; omega⟩
  have ht : t.val = (i 0).val / 2000 := rfl
  have e := gru7_index t
  refine ⟨t, flush7_6 t, ?_⟩
  rw [gru7_mem]
  intro a
  match a with
  | ⟨0, _⟩ => show win7_6.index t (0 : Fin 2) * 2000 ≤ (i 0).val ∧ (i 0).val < win7_6.index t (0 : Fin 2) * 2000 + 2000; omega
  | ⟨1, _⟩ => show win7_6.index t (1 : Fin 2) * 64 ≤ (i 1).val ∧ (i 1).val < win7_6.index t (1 : Fin 2) * 64 + 64; omega

/-- The output array after the region's last point is the cell, entry by entry. -/
theorem gru7_array (c : Dev nD) : (Reg.dat7 (F := Ideal) V c).arrAt 6 cfg7.N = gru7_table (gru7_spec V c) :=
  (Reg.dat7 (F := Ideal) V c).arrAt_eq_of_cover 6 (gru7_table (gru7_spec V c)) (fun t _ => gru7_flushed V c t) gru7_cover

/-- At node n and column j. -/
theorem gru7_final (c : Dev nD) (n : Fin 50000) (j : Fin 64) :
    (Reg.dat7 (F := Ideal) V c).arrAt 6 cfg7.N (ix2 n j)
      = Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v11 : S50000x64.Idx → EReal) (ix2 a b)) (fun a b => (V c main_v8 : S50000x64.Idx → EReal) (ix2 a b)) n j := by
  rw [gru7_array V c]
  rfl

end Cert.KernelIdeal.Val

end
-- ==== Proof.ValGru11.lean ====
/-
  What the third recurrent cell's region leaves in its output array: at every node n and column j the cell's new state
      (1 − z) · ñ + z · h(n, j),   z = σ(gi_z + gh_z),  r = σ(gi_r + gh_r),  ñ = tanh(gi_n + r · gh_n),
  with gi = a · Wihᵀ + bih and gh = h · Whhᵀ + bhh, of the aggregated messages a, the node states h, the two gate matrices
  and the two bias rows as the region finds them.  Grid point t stages rows 2000·t … 2000·t + 1999 of a and of h and the
  whole of the matrices and the bias rows, and writes the cell of those rows back to the same rows of the output; the
  twenty-five blocks cover the 50000 rows.
-/
import proofs.«163112_j15616501088829_2_alg».proof.Proof.RegGru11
import proofs.«163112_j15616501088829_2_alg».proof.Proof.PayGru
import proofs.«163112_j15616501088829_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem gru11_zero : (![0, 0] : Fin 2 → Nat) = fun _ => 0 := funext fun a => by fin_cases a <;> rfl

/-- A table of node rows as a function of the 50000×64 array's index. -/
def gru11_table (f : Cert.Spec.Nodes) : S50000x64.Idx → EReal :=
  fun i => f ⟨(i 0).val, idx2_lt0 i⟩ ⟨(i 1).val, idx2_lt1 i⟩

/-- The cell of the arrays the region is entered with. -/
def gru11_spec (c : Dev nD) : Cert.Spec.Nodes :=
  Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v15 : S50000x64.Idx → EReal) (ix2 a b)) (fun a b => (V c main_v12 : S50000x64.Idx → EReal) (ix2 a b))

/-- Point t's blocks: the messages', the states' and the output's are block t along the rows, the matrices' and the bias
    rows' block 0. -/
theorem gru11_index : ∀ t : Fin cfg11.N,
    win11_0.index t (0 : Fin 2) = t.val
    ∧ win11_0.index t (1 : Fin 2) = 0
    ∧ win11_1.index t (0 : Fin 2) = t.val
    ∧ win11_1.index t (1 : Fin 2) = 0
    ∧ win11_6.index t (0 : Fin 2) = t.val
    ∧ win11_6.index t (1 : Fin 2) = 0
    ∧ win11_2.index t (0 : Fin 2) = 0
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0 :=
  (by decide +kernel : ∀ t : Fin grid11.N, _)

/-- Row p of point t's block of aggregated messages is row 2000·t + p of the table. -/
theorem gru11_messages (c : Dev nD) (t : Fin cfg11.N) (p : Fin 2000) (k : Fin 64) (n : Fin 50000) (hn : n.val = t.val * 2000 + p.val) :
    (Reg.iblk11 V c 0 t : Vec Ideal S2000x64 .f32) (ix2 p k) = (V c main_v15 : S50000x64.Idx → EReal) (ix2 n k) := by
  have e := gru11_index t
  unfold Reg.iblk11
  rw [View.read_apply]
  show (V c main_v15 : S50000x64.Idx → EReal) _ = _
  refine congrArg _ (funext fun a => Fin.ext ?_)
  match a with
  | ⟨0, _⟩ => show win11_0.index t (0 : Fin 2) * 2000 + 1 * p.val = n.val; omega
  | ⟨1, _⟩ => show win11_0.index t (1 : Fin 2) * 64 + 1 * k.val = k.val; omega

/-- Row p of point t's block of node states is row 2000·t + p of the table. -/
theorem gru11_states (c : Dev nD) (t : Fin cfg11.N) (p : Fin 2000) (k : Fin 64) (n : Fin 50000) (hn : n.val = t.val * 2000 + p.val) :
    (Reg.iblk11 V c 1 t : Vec Ideal S2000x64 .f32) (ix2 p k) = (V c main_v12 : S50000x64.Idx → EReal) (ix2 n k) := by
  have e := gru11_index t
  unfold Reg.iblk11
  rw [View.read_apply]
  show (V c main_v12 : S50000x64.Idx → EReal) _ = _
  refine congrArg _ (funext fun a => Fin.ext ?_)
  match a with
  | ⟨0, _⟩ => show win11_1.index t (0 : Fin 2) * 2000 + 1 * p.val = n.val; omega
  | ⟨1, _⟩ => show win11_1.index t (1 : Fin 2) * 64 + 1 * k.val = k.val; omega

/-- Point t's block of the input gate matrix is the whole matrix. -/
theorem gru11_wih (c : Dev nD) (t : Fin cfg11.N) (g : Fin 192) (k : Fin 64) :
    (Reg.iblk11 V c 2 t : Vec Ideal S192x64 .f32) (ix2 g k) = (V c main_arg3 : S192x64.Idx → EReal) (ix2 g k) := by
  have e := gru11_index t
  unfold Reg.iblk11
  rw [View.read_apply]
  show (V c main_arg3 : S192x64.Idx → EReal) _ = _
  refine congrArg _ (funext fun a => Fin.ext ?_)
  match a with
  | ⟨0, _⟩ => show win11_2.index t (0 : Fin 2) * 192 + 1 * g.val = g.val; omega
  | ⟨1, _⟩ => show win11_2.index t (1 : Fin 2) * 64 + 1 * k.val = k.val; omega

/-- Point t's block of the state gate matrix is the whole matrix. -/
theorem gru11_whh (c : Dev nD) (t : Fin cfg11.N) (g : Fin 192) (k : Fin 64) :
    (Reg.iblk11 V c 3 t : Vec Ideal S192x64 .f32) (ix2 g k) = (V c main_arg4 : S192x64.Idx → EReal) (ix2 g k) := by
  have e := gru11_index t
  unfold Reg.iblk11
  rw [View.read_apply]
  show (V c main_arg4 : S192x64.Idx → EReal) _ = _
  refine congrArg _ (funext fun a => Fin.ext ?_)
  match a with
  | ⟨0, _⟩ => show win11_3.index t (0 : Fin 2) * 192 + 1 * g.val = g.val; omega
  | ⟨1, _⟩ => show win11_3.index t (1 : Fin 2) * 64 + 1 * k.val = k.val; omega

/-- Point t's block of the input bias is the whole row. -/
theorem gru11_bih (c : Dev nD) (t : Fin cfg11.N) (g : Fin 192) :
    (Reg.iblk11 V c 4 t : Vec Ideal S1x192 .f32) (ix2 (0 : Fin 1) g) = (V c main_v1 : S1x192.Idx → EReal) (ix2 (0 : Fin 1) g) := by
  have e := gru11_index t
  unfold Reg.iblk11
  rw [View.read_apply]
  show (V c main_v1 : S1x192.Idx → EReal) _ = _
  refine congrArg _ (funext fun a => Fin.ext ?_)
  match a with
  | ⟨0, _⟩ => show win11_4.index t (0 : Fin 2) * 1 + 1 * 0 = 0; omega
  | ⟨1, _⟩ => show win11_4.index t (1 : Fin 2) * 192 + 1 * g.val = g.val; omega

/-- Point t's block of the state bias is the whole row. -/
theorem gru11_bhh (c : Dev nD) (t : Fin cfg11.N) (g : Fin 192) :
    (Reg.iblk11 V c 5 t : Vec Ideal S1x192 .f32) (ix2 (0 : Fin 1) g) = (V c main_v2 : S1x192.Idx → EReal) (ix2 (0 : Fin 1) g) := by
  have e := gru11_index t
  unfold Reg.iblk11
  rw [View.read_apply]
  show (V c main_v2 : S1x192.Idx → EReal) _ = _
  refine congrArg _ (funext fun a => Fin.ext ?_)
  match a with
  | ⟨0, _⟩ => show win11_5.index t (0 : Fin 2) * 1 + 1 * 0 = 0; omega
  | ⟨1, _⟩ => show win11_5.index t (1 : Fin 2) * 192 + 1 * g.val = g.val; omega

/-- The body's stored value at row p, column q of point t's block is the cell at node 2000·t + p, column q. -/
theorem gru11_point (c : Dev nD) (t : Fin cfg11.N) (p : Fin 2000) (q : Fin 64) (n : Fin 50000) (j : Fin 64)
    (hn : n.val = t.val * 2000 + p.val) (hj : j.val = q.val) :
    k11_pay1 (F := Ideal) (Reg.iblk11 V c 0 t) (Reg.iblk11 V c 1 t) (Reg.iblk11 V c 2 t) (Reg.iblk11 V c 3 t)
      (Reg.iblk11 V c 4 t) (Reg.iblk11 V c 5 t) (ix2 p q) = gru11_spec V c n j := by
  obtain rfl : j = q := Fin.ext hj
  rw [Pay.gru11_apply]
  have gi : ∀ g : Fin 192, Pay.gateAt (Reg.iblk11 V c 0 t) (Reg.iblk11 V c 2 t) (Reg.iblk11 V c 4 t) p g
      = Cert.Spec.gate (fun a b => (V c main_arg3 : S192x64.Idx → EReal) (ix2 a b)) (fun a => (V c main_v1 : S1x192.Idx → EReal) (ix2 (0 : Fin 1) a))
          (fun a b => (V c main_v15 : S50000x64.Idx → EReal) (ix2 a b)) n g := fun g => by
    unfold Pay.gateAt Cert.Spec.gate
    rw [gru11_bih V c t g]
    refine congrArg (· + _) (Finset.sum_congr rfl fun k _ => ?_)
    rw [gru11_messages V c t p k n hn, gru11_wih V c t g k]
  have gh : ∀ g : Fin 192, Pay.gateAt (Reg.iblk11 V c 1 t) (Reg.iblk11 V c 3 t) (Reg.iblk11 V c 5 t) p g
      = Cert.Spec.gate (fun a b => (V c main_arg4 : S192x64.Idx → EReal) (ix2 a b)) (fun a => (V c main_v2 : S1x192.Idx → EReal) (ix2 (0 : Fin 1) a))
          (fun a b => (V c main_v12 : S50000x64.Idx → EReal) (ix2 a b)) n g := fun g => by
    unfold Pay.gateAt Cert.Spec.gate
    rw [gru11_bhh V c t g]
    refine congrArg (· + _) (Finset.sum_congr rfl fun k _ => ?_)
    rw [gru11_states V c t p k n hn, gru11_whh V c t g k]
  unfold Pay.gruAt
  simp only [gi, gh]
  rw [gru11_states V c t p j n hn]
  rfl

/-- What point t writes back is block t of the cell. -/
theorem gru11_flushed (c : Dev nD) (t : Fin cfg11.N) :
    (Reg.dat11 (F := Ideal) V c).flushed 6 t = ((cfg11.win 6).blk t).view.read (Elt Ideal) (gru11_table (gru11_spec V c)) := by
  show (cfg11.win 6).cut (grid11.coords t) ((Reg.dat11 V c).after 6 t) = _
  rw [Reg.after11_6]
  unfold Reg.out11_6
  rw [View.canon_unit_zero gru11_zero]
  simp only [View.ld_unit_zero (S := S2000x64) gru11_zero, View.ld_unit_zero (S := S192x64) gru11_zero, View.ld_unit_zero (S := S1x192) gru11_zero]
  funext y
  obtain ⟨p, q, rfl⟩ : ∃ (p : Fin 2000) (q : Fin 64), y = ix2 p q := ⟨y 0, y 1, eq_ix2 y⟩
  have e := gru11_index t
  refine gru11_point V c t p q _ _ ?_ ?_
  · show win11_6.index t (0 : Fin 2) * 2000 + 1 * p.val = t.val * 2000 + p.val; omega
  · show win11_6.index t (1 : Fin 2) * 64 + 1 * q.val = q.val; omega

/-- An index of the output array is in point t's block iff each coordinate is in the block's range on its axis. -/
theorem gru11_mem (t : Fin cfg11.N) (i : S50000x64.Idx) :
    i ∈ ((cfg11.win 6).blk t).view.set ↔ ∀ a : Fin 2, win11_6.index t a * S2000x64.size a ≤ (i a).val ∧ (i a).val < win11_6.index t a * S2000x64.size a + S2000x64.size a := by
  show i ∈ ((View.whole main_v16).slice (win11_6.rect t)).set ↔ _
  rw [View.set_slice_whole, Rect.mem_set_unit]
  exact Iff.rfl

/-- Every row of the output is in some point's block: row r in point r / 2000's. -/
theorem gru11_cover (i : S50000x64.Idx) :
    ∃ t : Fin cfg11.N, (cfg11.win 6).flush t = true ∧ i ∈ ((cfg11.win 6).blk t).view.set := by
  have hi0 : (i 0).val < 50000 := (i 0).isLt
  have hi1 : (i 1).val < 64 := (i 1).isLt
  have hN : cfg11.N = 25 := N_11
  let t : Fin cfg11.N := ⟨(i 0).val / 2000, by rw [hN]; omega⟩
  have ht : t.val = (i 0).val / 2000 := rfl
  have e := gru11_index t
  refine ⟨t, flush11_6 t, ?_⟩
  rw [gru11_mem]
  intro a
  match a with
  | ⟨0, _⟩ => show win11_6.index t (0 : Fin 2) * 2000 ≤ (i 0).val ∧ (i 0).val < win11_6.index t (0 : Fin 2) * 2000 + 2000; omega
  | ⟨1, _⟩ => show win11_6.index t (1 : Fin 2) * 64 ≤ (i 1).val ∧ (i 1).val < win11_6.index t (1 : Fin 2) * 64 + 64; omega

/-- The output array after the region's last point is the cell, entry by entry. -/
theorem gru11_array (c : Dev nD) : (Reg.dat11 (F := Ideal) V c).arrAt 6 cfg11.N = gru11_table (gru11_spec V c) :=
  (Reg.dat11 (F := Ideal) V c).arrAt_eq_of_cover 6 (gru11_table (gru11_spec V c)) (fun t _ => gru11_flushed V c t) gru11_cover

/-- At node n and column j. -/
theorem gru11_final (c : Dev nD) (n : Fin 50000) (j : Fin 64) :
    (Reg.dat11 (F := Ideal) V c).arrAt 6 cfg11.N (ix2 n j)
      = Cert.Spec.gru (fun a b => (V c main_arg3 : S192x64.Idx → EReal) (ix2 a b)) (fun a b => (V c main_arg4 : S192x64.Idx → EReal) (ix2 a b))
    (fun a => (V c main_v1 : S1x192.Idx → EReal) (ix2 (0 : Fin 1) a)) (fun a => (V c main_v2 : S1x192.Idx → EReal) (ix2 (0 : Fin 1) a))
    (fun a b => (V c main_v15 : S50000x64.Idx → EReal) (ix2 a b)) (fun a b => (V c main_v12 : S50000x64.Idx → EReal) (ix2 a b)) n j := by
  rw [gru11_array V c]
  rfl

end Cert.KernelIdeal.Val

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.PayGather.lean ====
/-
  One step of the row gather, read at an index.

  The kernel walks the node table in blocks of 1000 rows.  At block nb it compares each of its 4096 edge words with the
  node numbers 1000·nb, …, 1000·nb + 999, turns the comparison bits into the numbers 0 and 1, multiplies that 4096×1000
  matrix into the block's 1000×64 rows, and adds the product to what it has accumulated:
      new(e, d) = old(e, d) + Σ_k [src e = 1000·nb + k] · block(k, d).
  (The rounding of both factors to a shorter float format is the identity on the extended reals.)
-/
import proofs.«163112_j15616501088829_2_alg».proof.Proof.Gen.KernelIdeal.Skeleton
import proofs.«163112_j15616501088829_2_alg».proof.Proof.LibOneHot
import proofs.«163112_j15616501088829_2_alg».proof.Proof.LibPlainProduct
import proofs.«163112_j15616501088829_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.LibColumns
open Cert.KernelIdeal Cert.KernelIdeal.Gen Cert.LibOneHot

/-- The word of node number 1000·nb + k, as the kernel computes it: the block number times 1000, plus the row's place in
    the block. -/
theorem nodeWord (nb k : ℕ) (hnb : nb < 1000) (hk : k < 10000) :
    IntOp.addi (Scalar.muli (BitVec.ofNat 32 nb) 1000#32) (BitVec.ofNat 32 k) = BitVec.ofNat 32 (1000 * nb + k) := by
  apply BitVec.eq_of_toNat_eq
  show ((BitVec.ofNat 32 nb * 1000#32) + BitVec.ofNat 32 k).toNat = _
  simp only [BitVec.toNat_add, BitVec.toNat_mul, BitVec.toNat_ofNat]
  omega

/-- The edge word of row e, spread along the 1000 lanes, read at (e, k). -/
theorem edgeWord_apply (v8 : Vec Ideal S4096 .i32) (e : Fin 4096) (k : Fin 1000) :
    broadcastTo S4096x1000 (shapeCast S4096x1 v8 shapeCasts_S4096_S4096x1) broadcasts_S4096x1_S4096x1000 (ix2 e k)
      = v8 (ix1 e) := by
  rw [broadcastTo_a1_ab_apply, shapeCast_a_a1_apply]

/-- The node numbers of block nb, spread down the 4096 rows, read at (e, k). -/
theorem nodeWords_apply (nb : ℕ) (hnb : nb < 1000) (e : Fin 4096) (k : Fin 1000) :
    broadcastTo S4096x1000
        (shapeCast S1x1000
          (addi (broadcast S1000 (Scalar.muli (BitVec.ofNat 32 nb) 1000#32))
            (shapeCast S1000 (iota .tc S1x1000 32 [1] iota_S1x1000_d1_w32) shapeCasts_S1x1000_S1000))
          shapeCasts_S1000_S1x1000)
        broadcasts_S1x1000_S4096x1000 (ix2 e k)
      = BitVec.ofNat 32 (1000 * nb + k.val) := by
  rw [broadcastTo_1b_ab_apply, shapeCast_a_1a_apply]
  show IntOp.addi (Scalar.muli (BitVec.ofNat 32 nb) 1000#32)
      (shapeCast S1000 (iota .tc S1x1000 32 [1] iota_S1x1000_d1_w32) shapeCasts_S1x1000_S1000 (ix1 k)) = _
  rw [shapeCast_1a_a_apply]
  show IntOp.addi (Scalar.muli (BitVec.ofNat 32 nb) 1000#32) (BitVec.ofNat 32 (0 * 1000 + k.val)) = _
  rw [Nat.zero_mul, Nat.zero_add]
  exact nodeWord nb k.val hnb (by have := k.isLt; omega)

/-- ONE STEP OF THE GATHER at (e, d): what was accumulated, plus the block's row the edge word names (if it names one). -/
theorem gather_step_apply (i : grid1.Coords) (hi : (i 1).val < 1000) (v8 : Vec Ideal S4096 .i32) (v18 : Vec Ideal S1000x64 .f32)
    (v21 : Vec Ideal S4096x64 .f32) (e : Fin 4096) (d : Fin 64) :
    k1_pay2 (F := Ideal) i v8 v18 v21 (ix2 e d)
      = v21 (ix2 e d) + ∑ k : Fin 1000,
          (if v8 (ix1 e) = BitVec.ofNat 32 (1000 * (i 1).val + k.val) then (1 : EReal) else 0) * v18 (ix2 k d) := by
  unfold k1_pay2
  dsimp only
  simp only [shapeCast_self]
  rw [addf_apply]
  refine congrArg (v21 (ix2 e d) + ·) ?_
  refine (PlainProduct.matmul_zero_apply (M := 4096) (K := 1000) (P := 64)
    dot_S4096x1000_S1000x64_S4096x64_1_0_0_1_n_n_wf none _ _ e d).trans ?_
  refine Finset.sum_congr rfl fun k _ => ?_
  rw [truncf_apply, truncf_apply, sitofp_apply, extui_apply]
  show ((((IntOp.cmpi .eq
      (broadcastTo S4096x1000 (shapeCast S4096x1 v8 shapeCasts_S4096_S4096x1) broadcasts_S4096x1_S4096x1000 (ix2 e k))
      (broadcastTo S4096x1000
        (shapeCast S1x1000
          (addi (broadcast S1000 (Scalar.muli (BitVec.ofNat 32 (i 1).val) 1000#32))
            (shapeCast S1000 (iota .tc S1x1000 32 [1] iota_S1x1000_d1_w32) shapeCasts_S1x1000_S1000))
          shapeCasts_S1000_S1x1000)
        broadcasts_S1x1000_S4096x1000 (ix2 e k))).setWidth 32).toInt : ℝ) : EReal) * v18 (ix2 k d) = _
  rw [edgeWord_apply, nodeWords_apply _ hi, eqWord_real]

end Cert.KernelIdeal.Pay

end
-- ==== Proof.ValGather1.lean ====
/-
  What the first row gather's region leaves in its output array: at every edge e and column d the row of the table the
  edge's source word names,
      Σ_j [src e = j] · table(j, d),
  of the source words and the node table as the region finds them.  Grid point t = 50·eb + nb stages edge block eb (4096
  words) and node block nb (1000 rows); over the fifty points of an edge block the body's accumulator collects, node block
  by node block, the rows the block's words name, and after the fiftieth the pipeline writes it back to rows
  4096·eb … 4096·eb + 4095 of the output; the 196 blocks cover the 802816 rows.
-/
import proofs.«163112_j15616501088829_2_alg».proof.Proof.RegGather1
import proofs.«163112_j15616501088829_2_alg».proof.Proof.PayGather
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)

/-! ## What each case of the body leaves, as the body's arithmetic -/

section Pieces
variable {F : FTy → Type} [FloatOps F]

theorem gather1_z1 : (![0] : Fin 1 → Nat) = fun _ => 0 := funext fun a => by fin_cases a; rfl
theorem gather1_z2 : (![0, 0] : Fin 2 → Nat) = fun _ => 0 := funext fun a => by fin_cases a <;> rfl

/-- A later point leaves in the accumulator the step over what it held, -/
theorem gather1_accB (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond1_0 i) (x0 : Vec F S4096 .i32) (x1 : Vec F S1000x64 .f32) (xs0 : Vec F S4096x64 .f32) :
    Reg.sout1_B_0 c i arg2 harg2 arg3 harg3 arg4 harg4 arg5 harg5 hc0 x0 x1 xs0 = k1_pay2 i x0 x1 xs0 := by
  unfold Reg.sout1_B_0
  rw [View.read_writes_eq_canon _ _ _ (Reg.scover1_B_0 c i arg2 harg2 arg3 harg3 arg4 harg4 arg5 harg5 hc0 x0 x1 xs0)]
  unfold Reg.kernelRun1_B
  dsimp only
  sl_unfold_words
  rw [View.canon_unit_zero gather1_z2]
  simp only [View.readAt_eq_ld, harg2.read_unread, harg3.read_unread, harg5.read_unread, View.ld_unit_zero (S := S4096) gather1_z1, View.ld_unit_zero (S := S1000x64) gather1_z2, View.ld_unit_zero (S := S4096x64) gather1_z2]

/-- and the same in the output's buffer, copied from the accumulator. -/
theorem gather1_outB (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond1_0 i) (x0 : Vec F S4096 .i32) (x1 : Vec F S1000x64 .f32) (xs0 : Vec F S4096x64 .f32) :
    Reg.out1_B_2 c i arg2 harg2 arg3 harg3 arg4 harg4 arg5 harg5 hc0 x0 x1 xs0 = k1_pay2 i x0 x1 xs0 := by
  unfold Reg.out1_B_2
  rw [View.read_writes_eq_canon _ _ _ (Reg.cover1_B_2 c i arg2 harg2 arg3 harg3 arg4 harg4 arg5 harg5 hc0 x0 x1 xs0)]
  unfold Reg.kernelRun1_B
  dsimp only
  sl_unfold_words
  rw [View.canon_unit_zero gather1_z2, View.readCov_unit_zero (S := S4096x64) _ gather1_z2]
  simp only [View.readAt_eq_ld, harg2.read_unread, harg3.read_unread, harg5.read_unread, View.ld_unit_zero (S := S4096) gather1_z1, View.ld_unit_zero (S := S1000x64) gather1_z2, View.ld_unit_zero (S := S4096x64) gather1_z2]

/-- The first point of an edge block leaves the step over the cleared accumulator, -/
theorem gather1_accA (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond1_0 i) (x0 : Vec F S4096 .i32) (x1 : Vec F S1000x64 .f32) :
    Reg.sout1_A_0 c i arg2 harg2 arg3 harg3 arg4 harg4 arg5 harg5 hc0 x0 x1 = k1_pay2 i x0 x1 (k1_pay1 (F := F)) := by
  unfold Reg.sout1_A_0
  rw [View.read_writes_eq_canon _ _ _ (Reg.scover1_A_0 c i arg2 harg2 arg3 harg3 arg4 harg4 arg5 harg5 hc0 x0 x1)]
  unfold Reg.kernelRun1_A
  dsimp only
  sl_unfold_words
  rw [View.canon_cons_unit_zero gather1_z2, View.readCov_unit_zero (S := S4096x64) _ gather1_z2]
  simp only [View.readAt_eq_ld, harg2.read_unread, harg3.read_unread, View.ld_unit_zero (S := S4096) gather1_z1, View.ld_unit_zero (S := S1000x64) gather1_z2]

/-- in both buffers. -/
theorem gather1_outA (c : Dev nD) (i : grid1.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond1_0 i) (x0 : Vec F S4096 .i32) (x1 : Vec F S1000x64 .f32) :
    Reg.out1_A_2 c i arg2 harg2 arg3 harg3 arg4 harg4 arg5 harg5 hc0 x0 x1 = k1_pay2 i x0 x1 (k1_pay1 (F := F)) := by
  unfold Reg.out1_A_2
  rw [View.read_writes_eq_canon _ _ _ (Reg.cover1_A_2 c i arg2 harg2 arg3 harg3 arg4 harg4 arg5 harg5 hc0 x0 x1)]
  unfold Reg.kernelRun1_A
  dsimp only
  sl_unfold_words
  rw [View.canon_unit_zero gather1_z2,
    View.readCov_eq_canon_ld _ _ _ (fun y => ⟨_, List.mem_cons_self .., View.mem_set_unit_zero gather1_z2 inb_S4096x64_S4096x64_0_0 y⟩),
    View.canon_cons_unit_zero gather1_z2, View.ld_unit_zero (S := S4096x64) gather1_z2,
    View.readCov_unit_zero (S := S4096x64) _ gather1_z2]
  simp only [View.readAt_eq_ld, harg2.read_unread, harg3.read_unread, View.ld_unit_zero (S := S4096) gather1_z1, View.ld_unit_zero (S := S1000x64) gather1_z2]

end Pieces

/-! ## The accumulation, entry by entry -/

variable (V : (c : Dev nD) → (b : Ref sig .tc) → Buf (Elt Ideal) ((c : Thread nD τ).loc b))

/-- The source word of edge e, for every natural number e (the zero word past the last edge). -/
def gather1_word (c : Dev nD) (e : ℕ) : BitVec 32 :=
  if h : e < 802816 then (V c main_v3 : S802816.Idx → BitVec 32) (ix1 ⟨e, h⟩) else 0
/-- Row j of the table at column d, for every natural number j (zero past the last row). -/
def gather1_row (c : Dev nD) (j : ℕ) (d : Fin 64) : EReal :=
  if h : j < 50000 then (V c main_v5 : S50000x64.Idx → EReal) (ix2 ⟨j, h⟩ d) else 0
theorem gather1_word_eq (c : Dev nD) (e : Fin 802816) : gather1_word V c e.val = (V c main_v3 : S802816.Idx → BitVec 32) (ix1 e) := by
  unfold gather1_word; rw [dif_pos e.isLt]
theorem gather1_row_eq (c : Dev nD) (j : Fin 50000) (d : Fin 64) : gather1_row V c j.val d = (V c main_v5 : S50000x64.Idx → EReal) (ix2 j d) := by
  unfold gather1_row; rw [dif_pos j.isLt]

/-- What node block nb contributes to edge e at column d: the block's row the edge's word names, if it names one. -/
def gather1_term (c : Dev nD) (e : ℕ) (d : Fin 64) (nb : ℕ) : EReal :=
  ∑ k : Fin 1000, (if gather1_word V c e = BitVec.ofNat 32 (1000 * nb + k.val) then (1 : EReal) else 0) * gather1_row V c (1000 * nb + k.val) d
/-- The first m node blocks' contributions. -/
def gather1_part (c : Dev nD) (e : ℕ) (d : Fin 64) (m : ℕ) : EReal := ∑ nb ∈ Finset.range m, gather1_term V c e d nb
/-- The whole table's.  (Kept folded: nothing below looks inside the sum over the 50000 rows but the two lemmas that say what it is.) -/
@[irreducible] def gather1_sum (c : Dev nD) (e : Fin 802816) (d : Fin 64) : EReal :=
  ∑ j : Fin 50000, (if (V c main_v3 : S802816.Idx → BitVec 32) (ix1 e) = BitVec.ofNat 32 j.val then (1 : EReal) else 0) * (V c main_v5 : S50000x64.Idx → EReal) (ix2 j d)
/-- The gathered rows as a function of the 802816×64 array's index. -/
def gather1_table (c : Dev nD) : S802816x64.Idx → EReal :=
  fun i => gather1_sum V c ⟨(i 0).val, idx2_lt0 i⟩ ⟨(i 1).val, idx2_lt1 i⟩

/-- Point t = 50·eb + nb: the words' and the output's blocks are block eb, the table's block nb, and the body's second grid
    coordinate is nb. -/
theorem gather1_index : ∀ t : Fin cfg1.N,
    win1_0.index t (0 : Fin 1) = t.val / 50
    ∧ win1_1.index t (0 : Fin 2) = t.val % 50 ∧ win1_1.index t (1 : Fin 2) = 0
    ∧ win1_2.index t (0 : Fin 2) = t.val / 50 ∧ win1_2.index t (1 : Fin 2) = 0
    ∧ (grid1.coords t 1).val = t.val % 50 :=
  (by decide +kernel : ∀ t : Fin grid1.N, _)

/-- Word r of point t's block of source words is the word of edge 4096·(t / 50) + r. -/
theorem gather1_words (c : Dev nD) (t : Fin cfg1.N) (r : Fin 4096) :
    (Reg.iblk1 V c 0 t : Vec Ideal S4096 .i32) (ix1 r) = gather1_word V c (4096 * (t.val / 50) + r.val) := by
  obtain ⟨e0, -⟩ := gather1_index t
  have hN : cfg1.N = 9800 := N_1
  have ht : t.val < 9800 := hN ▸ t.isLt
  have hlt : 4096 * (t.val / 50) + r.val < 802816 := by omega
  unfold gather1_word
  rw [dif_pos hlt]
  unfold Reg.iblk1
  rw [View.read_apply]
  show (V c main_v3 : S802816.Idx → BitVec 32) _ = _
  refine congrArg _ (funext fun a => Fin.ext ?_)
  match a with
  | ⟨0, _⟩ => show win1_0.index t (0 : Fin 1) * 4096 + 1 * r.val = 4096 * (t.val / 50) + r.val; omega

/-- Row k of point t's block of the table is row 1000·(t % 50) + k. -/
theorem gather1_rows (c : Dev nD) (t : Fin cfg1.N) (k : Fin 1000) (d : Fin 64) :
    (Reg.iblk1 V c 1 t : Vec Ideal S1000x64 .f32) (ix2 k d) = gather1_row V c (1000 * (t.val % 50) + k.val) d := by
  obtain ⟨-, e1, e2, -⟩ := gather1_index t
  have hlt : 1000 * (t.val % 50) + k.val < 50000 := by omega
  unfold gather1_row
  rw [dif_pos hlt]
  unfold Reg.iblk1
  rw [View.read_apply]
  show (V c main_v5 : S50000x64.Idx → EReal) _ = _
  refine congrArg _ (funext fun a => Fin.ext ?_)
  match a with
  | ⟨0, _⟩ => show win1_1.index t (0 : Fin 2) * 1000 + 1 * k.val = 1000 * (t.val % 50) + k.val; omega
  | ⟨1, _⟩ => show win1_1.index t (1 : Fin 2) * 64 + 1 * d.val = d.val; omega

/-- The cleared accumulator holds zero. -/
theorem gather1_clear (r : Fin 4096) (d : Fin 64) : k1_pay1 (F := Ideal) (ix2 r d) = 0 := by
  unfold k1_pay1
  simp only [shapeCast_self]
  rw [broadcast_apply]
  exact Ideal.ofBits_zero_f32

/-- One step at point t, read at (r, d): what was accumulated plus node block t % 50's contribution to edge
    4096·(t / 50) + r. -/
theorem gather1_step (c : Dev nD) (t : Fin cfg1.N) (acc : Vec Ideal S4096x64 .f32) (r : Fin 4096) (d : Fin 64) :
    k1_pay2 (F := Ideal) (grid1.coords t) (Reg.iblk1 V c 0 t) (Reg.iblk1 V c 1 t) acc (ix2 r d)
      = acc (ix2 r d) + gather1_term V c (4096 * (t.val / 50) + r.val) d (t.val % 50) := by
  obtain ⟨-, -, -, -, -, e5⟩ := gather1_index t
  rw [Pay.gather_step_apply (grid1.coords t) (by rw [e5]; omega) _ _ _ r d]
  unfold gather1_term
  refine congrArg (_ + ·) (Finset.sum_congr rfl fun k _ => ?_)
  rw [gather1_words V c t r, gather1_rows V c t k d, e5]

/-- At the first point of an edge block both buffers hold the first node block's contribution. -/
theorem gather1_first (c : Dev nD) (t : Fin cfg1.N) (h0 : t.val % 50 = 0) (r : Fin 4096) (d : Fin 64) :
    (Reg.outsAt1 V c t.val t.isLt).1 (ix2 r d) = gather1_part V c (4096 * (t.val / 50) + r.val) d (t.val % 50 + 1)
    ∧ (Reg.outsAt1 V c t.val t.isLt).2 (ix2 r d) = gather1_part V c (4096 * (t.val / 50) + r.val) d (t.val % 50 + 1) := by
  have hs := gather1_step V c t (k1_pay1 (F := Ideal)) r d
  rw [gather1_clear, zero_add, h0] at hs
  rw [Reg.outsAt1_A V c t h0]
  dsimp only
  rw [gather1_outA, gather1_accA, hs, h0]
  unfold gather1_part
  rw [Nat.zero_add, Finset.sum_range_one]
  exact ⟨rfl, rfl⟩

/-- At a later point both hold what the accumulator held after the point before, plus this node block's contribution. -/
theorem gather1_later (c : Dev nD) (m : ℕ) (hn : m + 1 < cfg1.N) (h0 : ¬(m + 1) % 50 = 0) (r : Fin 4096) (d : Fin 64) :
    (Reg.outsAt1 V c (m + 1) hn).1 (ix2 r d)
        = (Reg.outsAt1 V c m (Nat.lt_of_succ_lt hn)).2 (ix2 r d) + gather1_term V c (4096 * ((m + 1) / 50) + r.val) d ((m + 1) % 50)
    ∧ (Reg.outsAt1 V c (m + 1) hn).2 (ix2 r d)
        = (Reg.outsAt1 V c m (Nat.lt_of_succ_lt hn)).2 (ix2 r d) + gather1_term V c (4096 * ((m + 1) / 50) + r.val) d ((m + 1) % 50) := by
  have hs := gather1_step V c ⟨m + 1, hn⟩ (Reg.outsAt1 V c m (Nat.lt_of_succ_lt hn)).2 r d
  rw [show Reg.outsAt1 V c (m + 1) hn = _ from Reg.outsAt1_B V c ⟨m + 1, hn⟩ h0]
  dsimp only
  rw [gather1_outB, gather1_accB]
  exact ⟨hs, hs⟩

/-- After point n both buffers hold, at (r, d), the contributions of node blocks 0 … n % 50 to edge 4096·(n / 50) + r. -/
theorem gather1_acc (c : Dev nD) (n : ℕ) : ∀ (hn : n < cfg1.N) (r : Fin 4096) (d : Fin 64),
    (Reg.outsAt1 V c n hn).1 (ix2 r d) = gather1_part V c (4096 * (n / 50) + r.val) d (n % 50 + 1)
    ∧ (Reg.outsAt1 V c n hn).2 (ix2 r d) = gather1_part V c (4096 * (n / 50) + r.val) d (n % 50 + 1) := by
  induction n with
  | zero =>
    intro hn r d
    exact gather1_first V c ⟨0, hn⟩ (Nat.zero_mod 50) r d
  | succ m ih =>
    intro hn r d
    by_cases h0 : (m + 1) % 50 = 0
    · exact gather1_first V c ⟨m + 1, hn⟩ h0 r d
    · obtain ⟨h1, h2⟩ := gather1_later V c m hn h0 r d
      have hq : (m + 1) / 50 = m / 50 := by omega
      have hr : (m + 1) % 50 = m % 50 + 1 := by omega
      have hprev := (ih (Nat.lt_of_succ_lt hn) r d).2
      rw [hprev, hq, hr] at h1 h2
      rw [hq, hr]
      have hsum : gather1_part V c (4096 * (m / 50) + r.val) d (m % 50 + 1 + 1)
          = gather1_part V c (4096 * (m / 50) + r.val) d (m % 50 + 1) + gather1_term V c (4096 * (m / 50) + r.val) d (m % 50 + 1) :=
        Finset.sum_range_succ _ _
      rw [hsum]
      exact ⟨h1, h2⟩

/-- All fifty node blocks' contributions are the sum over the whole table. -/
theorem gather1_whole (c : Dev nD) (e : Fin 802816) (d : Fin 64) : gather1_part V c e.val d 50 = gather1_sum V c e d := by
  unfold gather1_part gather1_sum
  rw [Finset.sum_range]
  refine (Finset.sum_congr rfl fun nb _ => ?_).trans
    (Cert.LibTiledSum.sum_fin_mul 50 1000 (fun j : Fin 50000 =>
      (if (V c main_v3 : S802816.Idx → BitVec 32) (ix1 e) = BitVec.ofNat 32 j.val then (1 : EReal) else 0) * (V c main_v5 : S50000x64.Idx → EReal) (ix2 j d))).symm
  unfold gather1_term
  refine Finset.sum_congr rfl fun k _ => ?_
  have hlt : 1000 * nb.val + k.val < 50000 := by have := nb.isLt; have := k.isLt; omega
  rw [gather1_word_eq, show gather1_row V c (1000 * nb.val + k.val) d = _ from gather1_row_eq V c ⟨_, hlt⟩ d]

/-! ## From the blocks to the array -/

/-- What the last point of an edge block leaves at row p, column q of the output's buffer is the gathered row of edge
    4096·(t / 50) + p at column q. -/
theorem gather1_point (c : Dev nD) (t : Fin cfg1.N) (h49 : t.val % 50 = 49) (p : Fin 4096) (q : Fin 64) (e : Fin 802816) (d : Fin 64)
    (he : e.val = 4096 * (t.val / 50) + p.val) (hd : d.val = q.val) :
    (Reg.outsAt1 V c t.val t.isLt).1 (ix2 p q) = gather1_sum V c e d := by
  obtain rfl : d = q := Fin.ext hd
  rw [(gather1_acc V c t.val t.isLt p d).1, h49, ← he]
  exact gather1_whole V c e d

/-- What a writing point writes back is its block of the gathered rows. -/
theorem gather1_flushed (c : Dev nD) (t : Fin cfg1.N) (hf : (cfg1.win 2).flush t = true) :
    (Reg.dat1 (F := Ideal) V c).flushed 2 t = ((cfg1.win 2).blk t).view.read (Elt Ideal) (gather1_table V c) := by
  have h49 : t.val % 50 = 49 := (flush1_2 t).mp hf
  show (cfg1.win 2).cut (grid1.coords t) ((Reg.dat1 V c).after 2 t) = _
  rw [Reg.after1_2]
  funext y
  obtain ⟨p, q, rfl⟩ : ∃ (p : Fin 4096) (q : Fin 64), y = ix2 p q := ⟨y 0, y 1, eq_ix2 y⟩
  obtain ⟨-, -, -, e3, e4, -⟩ := gather1_index t
  have hN : cfg1.N = 9800 := N_1
  have ht : t.val < 9800 := hN ▸ t.isLt
  have hlt : 4096 * (t.val / 50) + p.val < 802816 := by omega
  have hp := gather1_point V c t h49 p q ⟨4096 * (t.val / 50) + p.val, hlt⟩ q rfl rfl
  generalize Reg.outsAt1 V c t.val t.isLt = X at hp ⊢
  show X.1 (ix2 p q) = _
  rw [hp, View.read_apply]
  show gather1_sum V c _ _ = gather1_table V c _
  unfold gather1_table
  congr 1 <;> apply Fin.ext
  · show 4096 * (t.val / 50) + p.val = win1_2.index t (0 : Fin 2) * 4096 + 1 * p.val; omega
  · show q.val = win1_2.index t (1 : Fin 2) * 64 + 1 * q.val; omega

/-- An index of the output array is in point t's block iff each coordinate is in the block's range on its axis. -/
theorem gather1_mem (t : Fin cfg1.N) (i : S802816x64.Idx) :
    i ∈ ((cfg1.win 2).blk t).view.set ↔ ∀ a : Fin 2, win1_2.index t a * S4096x64.size a ≤ (i a).val ∧ (i a).val < win1_2.index t a * S4096x64.size a + S4096x64.size a := by
  show i ∈ ((View.whole main_v6).slice (win1_2.rect t)).set ↔ _
  rw [View.set_slice_whole, Rect.mem_set_unit]
  exact Iff.rfl

/-- Every row of the output is in some writing point's block: row e in the block of point 50·(e / 4096) + 49. -/
theorem gather1_cover (i : S802816x64.Idx) :
    ∃ t : Fin cfg1.N, (cfg1.win 2).flush t = true ∧ i ∈ ((cfg1.win 2).blk t).view.set := by
  have hi0 : (i 0).val < 802816 := (i 0).isLt
  have hi1 : (i 1).val < 64 := (i 1).isLt
  have hN : cfg1.N = 9800 := N_1
  let t : Fin cfg1.N := ⟨50 * ((i 0).val / 4096) + 49, by rw [hN]; omega⟩
  have ht : t.val = 50 * ((i 0).val / 4096) + 49 := rfl
  obtain ⟨-, -, -, e3, e4, -⟩ := gather1_index t
  refine ⟨t, (flush1_2 t).mpr (by rw [ht]; omega), ?_⟩
  rw [gather1_mem]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 64 ≤ (i 1).val ∧ (i 1).val < win1_2.index t (1 : Fin 2) * 64 + 64; omega

/-- The output array after the region's last point is the gathered rows, entry by entry. -/
theorem gather1_array (c : Dev nD) : (Reg.dat1 (F := Ideal) V c).arrAt 2 cfg1.N = gather1_table V c :=
  (Reg.dat1 (F := Ideal) V c).arrAt_eq_of_cover 2 (gather1_table V c) (fun t hf => gather1_flushed V c t hf) (gather1_cover)

/-- At edge e and column d. -/
theorem gather1_final (c : Dev nD) (e : Fin 802816) (d : Fin 64) :
    (Reg.dat1 (F := Ideal) V c).arrAt 2 cfg1.N (ix2 e d)
      = ∑ j : Fin 50000, (if (V c main_v3 : S802816.Idx → BitVec 32) (ix1 e) = BitVec.ofNat 32 j.val then (1 : EReal) else 0) * (V c main_v5 : S50000x64.Idx → EReal) (ix2 j d) := by
  rw [gather1_array V c]
  show gather1_sum V c e d = _
  unfold gather1_sum
  rfl

end Cert.KernelIdeal.Val

end
-- ==== Proof.ValGather5.lean ====
/-
  What the second row gather's region leaves in its output array: at every edge e and column d the row of the table the
  edge's source word names,
      Σ_j [src e = j] · table(j, d),
  of the source words and the node table as the region finds them.  Grid point t = 50·eb + nb stages edge block eb (4096
  words) and node block nb (1000 rows); over the fifty points of an edge block the body's accumulator collects, node block
  by node block, the rows the block's words name, and after the fiftieth the pipeline writes it back to rows
  4096·eb … 4096·eb + 4095 of the output; the 196 blocks cover the 802816 rows.
-/
import proofs.«163112_j15616501088829_2_alg».proof.Proof.RegGather5
import proofs.«163112_j15616501088829_2_alg».proof.Proof.PayGather
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)
open Idealize.ShloMosaic.LibColumns

/-! ## What each case of the body leaves, as the body's arithmetic -/

section Pieces
variable {F : FTy → Type} [FloatOps F]

theorem gather5_z1 : (![0] : Fin 1 → Nat) = fun _ => 0 := funext fun a => by fin_cases a; rfl
theorem gather5_z2 : (![0, 0] : Fin 2 → Nat) = fun _ => 0 := funext fun a => by fin_cases a <;> rfl

/-- A later point leaves in the accumulator the step over what it held, -/
theorem gather5_accB (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond5_0 i) (x0 : Vec F S4096 .i32) (x1 : Vec F S1000x64 .f32) (xs0 : Vec F S4096x64 .f32) :
    Reg.sout5_B_0 c i arg2 harg2 arg3 harg3 arg4 harg4 arg5 harg5 hc0 x0 x1 xs0 = k5_pay2 i x0 x1 xs0 := by
  unfold Reg.sout5_B_0
  rw [View.read_writes_eq_canon _ _ _ (Reg.scover5_B_0 c i arg2 harg2 arg3 harg3 arg4 harg4 arg5 harg5 hc0 x0 x1 xs0)]
  unfold Reg.kernelRun5_B
  dsimp only
  sl_unfold_words
  rw [View.canon_unit_zero gather5_z2]
  simp only [View.readAt_eq_ld, harg2.read_unread, harg3.read_unread, harg5.read_unread, View.ld_unit_zero (S := S4096) gather5_z1, View.ld_unit_zero (S := S1000x64) gather5_z2, View.ld_unit_zero (S := S4096x64) gather5_z2]

/-- and the same in the output's buffer, copied from the accumulator. -/
theorem gather5_outB (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond5_0 i) (x0 : Vec F S4096 .i32) (x1 : Vec F S1000x64 .f32) (xs0 : Vec F S4096x64 .f32) :
    Reg.out5_B_2 c i arg2 harg2 arg3 harg3 arg4 harg4 arg5 harg5 hc0 x0 x1 xs0 = k5_pay2 i x0 x1 xs0 := by
  unfold Reg.out5_B_2
  rw [View.read_writes_eq_canon _ _ _ (Reg.cover5_B_2 c i arg2 harg2 arg3 harg3 arg4 harg4 arg5 harg5 hc0 x0 x1 xs0)]
  unfold Reg.kernelRun5_B
  dsimp only
  sl_unfold_words
  rw [View.canon_unit_zero gather5_z2, View.readCov_unit_zero (S := S4096x64) _ gather5_z2]
  simp only [View.readAt_eq_ld, harg2.read_unread, harg3.read_unread, harg5.read_unread, View.ld_unit_zero (S := S4096) gather5_z1, View.ld_unit_zero (S := S1000x64) gather5_z2, View.ld_unit_zero (S := S4096x64) gather5_z2]

/-- The first point of an edge block leaves the step over the cleared accumulator, -/
theorem gather5_accA (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond5_0 i) (x0 : Vec F S4096 .i32) (x1 : Vec F S1000x64 .f32) :
    Reg.sout5_A_0 c i arg2 harg2 arg3 harg3 arg4 harg4 arg5 harg5 hc0 x0 x1 = k5_pay2 i x0 x1 (k5_pay1 (F := F)) := by
  unfold Reg.sout5_A_0
  rw [View.read_writes_eq_canon _ _ _ (Reg.scover5_A_0 c i arg2 harg2 arg3 harg3 arg4 harg4 arg5 harg5 hc0 x0 x1)]
  unfold Reg.kernelRun5_A
  dsimp only
  sl_unfold_words
  rw [View.canon_cons_unit_zero gather5_z2, View.readCov_unit_zero (S := S4096x64) _ gather5_z2]
  simp only [View.readAt_eq_ld, harg2.read_unread, harg3.read_unread, View.ld_unit_zero (S := S4096) gather5_z1, View.ld_unit_zero (S := S1000x64) gather5_z2]

/-- in both buffers. -/
theorem gather5_outA (c : Dev nD) (i : grid5.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond5_0 i) (x0 : Vec F S4096 .i32) (x1 : Vec F S1000x64 .f32) :
    Reg.out5_A_2 c i arg2 harg2 arg3 harg3 arg4 harg4 arg5 harg5 hc0 x0 x1 = k5_pay2 i x0 x1 (k5_pay1 (F := F)) := by
  unfold Reg.out5_A_2
  rw [View.read_writes_eq_canon _ _ _ (Reg.cover5_A_2 c i arg2 harg2 arg3 harg3 arg4 harg4 arg5 harg5 hc0 x0 x1)]
  unfold Reg.kernelRun5_A
  dsimp only
  sl_unfold_words
  rw [View.canon_unit_zero gather5_z2,
    View.readCov_eq_canon_ld _ _ _ (fun y => ⟨_, List.mem_cons_self .., View.mem_set_unit_zero gather5_z2 inb_S4096x64_S4096x64_0_0 y⟩),
    View.canon_cons_unit_zero gather5_z2, View.ld_unit_zero (S := S4096x64) gather5_z2,
    View.readCov_unit_zero (S := S4096x64) _ gather5_z2]
  simp only [View.readAt_eq_ld, harg2.read_unread, harg3.read_unread, View.ld_unit_zero (S := S4096) gather5_z1, View.ld_unit_zero (S := S1000x64) gather5_z2]

end Pieces

/-! ## The accumulation, entry by entry -/

variable (V : (c : Dev nD) → (b : Ref sig .tc) → Buf (Elt Ideal) ((c : Thread nD τ).loc b))

/-- The source word of edge e, for every natural number e (the zero word past the last edge). -/
def gather5_word (c : Dev nD) (e : ℕ) : BitVec 32 :=
  if h : e < 802816 then (V c main_v3 : S802816.Idx → BitVec 32) (ix1 ⟨e, h⟩) else 0
/-- Row j of the table at column d, for every natural number j (zero past the last row). -/
def gather5_row (c : Dev nD) (j : ℕ) (d : Fin 64) : EReal :=
  if h : j < 50000 then (V c main_v9 : S50000x64.Idx → EReal) (ix2 ⟨j, h⟩ d) else 0
theorem gather5_word_eq (c : Dev nD) (e : Fin 802816) : gather5_word V c e.val = (V c main_v3 : S802816.Idx → BitVec 32) (ix1 e) := by
  unfold gather5_word; rw [dif_pos e.isLt]
theorem gather5_row_eq (c : Dev nD) (j : Fin 50000) (d : Fin 64) : gather5_row V c j.val d = (V c main_v9 : S50000x64.Idx → EReal) (ix2 j d) := by
  unfold gather5_row; rw [dif_pos j.isLt]

/-- What node block nb contributes to edge e at column d: the block's row the edge's word names, if it names one. -/
def gather5_term (c : Dev nD) (e : ℕ) (d : Fin 64) (nb : ℕ) : EReal :=
  ∑ k : Fin 1000, (if gather5_word V c e = BitVec.ofNat 32 (1000 * nb + k.val) then (1 : EReal) else 0) * gather5_row V c (1000 * nb + k.val) d
/-- The first m node blocks' contributions. -/
def gather5_part (c : Dev nD) (e : ℕ) (d : Fin 64) (m : ℕ) : EReal := ∑ nb ∈ Finset.range m, gather5_term V c e d nb
/-- The whole table's.  (Kept folded: nothing below looks inside the sum over the 50000 rows but the two lemmas that say what it is.) -/
@[irreducible] def gather5_sum (c : Dev nD) (e : Fin 802816) (d : Fin 64) : EReal :=
  ∑ j : Fin 50000, (if (V c main_v3 : S802816.Idx → BitVec 32) (ix1 e) = BitVec.ofNat 32 j.val then (1 : EReal) else 0) * (V c main_v9 : S50000x64.Idx → EReal) (ix2 j d)
/-- The gathered rows as a function of the 802816×64 array's index. -/
def gather5_table (c : Dev nD) : S802816x64.Idx → EReal :=
  fun i => gather5_sum V c ⟨(i 0).val, idx2_lt0 i⟩ ⟨(i 1).val, idx2_lt1 i⟩

/-- One step of the gather at (e, d): what was accumulated, plus the block's row the edge word names (if it names one). -/
theorem gather5_step_apply (i : grid5.Coords) (hi : (i 1).val < 1000) (v8 : Vec Ideal S4096 .i32) (v18 : Vec Ideal S1000x64 .f32)
    (v21 : Vec Ideal S4096x64 .f32) (e : Fin 4096) (d : Fin 64) :
    k5_pay2 (F := Ideal) i v8 v18 v21 (ix2 e d)
      = v21 (ix2 e d) + ∑ k : Fin 1000,
          (if v8 (ix1 e) = BitVec.ofNat 32 (1000 * (i 1).val + k.val) then (1 : EReal) else 0) * v18 (ix2 k d) := by
  unfold k5_pay2
  dsimp only
  simp only [shapeCast_self]
  rw [addf_apply]
  refine congrArg (v21 (ix2 e d) + ·) ?_
  refine (PlainProduct.matmul_zero_apply (M := 4096) (K := 1000) (P := 64)
    dot_S4096x1000_S1000x64_S4096x64_1_0_0_1_n_n_wf none _ _ e d).trans ?_
  refine Finset.sum_congr rfl fun k _ => ?_
  rw [truncf_apply, truncf_apply, sitofp_apply, extui_apply]
  show ((((IntOp.cmpi .eq
      (broadcastTo S4096x1000 (shapeCast S4096x1 v8 shapeCasts_S4096_S4096x1) broadcasts_S4096x1_S4096x1000 (ix2 e k))
      (broadcastTo S4096x1000
        (shapeCast S1x1000
          (addi (broadcast S1000 (Scalar.muli (BitVec.ofNat 32 (i 1).val) 1000#32))
            (shapeCast S1000 (iota .tc S1x1000 32 [1] iota_S1x1000_d1_w32) shapeCasts_S1x1000_S1000))
          shapeCasts_S1000_S1x1000)
        broadcasts_S1x1000_S4096x1000 (ix2 e k))).setWidth 32).toInt : ℝ) : EReal) * v18 (ix2 k d) = _
  rw [Pay.edgeWord_apply, Pay.nodeWords_apply _ hi, Cert.LibOneHot.eqWord_real]

/-- Point t = 50·eb + nb: the words' and the output's blocks are block eb, the table's block nb, and the body's second grid
    coordinate is nb. -/
theorem gather5_index : ∀ t : Fin cfg5.N,
    win5_0.index t (0 : Fin 1) = t.val / 50
    ∧ win5_1.index t (0 : Fin 2) = t.val % 50 ∧ win5_1.index t (1 : Fin 2) = 0
    ∧ win5_2.index t (0 : Fin 2) = t.val / 50 ∧ win5_2.index t (1 : Fin 2) = 0
    ∧ (grid5.coords t 1).val = t.val % 50 :=
  (by decide +kernel : ∀ t : Fin grid5.N, _)

/-- Word r of point t's block of source words is the word of edge 4096·(t / 50) + r. -/
theorem gather5_words (c : Dev nD) (t : Fin cfg5.N) (r : Fin 4096) :
    (Reg.iblk5 V c 0 t : Vec Ideal S4096 .i32) (ix1 r) = gather5_word V c (4096 * (t.val / 50) + r.val) := by
  obtain ⟨e0, -⟩ := gather5_index t
  have hN : cfg5.N = 9800 := N_5
  have ht : t.val < 9800 := hN ▸ t.isLt
  have hlt : 4096 * (t.val / 50) + r.val < 802816 := by omega
  unfold gather5_word
  rw [dif_pos hlt]
  unfold Reg.iblk5
  rw [View.read_apply]
  show (V c main_v3 : S802816.Idx → BitVec 32) _ = _
  refine congrArg _ (funext fun a => Fin.ext ?_)
  match a with
  | ⟨0, _⟩ => show win5_0.index t (0 : Fin 1) * 4096 + 1 * r.val = 4096 * (t.val / 50) + r.val; omega

/-- Row k of point t's block of the table is row 1000·(t % 50) + k. -/
theorem gather5_rows (c : Dev nD) (t : Fin cfg5.N) (k : Fin 1000) (d : Fin 64) :
    (Reg.iblk5 V c 1 t : Vec Ideal S1000x64 .f32) (ix2 k d) = gather5_row V c (1000 * (t.val % 50) + k.val) d := by
  obtain ⟨-, e1, e2, -⟩ := gather5_index t
  have hlt : 1000 * (t.val % 50) + k.val < 50000 := by omega
  unfold gather5_row
  rw [dif_pos hlt]
  unfold Reg.iblk5
  rw [View.read_apply]
  show (V c main_v9 : S50000x64.Idx → EReal) _ = _
  refine congrArg _ (funext fun a => Fin.ext ?_)
  match a with
  | ⟨0, _⟩ => show win5_1.index t (0 : Fin 2) * 1000 + 1 * k.val = 1000 * (t.val % 50) + k.val; omega
  | ⟨1, _⟩ => show win5_1.index t (1 : Fin 2) * 64 + 1 * d.val = d.val; omega

/-- The cleared accumulator holds zero. -/
theorem gather5_clear (r : Fin 4096) (d : Fin 64) : k5_pay1 (F := Ideal) (ix2 r d) = 0 := by
  unfold k5_pay1
  simp only [shapeCast_self]
  rw [broadcast_apply]
  exact Ideal.ofBits_zero_f32

/-- One step at point t, read at (r, d): what was accumulated plus node block t % 50's contribution to edge
    4096·(t / 50) + r. -/
theorem gather5_step (c : Dev nD) (t : Fin cfg5.N) (acc : Vec Ideal S4096x64 .f32) (r : Fin 4096) (d : Fin 64) :
    k5_pay2 (F := Ideal) (grid5.coords t) (Reg.iblk5 V c 0 t) (Reg.iblk5 V c 1 t) acc (ix2 r d)
      = acc (ix2 r d) + gather5_term V c (4096 * (t.val / 50) + r.val) d (t.val % 50) := by
  obtain ⟨-, -, -, -, -, e5⟩ := gather5_index t
  rw [gather5_step_apply (grid5.coords t) (by rw [e5]; omega) _ _ _ r d]
  unfold gather5_term
  refine congrArg (_ + ·) (Finset.sum_congr rfl fun k _ => ?_)
  rw [gather5_words V c t r, gather5_rows V c t k d, e5]

/-- At the first point of an edge block both buffers hold the first node block's contribution. -/
theorem gather5_first (c : Dev nD) (t : Fin cfg5.N) (h0 : t.val % 50 = 0) (r : Fin 4096) (d : Fin 64) :
    (Reg.outsAt5 V c t.val t.isLt).1 (ix2 r d) = gather5_part V c (4096 * (t.val / 50) + r.val) d (t.val % 50 + 1)
    ∧ (Reg.outsAt5 V c t.val t.isLt).2 (ix2 r d) = gather5_part V c (4096 * (t.val / 50) + r.val) d (t.val % 50 + 1) := by
  have hs := gather5_step V c t (k5_pay1 (F := Ideal)) r d
  rw [gather5_clear, zero_add, h0] at hs
  rw [Reg.outsAt5_A V c t h0]
  dsimp only
  rw [gather5_outA, gather5_accA, hs, h0]
  unfold gather5_part
  rw [Nat.zero_add, Finset.sum_range_one]
  exact ⟨rfl, rfl⟩

/-- At a later point both hold what the accumulator held after the point before, plus this node block's contribution. -/
theorem gather5_later (c : Dev nD) (m : ℕ) (hn : m + 1 < cfg5.N) (h0 : ¬(m + 1) % 50 = 0) (r : Fin 4096) (d : Fin 64) :
    (Reg.outsAt5 V c (m + 1) hn).1 (ix2 r d)
        = (Reg.outsAt5 V c m (Nat.lt_of_succ_lt hn)).2 (ix2 r d) + gather5_term V c (4096 * ((m + 1) / 50) + r.val) d ((m + 1) % 50)
    ∧ (Reg.outsAt5 V c (m + 1) hn).2 (ix2 r d)
        = (Reg.outsAt5 V c m (Nat.lt_of_succ_lt hn)).2 (ix2 r d) + gather5_term V c (4096 * ((m + 1) / 50) + r.val) d ((m + 1) % 50) := by
  have hs := gather5_step V c ⟨m + 1, hn⟩ (Reg.outsAt5 V c m (Nat.lt_of_succ_lt hn)).2 r d
  rw [show Reg.outsAt5 V c (m + 1) hn = _ from Reg.outsAt5_B V c ⟨m + 1, hn⟩ h0]
  dsimp only
  rw [gather5_outB, gather5_accB]
  exact ⟨hs, hs⟩

/-- After point n both buffers hold, at (r, d), the contributions of node blocks 0 … n % 50 to edge 4096·(n / 50) + r. -/
theorem gather5_acc (c : Dev nD) (n : ℕ) : ∀ (hn : n < cfg5.N) (r : Fin 4096) (d : Fin 64),
    (Reg.outsAt5 V c n hn).1 (ix2 r d) = gather5_part V c (4096 * (n / 50) + r.val) d (n % 50 + 1)
    ∧ (Reg.outsAt5 V c n hn).2 (ix2 r d) = gather5_part V c (4096 * (n / 50) + r.val) d (n % 50 + 1) := by
  induction n with
  | zero =>
    intro hn r d
    exact gather5_first V c ⟨0, hn⟩ (Nat.zero_mod 50) r d
  | succ m ih =>
    intro hn r d
    by_cases h0 : (m + 1) % 50 = 0
    · exact gather5_first V c ⟨m + 1, hn⟩ h0 r d
    · obtain ⟨h1, h2⟩ := gather5_later V c m hn h0 r d
      have hq : (m + 1) / 50 = m / 50 := by omega
      have hr : (m + 1) % 50 = m % 50 + 1 := by omega
      have hprev := (ih (Nat.lt_of_succ_lt hn) r d).2
      rw [hprev, hq, hr] at h1 h2
      rw [hq, hr]
      have hsum : gather5_part V c (4096 * (m / 50) + r.val) d (m % 50 + 1 + 1)
          = gather5_part V c (4096 * (m / 50) + r.val) d (m % 50 + 1) + gather5_term V c (4096 * (m / 50) + r.val) d (m % 50 + 1) :=
        Finset.sum_range_succ _ _
      rw [hsum]
      exact ⟨h1, h2⟩

/-- All fifty node blocks' contributions are the sum over the whole table. -/
theorem gather5_whole (c : Dev nD) (e : Fin 802816) (d : Fin 64) : gather5_part V c e.val d 50 = gather5_sum V c e d := by
  unfold gather5_part gather5_sum
  rw [Finset.sum_range]
  refine (Finset.sum_congr rfl fun nb _ => ?_).trans
    (Cert.LibTiledSum.sum_fin_mul 50 1000 (fun j : Fin 50000 =>
      (if (V c main_v3 : S802816.Idx → BitVec 32) (ix1 e) = BitVec.ofNat 32 j.val then (1 : EReal) else 0) * (V c main_v9 : S50000x64.Idx → EReal) (ix2 j d))).symm
  unfold gather5_term
  refine Finset.sum_congr rfl fun k _ => ?_
  have hlt : 1000 * nb.val + k.val < 50000 := by have := nb.isLt; have := k.isLt; omega
  rw [gather5_word_eq, show gather5_row V c (1000 * nb.val + k.val) d = _ from gather5_row_eq V c ⟨_, hlt⟩ d]

/-! ## From the blocks to the array -/

/-- What the last point of an edge block leaves at row p, column q of the output's buffer is the gathered row of edge
    4096·(t / 50) + p at column q. -/
theorem gather5_point (c : Dev nD) (t : Fin cfg5.N) (h49 : t.val % 50 = 49) (p : Fin 4096) (q : Fin 64) (e : Fin 802816) (d : Fin 64)
    (he : e.val = 4096 * (t.val / 50) + p.val) (hd : d.val = q.val) :
    (Reg.outsAt5 V c t.val t.isLt).1 (ix2 p q) = gather5_sum V c e d := by
  obtain rfl : d = q := Fin.ext hd
  rw [(gather5_acc V c t.val t.isLt p d).1, h49, ← he]
  exact gather5_whole V c e d

/-- What a writing point writes back is its block of the gathered rows. -/
theorem gather5_flushed (c : Dev nD) (t : Fin cfg5.N) (hf : (cfg5.win 2).flush t = true) :
    (Reg.dat5 (F := Ideal) V c).flushed 2 t = ((cfg5.win 2).blk t).view.read (Elt Ideal) (gather5_table V c) := by
  have h49 : t.val % 50 = 49 := (flush5_2 t).mp hf
  show (cfg5.win 2).cut (grid5.coords t) ((Reg.dat5 V c).after 2 t) = _
  rw [Reg.after5_2]
  funext y
  obtain ⟨p, q, rfl⟩ : ∃ (p : Fin 4096) (q : Fin 64), y = ix2 p q := ⟨y 0, y 1, eq_ix2 y⟩
  obtain ⟨-, -, -, e3, e4, -⟩ := gather5_index t
  have hN : cfg5.N = 9800 := N_5
  have ht : t.val < 9800 := hN ▸ t.isLt
  have hlt : 4096 * (t.val / 50) + p.val < 802816 := by omega
  have hp := gather5_point V c t h49 p q ⟨4096 * (t.val / 50) + p.val, hlt⟩ q rfl rfl
  generalize Reg.outsAt5 V c t.val t.isLt = X at hp ⊢
  show X.1 (ix2 p q) = _
  rw [hp, View.read_apply]
  show gather5_sum V c _ _ = gather5_table V c _
  unfold gather5_table
  congr 1 <;> apply Fin.ext
  · show 4096 * (t.val / 50) + p.val = win5_2.index t (0 : Fin 2) * 4096 + 1 * p.val; omega
  · show q.val = win5_2.index t (1 : Fin 2) * 64 + 1 * q.val; omega

/-- An index of the output array is in point t's block iff each coordinate is in the block's range on its axis. -/
theorem gather5_mem (t : Fin cfg5.N) (i : S802816x64.Idx) :
    i ∈ ((cfg5.win 2).blk t).view.set ↔ ∀ a : Fin 2, win5_2.index t a * S4096x64.size a ≤ (i a).val ∧ (i a).val < win5_2.index t a * S4096x64.size a + S4096x64.size a := by
  show i ∈ ((View.whole main_v10).slice (win5_2.rect t)).set ↔ _
  rw [View.set_slice_whole, Rect.mem_set_unit]
  exact Iff.rfl

/-- Every row of the output is in some writing point's block: row e in the block of point 50·(e / 4096) + 49. -/
theorem gather5_cover (i : S802816x64.Idx) :
    ∃ t : Fin cfg5.N, (cfg5.win 2).flush t = true ∧ i ∈ ((cfg5.win 2).blk t).view.set := by
  have hi0 : (i 0).val < 802816 := (i 0).isLt
  have hi1 : (i 1).val < 64 := (i 1).isLt
  have hN : cfg5.N = 9800 := N_5
  let t : Fin cfg5.N := ⟨50 * ((i 0).val / 4096) + 49, by rw [hN]; omega⟩
  have ht : t.val = 50 * ((i 0).val / 4096) + 49 := rfl
  obtain ⟨-, -, -, e3, e4, -⟩ := gather5_index t
  refine ⟨t, (flush5_2 t).mpr (by rw [ht]; omega), ?_⟩
  rw [gather5_mem]
  intro a
  match a with
  | ⟨0, _⟩ => show win5_2.index t (0 : Fin 2) * 4096 ≤ (i 0).val ∧ (i 0).val < win5_2.index t (0 : Fin 2) * 4096 + 4096; omega
  | ⟨1, _⟩ => show win5_2.index t (1 : Fin 2) * 64 ≤ (i 1).val ∧ (i 1).val < win5_2.index t (1 : Fin 2) * 64 + 64; omega

/-- The output array after the region's last point is the gathered rows, entry by entry. -/
theorem gather5_array (c : Dev nD) : (Reg.dat5 (F := Ideal) V c).arrAt 2 cfg5.N = gather5_table V c :=
  (Reg.dat5 (F := Ideal) V c).arrAt_eq_of_cover 2 (gather5_table V c) (fun t hf => gather5_flushed V c t hf) (gather5_cover)

/-- At edge e and column d. -/
theorem gather5_final (c : Dev nD) (e : Fin 802816) (d : Fin 64) :
    (Reg.dat5 (F := Ideal) V c).arrAt 2 cfg5.N (ix2 e d)
      = ∑ j : Fin 50000, (if (V c main_v3 : S802816.Idx → BitVec 32) (ix1 e) = BitVec.ofNat 32 j.val then (1 : EReal) else 0) * (V c main_v9 : S50000x64.Idx → EReal) (ix2 j d) := by
  rw [gather5_array V c]
  show gather5_sum V c e d = _
  unfold gather5_sum
  rfl

end Cert.KernelIdeal.Val

end
-- ==== Proof.ValGather9.lean ====
/-
  What the third row gather's region leaves in its output array: at every edge e and column d the row of the table the
  edge's source word names,
      Σ_j [src e = j] · table(j, d),
  of the source words and the node table as the region finds them.  Grid point t = 50·eb + nb stages edge block eb (4096
  words) and node block nb (1000 rows); over the fifty points of an edge block the body's accumulator collects, node block
  by node block, the rows the block's words name, and after the fiftieth the pipeline writes it back to rows
  4096·eb … 4096·eb + 4095 of the output; the 196 blocks cover the 802816 rows.
-/
import proofs.«163112_j15616501088829_2_alg».proof.Proof.RegGather9
import proofs.«163112_j15616501088829_2_alg».proof.Proof.PayGather
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)
open Idealize.ShloMosaic.LibColumns

/-! ## What each case of the body leaves, as the body's arithmetic -/

section Pieces
variable {F : FTy → Type} [FloatOps F]

theorem gather9_z1 : (![0] : Fin 1 → Nat) = fun _ => 0 := funext fun a => by fin_cases a; rfl
theorem gather9_z2 : (![0, 0] : Fin 2 → Nat) = fun _ => 0 := funext fun a => by fin_cases a <;> rfl

/-- A later point leaves in the accumulator the step over what it held, -/
theorem gather9_accB (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond9_0 i) (x0 : Vec F S4096 .i32) (x1 : Vec F S1000x64 .f32) (xs0 : Vec F S4096x64 .f32) :
    Reg.sout9_B_0 c i arg2 harg2 arg3 harg3 arg4 harg4 arg5 harg5 hc0 x0 x1 xs0 = k9_pay2 i x0 x1 xs0 := by
  unfold Reg.sout9_B_0
  rw [View.read_writes_eq_canon _ _ _ (Reg.scover9_B_0 c i arg2 harg2 arg3 harg3 arg4 harg4 arg5 harg5 hc0 x0 x1 xs0)]
  unfold Reg.kernelRun9_B
  dsimp only
  sl_unfold_words
  rw [View.canon_unit_zero gather9_z2]
  simp only [View.readAt_eq_ld, harg2.read_unread, harg3.read_unread, harg5.read_unread, View.ld_unit_zero (S := S4096) gather9_z1, View.ld_unit_zero (S := S1000x64) gather9_z2, View.ld_unit_zero (S := S4096x64) gather9_z2]

/-- and the same in the output's buffer, copied from the accumulator. -/
theorem gather9_outB (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : ¬Reg.cond9_0 i) (x0 : Vec F S4096 .i32) (x1 : Vec F S1000x64 .f32) (xs0 : Vec F S4096x64 .f32) :
    Reg.out9_B_2 c i arg2 harg2 arg3 harg3 arg4 harg4 arg5 harg5 hc0 x0 x1 xs0 = k9_pay2 i x0 x1 xs0 := by
  unfold Reg.out9_B_2
  rw [View.read_writes_eq_canon _ _ _ (Reg.cover9_B_2 c i arg2 harg2 arg3 harg3 arg4 harg4 arg5 harg5 hc0 x0 x1 xs0)]
  unfold Reg.kernelRun9_B
  dsimp only
  sl_unfold_words
  rw [View.canon_unit_zero gather9_z2, View.readCov_unit_zero (S := S4096x64) _ gather9_z2]
  simp only [View.readAt_eq_ld, harg2.read_unread, harg3.read_unread, harg5.read_unread, View.ld_unit_zero (S := S4096) gather9_z1, View.ld_unit_zero (S := S1000x64) gather9_z2, View.ld_unit_zero (S := S4096x64) gather9_z2]

/-- The first point of an edge block leaves the step over the cleared accumulator, -/
theorem gather9_accA (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond9_0 i) (x0 : Vec F S4096 .i32) (x1 : Vec F S1000x64 .f32) :
    Reg.sout9_A_0 c i arg2 harg2 arg3 harg3 arg4 harg4 arg5 harg5 hc0 x0 x1 = k9_pay2 i x0 x1 (k9_pay1 (F := F)) := by
  unfold Reg.sout9_A_0
  rw [View.read_writes_eq_canon _ _ _ (Reg.scover9_A_0 c i arg2 harg2 arg3 harg3 arg4 harg4 arg5 harg5 hc0 x0 x1)]
  unfold Reg.kernelRun9_A
  dsimp only
  sl_unfold_words
  rw [View.canon_cons_unit_zero gather9_z2, View.readCov_unit_zero (S := S4096x64) _ gather9_z2]
  simp only [View.readAt_eq_ld, harg2.read_unread, harg3.read_unread, View.ld_unit_zero (S := S4096) gather9_z1, View.ld_unit_zero (S := S1000x64) gather9_z2]

/-- in both buffers. -/
theorem gather9_outA (c : Dev nD) (i : grid9.Coords) (arg2 : Memref sig .tc .vmem S4096 .i32) (harg2 : arg2.IsWhole) (arg3 : Memref sig .tc .vmem S1000x64 .f32) (harg3 : arg3.IsWhole) (arg4 : Memref sig .tc .vmem S4096x64 .f32) (harg4 : arg4.IsWhole) (arg5 : Memref sig .tc .vmem S4096x64 .f32) (harg5 : arg5.IsWhole) (hc0 : Reg.cond9_0 i) (x0 : Vec F S4096 .i32) (x1 : Vec F S1000x64 .f32) :
    Reg.out9_A_2 c i arg2 harg2 arg3 harg3 arg4 harg4 arg5 harg5 hc0 x0 x1 = k9_pay2 i x0 x1 (k9_pay1 (F := F)) := by
  unfold Reg.out9_A_2
  rw [View.read_writes_eq_canon _ _ _ (Reg.cover9_A_2 c i arg2 harg2 arg3 harg3 arg4 harg4 arg5 harg5 hc0 x0 x1)]
  unfold Reg.kernelRun9_A
  dsimp only
  sl_unfold_words
  rw [View.canon_unit_zero gather9_z2,
    View.readCov_eq_canon_ld _ _ _ (fun y => ⟨_, List.mem_cons_self .., View.mem_set_unit_zero gather9_z2 inb_S4096x64_S4096x64_0_0 y⟩),
    View.canon_cons_unit_zero gather9_z2, View.ld_unit_zero (S := S4096x64) gather9_z2,
    View.readCov_unit_zero (S := S4096x64) _ gather9_z2]
  simp only [View.readAt_eq_ld, harg2.read_unread, harg3.read_unread, View.ld_unit_zero (S := S4096) gather9_z1, View.ld_unit_zero (S := S1000x64) gather9_z2]

end Pieces

/-! ## The accumulation, entry by entry -/

variable (V : (c : Dev nD) → (b : Ref sig .tc) → Buf (Elt Ideal) ((c : Thread nD τ).loc b))

/-- The source word of edge e, for every natural number e (the zero word past the last edge). -/
def gather9_word (c : Dev nD) (e : ℕ) : BitVec 32 :=
  if h : e < 802816 then (V c main_v3 : S802816.Idx → BitVec 32) (ix1 ⟨e, h⟩) else 0
/-- Row j of the table at column d, for every natural number j (zero past the last row). -/
def gather9_row (c : Dev nD) (j : ℕ) (d : Fin 64) : EReal :=
  if h : j < 50000 then (V c main_v13 : S50000x64.Idx → EReal) (ix2 ⟨j, h⟩ d) else 0
theorem gather9_word_eq (c : Dev nD) (e : Fin 802816) : gather9_word V c e.val = (V c main_v3 : S802816.Idx → BitVec 32) (ix1 e) := by
  unfold gather9_word; rw [dif_pos e.isLt]
theorem gather9_row_eq (c : Dev nD) (j : Fin 50000) (d : Fin 64) : gather9_row V c j.val d = (V c main_v13 : S50000x64.Idx → EReal) (ix2 j d) := by
  unfold gather9_row; rw [dif_pos j.isLt]

/-- What node block nb contributes to edge e at column d: the block's row the edge's word names, if it names one. -/
def gather9_term (c : Dev nD) (e : ℕ) (d : Fin 64) (nb : ℕ) : EReal :=
  ∑ k : Fin 1000, (if gather9_word V c e = BitVec.ofNat 32 (1000 * nb + k.val) then (1 : EReal) else 0) * gather9_row V c (1000 * nb + k.val) d
/-- The first m node blocks' contributions. -/
def gather9_part (c : Dev nD) (e : ℕ) (d : Fin 64) (m : ℕ) : EReal := ∑ nb ∈ Finset.range m, gather9_term V c e d nb
/-- The whole table's.  (Kept folded: nothing below looks inside the sum over the 50000 rows but the two lemmas that say what it is.) -/
@[irreducible] def gather9_sum (c : Dev nD) (e : Fin 802816) (d : Fin 64) : EReal :=
  ∑ j : Fin 50000, (if (V c main_v3 : S802816.Idx → BitVec 32) (ix1 e) = BitVec.ofNat 32 j.val then (1 : EReal) else 0) * (V c main_v13 : S50000x64.Idx → EReal) (ix2 j d)
/-- The gathered rows as a function of the 802816×64 array's index. -/
def gather9_table (c : Dev nD) : S802816x64.Idx → EReal :=
  fun i => gather9_sum V c ⟨(i 0).val, idx2_lt0 i⟩ ⟨(i 1).val, idx2_lt1 i⟩

/-- One step of the gather at (e, d): what was accumulated, plus the block's row the edge word names (if it names one). -/
theorem gather9_step_apply (i : grid9.Coords) (hi : (i 1).val < 1000) (v8 : Vec Ideal S4096 .i32) (v18 : Vec Ideal S1000x64 .f32)
    (v21 : Vec Ideal S4096x64 .f32) (e : Fin 4096) (d : Fin 64) :
    k9_pay2 (F := Ideal) i v8 v18 v21 (ix2 e d)
      = v21 (ix2 e d) + ∑ k : Fin 1000,
          (if v8 (ix1 e) = BitVec.ofNat 32 (1000 * (i 1).val + k.val) then (1 : EReal) else 0) * v18 (ix2 k d) := by
  unfold k9_pay2
  dsimp only
  simp only [shapeCast_self]
  rw [addf_apply]
  refine congrArg (v21 (ix2 e d) + ·) ?_
  refine (PlainProduct.matmul_zero_apply (M := 4096) (K := 1000) (P := 64)
    dot_S4096x1000_S1000x64_S4096x64_1_0_0_1_n_n_wf none _ _ e d).trans ?_
  refine Finset.sum_congr rfl fun k _ => ?_
  rw [truncf_apply, truncf_apply, sitofp_apply, extui_apply]
  show ((((IntOp.cmpi .eq
      (broadcastTo S4096x1000 (shapeCast S4096x1 v8 shapeCasts_S4096_S4096x1) broadcasts_S4096x1_S4096x1000 (ix2 e k))
      (broadcastTo S4096x1000
        (shapeCast S1x1000
          (addi (broadcast S1000 (Scalar.muli (BitVec.ofNat 32 (i 1).val) 1000#32))
            (shapeCast S1000 (iota .tc S1x1000 32 [1] iota_S1x1000_d1_w32) shapeCasts_S1x1000_S1000))
          shapeCasts_S1000_S1x1000)
        broadcasts_S1x1000_S4096x1000 (ix2 e k))).setWidth 32).toInt : ℝ) : EReal) * v18 (ix2 k d) = _
  rw [Pay.edgeWord_apply, Pay.nodeWords_apply _ hi, Cert.LibOneHot.eqWord_real]

/-- Point t = 50·eb + nb: the words' and the output's blocks are block eb, the table's block nb, and the body's second grid
    coordinate is nb. -/
theorem gather9_index : ∀ t : Fin cfg9.N,
    win9_0.index t (0 : Fin 1) = t.val / 50
    ∧ win9_1.index t (0 : Fin 2) = t.val % 50 ∧ win9_1.index t (1 : Fin 2) = 0
    ∧ win9_2.index t (0 : Fin 2) = t.val / 50 ∧ win9_2.index t (1 : Fin 2) = 0
    ∧ (grid9.coords t 1).val = t.val % 50 :=
  (by decide +kernel : ∀ t : Fin grid9.N, _)

/-- Word r of point t's block of source words is the word of edge 4096·(t / 50) + r. -/
theorem gather9_words (c : Dev nD) (t : Fin cfg9.N) (r : Fin 4096) :
    (Reg.iblk9 V c 0 t : Vec Ideal S4096 .i32) (ix1 r) = gather9_word V c (4096 * (t.val / 50) + r.val) := by
  obtain ⟨e0, -⟩ := gather9_index t
  have hN : cfg9.N = 9800 := N_9
  have ht : t.val < 9800 := hN ▸ t.isLt
  have hlt : 4096 * (t.val / 50) + r.val < 802816 := by omega
  unfold gather9_word
  rw [dif_pos hlt]
  unfold Reg.iblk9
  rw [View.read_apply]
  show (V c main_v3 : S802816.Idx → BitVec 32) _ = _
  refine congrArg _ (funext fun a => Fin.ext ?_)
  match a with
  | ⟨0, _⟩ => show win9_0.index t (0 : Fin 1) * 4096 + 1 * r.val = 4096 * (t.val / 50) + r.val; omega

/-- Row k of point t's block of the table is row 1000·(t % 50) + k. -/
theorem gather9_rows (c : Dev nD) (t : Fin cfg9.N) (k : Fin 1000) (d : Fin 64) :
    (Reg.iblk9 V c 1 t : Vec Ideal S1000x64 .f32) (ix2 k d) = gather9_row V c (1000 * (t.val % 50) + k.val) d := by
  obtain ⟨-, e1, e2, -⟩ := gather9_index t
  have hlt : 1000 * (t.val % 50) + k.val < 50000 := by omega
  unfold gather9_row
  rw [dif_pos hlt]
  unfold Reg.iblk9
  rw [View.read_apply]
  show (V c main_v13 : S50000x64.Idx → EReal) _ = _
  refine congrArg _ (funext fun a => Fin.ext ?_)
  match a with
  | ⟨0, _⟩ => show win9_1.index t (0 : Fin 2) * 1000 + 1 * k.val = 1000 * (t.val % 50) + k.val; omega
  | ⟨1, _⟩ => show win9_1.index t (1 : Fin 2) * 64 + 1 * d.val = d.val; omega

/-- The cleared accumulator holds zero. -/
theorem gather9_clear (r : Fin 4096) (d : Fin 64) : k9_pay1 (F := Ideal) (ix2 r d) = 0 := by
  unfold k9_pay1
  simp only [shapeCast_self]
  rw [broadcast_apply]
  exact Ideal.ofBits_zero_f32

/-- One step at point t, read at (r, d): what was accumulated plus node block t % 50's contribution to edge
    4096·(t / 50) + r. -/
theorem gather9_step (c : Dev nD) (t : Fin cfg9.N) (acc : Vec Ideal S4096x64 .f32) (r : Fin 4096) (d : Fin 64) :
    k9_pay2 (F := Ideal) (grid9.coords t) (Reg.iblk9 V c 0 t) (Reg.iblk9 V c 1 t) acc (ix2 r d)
      = acc (ix2 r d) + gather9_term V c (4096 * (t.val / 50) + r.val) d (t.val % 50) := by
  obtain ⟨-, -, -, -, -, e5⟩ := gather9_index t
  rw [gather9_step_apply (grid9.coords t) (by rw [e5]; omega) _ _ _ r d]
  unfold gather9_term
  refine congrArg (_ + ·) (Finset.sum_congr rfl fun k _ => ?_)
  rw [gather9_words V c t r, gather9_rows V c t k d, e5]

/-- At the first point of an edge block both buffers hold the first node block's contribution. -/
theorem gather9_first (c : Dev nD) (t : Fin cfg9.N) (h0 : t.val % 50 = 0) (r : Fin 4096) (d : Fin 64) :
    (Reg.outsAt9 V c t.val t.isLt).1 (ix2 r d) = gather9_part V c (4096 * (t.val / 50) + r.val) d (t.val % 50 + 1)
    ∧ (Reg.outsAt9 V c t.val t.isLt).2 (ix2 r d) = gather9_part V c (4096 * (t.val / 50) + r.val) d (t.val % 50 + 1) := by
  have hs := gather9_step V c t (k9_pay1 (F := Ideal)) r d
  rw [gather9_clear, zero_add, h0] at hs
  rw [Reg.outsAt9_A V c t h0]
  dsimp only
  rw [gather9_outA, gather9_accA, hs, h0]
  unfold gather9_part
  rw [Nat.zero_add, Finset.sum_range_one]
  exact ⟨rfl, rfl⟩

/-- At a later point both hold what the accumulator held after the point before, plus this node block's contribution. -/
theorem gather9_later (c : Dev nD) (m : ℕ) (hn : m + 1 < cfg9.N) (h0 : ¬(m + 1) % 50 = 0) (r : Fin 4096) (d : Fin 64) :
    (Reg.outsAt9 V c (m + 1) hn).1 (ix2 r d)
        = (Reg.outsAt9 V c m (Nat.lt_of_succ_lt hn)).2 (ix2 r d) + gather9_term V c (4096 * ((m + 1) / 50) + r.val) d ((m + 1) % 50)
    ∧ (Reg.outsAt9 V c (m + 1) hn).2 (ix2 r d)
        = (Reg.outsAt9 V c m (Nat.lt_of_succ_lt hn)).2 (ix2 r d) + gather9_term V c (4096 * ((m + 1) / 50) + r.val) d ((m + 1) % 50) := by
  have hs := gather9_step V c ⟨m + 1, hn⟩ (Reg.outsAt9 V c m (Nat.lt_of_succ_lt hn)).2 r d
  rw [show Reg.outsAt9 V c (m + 1) hn = _ from Reg.outsAt9_B V c ⟨m + 1, hn⟩ h0]
  dsimp only
  rw [gather9_outB, gather9_accB]
  exact ⟨hs, hs⟩

/-- After point n both buffers hold, at (r, d), the contributions of node blocks 0 … n % 50 to edge 4096·(n / 50) + r. -/
theorem gather9_acc (c : Dev nD) (n : ℕ) : ∀ (hn : n < cfg9.N) (r : Fin 4096) (d : Fin 64),
    (Reg.outsAt9 V c n hn).1 (ix2 r d) = gather9_part V c (4096 * (n / 50) + r.val) d (n % 50 + 1)
    ∧ (Reg.outsAt9 V c n hn).2 (ix2 r d) = gather9_part V c (4096 * (n / 50) + r.val) d (n % 50 + 1) := by
  induction n with
  | zero =>
    intro hn r d
    exact gather9_first V c ⟨0, hn⟩ (Nat.zero_mod 50) r d
  | succ m ih =>
    intro hn r d
    by_cases h0 : (m + 1) % 50 = 0
    · exact gather9_first V c ⟨m + 1, hn⟩ h0 r d
    · obtain ⟨h1, h2⟩ := gather9_later V c m hn h0 r d
      have hq : (m + 1) / 50 = m / 50 := by omega
      have hr : (m + 1) % 50 = m % 50 + 1 := by omega
      have hprev := (ih (Nat.lt_of_succ_lt hn) r d).2
      rw [hprev, hq, hr] at h1 h2
      rw [hq, hr]
      have hsum : gather9_part V c (4096 * (m / 50) + r.val) d (m % 50 + 1 + 1)
          = gather9_part V c (4096 * (m / 50) + r.val) d (m % 50 + 1) + gather9_term V c (4096 * (m / 50) + r.val) d (m % 50 + 1) :=
        Finset.sum_range_succ _ _
      rw [hsum]
      exact ⟨h1, h2⟩

/-- All fifty node blocks' contributions are the sum over the whole table. -/
theorem gather9_whole (c : Dev nD) (e : Fin 802816) (d : Fin 64) : gather9_part V c e.val d 50 = gather9_sum V c e d := by
  unfold gather9_part gather9_sum
  rw [Finset.sum_range]
  refine (Finset.sum_congr rfl fun nb _ => ?_).trans
    (Cert.LibTiledSum.sum_fin_mul 50 1000 (fun j : Fin 50000 =>
      (if (V c main_v3 : S802816.Idx → BitVec 32) (ix1 e) = BitVec.ofNat 32 j.val then (1 : EReal) else 0) * (V c main_v13 : S50000x64.Idx → EReal) (ix2 j d))).symm
  unfold gather9_term
  refine Finset.sum_congr rfl fun k _ => ?_
  have hlt : 1000 * nb.val + k.val < 50000 := by have := nb.isLt; have := k.isLt; omega
  rw [gather9_word_eq, show gather9_row V c (1000 * nb.val + k.val) d = _ from gather9_row_eq V c ⟨_, hlt⟩ d]

/-! ## From the blocks to the array -/

/-- What the last point of an edge block leaves at row p, column q of the output's buffer is the gathered row of edge
    4096·(t / 50) + p at column q. -/
theorem gather9_point (c : Dev nD) (t : Fin cfg9.N) (h49 : t.val % 50 = 49) (p : Fin 4096) (q : Fin 64) (e : Fin 802816) (d : Fin 64)
    (he : e.val = 4096 * (t.val / 50) + p.val) (hd : d.val = q.val) :
    (Reg.outsAt9 V c t.val t.isLt).1 (ix2 p q) = gather9_sum V c e d := by
  obtain rfl : d = q := Fin.ext hd
  rw [(gather9_acc V c t.val t.isLt p d).1, h49, ← he]
  exact gather9_whole V c e d

/-- What a writing point writes back is its block of the gathered rows. -/
theorem gather9_flushed (c : Dev nD) (t : Fin cfg9.N) (hf : (cfg9.win 2).flush t = true) :
    (Reg.dat9 (F := Ideal) V c).flushed 2 t = ((cfg9.win 2).blk t).view.read (Elt Ideal) (gather9_table V c) := by
  have h49 : t.val % 50 = 49 := (flush9_2 t).mp hf
  show (cfg9.win 2).cut (grid9.coords t) ((Reg.dat9 V c).after 2 t) = _
  rw [Reg.after9_2]
  funext y
  obtain ⟨p, q, rfl⟩ : ∃ (p : Fin 4096) (q : Fin 64), y = ix2 p q := ⟨y 0, y 1, eq_ix2 y⟩
  obtain ⟨-, -, -, e3, e4, -⟩ := gather9_index t
  have hN : cfg9.N = 9800 := N_9
  have ht : t.val < 9800 := hN ▸ t.isLt
  have hlt : 4096 * (t.val / 50) + p.val < 802816 := by omega
  have hp := gather9_point V c t h49 p q ⟨4096 * (t.val / 50) + p.val, hlt⟩ q rfl rfl
  generalize Reg.outsAt9 V c t.val t.isLt = X at hp ⊢
  show X.1 (ix2 p q) = _
  rw [hp, View.read_apply]
  show gather9_sum V c _ _ = gather9_table V c _
  unfold gather9_table
  congr 1 <;> apply Fin.ext
  · show 4096 * (t.val / 50) + p.val = win9_2.index t (0 : Fin 2) * 4096 + 1 * p.val; omega
  · show q.val = win9_2.index t (1 : Fin 2) * 64 + 1 * q.val; omega

/-- An index of the output array is in point t's block iff each coordinate is in the block's range on its axis. -/
theorem gather9_mem (t : Fin cfg9.N) (i : S802816x64.Idx) :
    i ∈ ((cfg9.win 2).blk t).view.set ↔ ∀ a : Fin 2, win9_2.index t a * S4096x64.size a ≤ (i a).val ∧ (i a).val < win9_2.index t a * S4096x64.size a + S4096x64.size a := by
  show i ∈ ((View.whole main_v14).slice (win9_2.rect t)).set ↔ _
  rw [View.set_slice_whole, Rect.mem_set_unit]
  exact Iff.rfl

/-- Every row of the output is in some writing point's block: row e in the block of point 50·(e / 4096) + 49. -/
theorem gather9_cover (i : S802816x64.Idx) :
    ∃ t : Fin cfg9.N, (cfg9.win 2).flush t = true ∧ i ∈ ((cfg9.win 2).blk t).view.set := by
  have hi0 : (i 0).val < 802816 := (i 0).isLt
  have hi1 : (i 1).val < 64 := (i 1).isLt
  have hN : cfg9.N = 9800 := N_9
  let t : Fin cfg9.N := ⟨50 * ((i 0).val / 4096) + 49, by rw [hN]; omega⟩
  have ht : t.val = 50 * ((i 0).val / 4096) + 49 := rfl
  obtain ⟨-, -, -, e3, e4, -⟩ := gather9_index t
  refine ⟨t, (flush9_2 t).mpr (by rw [ht]; omega), ?_⟩
  rw [gather9_mem]
  intro a
  match a with
  | ⟨0, _⟩ => show win9_2.index t (0 : Fin 2) * 4096 ≤ (i 0).val ∧ (i 0).val < win9_2.index t (0 : Fin 2) * 4096 + 4096; omega
  | ⟨1, _⟩ => show win9_2.index t (1 : Fin 2) * 64 ≤ (i 1).val ∧ (i 1).val < win9_2.index t (1 : Fin 2) * 64 + 64; omega

/-- The output array after the region's last point is the gathered rows, entry by entry. -/
theorem gather9_array (c : Dev nD) : (Reg.dat9 (F := Ideal) V c).arrAt 2 cfg9.N = gather9_table V c :=
  (Reg.dat9 (F := Ideal) V c).arrAt_eq_of_cover 2 (gather9_table V c) (fun t hf => gather9_flushed V c t hf) (gather9_cover)

/-- At edge e and column d. -/
theorem gather9_final (c : Dev nD) (e : Fin 802816) (d : Fin 64) :
    (Reg.dat9 (F := Ideal) V c).arrAt 2 cfg9.N (ix2 e d)
      = ∑ j : Fin 50000, (if (V c main_v3 : S802816.Idx → BitVec 32) (ix1 e) = BitVec.ofNat 32 j.val then (1 : EReal) else 0) * (V c main_v13 : S50000x64.Idx → EReal) (ix2 j d) := by
  rw [gather9_array V c]
  show gather9_sum V c e d = _
  unfold gather9_sum
  rfl

end Cert.KernelIdeal.Val

end
-- ==== Proof.PayScatter.lean ====
/-
  One step of the scatter-sum, read at an index.

  The kernel owns a block of 1000 node rows (block nb) and walks the edges in blocks of 4096.  At an edge block it compares
  each node number 1000·nb + r with each of the block's 4096 target words, turns the comparison bits into the numbers 0 and
  1, multiplies that 1000×4096 matrix into the block's 4096×64 messages, and adds the product to what it has accumulated:
      new(r, d) = old(r, d) + Σ_k [1000·nb + r = dst k] · msg(k, d).
-/
import proofs.«163112_j15616501088829_2_alg».proof.Proof.Gen.KernelIdeal.Skeleton
import proofs.«163112_j15616501088829_2_alg».proof.Proof.LibOneHot
import proofs.«163112_j15616501088829_2_alg».proof.Proof.LibPlainProduct
import proofs.«163112_j15616501088829_2_alg».proof.Proof.LibColumns
import proofs.«163112_j15616501088829_2_alg».proof.Proof.PayGather
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Idealize.ShloMosaic.LibColumns
open Cert.KernelIdeal Cert.KernelIdeal.Gen Cert.LibOneHot

/-- The node numbers of block nb, spread along the 4096 lanes, read at (r, k). -/
theorem nodeColumn_apply (nb : ℕ) (hnb : nb < 1000) (r : Fin 1000) (k : Fin 4096) :
    broadcastTo S1000x4096
        (shapeCast S1000x1
          (addi (broadcast S1000 (Scalar.muli (BitVec.ofNat 32 nb) 1000#32))
            (shapeCast S1000 (iota .tc S1x1000 32 [1] iota_S1x1000_d1_w32) shapeCasts_S1x1000_S1000))
          shapeCasts_S1000_S1000x1)
        broadcasts_S1000x1_S1000x4096 (ix2 r k)
      = BitVec.ofNat 32 (1000 * nb + r.val) := by
  rw [broadcastTo_a1_ab_apply, shapeCast_a_a1_apply]
  show IntOp.addi (Scalar.muli (BitVec.ofNat 32 nb) 1000#32)
      (shapeCast S1000 (iota .tc S1x1000 32 [1] iota_S1x1000_d1_w32) shapeCasts_S1x1000_S1000 (ix1 r)) = _
  rw [shapeCast_1a_a_apply]
  show IntOp.addi (Scalar.muli (BitVec.ofNat 32 nb) 1000#32) (BitVec.ofNat 32 (0 * 1000 + r.val)) = _
  rw [Nat.zero_mul, Nat.zero_add]
  exact nodeWord nb r.val hnb (by have := r.isLt; omega)

/-- The target words of the edge block, spread down the 1000 rows, read at (r, k). -/
theorem targetWords_apply (v8 : Vec Ideal S4096 .i32) (r : Fin 1000) (k : Fin 4096) :
    broadcastTo S1000x4096 (shapeCast S1x4096 v8 shapeCasts_S4096_S1x4096) broadcasts_S1x4096_S1000x4096 (ix2 r k)
      = v8 (ix1 k) := by
  rw [broadcastTo_1b_ab_apply, shapeCast_a_1a_apply]

/-- ONE STEP OF THE SCATTER-SUM at (r, d): what was accumulated, plus the messages of the block's edges into node
    1000·nb + r. -/
theorem scatter_step_apply (i : grid2.Coords) (hi : (i 0).val < 1000) (v8 : Vec Ideal S4096 .i32) (v18 : Vec Ideal S4096x64 .f32)
    (v21 : Vec Ideal S1000x64 .f32) (r : Fin 1000) (d : Fin 64) :
    k2_pay2 (F := Ideal) i v8 v18 v21 (ix2 r d)
      = v21 (ix2 r d) + ∑ k : Fin 4096,
          (if BitVec.ofNat 32 (1000 * (i 0).val + r.val) = v8 (ix1 k) then (1 : EReal) else 0) * v18 (ix2 k d) := by
  unfold k2_pay2
  dsimp only
  simp only [shapeCast_self]
  rw [addf_apply]
  refine congrArg (v21 (ix2 r d) + ·) ?_
  refine (PlainProduct.matmul_zero_apply (M := 1000) (K := 4096) (P := 64)
    dot_S1000x4096_S4096x64_S1000x64_1_0_0_1_n_n_wf none _ _ r d).trans ?_
  refine Finset.sum_congr rfl fun k _ => ?_
  rw [truncf_apply, truncf_apply, sitofp_apply, extui_apply]
  show ((((IntOp.cmpi .eq
      (broadcastTo S1000x4096
        (shapeCast S1000x1
          (addi (broadcast S1000 (Scalar.muli (BitVec.ofNat 32 (i 0).val) 1000#32))
            (shapeCast S1000 (iota .tc S1x1000 32 [1] iota_S1x1000_d1_w32) shapeCasts_S1x1000_S1000))
          shapeCasts_S1000_S1000x1)
        broadcasts_S1000x1_S1000x4096 (ix2 r k))
      (broadcastTo S1000x4096 (shapeCast S1x4096 v8 shapeCasts_S4096_S1x4096) broadcasts_S1x4096_S1000x4096 (ix2 r k))).setWidth 32).toInt : ℝ) : EReal)
      * v18 (ix2 k d) = _
  rw [nodeColumn_apply _ hi, targetWords_apply, eqWord_real]

end Cert.KernelIdeal.Pay

end
-- ==== Proof.ValScatter2.lean ====
/-
  What the scatter-sum's region leaves in its output array: at node n and column d the sum, over all 802816 padded edges e,
  of  [n = target word of e] · message(e, d).

  The grid is 50 node blocks of 1000 rows by 196 edge blocks of 4096 edges; point t works on node block t / 196 and edge
  block t % 196.  The body keeps an accumulator across the 196 points of a node block: cleared at the first, and at every
  point increased by the edge block's sum.  So after the point with edge block eb the accumulator holds the sum over the
  edge blocks 0 … eb, and after the last (eb = 195), where alone the output block is written back, the sum over all
  196 · 4096 edges.  The fifty written blocks cover the 50000 rows.
-/
import proofs.«163112_j15616501088829_2_alg».proof.Proof.RegScatter2
import proofs.«163112_j15616501088829_2_alg».proof.Proof.PayScatter
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem sc2_z1 : (![0] : Fin 1 → Nat) = fun _ => 0 := funext fun a => by fin_cases a <;> rfl
theorem sc2_z2 : (![0, 0] : Fin 2 → Nat) = fun _ => 0 := funext fun a => by fin_cases a <;> rfl

/-! ## What each case of the body leaves: the step's value -/

section Pieces

variable {F : FTy → Type} [FloatOps F]

/-- At a later point of a node block the accumulator is left at the step's value of what it held … -/
theorem sc2_acc_B (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond2_0 i)
    (x0 : Vec F S4096 .i32) (x1 : Vec F S4096x64 .f32) (xs0 : Vec F S1000x64 .f32) :
    Reg.sout2_B_0 c i arg2 harg2 arg3 harg3 arg4 harg4 arg5 harg5 hc0 x0 x1 xs0 = k2_pay2 i x0 x1 xs0 := by
  unfold Reg.sout2_B_0
  rw [View.read_writes_eq_canon _ _ _ (Reg.scover2_B_0 c i arg2 harg2 arg3 harg3 arg4 harg4 arg5 harg5 hc0 x0 x1 xs0)]
  unfold Reg.kernelRun2_B
  dsimp only
  sl_unfold_words
  rw [View.canon_unit_zero sc2_z2]
  simp only [View.readAt_eq_ld, harg2.read_unread, harg3.read_unread, harg5.read_unread,
    View.ld_unit_zero (S := S4096) sc2_z1, View.ld_unit_zero (S := S4096x64) sc2_z2, View.ld_unit_zero (S := S1000x64) sc2_z2]

/-- … and so is the output's staging buffer. -/
theorem sc2_out_B (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond2_0 i)
    (x0 : Vec F S4096 .i32) (x1 : Vec F S4096x64 .f32) (xs0 : Vec F S1000x64 .f32) :
    Reg.out2_B_2 c i arg2 harg2 arg3 harg3 arg4 harg4 arg5 harg5 hc0 x0 x1 xs0 = k2_pay2 i x0 x1 xs0 := by
  unfold Reg.out2_B_2
  rw [View.read_writes_eq_canon _ _ _ (Reg.cover2_B_2 c i arg2 harg2 arg3 harg3 arg4 harg4 arg5 harg5 hc0 x0 x1 xs0)]
  unfold Reg.kernelRun2_B
  dsimp only
  sl_unfold_words
  rw [View.canon_unit_zero sc2_z2]
  rw [View.readCov_unit_zero _ sc2_z2]
  simp only [View.readAt_eq_ld, harg2.read_unread, harg3.read_unread, harg5.read_unread,
    View.ld_unit_zero (S := S4096) sc2_z1, View.ld_unit_zero (S := S4096x64) sc2_z2, View.ld_unit_zero (S := S1000x64) sc2_z2]

/-- At the first point of a node block the accumulator is left at the step's value of zeros … -/
theorem sc2_acc_A (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond2_0 i)
    (x0 : Vec F S4096 .i32) (x1 : Vec F S4096x64 .f32) :
    Reg.sout2_A_0 c i arg2 harg2 arg3 harg3 arg4 harg4 arg5 harg5 hc0 x0 x1 = k2_pay2 i x0 x1 (k2_pay1 (F := F)) := by
  unfold Reg.sout2_A_0
  rw [View.read_writes_eq_canon _ _ _ (Reg.scover2_A_0 c i arg2 harg2 arg3 harg3 arg4 harg4 arg5 harg5 hc0 x0 x1)]
  unfold Reg.kernelRun2_A
  dsimp only
  sl_unfold_words
  rw [View.canon_cons_unit_zero sc2_z2]
  rw [View.readCov_unit_zero _ sc2_z2]
  simp only [View.readAt_eq_ld, harg2.read_unread, harg3.read_unread,
    View.ld_unit_zero (S := S4096) sc2_z1, View.ld_unit_zero (S := S4096x64) sc2_z2, View.ld_unit_zero (S := S1000x64) sc2_z2]

/-- … and so is the output's staging buffer. -/
theorem sc2_out_A (c : Dev nD) (i : grid2.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond2_0 i)
    (x0 : Vec F S4096 .i32) (x1 : Vec F S4096x64 .f32) :
    Reg.out2_A_2 c i arg2 harg2 arg3 harg3 arg4 harg4 arg5 harg5 hc0 x0 x1 = k2_pay2 i x0 x1 (k2_pay1 (F := F)) := by
  unfold Reg.out2_A_2
  rw [View.read_writes_eq_canon _ _ _ (Reg.cover2_A_2 c i arg2 harg2 arg3 harg3 arg4 harg4 arg5 harg5 hc0 x0 x1)]
  unfold Reg.kernelRun2_A
  dsimp only
  sl_unfold_words
  rw [View.canon_unit_zero sc2_z2]
  rw [View.readCov_eq_canon_ld _ _ _ (fun y => ⟨_, List.Mem.head _, View.mem_set_unit_zero sc2_z2 inb_S1000x64_S1000x64_0_0 y⟩)]
  rw [View.canon_cons_unit_zero sc2_z2, View.ld_unit_zero sc2_z2]
  rw [View.readCov_unit_zero _ sc2_z2]
  simp only [View.readAt_eq_ld, harg2.read_unread, harg3.read_unread,
    View.ld_unit_zero (S := S4096) sc2_z1, View.ld_unit_zero (S := S4096x64) sc2_z2, View.ld_unit_zero (S := S1000x64) sc2_z2]

end Pieces

variable (V : (c : Dev nD) → (b : Ref sig .tc) → Buf (Elt Ideal) ((c : Thread nD τ).loc b))

/-! ## The step at a point, over the padded tables -/

/-- The cleared accumulator is zero. -/
theorem sc2_zero (r : Fin 1000) (d : Fin 64) : k2_pay1 (F := Ideal) (ix2 r d) = 0 := by
  unfold k2_pay1
  simp only [shapeCast_self]
  rw [broadcast_apply]
  exact Ideal.ofBits_zero_f32

/-- The target word of padded edge j (past the table's end: never read). -/
def sc2_dst (c : Dev nD) (j : ℕ) : BitVec 32 :=
  if h : j < 802816 then (V c main_v4 : S802816.Idx → BitVec 32) (ix1 ⟨j, h⟩) else 0#32

/-- The message of padded edge j in column d (past the table's end: never read). -/
def sc2_msg (c : Dev nD) (j : ℕ) (d : Fin 64) : EReal :=
  if h : j < 802816 then (V c main_v6 : S802816x64.Idx → EReal) (ix2 ⟨j, h⟩ d) else 0

/-- What padded edge j adds to node n in column d. -/
def sc2_term (c : Dev nD) (n : ℕ) (d : Fin 64) (j : ℕ) : EReal :=
  (if BitVec.ofNat 32 n = sc2_dst V c j then (1 : EReal) else 0) * sc2_msg V c j d

/-- What edge block eb adds to node n in column d. -/
def sc2_blk (c : Dev nD) (n : ℕ) (d : Fin 64) (eb : ℕ) : EReal :=
  ∑ k : Fin 4096, sc2_term V c n d (4096 * eb + k.val)

/-- Point t is node block t / 196 and edge block t % 196; its blocks of the target words and of the messages are edge
    block t % 196, its block of the output is node block t / 196. -/
theorem sc2_coords : ∀ t : Fin cfg2.N,
    (grid2.coords t 0).val = t.val / 196 ∧ (grid2.coords t 1).val = t.val % 196 :=
  (by decide +kernel : ∀ t : Fin grid2.N, _)
theorem sc2_index_in : ∀ t : Fin cfg2.N,
    win2_0.index t (0 : Fin 1) = t.val % 196
    ∧ win2_1.index t (0 : Fin 2) = t.val % 196 ∧ win2_1.index t (1 : Fin 2) = 0 :=
  (by decide +kernel : ∀ t : Fin grid2.N, _)
theorem sc2_index_out : ∀ t : Fin cfg2.N,
    win2_2.index t (0 : Fin 2) = t.val / 196 ∧ win2_2.index t (1 : Fin 2) = 0 :=
  (by decide +kernel : ∀ t : Fin grid2.N, _)

/-- Word k of point t's block of target words is word 4096·(t % 196) + k of the padded table. -/
theorem sc2_words (c : Dev nD) (t : Fin cfg2.N) (k : Fin 4096) (e : Fin 802816) (he : e.val = t.val % 196 * 4096 + k.val) :
    (Reg.iblk2 V c 0 t : Vec Ideal S4096 .i32) (ix1 k) = (V c main_v4 : S802816.Idx → BitVec 32) (ix1 e) := by
  obtain ⟨e0, -⟩ := sc2_index_in t
  unfold Reg.iblk2
  rw [View.read_apply]
  show (V c main_v4 : S802816.Idx → BitVec 32) _ = _
  refine congrArg _ (funext fun a => Fin.ext ?_)
  match a with
  | ⟨0, _⟩ => show win2_0.index t (0 : Fin 1) * 4096 + 1 * k.val = e.val; omega

/-- Row k of point t's block of messages is row 4096·(t % 196) + k of the padded messages. -/
theorem sc2_msgs (c : Dev nD) (t : Fin cfg2.N) (k : Fin 4096) (d : Fin 64) (e : Fin 802816) (he : e.val = t.val % 196 * 4096 + k.val) :
    (Reg.iblk2 V c 1 t : Vec Ideal S4096x64 .f32) (ix2 k d) = (V c main_v6 : S802816x64.Idx → EReal) (ix2 e d) := by
  obtain ⟨-, e1, e2⟩ := sc2_index_in t
  unfold Reg.iblk2
  rw [View.read_apply]
  show (V c main_v6 : S802816x64.Idx → EReal) _ = _
  refine congrArg _ (funext fun a => Fin.ext ?_)
  match a with
  | ⟨0, _⟩ => show win2_1.index t (0 : Fin 2) * 4096 + 1 * k.val = e.val; omega
  | ⟨1, _⟩ => show win2_1.index t (1 : Fin 2) * 64 + 1 * d.val = d.val; omega

/-- THE STEP AT POINT t, at row r and column d: what was accumulated plus edge block t % 196's sum for node
    1000·(t / 196) + r. -/
theorem sc2_step (c : Dev nD) (t : Fin cfg2.N) (acc : Vec Ideal S1000x64 .f32) (r : Fin 1000) (d : Fin 64) :
    k2_pay2 (F := Ideal) (grid2.coords t) (Reg.iblk2 V c 0 t) (Reg.iblk2 V c 1 t) acc (ix2 r d)
      = acc (ix2 r d) + sc2_blk V c (1000 * (t.val / 196) + r.val) d (t.val % 196) := by
  obtain ⟨g0, -⟩ := sc2_coords t
  have hN : cfg2.N = 9800 := N_2
  have ht : t.val < 9800 := hN ▸ t.isLt
  rw [Pay.scatter_step_apply (grid2.coords t) (by rw [g0]; omega), g0]
  unfold sc2_blk
  refine congrArg (acc (ix2 r d) + ·) (Finset.sum_congr rfl fun k _ => ?_)
  have hk : 4096 * (t.val % 196) + k.val < 802816 := by have := k.isLt; omega
  unfold sc2_term sc2_dst sc2_msg
  rw [dif_pos hk, dif_pos hk, sc2_words V c t k ⟨_, hk⟩ (by show 4096 * (t.val % 196) + k.val = _; omega),
    sc2_msgs V c t k d ⟨_, hk⟩ (by show 4096 * (t.val % 196) + k.val = _; omega)]

/-! ## The accumulation along the grid -/

/-- At the first point of a node block both buffers are left at edge block 0's sum. -/
theorem sc2_at_A (c : Dev nD) (n : ℕ) (hn : n < cfg2.N) (h0 : n % 196 = 0) (r : Fin 1000) (d : Fin 64) :
    (Reg.outsAt2 V c n hn).1 (ix2 r d) = sc2_blk V c (1000 * (n / 196) + r.val) d 0
    ∧ (Reg.outsAt2 V c n hn).2 (ix2 r d) = sc2_blk V c (1000 * (n / 196) + r.val) d 0 := by
  have e : Reg.outsAt2 V c n hn = _ := Reg.outsAt2_A V c ⟨n, hn⟩ h0
  rw [e]
  dsimp only
  rw [sc2_out_A, sc2_acc_A, sc2_step V c ⟨n, hn⟩ _ r d, sc2_zero, zero_add]
  dsimp only
  rw [h0]
  exact ⟨rfl, rfl⟩

/-- At a later point both are left at what the accumulator held plus the point's edge block's sum. -/
theorem sc2_at_B (c : Dev nD) (m : ℕ) (hm : m + 1 < cfg2.N) (h0 : ¬(m + 1) % 196 = 0) (r : Fin 1000) (d : Fin 64) :
    (Reg.outsAt2 V c (m + 1) hm).1 (ix2 r d)
      = (Reg.outsAt2 V c m (Nat.lt_of_succ_lt hm)).2 (ix2 r d) + sc2_blk V c (1000 * ((m + 1) / 196) + r.val) d ((m + 1) % 196)
    ∧ (Reg.outsAt2 V c (m + 1) hm).2 (ix2 r d)
      = (Reg.outsAt2 V c m (Nat.lt_of_succ_lt hm)).2 (ix2 r d) + sc2_blk V c (1000 * ((m + 1) / 196) + r.val) d ((m + 1) % 196) := by
  have e : Reg.outsAt2 V c (m + 1) hm = _ := Reg.outsAt2_B V c ⟨m + 1, hm⟩ h0
  rw [e]
  dsimp only
  rw [sc2_out_B, sc2_acc_B, sc2_step V c ⟨m + 1, hm⟩ _ r d]
  exact ⟨rfl, rfl⟩

/-- After the point with edge block eb of node block nb both buffers hold the sum over the edge blocks 0 … eb. -/
theorem sc2_acc (c : Dev nD) (n : ℕ) : ∀ (hn : n < cfg2.N) (r : Fin 1000) (d : Fin 64),
    (Reg.outsAt2 V c n hn).1 (ix2 r d) = ∑ eb ∈ Finset.range (n % 196 + 1), sc2_blk V c (1000 * (n / 196) + r.val) d eb
    ∧ (Reg.outsAt2 V c n hn).2 (ix2 r d) = ∑ eb ∈ Finset.range (n % 196 + 1), sc2_blk V c (1000 * (n / 196) + r.val) d eb := by
  induction n with
  | zero =>
    intro hn r d
    have h := sc2_at_A V c 0 hn (Nat.zero_mod _) r d
    rw [Nat.zero_mod, Nat.zero_add, Finset.sum_range_one]
    exact h
  | succ m ih =>
    intro hn r d
    by_cases h0 : (m + 1) % 196 = 0
    · have h := sc2_at_A V c (m + 1) hn h0 r d
      rw [h0, Nat.zero_add, Finset.sum_range_one]
      exact h
    · obtain ⟨-, i2⟩ := ih (Nat.lt_of_succ_lt hn) r d
      obtain ⟨b1, b2⟩ := sc2_at_B V c m hn h0 r d
      have hd : (m + 1) / 196 = m / 196 := by omega
      have hm : (m + 1) % 196 = m % 196 + 1 := by omega
      rw [b1, b2, i2, hd, hm, Finset.sum_range_succ _ (m % 196 + 1)]
      exact ⟨rfl, rfl⟩

/-- The 196 edge blocks' sums are the sum over all the padded edges. -/
theorem sc2_total (c : Dev nD) (n : ℕ) (d : Fin 64) :
    ∑ eb ∈ Finset.range 196, sc2_blk V c n d eb = ∑ e : Fin 802816, sc2_term V c n d e.val := by
  rw [← Fin.sum_univ_eq_sum_range (fun eb => sc2_blk V c n d eb) 196]
  unfold sc2_blk
  exact (Cert.LibTiledSum.sum_fin_mul 196 4096 (fun e : Fin (196 * 4096) => sc2_term V c n d e.val)).symm

/-! ## From the written blocks to the array -/

/-- The sum the region computes, at node n and column d.  (Kept folded: nothing below looks inside the sum over the padded
    edges but the two lemmas that say what it is.) -/
@[irreducible] def sc2_sum (c : Dev nD) (n : Fin 50000) (d : Fin 64) : EReal :=
  ∑ e : Fin 802816, (if BitVec.ofNat 32 n.val = (V c main_v4 : S802816.Idx → BitVec 32) (ix1 e) then (1 : EReal) else 0)
    * (V c main_v6 : S802816x64.Idx → EReal) (ix2 e d)

/-- The sums as a function of the 50000×64 array's index. -/
def sc2_table (c : Dev nD) : S50000x64.Idx → EReal :=
  fun i => sc2_sum V c ⟨(i 0).val, idx2_lt0 i⟩ ⟨(i 1).val, idx2_lt1 i⟩

/-- The table at an index whose coordinates are n and d. -/
theorem sc2_table_apply (c : Dev nD) (i : S50000x64.Idx) (n : Fin 50000) (d : Fin 64) (h0 : (i 0).val = n.val) (h1 : (i 1).val = d.val) :
    sc2_table V c i = sc2_sum V c n d := by
  unfold sc2_table
  exact congrArg₂ (sc2_sum V c) (Fin.ext h0) (Fin.ext h1)

/-- After the last point of node block t / 196, row p and column q of the output's buffer is the sum at node
    1000·(t / 196) + p. -/
theorem sc2_point (c : Dev nD) (t : Fin cfg2.N) (hf : t.val % 196 = 195) (p : Fin 1000) (q : Fin 64) (n : Fin 50000)
    (hn : n.val = 1000 * (t.val / 196) + p.val) :
    (Reg.outsAt2 V c t.val t.isLt).1 (ix2 p q) = sc2_sum V c n q := by
  rw [(sc2_acc V c t.val t.isLt p q).1, hf, sc2_total, ← hn]
  unfold sc2_sum
  refine Finset.sum_congr rfl fun e _ => ?_
  unfold sc2_term sc2_dst sc2_msg
  rw [dif_pos e.isLt, dif_pos e.isLt]

/-- What a writing point writes back is its block of the sums. -/
theorem sc2_flushed (c : Dev nD) (t : Fin cfg2.N) (hf : (cfg2.win 2).flush t = true) :
    (Reg.dat2 (F := Ideal) V c).flushed 2 t = ((cfg2.win 2).blk t).view.read (Elt Ideal) (sc2_table V c) := by
  have hf' : t.val % 196 = 195 := (flush2_2 t).mp hf
  show (cfg2.win 2).cut (grid2.coords t) ((Reg.dat2 V c).after 2 t) = _
  rw [Reg.after2_2]
  funext y
  obtain ⟨p, q, rfl⟩ : ∃ (p : Fin 1000) (q : Fin 64), y = ix2 p q := ⟨y 0, y 1, eq_ix2 y⟩
  obtain ⟨e5, e6⟩ := sc2_index_out t
  have hN : cfg2.N = 9800 := N_2
  have ht : t.val < 9800 := hN ▸ t.isLt
  have hlt : 1000 * (t.val / 196) + p.val < 50000 := by have := p.isLt; omega
  have hp := sc2_point V c t hf' p q ⟨1000 * (t.val / 196) + p.val, hlt⟩ rfl
  generalize Reg.outsAt2 V c t.val t.isLt = X at hp ⊢
  show X.1 (ix2 p q) = _
  rw [hp, View.read_apply, cast_eq]
  refine (sc2_table_apply V c _ _ _ ?_ ?_).symm
  · show win2_2.index t (0 : Fin 2) * 1000 + 1 * p.val = 1000 * (t.val / 196) + p.val; omega
  · show win2_2.index t (1 : Fin 2) * 64 + 1 * q.val = q.val; omega

/-- An index of the output array is in point t's block iff each coordinate is in the block's range on its axis. -/
theorem sc2_mem (t : Fin cfg2.N) (i : S50000x64.Idx) :
    i ∈ ((cfg2.win 2).blk t).view.set ↔ ∀ a : Fin 2, win2_2.index t a * S1000x64.size a ≤ (i a).val ∧ (i a).val < win2_2.index t a * S1000x64.size a + S1000x64.size a := by
  show i ∈ ((View.whole main_v7).slice (win2_2.rect t)).set ↔ _
  rw [View.set_slice_whole, Rect.mem_set_unit]
  exact Iff.rfl

/-- Every row of the output is in a writing point's block: row p in that of the last point of node block p / 1000. -/
theorem sc2_cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 9800 := N_2
  let t : Fin cfg2.N := ⟨196 * ((i 0).val / 1000) + 195, by rw [hN]; omega⟩
  have ht : t.val = 196 * ((i 0).val / 1000) + 195 := rfl
  obtain ⟨e5, e6⟩ := sc2_index_out t
  refine ⟨t, (flush2_2 t).mpr (by rw [ht]; omega), ?_⟩
  rw [sc2_mem]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 64 ≤ (i 1).val ∧ (i 1).val < win2_2.index t (1 : Fin 2) * 64 + 64; omega

/-- The output array after the region's last point is the sums, entry by entry. -/
theorem sc2_array (c : Dev nD) : (Reg.dat2 (F := Ideal) V c).arrAt 2 cfg2.N = sc2_table V c :=
  (Reg.dat2 (F := Ideal) V c).arrAt_eq_of_cover 2 (sc2_table V c) (fun t hf => sc2_flushed V c t hf) sc2_cover

/-- THE SCATTER-SUM'S RESULT at node n and column d. -/
theorem scatter2_final (c : Dev nD) (n : Fin 50000) (d : Fin 64) :
    (Reg.dat2 (F := Ideal) V c).arrAt 2 cfg2.N (ix2 n d)
      = ∑ e : Fin 802816, (if BitVec.ofNat 32 n.val = (V c main_v4 : S802816.Idx → BitVec 32) (ix1 e) then (1 : EReal) else 0)
          * (V c main_v6 : S802816x64.Idx → EReal) (ix2 e d) := by
  rw [sc2_array V c]
  show sc2_sum V c n d = _
  unfold sc2_sum
  rfl

end Cert.KernelIdeal.Val

end
-- ==== Proof.ValScatter6.lean ====
/-
  What the scatter-sum's region leaves in its output array: at node n and column d the sum, over all 802816 padded edges e,
  of  [n = target word of e] · message(e, d).

  The grid is 50 node blocks of 1000 rows by 196 edge blocks of 4096 edges; point t works on node block t / 196 and edge
  block t % 196.  The body keeps an accumulator across the 196 points of a node block: cleared at the first, and at every
  point increased by the edge block's sum.  So after the point with edge block eb the accumulator holds the sum over the
  edge blocks 0 … eb, and after the last (eb = 195), where alone the output block is written back, the sum over all
  196 · 4096 edges.  The fifty written blocks cover the 50000 rows.
-/
import proofs.«163112_j15616501088829_2_alg».proof.Proof.RegScatter6
import proofs.«163112_j15616501088829_2_alg».proof.Proof.PayScatter
import proofs.«163112_j15616501088829_2_alg».proof.Proof.LibPlainProduct
import proofs.«163112_j15616501088829_2_alg».proof.Proof.LibOneHot
import Idealize.ShloMosaic.Lib.ValueLayout
import Idealize.ShloMosaic.PureOps.Ideal.Laws
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem sc6_z1 : (![0] : Fin 1 → Nat) = fun _ => 0 := funext fun a => by fin_cases a <;> rfl
theorem sc6_z2 : (![0, 0] : Fin 2 → Nat) = fun _ => 0 := funext fun a => by fin_cases a <;> rfl

/-! ## What each case of the body leaves: the step's value -/

section Pieces

variable {F : FTy → Type} [FloatOps F]

/-- At a later point of a node block the accumulator is left at the step's value of what it held … -/
theorem sc6_acc_B (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond6_0 i)
    (x0 : Vec F S4096 .i32) (x1 : Vec F S4096x64 .f32) (xs0 : Vec F S1000x64 .f32) :
    Reg.sout6_B_0 c i arg2 harg2 arg3 harg3 arg4 harg4 arg5 harg5 hc0 x0 x1 xs0 = k6_pay2 i x0 x1 xs0 := by
  unfold Reg.sout6_B_0
  rw [View.read_writes_eq_canon _ _ _ (Reg.scover6_B_0 c i arg2 harg2 arg3 harg3 arg4 harg4 arg5 harg5 hc0 x0 x1 xs0)]
  unfold Reg.kernelRun6_B
  dsimp only
  sl_unfold_words
  rw [View.canon_unit_zero sc6_z2]
  simp only [View.readAt_eq_ld, harg2.read_unread, harg3.read_unread, harg5.read_unread,
    View.ld_unit_zero (S := S4096) sc6_z1, View.ld_unit_zero (S := S4096x64) sc6_z2, View.ld_unit_zero (S := S1000x64) sc6_z2]

/-- … and so is the output's staging buffer. -/
theorem sc6_out_B (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond6_0 i)
    (x0 : Vec F S4096 .i32) (x1 : Vec F S4096x64 .f32) (xs0 : Vec F S1000x64 .f32) :
    Reg.out6_B_2 c i arg2 harg2 arg3 harg3 arg4 harg4 arg5 harg5 hc0 x0 x1 xs0 = k6_pay2 i x0 x1 xs0 := by
  unfold Reg.out6_B_2
  rw [View.read_writes_eq_canon _ _ _ (Reg.cover6_B_2 c i arg2 harg2 arg3 harg3 arg4 harg4 arg5 harg5 hc0 x0 x1 xs0)]
  unfold Reg.kernelRun6_B
  dsimp only
  sl_unfold_words
  rw [View.canon_unit_zero sc6_z2]
  rw [View.readCov_unit_zero _ sc6_z2]
  simp only [View.readAt_eq_ld, harg2.read_unread, harg3.read_unread, harg5.read_unread,
    View.ld_unit_zero (S := S4096) sc6_z1, View.ld_unit_zero (S := S4096x64) sc6_z2, View.ld_unit_zero (S := S1000x64) sc6_z2]

/-- At the first point of a node block the accumulator is left at the step's value of zeros … -/
theorem sc6_acc_A (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond6_0 i)
    (x0 : Vec F S4096 .i32) (x1 : Vec F S4096x64 .f32) :
    Reg.sout6_A_0 c i arg2 harg2 arg3 harg3 arg4 harg4 arg5 harg5 hc0 x0 x1 = k6_pay2 i x0 x1 (k6_pay1 (F := F)) := by
  unfold Reg.sout6_A_0
  rw [View.read_writes_eq_canon _ _ _ (Reg.scover6_A_0 c i arg2 harg2 arg3 harg3 arg4 harg4 arg5 harg5 hc0 x0 x1)]
  unfold Reg.kernelRun6_A
  dsimp only
  sl_unfold_words
  rw [View.canon_cons_unit_zero sc6_z2]
  rw [View.readCov_unit_zero _ sc6_z2]
  simp only [View.readAt_eq_ld, harg2.read_unread, harg3.read_unread,
    View.ld_unit_zero (S := S4096) sc6_z1, View.ld_unit_zero (S := S4096x64) sc6_z2, View.ld_unit_zero (S := S1000x64) sc6_z2]

/-- … and so is the output's staging buffer. -/
theorem sc6_out_A (c : Dev nD) (i : grid6.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond6_0 i)
    (x0 : Vec F S4096 .i32) (x1 : Vec F S4096x64 .f32) :
    Reg.out6_A_2 c i arg2 harg2 arg3 harg3 arg4 harg4 arg5 harg5 hc0 x0 x1 = k6_pay2 i x0 x1 (k6_pay1 (F := F)) := by
  unfold Reg.out6_A_2
  rw [View.read_writes_eq_canon _ _ _ (Reg.cover6_A_2 c i arg2 harg2 arg3 harg3 arg4 harg4 arg5 harg5 hc0 x0 x1)]
  unfold Reg.kernelRun6_A
  dsimp only
  sl_unfold_words
  rw [View.canon_unit_zero sc6_z2]
  rw [View.readCov_eq_canon_ld _ _ _ (fun y => ⟨_, List.Mem.head _, View.mem_set_unit_zero sc6_z2 inb_S1000x64_S1000x64_0_0 y⟩)]
  rw [View.canon_cons_unit_zero sc6_z2, View.ld_unit_zero sc6_z2]
  rw [View.readCov_unit_zero _ sc6_z2]
  simp only [View.readAt_eq_ld, harg2.read_unread, harg3.read_unread,
    View.ld_unit_zero (S := S4096) sc6_z1, View.ld_unit_zero (S := S4096x64) sc6_z2, View.ld_unit_zero (S := S1000x64) sc6_z2]

end Pieces

variable (V : (c : Dev nD) → (b : Ref sig .tc) → Buf (Elt Ideal) ((c : Thread nD τ).loc b))

/-! ## The step at a point, over the padded tables -/

/-- The cleared accumulator is zero. -/
theorem sc6_zero (r : Fin 1000) (d : Fin 64) : k6_pay1 (F := Ideal) (ix2 r d) = 0 := by
  unfold k6_pay1
  simp only [shapeCast_self]
  rw [broadcast_apply]
  exact Ideal.ofBits_zero_f32

/-- One step of the scatter-sum at (r, d): what was accumulated, plus the messages of the block's edges into node
    1000·nb + r. -/
theorem sc6_step_apply (i : grid6.Coords) (hi : (i 0).val < 1000) (v8 : Vec Ideal S4096 .i32) (v18 : Vec Ideal S4096x64 .f32)
    (v21 : Vec Ideal S1000x64 .f32) (r : Fin 1000) (d : Fin 64) :
    k6_pay2 (F := Ideal) i v8 v18 v21 (ix2 r d)
      = v21 (ix2 r d) + ∑ k : Fin 4096,
          (if BitVec.ofNat 32 (1000 * (i 0).val + r.val) = v8 (ix1 k) then (1 : EReal) else 0) * v18 (ix2 k d) := by
  unfold k6_pay2
  dsimp only
  simp only [shapeCast_self]
  rw [addf_apply]
  refine congrArg (v21 (ix2 r d) + ·) ?_
  refine (PlainProduct.matmul_zero_apply (M := 1000) (K := 4096) (P := 64)
    dot_S1000x4096_S4096x64_S1000x64_1_0_0_1_n_n_wf none _ _ r d).trans ?_
  refine Finset.sum_congr rfl fun k _ => ?_
  rw [truncf_apply, truncf_apply, sitofp_apply, extui_apply]
  show ((((IntOp.cmpi .eq
      (broadcastTo S1000x4096
        (shapeCast S1000x1
          (addi (broadcast S1000 (Scalar.muli (BitVec.ofNat 32 (i 0).val) 1000#32))
            (shapeCast S1000 (iota .tc S1x1000 32 [1] iota_S1x1000_d1_w32) shapeCasts_S1x1000_S1000))
          shapeCasts_S1000_S1000x1)
        broadcasts_S1000x1_S1000x4096 (ix2 r k))
      (broadcastTo S1000x4096 (shapeCast S1x4096 v8 shapeCasts_S4096_S1x4096) broadcasts_S1x4096_S1000x4096 (ix2 r k))).setWidth 32).toInt : ℝ) : EReal)
      * v18 (ix2 k d) = _
  rw [Pay.nodeColumn_apply _ hi, Pay.targetWords_apply, Cert.LibOneHot.eqWord_real]

/-- The target word of padded edge j (past the table's end: never read). -/
def sc6_dst (c : Dev nD) (j : ℕ) : BitVec 32 :=
  if h : j < 802816 then (V c main_v4 : S802816.Idx → BitVec 32) (ix1 ⟨j, h⟩) else 0#32

/-- The message of padded edge j in column d (past the table's end: never read). -/
def sc6_msg (c : Dev nD) (j : ℕ) (d : Fin 64) : EReal :=
  if h : j < 802816 then (V c main_v10 : S802816x64.Idx → EReal) (ix2 ⟨j, h⟩ d) else 0

/-- What padded edge j adds to node n in column d. -/
def sc6_term (c : Dev nD) (n : ℕ) (d : Fin 64) (j : ℕ) : EReal :=
  (if BitVec.ofNat 32 n = sc6_dst V c j then (1 : EReal) else 0) * sc6_msg V c j d

/-- What edge block eb adds to node n in column d. -/
def sc6_blk (c : Dev nD) (n : ℕ) (d : Fin 64) (eb : ℕ) : EReal :=
  ∑ k : Fin 4096, sc6_term V c n d (4096 * eb + k.val)

/-- Point t is node block t / 196 and edge block t % 196; its blocks of the target words and of the messages are edge
    block t % 196, its block of the output is node block t / 196. -/
theorem sc6_coords : ∀ t : Fin cfg6.N,
    (grid6.coords t 0).val = t.val / 196 ∧ (grid6.coords t 1).val = t.val % 196 :=
  (by decide +kernel : ∀ t : Fin grid6.N, _)
theorem sc6_index_in : ∀ t : Fin cfg6.N,
    win6_0.index t (0 : Fin 1) = t.val % 196
    ∧ win6_1.index t (0 : Fin 2) = t.val % 196 ∧ win6_1.index t (1 : Fin 2) = 0 :=
  (by decide +kernel : ∀ t : Fin grid6.N, _)
theorem sc6_index_out : ∀ t : Fin cfg6.N,
    win6_2.index t (0 : Fin 2) = t.val / 196 ∧ win6_2.index t (1 : Fin 2) = 0 :=
  (by decide +kernel : ∀ t : Fin grid6.N, _)

/-- Word k of point t's block of target words is word 4096·(t % 196) + k of the padded table. -/
theorem sc6_words (c : Dev nD) (t : Fin cfg6.N) (k : Fin 4096) (e : Fin 802816) (he : e.val = t.val % 196 * 4096 + k.val) :
    (Reg.iblk6 V c 0 t : Vec Ideal S4096 .i32) (ix1 k) = (V c main_v4 : S802816.Idx → BitVec 32) (ix1 e) := by
  obtain ⟨e0, -⟩ := sc6_index_in t
  unfold Reg.iblk6
  rw [View.read_apply]
  show (V c main_v4 : S802816.Idx → BitVec 32) _ = _
  refine congrArg _ (funext fun a => Fin.ext ?_)
  match a with
  | ⟨0, _⟩ => show win6_0.index t (0 : Fin 1) * 4096 + 1 * k.val = e.val; omega

/-- Row k of point t's block of messages is row 4096·(t % 196) + k of the padded messages. -/
theorem sc6_msgs (c : Dev nD) (t : Fin cfg6.N) (k : Fin 4096) (d : Fin 64) (e : Fin 802816) (he : e.val = t.val % 196 * 4096 + k.val) :
    (Reg.iblk6 V c 1 t : Vec Ideal S4096x64 .f32) (ix2 k d) = (V c main_v10 : S802816x64.Idx → EReal) (ix2 e d) := by
  obtain ⟨-, e1, e2⟩ := sc6_index_in t
  unfold Reg.iblk6
  rw [View.read_apply]
  show (V c main_v10 : S802816x64.Idx → EReal) _ = _
  refine congrArg _ (funext fun a => Fin.ext ?_)
  match a with
  | ⟨0, _⟩ => show win6_1.index t (0 : Fin 2) * 4096 + 1 * k.val = e.val; omega
  | ⟨1, _⟩ => show win6_1.index t (1 : Fin 2) * 64 + 1 * d.val = d.val; omega

/-- THE STEP AT POINT t, at row r and column d: what was accumulated plus edge block t % 196's sum for node
    1000·(t / 196) + r. -/
theorem sc6_step (c : Dev nD) (t : Fin cfg6.N) (acc : Vec Ideal S1000x64 .f32) (r : Fin 1000) (d : Fin 64) :
    k6_pay2 (F := Ideal) (grid6.coords t) (Reg.iblk6 V c 0 t) (Reg.iblk6 V c 1 t) acc (ix2 r d)
      = acc (ix2 r d) + sc6_blk V c (1000 * (t.val / 196) + r.val) d (t.val % 196) := by
  obtain ⟨g0, -⟩ := sc6_coords t
  have hN : cfg6.N = 9800 := N_6
  have ht : t.val < 9800 := hN ▸ t.isLt
  rw [sc6_step_apply (grid6.coords t) (by rw [g0]; omega), g0]
  unfold sc6_blk
  refine congrArg (acc (ix2 r d) + ·) (Finset.sum_congr rfl fun k _ => ?_)
  have hk : 4096 * (t.val % 196) + k.val < 802816 := by have := k.isLt; omega
  unfold sc6_term sc6_dst sc6_msg
  rw [dif_pos hk, dif_pos hk, sc6_words V c t k ⟨_, hk⟩ (by show 4096 * (t.val % 196) + k.val = _; omega),
    sc6_msgs V c t k d ⟨_, hk⟩ (by show 4096 * (t.val % 196) + k.val = _; omega)]

/-! ## The accumulation along the grid -/

/-- At the first point of a node block both buffers are left at edge block 0's sum. -/
theorem sc6_at_A (c : Dev nD) (n : ℕ) (hn : n < cfg6.N) (h0 : n % 196 = 0) (r : Fin 1000) (d : Fin 64) :
    (Reg.outsAt6 V c n hn).1 (ix2 r d) = sc6_blk V c (1000 * (n / 196) + r.val) d 0
    ∧ (Reg.outsAt6 V c n hn).2 (ix2 r d) = sc6_blk V c (1000 * (n / 196) + r.val) d 0 := by
  have e : Reg.outsAt6 V c n hn = _ := Reg.outsAt6_A V c ⟨n, hn⟩ h0
  rw [e]
  dsimp only
  rw [sc6_out_A, sc6_acc_A, sc6_step V c ⟨n, hn⟩ _ r d, sc6_zero, zero_add]
  dsimp only
  rw [h0]
  exact ⟨rfl, rfl⟩

/-- At a later point both are left at what the accumulator held plus the point's edge block's sum. -/
theorem sc6_at_B (c : Dev nD) (m : ℕ) (hm : m + 1 < cfg6.N) (h0 : ¬(m + 1) % 196 = 0) (r : Fin 1000) (d : Fin 64) :
    (Reg.outsAt6 V c (m + 1) hm).1 (ix2 r d)
      = (Reg.outsAt6 V c m (Nat.lt_of_succ_lt hm)).2 (ix2 r d) + sc6_blk V c (1000 * ((m + 1) / 196) + r.val) d ((m + 1) % 196)
    ∧ (Reg.outsAt6 V c (m + 1) hm).2 (ix2 r d)
      = (Reg.outsAt6 V c m (Nat.lt_of_succ_lt hm)).2 (ix2 r d) + sc6_blk V c (1000 * ((m + 1) / 196) + r.val) d ((m + 1) % 196) := by
  have e : Reg.outsAt6 V c (m + 1) hm = _ := Reg.outsAt6_B V c ⟨m + 1, hm⟩ h0
  rw [e]
  dsimp only
  rw [sc6_out_B, sc6_acc_B, sc6_step V c ⟨m + 1, hm⟩ _ r d]
  exact ⟨rfl, rfl⟩

/-- After the point with edge block eb of node block nb both buffers hold the sum over the edge blocks 0 … eb. -/
theorem sc6_acc (c : Dev nD) (n : ℕ) : ∀ (hn : n < cfg6.N) (r : Fin 1000) (d : Fin 64),
    (Reg.outsAt6 V c n hn).1 (ix2 r d) = ∑ eb ∈ Finset.range (n % 196 + 1), sc6_blk V c (1000 * (n / 196) + r.val) d eb
    ∧ (Reg.outsAt6 V c n hn).2 (ix2 r d) = ∑ eb ∈ Finset.range (n % 196 + 1), sc6_blk V c (1000 * (n / 196) + r.val) d eb := by
  induction n with
  | zero =>
    intro hn r d
    have h := sc6_at_A V c 0 hn (Nat.zero_mod _) r d
    rw [Nat.zero_mod, Nat.zero_add, Finset.sum_range_one]
    exact h
  | succ m ih =>
    intro hn r d
    by_cases h0 : (m + 1) % 196 = 0
    · have h := sc6_at_A V c (m + 1) hn h0 r d
      rw [h0, Nat.zero_add, Finset.sum_range_one]
      exact h
    · obtain ⟨-, i2⟩ := ih (Nat.lt_of_succ_lt hn) r d
      obtain ⟨b1, b2⟩ := sc6_at_B V c m hn h0 r d
      have hd : (m + 1) / 196 = m / 196 := by omega
      have hm : (m + 1) % 196 = m % 196 + 1 := by omega
      rw [b1, b2, i2, hd, hm, Finset.sum_range_succ _ (m % 196 + 1)]
      exact ⟨rfl, rfl⟩

/-- The 196 edge blocks' sums are the sum over all the padded edges. -/
theorem sc6_total (c : Dev nD) (n : ℕ) (d : Fin 64) :
    ∑ eb ∈ Finset.range 196, sc6_blk V c n d eb = ∑ e : Fin 802816, sc6_term V c n d e.val := by
  rw [← Fin.sum_univ_eq_sum_range (fun eb => sc6_blk V c n d eb) 196]
  unfold sc6_blk
  exact (Cert.LibTiledSum.sum_fin_mul 196 4096 (fun e : Fin (196 * 4096) => sc6_term V c n d e.val)).symm

/-! ## From the written blocks to the array -/

/-- The sum the region computes, at node n and column d.  (Kept folded: nothing below looks inside the sum over the padded
    edges but the two lemmas that say what it is.) -/
@[irreducible] def sc6_sum (c : Dev nD) (n : Fin 50000) (d : Fin 64) : EReal :=
  ∑ e : Fin 802816, (if BitVec.ofNat 32 n.val = (V c main_v4 : S802816.Idx → BitVec 32) (ix1 e) then (1 : EReal) else 0)
    * (V c main_v10 : S802816x64.Idx → EReal) (ix2 e d)

/-- The sums as a function of the 50000×64 array's index. -/
def sc6_table (c : Dev nD) : S50000x64.Idx → EReal :=
  fun i => sc6_sum V c ⟨(i 0).val, idx2_lt0 i⟩ ⟨(i 1).val, idx2_lt1 i⟩

/-- The table at an index whose coordinates are n and d. -/
theorem sc6_table_apply (c : Dev nD) (i : S50000x64.Idx) (n : Fin 50000) (d : Fin 64) (h0 : (i 0).val = n.val) (h1 : (i 1).val = d.val) :
    sc6_table V c i = sc6_sum V c n d := by
  unfold sc6_table
  exact congrArg₂ (sc6_sum V c) (Fin.ext h0) (Fin.ext h1)

/-- After the last point of node block t / 196, row p and column q of the output's buffer is the sum at node
    1000·(t / 196) + p. -/
theorem sc6_point (c : Dev nD) (t : Fin cfg6.N) (hf : t.val % 196 = 195) (p : Fin 1000) (q : Fin 64) (n : Fin 50000)
    (hn : n.val = 1000 * (t.val / 196) + p.val) :
    (Reg.outsAt6 V c t.val t.isLt).1 (ix2 p q) = sc6_sum V c n q := by
  rw [(sc6_acc V c t.val t.isLt p q).1, hf, sc6_total, ← hn]
  unfold sc6_sum
  refine Finset.sum_congr rfl fun e _ => ?_
  unfold sc6_term sc6_dst sc6_msg
  rw [dif_pos e.isLt, dif_pos e.isLt]

/-- What a writing point writes back is its block of the sums. -/
theorem sc6_flushed (c : Dev nD) (t : Fin cfg6.N) (hf : (cfg6.win 2).flush t = true) :
    (Reg.dat6 (F := Ideal) V c).flushed 2 t = ((cfg6.win 2).blk t).view.read (Elt Ideal) (sc6_table V c) := by
  have hf' : t.val % 196 = 195 := (flush6_2 t).mp hf
  show (cfg6.win 2).cut (grid6.coords t) ((Reg.dat6 V c).after 2 t) = _
  rw [Reg.after6_2]
  funext y
  obtain ⟨p, q, rfl⟩ : ∃ (p : Fin 1000) (q : Fin 64), y = ix2 p q := ⟨y 0, y 1, eq_ix2 y⟩
  obtain ⟨e5, e6⟩ := sc6_index_out t
  have hN : cfg6.N = 9800 := N_6
  have ht : t.val < 9800 := hN ▸ t.isLt
  have hlt : 1000 * (t.val / 196) + p.val < 50000 := by have := p.isLt; omega
  have hp := sc6_point V c t hf' p q ⟨1000 * (t.val / 196) + p.val, hlt⟩ rfl
  generalize Reg.outsAt6 V c t.val t.isLt = X at hp ⊢
  show X.1 (ix2 p q) = _
  rw [hp, View.read_apply, cast_eq]
  refine (sc6_table_apply V c _ _ _ ?_ ?_).symm
  · show win6_2.index t (0 : Fin 2) * 1000 + 1 * p.val = 1000 * (t.val / 196) + p.val; omega
  · show win6_2.index t (1 : Fin 2) * 64 + 1 * q.val = q.val; omega

/-- An index of the output array is in point t's block iff each coordinate is in the block's range on its axis. -/
theorem sc6_mem (t : Fin cfg6.N) (i : S50000x64.Idx) :
    i ∈ ((cfg6.win 2).blk t).view.set ↔ ∀ a : Fin 2, win6_2.index t a * S1000x64.size a ≤ (i a).val ∧ (i a).val < win6_2.index t a * S1000x64.size a + S1000x64.size a := by
  show i ∈ ((View.whole main_v11).slice (win6_2.rect t)).set ↔ _
  rw [View.set_slice_whole, Rect.mem_set_unit]
  exact Iff.rfl

/-- Every row of the output is in a writing point's block: row p in that of the last point of node block p / 1000. -/
theorem sc6_cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 9800 := N_6
  let t : Fin cfg6.N := ⟨196 * ((i 0).val / 1000) + 195, by rw [hN]; omega⟩
  have ht : t.val = 196 * ((i 0).val / 1000) + 195 := rfl
  obtain ⟨e5, e6⟩ := sc6_index_out t
  refine ⟨t, (flush6_2 t).mpr (by rw [ht]; omega), ?_⟩
  rw [sc6_mem]
  intro a
  match a with
  | ⟨0, _⟩ => show win6_2.index t (0 : Fin 2) * 1000 ≤ (i 0).val ∧ (i 0).val < win6_2.index t (0 : Fin 2) * 1000 + 1000; omega
  | ⟨1, _⟩ => show win6_2.index t (1 : Fin 2) * 64 ≤ (i 1).val ∧ (i 1).val < win6_2.index t (1 : Fin 2) * 64 + 64; omega

/-- The output array after the region's last point is the sums, entry by entry. -/
theorem sc6_array (c : Dev nD) : (Reg.dat6 (F := Ideal) V c).arrAt 2 cfg6.N = sc6_table V c :=
  (Reg.dat6 (F := Ideal) V c).arrAt_eq_of_cover 2 (sc6_table V c) (fun t hf => sc6_flushed V c t hf) sc6_cover

/-- THE SCATTER-SUM'S RESULT at node n and column d. -/
theorem scatter6_final (c : Dev nD) (n : Fin 50000) (d : Fin 64) :
    (Reg.dat6 (F := Ideal) V c).arrAt 2 cfg6.N (ix2 n d)
      = ∑ e : Fin 802816, (if BitVec.ofNat 32 n.val = (V c main_v4 : S802816.Idx → BitVec 32) (ix1 e) then (1 : EReal) else 0)
          * (V c main_v10 : S802816x64.Idx → EReal) (ix2 e d) := by
  rw [sc6_array V c]
  show sc6_sum V c n d = _
  unfold sc6_sum
  rfl

end Cert.KernelIdeal.Val

end
-- ==== Proof.ValScatter10.lean ====
/-
  What the scatter-sum's region leaves in its output array: at node n and column d the sum, over all 802816 padded edges e,
  of  [n = target word of e] · message(e, d).

  The grid is 50 node blocks of 1000 rows by 196 edge blocks of 4096 edges; point t works on node block t / 196 and edge
  block t % 196.  The body keeps an accumulator across the 196 points of a node block: cleared at the first, and at every
  point increased by the edge block's sum.  So after the point with edge block eb the accumulator holds the sum over the
  edge blocks 0 … eb, and after the last (eb = 195), where alone the output block is written back, the sum over all
  196 · 4096 edges.  The fifty written blocks cover the 50000 rows.
-/
import proofs.«163112_j15616501088829_2_alg».proof.Proof.RegScatter10
import proofs.«163112_j15616501088829_2_alg».proof.Proof.PayScatter
import proofs.«163112_j15616501088829_2_alg».proof.Proof.LibPlainProduct
import proofs.«163112_j15616501088829_2_alg».proof.Proof.LibOneHot
import Idealize.ShloMosaic.Lib.ValueLayout
import Idealize.ShloMosaic.PureOps.Ideal.Laws
import proofs.«163112_j15616501088829_2_alg».proof.Proof.LibTiledSum
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.Tactic
open Idealize.ShloMosaic.Pipeline (Dat)

theorem sc10_z1 : (![0] : Fin 1 → Nat) = fun _ => 0 := funext fun a => by fin_cases a <;> rfl
theorem sc10_z2 : (![0, 0] : Fin 2 → Nat) = fun _ => 0 := funext fun a => by fin_cases a <;> rfl

/-! ## What each case of the body leaves: the step's value -/

section Pieces

variable {F : FTy → Type} [FloatOps F]

/-- At a later point of a node block the accumulator is left at the step's value of what it held … -/
theorem sc10_acc_B (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond10_0 i)
    (x0 : Vec F S4096 .i32) (x1 : Vec F S4096x64 .f32) (xs0 : Vec F S1000x64 .f32) :
    Reg.sout10_B_0 c i arg2 harg2 arg3 harg3 arg4 harg4 arg5 harg5 hc0 x0 x1 xs0 = k10_pay2 i x0 x1 xs0 := by
  unfold Reg.sout10_B_0
  rw [View.read_writes_eq_canon _ _ _ (Reg.scover10_B_0 c i arg2 harg2 arg3 harg3 arg4 harg4 arg5 harg5 hc0 x0 x1 xs0)]
  unfold Reg.kernelRun10_B
  dsimp only
  sl_unfold_words
  rw [View.canon_unit_zero sc10_z2]
  simp only [View.readAt_eq_ld, harg2.read_unread, harg3.read_unread, harg5.read_unread,
    View.ld_unit_zero (S := S4096) sc10_z1, View.ld_unit_zero (S := S4096x64) sc10_z2, View.ld_unit_zero (S := S1000x64) sc10_z2]

/-- … and so is the output's staging buffer. -/
theorem sc10_out_B (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : ¬Reg.cond10_0 i)
    (x0 : Vec F S4096 .i32) (x1 : Vec F S4096x64 .f32) (xs0 : Vec F S1000x64 .f32) :
    Reg.out10_B_2 c i arg2 harg2 arg3 harg3 arg4 harg4 arg5 harg5 hc0 x0 x1 xs0 = k10_pay2 i x0 x1 xs0 := by
  unfold Reg.out10_B_2
  rw [View.read_writes_eq_canon _ _ _ (Reg.cover10_B_2 c i arg2 harg2 arg3 harg3 arg4 harg4 arg5 harg5 hc0 x0 x1 xs0)]
  unfold Reg.kernelRun10_B
  dsimp only
  sl_unfold_words
  rw [View.canon_unit_zero sc10_z2]
  rw [View.readCov_unit_zero _ sc10_z2]
  simp only [View.readAt_eq_ld, harg2.read_unread, harg3.read_unread, harg5.read_unread,
    View.ld_unit_zero (S := S4096) sc10_z1, View.ld_unit_zero (S := S4096x64) sc10_z2, View.ld_unit_zero (S := S1000x64) sc10_z2]

/-- At the first point of a node block the accumulator is left at the step's value of zeros … -/
theorem sc10_acc_A (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond10_0 i)
    (x0 : Vec F S4096 .i32) (x1 : Vec F S4096x64 .f32) :
    Reg.sout10_A_0 c i arg2 harg2 arg3 harg3 arg4 harg4 arg5 harg5 hc0 x0 x1 = k10_pay2 i x0 x1 (k10_pay1 (F := F)) := by
  unfold Reg.sout10_A_0
  rw [View.read_writes_eq_canon _ _ _ (Reg.scover10_A_0 c i arg2 harg2 arg3 harg3 arg4 harg4 arg5 harg5 hc0 x0 x1)]
  unfold Reg.kernelRun10_A
  dsimp only
  sl_unfold_words
  rw [View.canon_cons_unit_zero sc10_z2]
  rw [View.readCov_unit_zero _ sc10_z2]
  simp only [View.readAt_eq_ld, harg2.read_unread, harg3.read_unread,
    View.ld_unit_zero (S := S4096) sc10_z1, View.ld_unit_zero (S := S4096x64) sc10_z2, View.ld_unit_zero (S := S1000x64) sc10_z2]

/-- … and so is the output's staging buffer. -/
theorem sc10_out_A (c : Dev nD) (i : grid10.Coords) (arg2 : Memref sig .tc .vmem S4096 .i32) (harg2 : arg2.IsWhole)
    (arg3 : Memref sig .tc .vmem S4096x64 .f32) (harg3 : arg3.IsWhole) (arg4 : Memref sig .tc .vmem S1000x64 .f32) (harg4 : arg4.IsWhole)
    (arg5 : Memref sig .tc .vmem S1000x64 .f32) (harg5 : arg5.IsWhole) (hc0 : Reg.cond10_0 i)
    (x0 : Vec F S4096 .i32) (x1 : Vec F S4096x64 .f32) :
    Reg.out10_A_2 c i arg2 harg2 arg3 harg3 arg4 harg4 arg5 harg5 hc0 x0 x1 = k10_pay2 i x0 x1 (k10_pay1 (F := F)) := by
  unfold Reg.out10_A_2
  rw [View.read_writes_eq_canon _ _ _ (Reg.cover10_A_2 c i arg2 harg2 arg3 harg3 arg4 harg4 arg5 harg5 hc0 x0 x1)]
  unfold Reg.kernelRun10_A
  dsimp only
  sl_unfold_words
  rw [View.canon_unit_zero sc10_z2]
  rw [View.readCov_eq_canon_ld _ _ _ (fun y => ⟨_, List.Mem.head _, View.mem_set_unit_zero sc10_z2 inb_S1000x64_S1000x64_0_0 y⟩)]
  rw [View.canon_cons_unit_zero sc10_z2, View.ld_unit_zero sc10_z2]
  rw [View.readCov_unit_zero _ sc10_z2]
  simp only [View.readAt_eq_ld, harg2.read_unread, harg3.read_unread,
    View.ld_unit_zero (S := S4096) sc10_z1, View.ld_unit_zero (S := S4096x64) sc10_z2, View.ld_unit_zero (S := S1000x64) sc10_z2]

end Pieces

variable (V : (c : Dev nD) → (b : Ref sig .tc) → Buf (Elt Ideal) ((c : Thread nD τ).loc b))

/-! ## The step at a point, over the padded tables -/

/-- The cleared accumulator is zero. -/
theorem sc10_zero (r : Fin 1000) (d : Fin 64) : k10_pay1 (F := Ideal) (ix2 r d) = 0 := by
  unfold k10_pay1
  simp only [shapeCast_self]
  rw [broadcast_apply]
  exact Ideal.ofBits_zero_f32

/-- One step of the scatter-sum at (r, d): what was accumulated, plus the messages of the block's edges into node
    1000·nb + r. -/
theorem sc10_step_apply (i : grid10.Coords) (hi : (i 0).val < 1000) (v8 : Vec Ideal S4096 .i32) (v18 : Vec Ideal S4096x64 .f32)
    (v21 : Vec Ideal S1000x64 .f32) (r : Fin 1000) (d : Fin 64) :
    k10_pay2 (F := Ideal) i v8 v18 v21 (ix2 r d)
      = v21 (ix2 r d) + ∑ k : Fin 4096,
          (if BitVec.ofNat 32 (1000 * (i 0).val + r.val) = v8 (ix1 k) then (1 : EReal) else 0) * v18 (ix2 k d) := by
  unfold k10_pay2
  dsimp only
  simp only [shapeCast_self]
  rw [addf_apply]
  refine congrArg (v21 (ix2 r d) + ·) ?_
  refine (PlainProduct.matmul_zero_apply (M := 1000) (K := 4096) (P := 64)
    dot_S1000x4096_S4096x64_S1000x64_1_0_0_1_n_n_wf none _ _ r d).trans ?_
  refine Finset.sum_congr rfl fun k _ => ?_
  rw [truncf_apply, truncf_apply, sitofp_apply, extui_apply]
  show ((((IntOp.cmpi .eq
      (broadcastTo S1000x4096
        (shapeCast S1000x1
          (addi (broadcast S1000 (Scalar.muli (BitVec.ofNat 32 (i 0).val) 1000#32))
            (shapeCast S1000 (iota .tc S1x1000 32 [1] iota_S1x1000_d1_w32) shapeCasts_S1x1000_S1000))
          shapeCasts_S1000_S1000x1)
        broadcasts_S1000x1_S1000x4096 (ix2 r k))
      (broadcastTo S1000x4096 (shapeCast S1x4096 v8 shapeCasts_S4096_S1x4096) broadcasts_S1x4096_S1000x4096 (ix2 r k))).setWidth 32).toInt : ℝ) : EReal)
      * v18 (ix2 k d) = _
  rw [Pay.nodeColumn_apply _ hi, Pay.targetWords_apply, Cert.LibOneHot.eqWord_real]

/-- The target word of padded edge j (past the table's end: never read). -/
def sc10_dst (c : Dev nD) (j : ℕ) : BitVec 32 :=
  if h : j < 802816 then (V c main_v4 : S802816.Idx → BitVec 32) (ix1 ⟨j, h⟩) else 0#32

/-- The message of padded edge j in column d (past the table's end: never read). -/
def sc10_msg (c : Dev nD) (j : ℕ) (d : Fin 64) : EReal :=
  if h : j < 802816 then (V c main_v14 : S802816x64.Idx → EReal) (ix2 ⟨j, h⟩ d) else 0

/-- What padded edge j adds to node n in column d. -/
def sc10_term (c : Dev nD) (n : ℕ) (d : Fin 64) (j : ℕ) : EReal :=
  (if BitVec.ofNat 32 n = sc10_dst V c j then (1 : EReal) else 0) * sc10_msg V c j d

/-- What edge block eb adds to node n in column d. -/
def sc10_blk (c : Dev nD) (n : ℕ) (d : Fin 64) (eb : ℕ) : EReal :=
  ∑ k : Fin 4096, sc10_term V c n d (4096 * eb + k.val)

/-- Point t is node block t / 196 and edge block t % 196; its blocks of the target words and of the messages are edge
    block t % 196, its block of the output is node block t / 196. -/
theorem sc10_coords : ∀ t : Fin cfg10.N,
    (grid10.coords t 0).val = t.val / 196 ∧ (grid10.coords t 1).val = t.val % 196 :=
  (by decide +kernel : ∀ t : Fin grid10.N, _)
theorem sc10_index_in : ∀ t : Fin cfg10.N,
    win10_0.index t (0 : Fin 1) = t.val % 196
    ∧ win10_1.index t (0 : Fin 2) = t.val % 196 ∧ win10_1.index t (1 : Fin 2) = 0 :=
  (by decide +kernel : ∀ t : Fin grid10.N, _)
theorem sc10_index_out : ∀ t : Fin cfg10.N,
    win10_2.index t (0 : Fin 2) = t.val / 196 ∧ win10_2.index t (1 : Fin 2) = 0 :=
  (by decide +kernel : ∀ t : Fin grid10.N, _)

/-- Word k of point t's block of target words is word 4096·(t % 196) + k of the padded table. -/
theorem sc10_words (c : Dev nD) (t : Fin cfg10.N) (k : Fin 4096) (e : Fin 802816) (he : e.val = t.val % 196 * 4096 + k.val) :
    (Reg.iblk10 V c 0 t : Vec Ideal S4096 .i32) (ix1 k) = (V c main_v4 : S802816.Idx → BitVec 32) (ix1 e) := by
  obtain ⟨e0, -⟩ := sc10_index_in t
  unfold Reg.iblk10
  rw [View.read_apply]
  show (V c main_v4 : S802816.Idx → BitVec 32) _ = _
  refine congrArg _ (funext fun a => Fin.ext ?_)
  match a with
  | ⟨0, _⟩ => show win10_0.index t (0 : Fin 1) * 4096 + 1 * k.val = e.val; omega

/-- Row k of point t's block of messages is row 4096·(t % 196) + k of the padded messages. -/
theorem sc10_msgs (c : Dev nD) (t : Fin cfg10.N) (k : Fin 4096) (d : Fin 64) (e : Fin 802816) (he : e.val = t.val % 196 * 4096 + k.val) :
    (Reg.iblk10 V c 1 t : Vec Ideal S4096x64 .f32) (ix2 k d) = (V c main_v14 : S802816x64.Idx → EReal) (ix2 e d) := by
  obtain ⟨-, e1, e2⟩ := sc10_index_in t
  unfold Reg.iblk10
  rw [View.read_apply]
  show (V c main_v14 : S802816x64.Idx → EReal) _ = _
  refine congrArg _ (funext fun a => Fin.ext ?_)
  match a with
  | ⟨0, _⟩ => show win10_1.index t (0 : Fin 2) * 4096 + 1 * k.val = e.val; omega
  | ⟨1, _⟩ => show win10_1.index t (1 : Fin 2) * 64 + 1 * d.val = d.val; omega

/-- THE STEP AT POINT t, at row r and column d: what was accumulated plus edge block t % 196's sum for node
    1000·(t / 196) + r. -/
theorem sc10_step (c : Dev nD) (t : Fin cfg10.N) (acc : Vec Ideal S1000x64 .f32) (r : Fin 1000) (d : Fin 64) :
    k10_pay2 (F := Ideal) (grid10.coords t) (Reg.iblk10 V c 0 t) (Reg.iblk10 V c 1 t) acc (ix2 r d)
      = acc (ix2 r d) + sc10_blk V c (1000 * (t.val / 196) + r.val) d (t.val % 196) := by
  obtain ⟨g0, -⟩ := sc10_coords t
  have hN : cfg10.N = 9800 := N_10
  have ht : t.val < 9800 := hN ▸ t.isLt
  rw [sc10_step_apply (grid10.coords t) (by rw [g0]; omega), g0]
  unfold sc10_blk
  refine congrArg (acc (ix2 r d) + ·) (Finset.sum_congr rfl fun k _ => ?_)
  have hk : 4096 * (t.val % 196) + k.val < 802816 := by have := k.isLt; omega
  unfold sc10_term sc10_dst sc10_msg
  rw [dif_pos hk, dif_pos hk, sc10_words V c t k ⟨_, hk⟩ (by show 4096 * (t.val % 196) + k.val = _; omega),
    sc10_msgs V c t k d ⟨_, hk⟩ (by show 4096 * (t.val % 196) + k.val = _; omega)]

/-! ## The accumulation along the grid -/

/-- At the first point of a node block both buffers are left at edge block 0's sum. -/
theorem sc10_at_A (c : Dev nD) (n : ℕ) (hn : n < cfg10.N) (h0 : n % 196 = 0) (r : Fin 1000) (d : Fin 64) :
    (Reg.outsAt10 V c n hn).1 (ix2 r d) = sc10_blk V c (1000 * (n / 196) + r.val) d 0
    ∧ (Reg.outsAt10 V c n hn).2 (ix2 r d) = sc10_blk V c (1000 * (n / 196) + r.val) d 0 := by
  have e : Reg.outsAt10 V c n hn = _ := Reg.outsAt10_A V c ⟨n, hn⟩ h0
  rw [e]
  dsimp only
  rw [sc10_out_A, sc10_acc_A, sc10_step V c ⟨n, hn⟩ _ r d, sc10_zero, zero_add]
  dsimp only
  rw [h0]
  exact ⟨rfl, rfl⟩

/-- At a later point both are left at what the accumulator held plus the point's edge block's sum. -/
theorem sc10_at_B (c : Dev nD) (m : ℕ) (hm : m + 1 < cfg10.N) (h0 : ¬(m + 1) % 196 = 0) (r : Fin 1000) (d : Fin 64) :
    (Reg.outsAt10 V c (m + 1) hm).1 (ix2 r d)
      = (Reg.outsAt10 V c m (Nat.lt_of_succ_lt hm)).2 (ix2 r d) + sc10_blk V c (1000 * ((m + 1) / 196) + r.val) d ((m + 1) % 196)
    ∧ (Reg.outsAt10 V c (m + 1) hm).2 (ix2 r d)
      = (Reg.outsAt10 V c m (Nat.lt_of_succ_lt hm)).2 (ix2 r d) + sc10_blk V c (1000 * ((m + 1) / 196) + r.val) d ((m + 1) % 196) := by
  have e : Reg.outsAt10 V c (m + 1) hm = _ := Reg.outsAt10_B V c ⟨m + 1, hm⟩ h0
  rw [e]
  dsimp only
  rw [sc10_out_B, sc10_acc_B, sc10_step V c ⟨m + 1, hm⟩ _ r d]
  exact ⟨rfl, rfl⟩

/-- After the point with edge block eb of node block nb both buffers hold the sum over the edge blocks 0 … eb. -/
theorem sc10_acc (c : Dev nD) (n : ℕ) : ∀ (hn : n < cfg10.N) (r : Fin 1000) (d : Fin 64),
    (Reg.outsAt10 V c n hn).1 (ix2 r d) = ∑ eb ∈ Finset.range (n % 196 + 1), sc10_blk V c (1000 * (n / 196) + r.val) d eb
    ∧ (Reg.outsAt10 V c n hn).2 (ix2 r d) = ∑ eb ∈ Finset.range (n % 196 + 1), sc10_blk V c (1000 * (n / 196) + r.val) d eb := by
  induction n with
  | zero =>
    intro hn r d
    have h := sc10_at_A V c 0 hn (Nat.zero_mod _) r d
    rw [Nat.zero_mod, Nat.zero_add, Finset.sum_range_one]
    exact h
  | succ m ih =>
    intro hn r d
    by_cases h0 : (m + 1) % 196 = 0
    · have h := sc10_at_A V c (m + 1) hn h0 r d
      rw [h0, Nat.zero_add, Finset.sum_range_one]
      exact h
    · obtain ⟨-, i2⟩ := ih (Nat.lt_of_succ_lt hn) r d
      obtain ⟨b1, b2⟩ := sc10_at_B V c m hn h0 r d
      have hd : (m + 1) / 196 = m / 196 := by omega
      have hm : (m + 1) % 196 = m % 196 + 1 := by omega
      rw [b1, b2, i2, hd, hm, Finset.sum_range_succ _ (m % 196 + 1)]
      exact ⟨rfl, rfl⟩

/-- The 196 edge blocks' sums are the sum over all the padded edges. -/
theorem sc10_total (c : Dev nD) (n : ℕ) (d : Fin 64) :
    ∑ eb ∈ Finset.range 196, sc10_blk V c n d eb = ∑ e : Fin 802816, sc10_term V c n d e.val := by
  rw [← Fin.sum_univ_eq_sum_range (fun eb => sc10_blk V c n d eb) 196]
  unfold sc10_blk
  exact (Cert.LibTiledSum.sum_fin_mul 196 4096 (fun e : Fin (196 * 4096) => sc10_term V c n d e.val)).symm

/-! ## From the written blocks to the array -/

/-- The sum the region computes, at node n and column d.  (Kept folded: nothing below looks inside the sum over the padded
    edges but the two lemmas that say what it is.) -/
@[irreducible] def sc10_sum (c : Dev nD) (n : Fin 50000) (d : Fin 64) : EReal :=
  ∑ e : Fin 802816, (if BitVec.ofNat 32 n.val = (V c main_v4 : S802816.Idx → BitVec 32) (ix1 e) then (1 : EReal) else 0)
    * (V c main_v14 : S802816x64.Idx → EReal) (ix2 e d)

/-- The sums as a function of the 50000×64 array's index. -/
def sc10_table (c : Dev nD) : S50000x64.Idx → EReal :=
  fun i => sc10_sum V c ⟨(i 0).val, idx2_lt0 i⟩ ⟨(i 1).val, idx2_lt1 i⟩

/-- The table at an index whose coordinates are n and d. -/
theorem sc10_table_apply (c : Dev nD) (i : S50000x64.Idx) (n : Fin 50000) (d : Fin 64) (h0 : (i 0).val = n.val) (h1 : (i 1).val = d.val) :
    sc10_table V c i = sc10_sum V c n d := by
  unfold sc10_table
  exact congrArg₂ (sc10_sum V c) (Fin.ext h0) (Fin.ext h1)

/-- After the last point of node block t / 196, row p and column q of the output's buffer is the sum at node
    1000·(t / 196) + p. -/
theorem sc10_point (c : Dev nD) (t : Fin cfg10.N) (hf : t.val % 196 = 195) (p : Fin 1000) (q : Fin 64) (n : Fin 50000)
    (hn : n.val = 1000 * (t.val / 196) + p.val) :
    (Reg.outsAt10 V c t.val t.isLt).1 (ix2 p q) = sc10_sum V c n q := by
  rw [(sc10_acc V c t.val t.isLt p q).1, hf, sc10_total, ← hn]
  unfold sc10_sum
  refine Finset.sum_congr rfl fun e _ => ?_
  unfold sc10_term sc10_dst sc10_msg
  rw [dif_pos e.isLt, dif_pos e.isLt]

/-- What a writing point writes back is its block of the sums. -/
theorem sc10_flushed (c : Dev nD) (t : Fin cfg10.N) (hf : (cfg10.win 2).flush t = true) :
    (Reg.dat10 (F := Ideal) V c).flushed 2 t = ((cfg10.win 2).blk t).view.read (Elt Ideal) (sc10_table V c) := by
  have hf' : t.val % 196 = 195 := (flush10_2 t).mp hf
  show (cfg10.win 2).cut (grid10.coords t) ((Reg.dat10 V c).after 2 t) = _
  rw [Reg.after10_2]
  funext y
  obtain ⟨p, q, rfl⟩ : ∃ (p : Fin 1000) (q : Fin 64), y = ix2 p q := ⟨y 0, y 1, eq_ix2 y⟩
  obtain ⟨e5, e6⟩ := sc10_index_out t
  have hN : cfg10.N = 9800 := N_10
  have ht : t.val < 9800 := hN ▸ t.isLt
  have hlt : 1000 * (t.val / 196) + p.val < 50000 := by have := p.isLt; omega
  have hp := sc10_point V c t hf' p q ⟨1000 * (t.val / 196) + p.val, hlt⟩ rfl
  generalize Reg.outsAt10 V c t.val t.isLt = X at hp ⊢
  show X.1 (ix2 p q) = _
  rw [hp, View.read_apply, cast_eq]
  refine (sc10_table_apply V c _ _ _ ?_ ?_).symm
  · show win10_2.index t (0 : Fin 2) * 1000 + 1 * p.val = 1000 * (t.val / 196) + p.val; omega
  · show win10_2.index t (1 : Fin 2) * 64 + 1 * q.val = q.val; omega

/-- An index of the output array is in point t's block iff each coordinate is in the block's range on its axis. -/
theorem sc10_mem (t : Fin cfg10.N) (i : S50000x64.Idx) :
    i ∈ ((cfg10.win 2).blk t).view.set ↔ ∀ a : Fin 2, win10_2.index t a * S1000x64.size a ≤ (i a).val ∧ (i a).val < win10_2.index t a * S1000x64.size a + S1000x64.size a := by
  show i ∈ ((View.whole main_v15).slice (win10_2.rect t)).set ↔ _
  rw [View.set_slice_whole, Rect.mem_set_unit]
  exact Iff.rfl

/-- Every row of the output is in a writing point's block: row p in that of the last point of node block p / 1000. -/
theorem sc10_cover (i : S50000x64.Idx) :
    ∃ t : Fin cfg10.N, (cfg10.win 2).flush t = true ∧ i ∈ ((cfg10.win 2).blk t).view.set := by
  have hi0 : (i 0).val < 50000 := (i 0).isLt
  have hi1 : (i 1).val < 64 := (i 1).isLt
  have hN : cfg10.N = 9800 := N_10
  let t : Fin cfg10.N := ⟨196 * ((i 0).val / 1000) + 195, by rw [hN]; omega⟩
  have ht : t.val = 196 * ((i 0).val / 1000) + 195 := rfl
  obtain ⟨e5, e6⟩ := sc10_index_out t
  refine ⟨t, (flush10_2 t).mpr (by rw [ht]; omega), ?_⟩
  rw [sc10_mem]
  intro a
  match a with
  | ⟨0, _⟩ => show win10_2.index t (0 : Fin 2) * 1000 ≤ (i 0).val ∧ (i 0).val < win10_2.index t (0 : Fin 2) * 1000 + 1000; omega
  | ⟨1, _⟩ => show win10_2.index t (1 : Fin 2) * 64 ≤ (i 1).val ∧ (i 1).val < win10_2.index t (1 : Fin 2) * 64 + 64; omega

/-- The output array after the region's last point is the sums, entry by entry. -/
theorem sc10_array (c : Dev nD) : (Reg.dat10 (F := Ideal) V c).arrAt 2 cfg10.N = sc10_table V c :=
  (Reg.dat10 (F := Ideal) V c).arrAt_eq_of_cover 2 (sc10_table V c) (fun t hf => sc10_flushed V c t hf) sc10_cover

/-- THE SCATTER-SUM'S RESULT at node n and column d. -/
theorem scatter10_final (c : Dev nD) (n : Fin 50000) (d : Fin 64) :
    (Reg.dat10 (F := Ideal) V c).arrAt 2 cfg10.N (ix2 n d)
      = ∑ e : Fin 802816, (if BitVec.ofNat 32 n.val = (V c main_v4 : S802816.Idx → BitVec 32) (ix1 e) then (1 : EReal) else 0)
          * (V c main_v14 : S802816x64.Idx → EReal) (ix2 e d) := by
  rw [sc10_array V c]
  show sc10_sum V c n d = _
  unfold sc10_sum
  rfl

end Cert.KernelIdeal.Val

end
-- ==== Proof.KernelValue.lean ====
/-
  The kernel program's result is the specification's function of its nine arguments.  Region by region: the dense
  layer's output is the layer of the state; the gather's output at edge e is the table's row named by the edge's source word
  (a one-hot row times the table), zero for a padding word; the scatter-sum's output at node n is the sum of those rows over
  the edges whose target word names n; the cell's output is the cell of that sum and the state.  The host operations before
  the first region only reshape the bias vectors and pad the edge tables, and no region changes an argument.
-/
import proofs.«163112_j15616501088829_2_alg».proof.Proof.AsmVals
import proofs.«163112_j15616501088829_2_alg».proof.Proof.HostReads
import proofs.«163112_j15616501088829_2_alg».proof.Proof.OneHotAgg
import proofs.«163112_j15616501088829_2_alg».proof.Proof.RefArgs
import proofs.«163112_j15616501088829_2_alg».proof.Proof.ValLin0
import proofs.«163112_j15616501088829_2_alg».proof.Proof.ValLin4
import proofs.«163112_j15616501088829_2_alg».proof.Proof.ValLin8
import proofs.«163112_j15616501088829_2_alg».proof.Proof.ValGru3
import proofs.«163112_j15616501088829_2_alg».proof.Proof.ValGru7
import proofs.«163112_j15616501088829_2_alg».proof.Proof.ValGru11
import proofs.«163112_j15616501088829_2_alg».proof.Proof.ValGather1
import proofs.«163112_j15616501088829_2_alg».proof.Proof.ValGather5
import proofs.«163112_j15616501088829_2_alg».proof.Proof.ValGather9
import proofs.«163112_j15616501088829_2_alg».proof.Proof.ValScatter2
import proofs.«163112_j15616501088829_2_alg».proof.Proof.ValScatter6
import proofs.«163112_j15616501088829_2_alg».proof.Proof.ValScatter10

set_option maxRecDepth 16384

noncomputable section

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (c : Dev nD)

/-- The nine arguments as launched. -/
abbrev A0 : S50000x64.Idx → EReal := m ((c : Thread nD τ).loc main_arg0)
abbrev A1 : S64x64.Idx → EReal := m ((c : Thread nD τ).loc main_arg1)
abbrev A2 : S64.Idx → EReal := m ((c : Thread nD τ).loc main_arg2)
abbrev A3 : S192x64.Idx → EReal := m ((c : Thread nD τ).loc main_arg3)
abbrev A4 : S192x64.Idx → EReal := m ((c : Thread nD τ).loc main_arg4)
abbrev A5 : S192.Idx → EReal := m ((c : Thread nD τ).loc main_arg5)
abbrev A6 : S192.Idx → EReal := m ((c : Thread nD τ).loc main_arg6)
abbrev A7 : S800000.Idx → BitVec 32 := m ((c : Thread nD τ).loc main_arg7)
abbrev A8 : S800000.Idx → BitVec 32 := m ((c : Thread nD τ).loc main_arg8)

/-- The buffers the regions write. -/
abbrev outs : List (Ref sig .tc) := [main_v5, main_v6, main_v7, main_v8, main_v9, main_v10, main_v11, main_v12, main_v13, main_v14, main_v15, main_v16]

/-- A buffer that is no region's output holds, at every boundary, what it held when the first region was entered. -/
theorem back4 (b : Ref sig .tc) (hb : ∀ r ∈ outs, b ≠ r) : Reg.X4 m c (Proc.devRef .tc b) = Gen.V4 m c (Proc.devRef .tc b) := rfl
theorem back5 (b : Ref sig .tc) (hb : ∀ r ∈ outs, b ≠ r) : Reg.X5 m c (Proc.devRef .tc b) = Gen.V4 m c (Proc.devRef .tc b) :=
  (Reg.X5_keep m c b (hb _ (by decide))).trans (back4 m c b hb)
theorem back6 (b : Ref sig .tc) (hb : ∀ r ∈ outs, b ≠ r) : Reg.X6 m c (Proc.devRef .tc b) = Gen.V4 m c (Proc.devRef .tc b) :=
  (Reg.X6_keep m c b (hb _ (by decide))).trans (back5 m c b hb)
theorem back7 (b : Ref sig .tc) (hb : ∀ r ∈ outs, b ≠ r) : Reg.X7 m c (Proc.devRef .tc b) = Gen.V4 m c (Proc.devRef .tc b) :=
  (Reg.X7_keep m c b (hb _ (by decide))).trans (back6 m c b hb)
theorem back8 (b : Ref sig .tc) (hb : ∀ r ∈ outs, b ≠ r) : Reg.X8 m c (Proc.devRef .tc b) = Gen.V4 m c (Proc.devRef .tc b) :=
  (Reg.X8_keep m c b (hb _ (by decide))).trans (back7 m c b hb)
theorem back9 (b : Ref sig .tc) (hb : ∀ r ∈ outs, b ≠ r) : Reg.X9 m c (Proc.devRef .tc b) = Gen.V4 m c (Proc.devRef .tc b) :=
  (Reg.X9_keep m c b (hb _ (by decide))).trans (back8 m c b hb)
theorem back10 (b : Ref sig .tc) (hb : ∀ r ∈ outs, b ≠ r) : Reg.X10 m c (Proc.devRef .tc b) = Gen.V4 m c (Proc.devRef .tc b) :=
  (Reg.X10_keep m c b (hb _ (by decide))).trans (back9 m c b hb)
theorem back11 (b : Ref sig .tc) (hb : ∀ r ∈ outs, b ≠ r) : Reg.X11 m c (Proc.devRef .tc b) = Gen.V4 m c (Proc.devRef .tc b) :=
  (Reg.X11_keep m c b (hb _ (by decide))).trans (back10 m c b hb)
theorem back12 (b : Ref sig .tc) (hb : ∀ r ∈ outs, b ≠ r) : Reg.X12 m c (Proc.devRef .tc b) = Gen.V4 m c (Proc.devRef .tc b) :=
  (Reg.X12_keep m c b (hb _ (by decide))).trans (back11 m c b hb)
theorem back13 (b : Ref sig .tc) (hb : ∀ r ∈ outs, b ≠ r) : Reg.X13 m c (Proc.devRef .tc b) = Gen.V4 m c (Proc.devRef .tc b) :=
  (Reg.X13_keep m c b (hb _ (by decide))).trans (back12 m c b hb)
theorem back14 (b : Ref sig .tc) (hb : ∀ r ∈ outs, b ≠ r) : Reg.X14 m c (Proc.devRef .tc b) = Gen.V4 m c (Proc.devRef .tc b) :=
  (Reg.X14_keep m c b (hb _ (by decide))).trans (back13 m c b hb)
theorem back15 (b : Ref sig .tc) (hb : ∀ r ∈ outs, b ≠ r) : Reg.X15 m c (Proc.devRef .tc b) = Gen.V4 m c (Proc.devRef .tc b) :=
  (Reg.X15_keep m c b (hb _ (by decide))).trans (back14 m c b hb)
theorem back16 (b : Ref sig .tc) (hb : ∀ r ∈ outs, b ≠ r) : Reg.X16 m c (Proc.devRef .tc b) = Gen.V4 m c (Proc.devRef .tc b) :=
  (Reg.X16_keep m c b (hb _ (by decide))).trans (back15 m c b hb)

/-- The first round's output state is untouched by the second round's first three regions, and the second's by the third's. -/
theorem keep11_8 (b : Ref sig .tc) (hb : ∀ r ∈ ([main_v9, main_v10, main_v11] : List (Ref sig .tc)), b ≠ r) :
    Reg.X11 m c (Proc.devRef .tc b) = Reg.X8 m c (Proc.devRef .tc b) :=
  (Reg.X11_keep m c b (hb _ (by decide))).trans ((Reg.X10_keep m c b (hb _ (by decide))).trans (Reg.X9_keep m c b (hb _ (by decide))))
theorem keep15_12 (b : Ref sig .tc) (hb : ∀ r ∈ ([main_v13, main_v14, main_v15] : List (Ref sig .tc)), b ≠ r) :
    Reg.X15 m c (Proc.devRef .tc b) = Reg.X12 m c (Proc.devRef .tc b) :=
  (Reg.X15_keep m c b (hb _ (by decide))).trans ((Reg.X14_keep m c b (hb _ (by decide))).trans (Reg.X13_keep m c b (hb _ (by decide))))

variable (hsrc : ∀ e : Fin 800000, 0 ≤ (Cert.Args.words (A7 m c) e).toInt ∧ (Cert.Args.words (A7 m c) e).toInt < 50000)
include hsrc

set_option maxHeartbeats 1600000 in
/-- Round 1: the cell's output, read at (n, j), is one round of the specification applied to the state the round is entered
    with — the dense layer's table gathered along the edges' source words and summed into their target nodes is the
    specification's edge sum, since every source word names a node. -/
theorem round0 (n : Fin 50000) (j : Fin 64) :
    (Reg.X8 m c (Proc.devRef .tc main_v8) : S50000x64.Idx → EReal) (ix2 n j)
      = Cert.Spec.round (Cert.Args.mat64 (A1 m c)) (Cert.Args.vec64 (A2 m c)) (Cert.Args.mat192 (A3 m c)) (Cert.Args.mat192 (A4 m c))
          (Cert.Args.vec192 (A5 m c)) (Cert.Args.vec192 (A6 m c)) (Cert.Args.words (A7 m c)) (Cert.Args.words (A8 m c))
          (Cert.Args.nodes (Reg.X4 m c (Proc.devRef .tc main_arg0) : S50000x64.Idx → EReal)) n j := by
  -- the dense layer's table
  have hwh : ∀ (p : Fin 50000) (d : Fin 64), (Reg.Y5 m c main_v5 : S50000x64.Idx → EReal) (ix2 p d)
      = Cert.Spec.lin (Cert.Args.mat64 (A1 m c)) (Cert.Args.vec64 (A2 m c)) (Cert.Args.nodes (Reg.X4 m c (Proc.devRef .tc main_arg0) : S50000x64.Idx → EReal)) p d := by
    intro p d
    refine (congrFun (Reg.X5_arr m c 3) (ix2 p d)).trans ((lin0_final (Reg.Y4 m) c p d).trans ?_)
    unfold Cert.Spec.lin Cert.Args.mat64 Cert.Args.vec64 Cert.Args.nodes
    have e1 : ∀ a b : Fin 64, (Reg.Y4 m c main_arg1 : S64x64.Idx → EReal) (ix2 a b) = (A1 m c) (ix2 a b) := fun a b =>
      congrFun ((back4 m c main_arg1 (by decide)).trans (v4_arg1 m c)) (ix2 a b)
    have e2 : ∀ a : Fin 64, (Reg.Y4 m c main_v0 : S1x64.Idx → EReal) (ix2 (0 : Fin 1) a) = (A2 m c) (ix1 a) := fun a =>
      (congrFun (back4 m c main_v0 (by decide)) (ix2 (0 : Fin 1) a)).trans (v4_v0 m c a)
    simp only [e1, e2]
  -- the padded edge words
  have hsp : ∀ e : Fin 802816, (Reg.Y5 m c main_v3 : S802816.Idx → BitVec 32) (ix1 e)
      = if h : e.val < 800000 then Cert.Args.words (A7 m c) ⟨e.val, h⟩ else 4294967295#32 := fun e =>
    (congrFun (back5 m c main_v3 (by decide)) (ix1 e)).trans (v4_v3 m c e)
  have hdp : ∀ e : Fin 802816, (Reg.Y6 m c main_v4 : S802816.Idx → BitVec 32) (ix1 e)
      = if h : e.val < 800000 then Cert.Args.words (A8 m c) ⟨e.val, h⟩ else 4294967295#32 := fun e =>
    (congrFun (back6 m c main_v4 (by decide)) (ix1 e)).trans (v4_v4 m c e)
  -- the gathered rows
  have hmsg : ∀ (e : Fin 802816) (d : Fin 64), (Reg.Y6 m c main_v6 : S802816x64.Idx → EReal) (ix2 e d)
      = (∑ p : Fin 50000, (if (Reg.Y5 m c main_v3 : S802816.Idx → BitVec 32) (ix1 e) = BitVec.ofNat 32 p.val then (1 : EReal) else 0)
          * Cert.Spec.lin (Cert.Args.mat64 (A1 m c)) (Cert.Args.vec64 (A2 m c)) (Cert.Args.nodes (Reg.X4 m c (Proc.devRef .tc main_arg0) : S50000x64.Idx → EReal)) p d : EReal) := by
    intro e d
    have h1 : (Reg.Y6 m c main_v6 : S802816x64.Idx → EReal) (ix2 e d)
        = ((Reg.dat1 (F := Ideal) (Reg.Y5 m) c).arrAt 2 cfg1.N : S802816x64.Idx → EReal) (ix2 e d) := congrFun (Reg.X6_arr m c 2) (ix2 e d)
    rw [h1, gather1_final (Reg.Y5 m) c e d]
    simp only [hwh]
    try rfl
  -- the edge sum
  have hagg : ∀ (p : Fin 50000) (d : Fin 64), (Reg.Y7 m c main_v7 : S50000x64.Idx → EReal) (ix2 p d)
      = Cert.Spec.agg (Cert.Args.words (A7 m c)) (Cert.Args.words (A8 m c))
          (Cert.Spec.lin (Cert.Args.mat64 (A1 m c)) (Cert.Args.vec64 (A2 m c)) (Cert.Args.nodes (Reg.X4 m c (Proc.devRef .tc main_arg0) : S50000x64.Idx → EReal))) p d := by
    intro p d
    have h1 : (Reg.Y7 m c main_v7 : S50000x64.Idx → EReal) (ix2 p d)
        = ((Reg.dat2 (F := Ideal) (Reg.Y6 m) c).arrAt 2 cfg2.N : S50000x64.Idx → EReal) (ix2 p d) := congrFun (Reg.X7_arr m c 2) (ix2 p d)
    rw [h1, scatter2_final (Reg.Y6 m) c p d]
    exact Cert.OneHotAgg.onehot_agg (Cert.Args.words (A7 m c)) (Cert.Args.words (A8 m c)) hsrc
      (fun e => (Reg.Y5 m c main_v3 : S802816.Idx → BitVec 32) (ix1 e)) (fun e => (Reg.Y6 m c main_v4 : S802816.Idx → BitVec 32) (ix1 e))
      hsp hdp (Cert.Spec.lin (Cert.Args.mat64 (A1 m c)) (Cert.Args.vec64 (A2 m c)) (Cert.Args.nodes (Reg.X4 m c (Proc.devRef .tc main_arg0) : S50000x64.Idx → EReal))) (fun e d => (Reg.Y6 m c main_v6 : S802816x64.Idx → EReal) (ix2 e d)) hmsg p d
  -- the cell
  refine (congrFun (Reg.X8_arr m c 6) (ix2 n j)).trans ((gru3_final (Reg.Y7 m) c n j).trans ?_)
  unfold Cert.Spec.round
  have e3 : (fun a b => (Reg.Y7 m c main_arg3 : S192x64.Idx → EReal) (ix2 a b)) = Cert.Args.mat192 (A3 m c) :=
    funext fun a => funext fun b => congrFun ((back7 m c main_arg3 (by decide)).trans (v4_arg3 m c)) (ix2 a b)
  have e4 : (fun a b => (Reg.Y7 m c main_arg4 : S192x64.Idx → EReal) (ix2 a b)) = Cert.Args.mat192 (A4 m c) :=
    funext fun a => funext fun b => congrFun ((back7 m c main_arg4 (by decide)).trans (v4_arg4 m c)) (ix2 a b)
  have e5 : (fun a => (Reg.Y7 m c main_v1 : S1x192.Idx → EReal) (ix2 (0 : Fin 1) a)) = Cert.Args.vec192 (A5 m c) :=
    funext fun a => (congrFun (back7 m c main_v1 (by decide)) (ix2 (0 : Fin 1) a)).trans (v4_v1 m c a)
  have e6 : (fun a => (Reg.Y7 m c main_v2 : S1x192.Idx → EReal) (ix2 (0 : Fin 1) a)) = Cert.Args.vec192 (A6 m c) :=
    funext fun a => (congrFun (back7 m c main_v2 (by decide)) (ix2 (0 : Fin 1) a)).trans (v4_v2 m c a)
  have ea : (fun a b => (Reg.Y7 m c main_v7 : S50000x64.Idx → EReal) (ix2 a b))
      = Cert.Spec.agg (Cert.Args.words (A7 m c)) (Cert.Args.words (A8 m c))
          (Cert.Spec.lin (Cert.Args.mat64 (A1 m c)) (Cert.Args.vec64 (A2 m c)) (Cert.Args.nodes (Reg.X4 m c (Proc.devRef .tc main_arg0) : S50000x64.Idx → EReal))) :=
    funext fun a => funext fun b => hagg a b
  have eh : (fun a b => (Reg.Y7 m c main_arg0 : S50000x64.Idx → EReal) (ix2 a b))
      = Cert.Args.nodes (Reg.X4 m c (Proc.devRef .tc main_arg0) : S50000x64.Idx → EReal) :=
    funext fun a => funext fun b => congrFun ((back7 m c main_arg0 (by decide)).trans (back4 m c main_arg0 (by decide)).symm) (ix2 a b)
  rw [e3, e4, e5, e6, ea, eh]

set_option maxHeartbeats 1600000 in
/-- Round 2: the cell's output, read at (n, j), is one round of the specification applied to the state the round is entered
    with — the dense layer's table gathered along the edges' source words and summed into their target nodes is the
    specification's edge sum, since every source word names a node. -/
theorem round1 (n : Fin 50000) (j : Fin 64) :
    (Reg.X12 m c (Proc.devRef .tc main_v12) : S50000x64.Idx → EReal) (ix2 n j)
      = Cert.Spec.round (Cert.Args.mat64 (A1 m c)) (Cert.Args.vec64 (A2 m c)) (Cert.Args.mat192 (A3 m c)) (Cert.Args.mat192 (A4 m c))
          (Cert.Args.vec192 (A5 m c)) (Cert.Args.vec192 (A6 m c)) (Cert.Args.words (A7 m c)) (Cert.Args.words (A8 m c))
          (Cert.Args.nodes (Reg.X8 m c (Proc.devRef .tc main_v8) : S50000x64.Idx → EReal)) n j := by
  -- the dense layer's table
  have hwh : ∀ (p : Fin 50000) (d : Fin 64), (Reg.Y9 m c main_v9 : S50000x64.Idx → EReal) (ix2 p d)
      = Cert.Spec.lin (Cert.Args.mat64 (A1 m c)) (Cert.Args.vec64 (A2 m c)) (Cert.Args.nodes (Reg.X8 m c (Proc.devRef .tc main_v8) : S50000x64.Idx → EReal)) p d := by
    intro p d
    refine (congrFun (Reg.X9_arr m c 3) (ix2 p d)).trans ((lin4_final (Reg.Y8 m) c p d).trans ?_)
    unfold Cert.Spec.lin Cert.Args.mat64 Cert.Args.vec64 Cert.Args.nodes
    have e1 : ∀ a b : Fin 64, (Reg.Y8 m c main_arg1 : S64x64.Idx → EReal) (ix2 a b) = (A1 m c) (ix2 a b) := fun a b =>
      congrFun ((back8 m c main_arg1 (by decide)).trans (v4_arg1 m c)) (ix2 a b)
    have e2 : ∀ a : Fin 64, (Reg.Y8 m c main_v0 : S1x64.Idx → EReal) (ix2 (0 : Fin 1) a) = (A2 m c) (ix1 a) := fun a =>
      (congrFun (back8 m c main_v0 (by decide)) (ix2 (0 : Fin 1) a)).trans (v4_v0 m c a)
    simp only [e1, e2]
  -- the padded edge words
  have hsp : ∀ e : Fin 802816, (Reg.Y9 m c main_v3 : S802816.Idx → BitVec 32) (ix1 e)
      = if h : e.val < 800000 then Cert.Args.words (A7 m c) ⟨e.val, h⟩ else 4294967295#32 := fun e =>
    (congrFun (back9 m c main_v3 (by decide)) (ix1 e)).trans (v4_v3 m c e)
  have hdp : ∀ e : Fin 802816, (Reg.Y10 m c main_v4 : S802816.Idx → BitVec 32) (ix1 e)
      = if h : e.val < 800000 then Cert.Args.words (A8 m c) ⟨e.val, h⟩ else 4294967295#32 := fun e =>
    (congrFun (back10 m c main_v4 (by decide)) (ix1 e)).trans (v4_v4 m c e)
  -- the gathered rows
  have hmsg : ∀ (e : Fin 802816) (d : Fin 64), (Reg.Y10 m c main_v10 : S802816x64.Idx → EReal) (ix2 e d)
      = (∑ p : Fin 50000, (if (Reg.Y9 m c main_v3 : S802816.Idx → BitVec 32) (ix1 e) = BitVec.ofNat 32 p.val then (1 : EReal) else 0)
          * Cert.Spec.lin (Cert.Args.mat64 (A1 m c)) (Cert.Args.vec64 (A2 m c)) (Cert.Args.nodes (Reg.X8 m c (Proc.devRef .tc main_v8) : S50000x64.Idx → EReal)) p d : EReal) := by
    intro e d
    have h1 : (Reg.Y10 m c main_v10 : S802816x64.Idx → EReal) (ix2 e d)
        = ((Reg.dat5 (F := Ideal) (Reg.Y9 m) c).arrAt 2 cfg5.N : S802816x64.Idx → EReal) (ix2 e d) := congrFun (Reg.X10_arr m c 2) (ix2 e d)
    rw [h1, gather5_final (Reg.Y9 m) c e d]
    simp only [hwh]
    try rfl
  -- the edge sum
  have hagg : ∀ (p : Fin 50000) (d : Fin 64), (Reg.Y11 m c main_v11 : S50000x64.Idx → EReal) (ix2 p d)
      = Cert.Spec.agg (Cert.Args.words (A7 m c)) (Cert.Args.words (A8 m c))
          (Cert.Spec.lin (Cert.Args.mat64 (A1 m c)) (Cert.Args.vec64 (A2 m c)) (Cert.Args.nodes (Reg.X8 m c (Proc.devRef .tc main_v8) : S50000x64.Idx → EReal))) p d := by
    intro p d
    have h1 : (Reg.Y11 m c main_v11 : S50000x64.Idx → EReal) (ix2 p d)
        = ((Reg.dat6 (F := Ideal) (Reg.Y10 m) c).arrAt 2 cfg6.N : S50000x64.Idx → EReal) (ix2 p d) := congrFun (Reg.X11_arr m c 2) (ix2 p d)
    rw [h1, scatter6_final (Reg.Y10 m) c p d]
    exact Cert.OneHotAgg.onehot_agg (Cert.Args.words (A7 m c)) (Cert.Args.words (A8 m c)) hsrc
      (fun e => (Reg.Y9 m c main_v3 : S802816.Idx → BitVec 32) (ix1 e)) (fun e => (Reg.Y10 m c main_v4 : S802816.Idx → BitVec 32) (ix1 e))
      hsp hdp (Cert.Spec.lin (Cert.Args.mat64 (A1 m c)) (Cert.Args.vec64 (A2 m c)) (Cert.Args.nodes (Reg.X8 m c (Proc.devRef .tc main_v8) : S50000x64.Idx → EReal))) (fun e d => (Reg.Y10 m c main_v10 : S802816x64.Idx → EReal) (ix2 e d)) hmsg p d
  -- the cell
  refine (congrFun (Reg.X12_arr m c 6) (ix2 n j)).trans ((gru7_final (Reg.Y11 m) c n j).trans ?_)
  unfold Cert.Spec.round
  have e3 : (fun a b => (Reg.Y11 m c main_arg3 : S192x64.Idx → EReal) (ix2 a b)) = Cert.Args.mat192 (A3 m c) :=
    funext fun a => funext fun b => congrFun ((back11 m c main_arg3 (by decide)).trans (v4_arg3 m c)) (ix2 a b)
  have e4 : (fun a b => (Reg.Y11 m c main_arg4 : S192x64.Idx → EReal) (ix2 a b)) = Cert.Args.mat192 (A4 m c) :=
    funext fun a => funext fun b => congrFun ((back11 m c main_arg4 (by decide)).trans (v4_arg4 m c)) (ix2 a b)
  have e5 : (fun a => (Reg.Y11 m c main_v1 : S1x192.Idx → EReal) (ix2 (0 : Fin 1) a)) = Cert.Args.vec192 (A5 m c) :=
    funext fun a => (congrFun (back11 m c main_v1 (by decide)) (ix2 (0 : Fin 1) a)).trans (v4_v1 m c a)
  have e6 : (fun a => (Reg.Y11 m c main_v2 : S1x192.Idx → EReal) (ix2 (0 : Fin 1) a)) = Cert.Args.vec192 (A6 m c) :=
    funext fun a => (congrFun (back11 m c main_v2 (by decide)) (ix2 (0 : Fin 1) a)).trans (v4_v2 m c a)
  have ea : (fun a b => (Reg.Y11 m c main_v11 : S50000x64.Idx → EReal) (ix2 a b))
      = Cert.Spec.agg (Cert.Args.words (A7 m c)) (Cert.Args.words (A8 m c))
          (Cert.Spec.lin (Cert.Args.mat64 (A1 m c)) (Cert.Args.vec64 (A2 m c)) (Cert.Args.nodes (Reg.X8 m c (Proc.devRef .tc main_v8) : S50000x64.Idx → EReal))) :=
    funext fun a => funext fun b => hagg a b
  have eh : (fun a b => (Reg.Y11 m c main_v8 : S50000x64.Idx → EReal) (ix2 a b))
      = Cert.Args.nodes (Reg.X8 m c (Proc.devRef .tc main_v8) : S50000x64.Idx → EReal) :=
    funext fun a => funext fun b => congrFun (keep11_8 m c main_v8 (by decide)) (ix2 a b)
  rw [e3, e4, e5, e6, ea, eh]

set_option maxHeartbeats 1600000 in
/-- Round 3: the cell's output, read at (n, j), is one round of the specification applied to the state the round is entered
    with — the dense layer's table gathered along the edges' source words and summed into their target nodes is the
    specification's edge sum, since every source word names a node. -/
theorem round2 (n : Fin 50000) (j : Fin 64) :
    (Reg.X16 m c (Proc.devRef .tc main_v16) : S50000x64.Idx → EReal) (ix2 n j)
      = Cert.Spec.round (Cert.Args.mat64 (A1 m c)) (Cert.Args.vec64 (A2 m c)) (Cert.Args.mat192 (A3 m c)) (Cert.Args.mat192 (A4 m c))
          (Cert.Args.vec192 (A5 m c)) (Cert.Args.vec192 (A6 m c)) (Cert.Args.words (A7 m c)) (Cert.Args.words (A8 m c))
          (Cert.Args.nodes (Reg.X12 m c (Proc.devRef .tc main_v12) : S50000x64.Idx → EReal)) n j := by
  -- the dense layer's table
  have hwh : ∀ (p : Fin 50000) (d : Fin 64), (Reg.Y13 m c main_v13 : S50000x64.Idx → EReal) (ix2 p d)
      = Cert.Spec.lin (Cert.Args.mat64 (A1 m c)) (Cert.Args.vec64 (A2 m c)) (Cert.Args.nodes (Reg.X12 m c (Proc.devRef .tc main_v12) : S50000x64.Idx → EReal)) p d := by
    intro p d
    refine (congrFun (Reg.X13_arr m c 3) (ix2 p d)).trans ((lin8_final (Reg.Y12 m) c p d).trans ?_)
    unfold Cert.Spec.lin Cert.Args.mat64 Cert.Args.vec64 Cert.Args.nodes
    have e1 : ∀ a b : Fin 64, (Reg.Y12 m c main_arg1 : S64x64.Idx → EReal) (ix2 a b) = (A1 m c) (ix2 a b) := fun a b =>
      congrFun ((back12 m c main_arg1 (by decide)).trans (v4_arg1 m c)) (ix2 a b)
    have e2 : ∀ a : Fin 64, (Reg.Y12 m c main_v0 : S1x64.Idx → EReal) (ix2 (0 : Fin 1) a) = (A2 m c) (ix1 a) := fun a =>
      (congrFun (back12 m c main_v0 (by decide)) (ix2 (0 : Fin 1) a)).trans (v4_v0 m c a)
    simp only [e1, e2]
  -- the padded edge words
  have hsp : ∀ e : Fin 802816, (Reg.Y13 m c main_v3 : S802816.Idx → BitVec 32) (ix1 e)
      = if h : e.val < 800000 then Cert.Args.words (A7 m c) ⟨e.val, h⟩ else 4294967295#32 := fun e =>
    (congrFun (back13 m c main_v3 (by decide)) (ix1 e)).trans (v4_v3 m c e)
  have hdp : ∀ e : Fin 802816, (Reg.Y14 m c main_v4 : S802816.Idx → BitVec 32) (ix1 e)
      = if h : e.val < 800000 then Cert.Args.words (A8 m c) ⟨e.val, h⟩ else 4294967295#32 := fun e =>
    (congrFun (back14 m c main_v4 (by decide)) (ix1 e)).trans (v4_v4 m c e)
  -- the gathered rows
  have hmsg : ∀ (e : Fin 802816) (d : Fin 64), (Reg.Y14 m c main_v14 : S802816x64.Idx → EReal) (ix2 e d)
      = (∑ p : Fin 50000, (if (Reg.Y13 m c main_v3 : S802816.Idx → BitVec 32) (ix1 e) = BitVec.ofNat 32 p.val then (1 : EReal) else 0)
          * Cert.Spec.lin (Cert.Args.mat64 (A1 m c)) (Cert.Args.vec64 (A2 m c)) (Cert.Args.nodes (Reg.X12 m c (Proc.devRef .tc main_v12) : S50000x64.Idx → EReal)) p d : EReal) := by
    intro e d
    have h1 : (Reg.Y14 m c main_v14 : S802816x64.Idx → EReal) (ix2 e d)
        = ((Reg.dat9 (F := Ideal) (Reg.Y13 m) c).arrAt 2 cfg9.N : S802816x64.Idx → EReal) (ix2 e d) := congrFun (Reg.X14_arr m c 2) (ix2 e d)
    rw [h1, gather9_final (Reg.Y13 m) c e d]
    simp only [hwh]
    try rfl
  -- the edge sum
  have hagg : ∀ (p : Fin 50000) (d : Fin 64), (Reg.Y15 m c main_v15 : S50000x64.Idx → EReal) (ix2 p d)
      = Cert.Spec.agg (Cert.Args.words (A7 m c)) (Cert.Args.words (A8 m c))
          (Cert.Spec.lin (Cert.Args.mat64 (A1 m c)) (Cert.Args.vec64 (A2 m c)) (Cert.Args.nodes (Reg.X12 m c (Proc.devRef .tc main_v12) : S50000x64.Idx → EReal))) p d := by
    intro p d
    have h1 : (Reg.Y15 m c main_v15 : S50000x64.Idx → EReal) (ix2 p d)
        = ((Reg.dat10 (F := Ideal) (Reg.Y14 m) c).arrAt 2 cfg10.N : S50000x64.Idx → EReal) (ix2 p d) := congrFun (Reg.X15_arr m c 2) (ix2 p d)
    rw [h1, scatter10_final (Reg.Y14 m) c p d]
    exact Cert.OneHotAgg.onehot_agg (Cert.Args.words (A7 m c)) (Cert.Args.words (A8 m c)) hsrc
      (fun e => (Reg.Y13 m c main_v3 : S802816.Idx → BitVec 32) (ix1 e)) (fun e => (Reg.Y14 m c main_v4 : S802816.Idx → BitVec 32) (ix1 e))
      hsp hdp (Cert.Spec.lin (Cert.Args.mat64 (A1 m c)) (Cert.Args.vec64 (A2 m c)) (Cert.Args.nodes (Reg.X12 m c (Proc.devRef .tc main_v12) : S50000x64.Idx → EReal))) (fun e d => (Reg.Y14 m c main_v14 : S802816x64.Idx → EReal) (ix2 e d)) hmsg p d
  -- the cell
  refine (congrFun (Reg.X16_arr m c 6) (ix2 n j)).trans ((gru11_final (Reg.Y15 m) c n j).trans ?_)
  unfold Cert.Spec.round
  have e3 : (fun a b => (Reg.Y15 m c main_arg3 : S192x64.Idx → EReal) (ix2 a b)) = Cert.Args.mat192 (A3 m c) :=
    funext fun a => funext fun b => congrFun ((back15 m c main_arg3 (by decide)).trans (v4_arg3 m c)) (ix2 a b)
  have e4 : (fun a b => (Reg.Y15 m c main_arg4 : S192x64.Idx → EReal) (ix2 a b)) = Cert.Args.mat192 (A4 m c) :=
    funext fun a => funext fun b => congrFun ((back15 m c main_arg4 (by decide)).trans (v4_arg4 m c)) (ix2 a b)
  have e5 : (fun a => (Reg.Y15 m c main_v1 : S1x192.Idx → EReal) (ix2 (0 : Fin 1) a)) = Cert.Args.vec192 (A5 m c) :=
    funext fun a => (congrFun (back15 m c main_v1 (by decide)) (ix2 (0 : Fin 1) a)).trans (v4_v1 m c a)
  have e6 : (fun a => (Reg.Y15 m c main_v2 : S1x192.Idx → EReal) (ix2 (0 : Fin 1) a)) = Cert.Args.vec192 (A6 m c) :=
    funext fun a => (congrFun (back15 m c main_v2 (by decide)) (ix2 (0 : Fin 1) a)).trans (v4_v2 m c a)
  have ea : (fun a b => (Reg.Y15 m c main_v15 : S50000x64.Idx → EReal) (ix2 a b))
      = Cert.Spec.agg (Cert.Args.words (A7 m c)) (Cert.Args.words (A8 m c))
          (Cert.Spec.lin (Cert.Args.mat64 (A1 m c)) (Cert.Args.vec64 (A2 m c)) (Cert.Args.nodes (Reg.X12 m c (Proc.devRef .tc main_v12) : S50000x64.Idx → EReal))) :=
    funext fun a => funext fun b => hagg a b
  have eh : (fun a b => (Reg.Y15 m c main_v12 : S50000x64.Idx → EReal) (ix2 a b))
      = Cert.Args.nodes (Reg.X12 m c (Proc.devRef .tc main_v12) : S50000x64.Idx → EReal) :=
    funext fun a => funext fun b => congrFun (keep15_12 m c main_v12 (by decide)) (ix2 a b)
  rw [e3, e4, e5, e6, ea, eh]

/-- THE KERNEL'S RESULT at node n and feature j: three rounds of the specification on the arguments as launched. -/
theorem kernel_value (n : Fin 50000) (j : Fin 64) :
    (Reg.X16 m c (Proc.devRef .tc main_v16) : S50000x64.Idx → EReal) (ix2 n j)
      = Cert.Args.out (A0 m c) (A1 m c) (A2 m c) (A3 m c) (A4 m c) (A5 m c) (A6 m c) (A7 m c) (A8 m c) n j := by
  rw [round2 m c hsrc n j]
  have h1 : Cert.Args.nodes (Reg.X8 m c (Proc.devRef .tc main_v8) : S50000x64.Idx → EReal)
      = Cert.Spec.round (Cert.Args.mat64 (A1 m c)) (Cert.Args.vec64 (A2 m c)) (Cert.Args.mat192 (A3 m c)) (Cert.Args.mat192 (A4 m c))
          (Cert.Args.vec192 (A5 m c)) (Cert.Args.vec192 (A6 m c)) (Cert.Args.words (A7 m c)) (Cert.Args.words (A8 m c))
          (Cert.Args.nodes (Reg.X4 m c (Proc.devRef .tc main_arg0) : S50000x64.Idx → EReal)) :=
    funext fun a => funext fun b => round0 m c hsrc a b
  have h2 : Cert.Args.nodes (Reg.X12 m c (Proc.devRef .tc main_v12) : S50000x64.Idx → EReal)
      = Cert.Spec.round (Cert.Args.mat64 (A1 m c)) (Cert.Args.vec64 (A2 m c)) (Cert.Args.mat192 (A3 m c)) (Cert.Args.mat192 (A4 m c))
          (Cert.Args.vec192 (A5 m c)) (Cert.Args.vec192 (A6 m c)) (Cert.Args.words (A7 m c)) (Cert.Args.words (A8 m c))
          (Cert.Args.nodes (Reg.X8 m c (Proc.devRef .tc main_v8) : S50000x64.Idx → EReal)) :=
    funext fun a => funext fun b => round1 m c hsrc a b
  have h0 : Cert.Args.nodes (Reg.X4 m c (Proc.devRef .tc main_arg0) : S50000x64.Idx → EReal) = Cert.Args.nodes (A0 m c) := by
    rw [show (Reg.X4 m c (Proc.devRef .tc main_arg0) : S50000x64.Idx → EReal) = A0 m c from (back4 m c main_arg0 (by decide)).trans (v4_arg0 m c)]
  rw [h2, h1, h0]
  rfl

end Cert.KernelIdeal.Val

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibGatherScatter.lean ====
/-
  Summing gathered rows along edges, read at an index.

  Rows of an N×F matrix h are gathered by E×1 source indices and scatter-added, by E×1 target indices, onto an N×F matrix z.
  Read at (n, f) the result is z's entry plus the sum, over the edges whose target index — read signed, not clamped — is n,
  of h at the edge's source row (its index read signed and clamped into the matrix) in column f. With z zero at (n, f) it
  is that sum alone. (The segment sum of gathered rows of a graph convolution.)
  At the ideal values (floats are extended reals); no finiteness hypothesis.
-/
import Idealize.ShloMosaic.Lib.ValueIdx
import Idealize.ShloMosaic.PureOps.Ideal.Laws
import proofs.«163112_j15616501088829_2_alg».proof.Proof.LibSparseRows

noncomputable section

namespace GatherScatter

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- THE SUM OF GATHERED ROWS READ AT (n, f). -/
theorem scatterAdd_gather_apply {φ : FTy} (hN : 0 < N) (z : FVec Ideal ⟨2, ![N, F]⟩ φ) (ti si : IVec ⟨2, ![E, 1]⟩ w)
    (h : FVec Ideal ⟨2, ![N, F]⟩ φ) (n : Fin N) (f : Fin F) :
    Host.scatterAdd (ScatterRows.rowDims N E F wfs) z ti (Host.gather (GatherRows.rowDims N E F wfg) h si) (ix2 n f)
      = z (ix2 n f) + ∑ e : Fin E, if (ti (ix2 e (0 : Fin 1))).toInt = (n.val : ℤ)
          then h (ix2 (⟨min (si (ix2 e (0 : Fin 1))).toInt.toNat (N - 1), by omega⟩ : Fin N) f) else 0 := by
  rw [ScatterRows.scatterAdd_rows_apply wfs]
  congr 1
  refine Finset.sum_congr rfl fun e _ => ?_
  rw [GatherRows.gather_rows_apply wfg hN]

/-- Onto a matrix that is zero at (n, f) it is the sum alone. -/
theorem scatterAdd_gather_apply_of_zero {φ : FTy} (hN : 0 < N) (z : FVec Ideal ⟨2, ![N, F]⟩ φ) (ti si : IVec ⟨2, ![E, 1]⟩ w)
    (h : FVec Ideal ⟨2, ![N, F]⟩ φ) (n : Fin N) (f : Fin F) (hz : z (ix2 n f) = 0) :
    Host.scatterAdd (ScatterRows.rowDims N E F wfs) z ti (Host.gather (GatherRows.rowDims N E F wfg) h si) (ix2 n f)
      = ∑ e : Fin E, if (ti (ix2 e (0 : Fin 1))).toInt = (n.val : ℤ)
          then h (ix2 (⟨min (si (ix2 e (0 : Fin 1))).toInt.toNat (N - 1), by omega⟩ : Fin N) f) else 0 := by
  rw [scatterAdd_gather_apply wfg wfs hN, hz, zero_add]

end GatherScatter

end
-- ==== Proof.RefRound.lean ====
/-
  One round of the reference, read at an index.

  From node states h the reference forms the dense layer  wh = h · Wᵀ + b,  gathers the rows of wh by the edge sources
  (a negative source word is first moved up by the number of nodes; a node number is left as it is), adds the gathered rows
  into rows of zeros by the edge targets, forms the two gate matrices  gi = a · Wihᵀ + bih  and  gh = h · Whhᵀ + bhh,  cuts
  each into its reset, update and candidate columns, and combines them with the logistic function spelt as
  1 / (1 + exp(−x)).  At (n, j) this is the specification's round of the states read by their entries.
-/
import proofs.«163112_j15616501088829_2_alg».proof.Proof.Gen.ReferenceIdeal
import proofs.«163112_j15616501088829_2_alg».proof.Proof.LibPlainProduct
import proofs.«163112_j15616501088829_2_alg».proof.Proof.LibGatherScatter
import proofs.«163112_j15616501088829_2_alg».proof.Proof.RefArgs
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

noncomputable section

namespace Cert.ReferenceIdeal.RefValue

open Idealize.ShloMosaic Idealize.ShloMosaic.ValueIdx
open Cert.ReferenceIdeal Cert.ReferenceIdeal.Gen
open Cert.Args

/-! ## The round's operations as functions of the arrays -/

/-- The dense layer. -/
def linT (h : FVec Ideal S50000x64 .f32) (a1 : FVec Ideal S64x64 .f32) (a2 : FVec Ideal S64 .f32) : FVec Ideal S50000x64 .f32 :=
  addf (Host.dotGeneral dot_S50000x64_S64x64_S50000x64_1_0_0_1_n_n none h (transpose S64x64 [1, 0] a1 transposes_S64x64_S64x64_1_0))
    (broadcastInDim S50000x64 ![0, 1] bcast_S1x64_S50000x64_0_1 (broadcastInDim S1x64 ![1] bcast_S64_S1x64_1 a2))

/-- The edge sources as the gather takes them: a negative word moved up by the number of nodes, laid out as a column. -/
def srcT (a7 : IVec S800000 32) : IVec S800000x1 32 :=
  broadcastInDim S800000x1 ![0] bcast_S800000_S800000x1_0
    (select (cmpi .slt a7 (broadcastInDim S800000 ![] bcast_S_S800000 (constantI S_ 32 0#32)))
      (addi a7 (broadcastInDim S800000 ![] bcast_S_S800000 (constantI S_ 32 50000#32))) a7)

/-- The rows gathered by the edge sources, added into zeros by the edge targets. -/
def aggT (x : FVec Ideal S50000x64 .f32) (a7 a8 : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 a8)
    (Host.gather gather_S50000x64_S800000x1_S800000x64_1_0_n_n_0_1_164 x (srcT a7))

/-- A gate matrix. -/
def gateT (x : FVec Ideal S50000x64 .f32) (w : FVec Ideal S192x64 .f32) (b : FVec Ideal S192 .f32) : FVec Ideal S50000x192 .f32 :=
  addf (Host.dotGeneral dot_S50000x64_S64x192_S50000x192_1_0_0_1_n_n none x (transpose S64x192 [1, 0] w transposes_S192x64_S64x192_1_0))
    (broadcastInDim S50000x192 ![0, 1] bcast_S1x192_S50000x192_0_1 (broadcastInDim S1x192 ![1] bcast_S192_S1x192_1 b))

/-- The logistic function as the reference spells it: 1 / (1 + exp(−x)). -/
def sigT (x : FVec Ideal S50000x64 .f32) : FVec Ideal S50000x64 .f32 :=
  Host.divf (broadcastInDim S50000x64 ![] bcast_S_S50000x64 (constant S_ .f32 0x3F800000#32))
    (addf (broadcastInDim S50000x64 ![] bcast_S_S50000x64 (constant S_ .f32 0x3F800000#32)) (Host.exp (Host.negf x)))

/-- The update gate. -/
def updT (gi gh : FVec Ideal S50000x192 .f32) : FVec Ideal S50000x64 .f32 :=
  sigT (addf (extractStridedSlice S50000x64 ![0, 64] gi slices_S50000x192_S50000x64_0_64)
    (extractStridedSlice S50000x64 ![0, 64] gh slices_S50000x192_S50000x64_0_64))

/-- The new state from the update gate, the two gate matrices and the old state. -/
def cellT (z : FVec Ideal S50000x64 .f32) (gi gh : FVec Ideal S50000x192 .f32) (h : FVec Ideal S50000x64 .f32) :
    FVec Ideal S50000x64 .f32 :=
  addf (mulf (subf (broadcastInDim S50000x64 ![] bcast_S_S50000x64 (constant S_ .f32 0x3F800000#32)) z)
      (Host.tanh (addf (extractStridedSlice S50000x64 ![0, 128] gi slices_S50000x192_S50000x64_0_128)
        (mulf (sigT (addf (extractStridedSlice S50000x64 ![0, 0] gi slices_S50000x192_S50000x64_0_0)
            (extractStridedSlice S50000x64 ![0, 0] gh slices_S50000x192_S50000x64_0_0)))
          (extractStridedSlice S50000x64 ![0, 128] gh slices_S50000x192_S50000x64_0_128)))))
    (mulf z h)

/-- One round of the reference. -/
def roundT (h : FVec Ideal S50000x64 .f32) (a1 : FVec Ideal S64x64 .f32) (a2 : FVec Ideal S64 .f32)
    (a3 a4 : FVec Ideal S192x64 .f32) (a5 a6 : FVec Ideal S192 .f32) (a7 a8 : IVec S800000 32) : FVec Ideal S50000x64 .f32 :=
  cellT (updT (gateT (aggT (linT h a1 a2) a7 a8) a3 a5) (gateT h a4 a6))
    (gateT (aggT (linT h a1 a2) a7 a8) a3 a5) (gateT h a4 a6) h

/-! ## Small reads -/

/-- The word of the number one. -/
theorem ofBits_one : Ideal.ofBits .f32 0x3F800000#32 = (1 : EReal) := by
  simp [Ideal.ofBits, Ideal.ieee, -EReal.coe_mul]; norm_num

/-- A scalar float constant spread over the node array reads its value everywhere. -/
theorem splat_apply (w : BitVec 32) (i : S50000x64.Idx) :
    broadcastInDim S50000x64 ![] bcast_S_S50000x64 (constant (F := Ideal) S_ .f32 w) i = Ideal.ofBits .f32 w :=
  broadcastInDim_apply _ _ _ _ ix0 (fun a => a.elim0)

/-- The host's elementwise operations at an index, at the ideal values. -/
theorem hostTanh_apply {s : Shape} (x : FVec Ideal s .f32) (i : s.Idx) : Host.tanh x i = Ideal.tanh (x i) := rfl
theorem hostDivf_apply {s : Shape} (x y : FVec Ideal s .f32) (i : s.Idx) : Host.divf x y i = Ideal.div (x i) (y i) := rfl
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl

/-- A scalar word spread over the edges reads its value everywhere. -/
theorem splatI_apply (w : BitVec 32) (i : S800000.Idx) :
    broadcastInDim S800000 ![] bcast_S_S800000 (constantI S_ 32 w) i = w :=
  broadcastInDim_apply _ _ _ _ ix0 (fun a => a.elim0)

/-- An edge table laid out as a column reads, at (e, 0), its word at e. -/
theorem column_apply (x : IVec S800000 32) (e : Fin 800000) :
    broadcastInDim S800000x1 ![0] bcast_S800000_S800000x1_0 x (ix2 e (0 : Fin 1)) = x (ix1 e) :=
  broadcastInDim_apply _ _ _ _ (ix1 e) (fun a => by match a with | ⟨0, _⟩ => rfl)

/-- A bias vector of 64 spread over the rows reads, at (n, j), its entry j. -/
theorem bias64_apply (a2 : FVec Ideal S64 .f32) (n : Fin 50000) (j : Fin 64) :
    broadcastInDim S50000x64 ![0, 1] bcast_S1x64_S50000x64_0_1 (broadcastInDim S1x64 ![1] bcast_S64_S1x64_1 a2) (ix2 n j)
      = a2 (ix1 j) :=
  (broadcastInDim_apply _ _ _ _ (ix2 (0 : Fin 1) j) (fun a => by match a with | ⟨0, _⟩ => rfl | ⟨1, _⟩ => rfl)).trans
    (broadcastInDim_apply _ _ _ _ (ix1 j) (fun a => by match a with | ⟨0, _⟩ => rfl))

/-- A bias vector of 192 spread over the rows reads, at (n, c), its entry c. -/
theorem bias192_apply (b : FVec Ideal S192 .f32) (n : Fin 50000) (c : Fin 192) :
    broadcastInDim S50000x192 ![0, 1] bcast_S1x192_S50000x192_0_1 (broadcastInDim S1x192 ![1] bcast_S192_S1x192_1 b) (ix2 n c)
      = b (ix1 c) :=
  (broadcastInDim_apply _ _ _ _ (ix2 (0 : Fin 1) c) (fun a => by match a with | ⟨0, _⟩ => rfl | ⟨1, _⟩ => rfl)).trans
    (broadcastInDim_apply _ _ _ _ (ix1 c) (fun a => by match a with | ⟨0, _⟩ => rfl))

/-! ## The operations at an index -/

/-- The dense layer at (n, j). -/
theorem linT_apply (h : FVec Ideal S50000x64 .f32) (a1 : FVec Ideal S64x64 .f32) (a2 : FVec Ideal S64 .f32)
    (n : Fin 50000) (j : Fin 64) :
    linT h a1 a2 (ix2 n j) = Cert.Spec.lin (mat64 a1) (vec64 a2) (nodes h) n j := by
  unfold linT Cert.Spec.lin
  rw [addf_apply, bias64_apply]
  refine congrArg (· + a2 (ix1 j)) ?_
  refine (PlainProduct.dotGeneral_apply (M := 50000) (K := 64) (P := 64)
    dot_S50000x64_S64x64_S50000x64_1_0_0_1_n_n_wf none _ _ n j).trans ?_
  refine Finset.sum_congr rfl fun k _ => ?_
  rw [transpose_ix2_apply]
  rfl

/-- A gate matrix at (n, c). -/
theorem gateT_apply (x : FVec Ideal S50000x64 .f32) (w : FVec Ideal S192x64 .f32) (b : FVec Ideal S192 .f32)
    (n : Fin 50000) (c : Fin 192) :
    gateT x w b (ix2 n c) = Cert.Spec.gate (mat192 w) (vec192 b) (nodes x) n c := by
  unfold gateT Cert.Spec.gate
  rw [addf_apply, bias192_apply]
  refine congrArg (· + b (ix1 c)) ?_
  refine (PlainProduct.dotGeneral_apply (M := 50000) (K := 64) (P := 192)
    dot_S50000x64_S64x192_S50000x192_1_0_0_1_n_n_wf none _ _ n c).trans ?_
  refine Finset.sum_congr rfl fun k _ => ?_
  rw [transpose_ix2_apply]
  rfl

/-- A source word that is a node number is gathered as it is. -/
theorem srcT_apply (a7 : IVec S800000 32) (e : Fin 800000) (h0 : 0 ≤ (a7 (ix1 e)).toInt) :
    srcT a7 (ix2 e (0 : Fin 1)) = a7 (ix1 e) := by
  unfold srcT
  rw [column_apply, select_apply]
  have hc : ¬ cmpi .slt a7 (broadcastInDim S800000 ![] bcast_S_S800000 (constantI S_ 32 0#32)) (ix1 e) = 1 := by
    intro hc
    have hlt := IntOp.cmpi_slt.1 hc
    rw [splatI_apply] at hlt
    have : (0#32 : BitVec 32).toInt = 0 := by decide
    omega
  unfold Scalar.select
  rw [if_neg hc]

/-- The sum of the gathered rows at (n, j), when every source word is a node number. -/
theorem aggT_apply (x : FVec Ideal S50000x64 .f32) (a7 a8 : IVec S800000 32)
    (hsrc : ∀ e : Fin 800000, 0 ≤ (a7 (ix1 e)).toInt ∧ (a7 (ix1 e)).toInt < 50000) (n : Fin 50000) (j : Fin 64) :
    aggT x a7 a8 (ix2 n j) = Cert.Spec.agg (words a7) (words a8) (nodes x) n j := by
  unfold aggT Cert.Spec.agg
  refine (GatherScatter.scatterAdd_gather_apply_of_zero (N := 50000) (E := 800000) (F := 64)
    gather_S50000x64_S800000x1_S800000x64_1_0_n_n_0_1_164_wf scatter_S50000x64_S800000x1_S800000x64_1_0_0_1_wf
    (by decide) _ _ _ x n j ?_).trans ?_
  · rw [splat_apply, Ideal.ofBits_zero_f32]
  · refine Finset.sum_congr rfl fun e _ => ?_
    rw [column_apply]
    have hs := srcT_apply a7 e (hsrc e).1
    refine if_congr Iff.rfl (congrArg (fun r => x (ix2 r j)) (Fin.ext ?_)) rfl
    show min (srcT a7 (ix2 e (0 : Fin 1))).toInt.toNat (50000 - 1) = min (a7 (ix1 e)).toInt.toNat 49999
    rw [hs]

/-- The logistic function, as spelt, at an index. -/
theorem sigT_apply (x : FVec Ideal S50000x64 .f32) (i : S50000x64.Idx) : sigT x i = Ideal.logistic (x i) := by
  unfold sigT
  rw [hostDivf_apply, addf_apply, hostExp_apply, hostNegf_apply, splat_apply, ofBits_one]
  rfl

/-- The update gate at (n, j). -/
theorem updT_apply (gi gh : FVec Ideal S50000x192 .f32) (n : Fin 50000) (j : Fin 64) :
    updT gi gh (ix2 n j) = Ideal.logistic (gi (ix2 n (Cert.Spec.c1 j)) + gh (ix2 n (Cert.Spec.c1 j))) := by
  unfold updT
  rw [sigT_apply, addf_apply,
    slice2_axis1_apply 64 gi slices_S50000x192_S50000x64_0_64 n j (Cert.Spec.c1 j) rfl,
    slice2_axis1_apply 64 gh slices_S50000x192_S50000x64_0_64 n j (Cert.Spec.c1 j) rfl]

/-- The new state at (n, j). -/
theorem cellT_apply (z : FVec Ideal S50000x64 .f32) (gi gh : FVec Ideal S50000x192 .f32) (h : FVec Ideal S50000x64 .f32)
    (n : Fin 50000) (j : Fin 64) :
    cellT z gi gh h (ix2 n j)
      = (Cert.Spec.one - z (ix2 n j))
          * Ideal.tanh (gi (ix2 n (Cert.Spec.c2 j))
              + Ideal.logistic (gi (ix2 n (Cert.Spec.c0 j)) + gh (ix2 n (Cert.Spec.c0 j))) * gh (ix2 n (Cert.Spec.c2 j)))
        + z (ix2 n j) * h (ix2 n j) := by
  unfold cellT
  rw [addf_apply, mulf_apply, mulf_apply, subf_apply, splat_apply, hostTanh_apply]
  rw [addf_apply, mulf_apply, sigT_apply, addf_apply,
    slice2_axis1_apply 128 gi slices_S50000x192_S50000x64_0_128 n j (Cert.Spec.c2 j) rfl,
    slice2_axis1_apply 128 gh slices_S50000x192_S50000x64_0_128 n j (Cert.Spec.c2 j) rfl,
    slice2_axis1_apply 0 gi slices_S50000x192_S50000x64_0_0 n j (Cert.Spec.c0 j) (by simp [Cert.Spec.c0]),
    slice2_axis1_apply 0 gh slices_S50000x192_S50000x64_0_0 n j (Cert.Spec.c0 j) (by simp [Cert.Spec.c0])]
  rfl

/-! ## The round -/

/-- The dense layer's entries. -/
theorem nodes_linT (h : FVec Ideal S50000x64 .f32) (a1 : FVec Ideal S64x64 .f32) (a2 : FVec Ideal S64 .f32) :
    nodes (linT h a1 a2) = Cert.Spec.lin (mat64 a1) (vec64 a2) (nodes h) :=
  funext fun n => funext fun j => linT_apply h a1 a2 n j

/-- The summed rows' entries. -/
theorem nodes_aggT (x : FVec Ideal S50000x64 .f32) (a7 a8 : IVec S800000 32)
    (hsrc : ∀ e : Fin 800000, 0 ≤ (a7 (ix1 e)).toInt ∧ (a7 (ix1 e)).toInt < 50000) :
    nodes (aggT x a7 a8) = Cert.Spec.agg (words a7) (words a8) (nodes x) :=
  funext fun n => funext fun j => aggT_apply x a7 a8 hsrc n j

/-- ONE ROUND OF THE REFERENCE is the specification's round of the arrays read by their entries. -/
theorem roundT_apply (h : FVec Ideal S50000x64 .f32) (a1 : FVec Ideal S64x64 .f32) (a2 : FVec Ideal S64 .f32)
    (a3 a4 : FVec Ideal S192x64 .f32) (a5 a6 : FVec Ideal S192 .f32) (a7 a8 : IVec S800000 32)
    (hsrc : ∀ e : Fin 800000, 0 ≤ (a7 (ix1 e)).toInt ∧ (a7 (ix1 e)).toInt < 50000) (n : Fin 50000) (j : Fin 64) :
    roundT h a1 a2 a3 a4 a5 a6 a7 a8 (ix2 n j) = Cert.Args.round h a1 a2 a3 a4 a5 a6 a7 a8 n j := by
  unfold roundT Cert.Args.round Cert.Spec.round Cert.Spec.gru
  rw [cellT_apply, updT_apply]
  simp only [gateT_apply]
  rw [nodes_aggT _ a7 a8 hsrc, nodes_linT]
  rfl

/-- The same of the whole arrays. -/
theorem nodes_roundT (h : FVec Ideal S50000x64 .f32) (a1 : FVec Ideal S64x64 .f32) (a2 : FVec Ideal S64 .f32)
    (a3 a4 : FVec Ideal S192x64 .f32) (a5 a6 : FVec Ideal S192 .f32) (a7 a8 : IVec S800000 32)
    (hsrc : ∀ e : Fin 800000, 0 ≤ (a7 (ix1 e)).toInt ∧ (a7 (ix1 e)).toInt < 50000) :
    nodes (roundT h a1 a2 a3 a4 a5 a6 a7 a8)
      = Cert.Spec.round (mat64 a1) (vec64 a2) (mat192 a3) (mat192 a4) (vec192 a5) (vec192 a6) (words a7) (words a8) (nodes h) :=
  funext fun n => funext fun j => roundT_apply h a1 a2 a3 a4 a5 a6 a7 a8 hsrc n j

end Cert.ReferenceIdeal.RefValue

end
-- ==== Proof.RefValue.lean ====
/-
  The reference's run ends with the specification's three rounds of its arguments.

  The reference applies the same round three times: the operations' composed term of a round is the round's term of the
  previous state, whichever state that is.  So the result is the round of the round of the round of the first argument,
  and each round, read by its entries, is the specification's.
-/
import proofs.«163112_j15616501088829_2_alg».proof.Proof.Gen.ReferenceIdeal.Run
import proofs.«163112_j15616501088829_2_alg».proof.Proof.RefRound

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo
open Idealize.ShloMosaic.ValueIdx
open Cert.Args

variable (V0 : Valuation τ sig (Elt Ideal))

/-- The nine arguments' contents, as the operations take them. -/
abbrev A0 : FVec Ideal S50000x64 .f32 := V0 (Proc.devRef .tc main_arg0)
abbrev A1 : FVec Ideal S64x64 .f32 := V0 (Proc.devRef .tc main_arg1)
abbrev A2 : FVec Ideal S64 .f32 := V0 (Proc.devRef .tc main_arg2)
abbrev A3 : FVec Ideal S192x64 .f32 := V0 (Proc.devRef .tc main_arg3)
abbrev A4 : FVec Ideal S192x64 .f32 := V0 (Proc.devRef .tc main_arg4)
abbrev A5 : FVec Ideal S192 .f32 := V0 (Proc.devRef .tc main_arg5)
abbrev A6 : FVec Ideal S192 .f32 := V0 (Proc.devRef .tc main_arg6)
abbrev A7 : IVec S800000 32 := V0 (Proc.devRef .tc main_arg7)
abbrev A8 : IVec S800000 32 := V0 (Proc.devRef .tc main_arg8)

/-- One round of the reference on a state, with the arguments' weights and edges. -/
def stepT (h : FVec Ideal S50000x64 .f32) : FVec Ideal S50000x64 .f32 :=
  roundT h (A1 V0) (A2 V0) (A3 V0) (A4 V0) (A5 V0) (A6 V0) (A7 V0) (A8 V0)

/-! ## Each named intermediate is one of the round's operations of the previous ones -/

theorem gi1 : res_main_v19 (F := Ideal) V0 = gateT (aggT (linT (A0 V0) (A1 V0) (A2 V0)) (A7 V0) (A8 V0)) (A3 V0) (A5 V0) := rfl
theorem gh1 : res_main_v24 (F := Ideal) V0 = gateT (A0 V0) (A4 V0) (A6 V0) := rfl
theorem z1 : res_main_v44 (F := Ideal) V0 = updT (res_main_v19 V0) (res_main_v24 V0) := rfl
theorem h1 : res_main_v52 (F := Ideal) V0 = cellT (res_main_v44 V0) (res_main_v19 V0) (res_main_v24 V0) (A0 V0) := rfl

theorem gi2 : res_main_v72 (F := Ideal) V0
    = gateT (aggT (linT (res_main_v52 V0) (A1 V0) (A2 V0)) (A7 V0) (A8 V0)) (A3 V0) (A5 V0) := rfl
theorem gh2 : res_main_v77 (F := Ideal) V0 = gateT (res_main_v52 V0) (A4 V0) (A6 V0) := rfl
theorem z2 : res_main_v97 (F := Ideal) V0 = updT (res_main_v72 V0) (res_main_v77 V0) := rfl
theorem h2 : res_main_v105 (F := Ideal) V0
    = cellT (res_main_v97 V0) (res_main_v72 V0) (res_main_v77 V0) (res_main_v52 V0) := rfl

theorem gi3 : res_main_v125 (F := Ideal) V0
    = gateT (aggT (linT (res_main_v105 V0) (A1 V0) (A2 V0)) (A7 V0) (A8 V0)) (A3 V0) (A5 V0) := rfl
theorem gh3 : res_main_v130 (F := Ideal) V0 = gateT (res_main_v105 V0) (A4 V0) (A6 V0) := rfl
theorem z3 : res_main_v150 (F := Ideal) V0 = updT (res_main_v125 V0) (res_main_v130 V0) := rfl

/-- The state after the first round. -/
theorem round1 : res_main_v52 (F := Ideal) V0 = stepT V0 (A0 V0) := by
  rw [h1, z1, gi1, gh1]; rfl

/-- The state after the second round. -/
theorem round2 : res_main_v105 (F := Ideal) V0 = stepT V0 (res_main_v52 V0) := by
  rw [h2, z2, gi2, gh2]; rfl

/-- The state after the third round. -/
theorem round3 :
    cellT (res_main_v150 (F := Ideal) V0) (res_main_v125 V0) (res_main_v130 V0) (res_main_v105 V0)
      = stepT V0 (res_main_v105 V0) := by
  rw [z3, gi3, gh3]; rfl

/-- THE REFERENCE'S RESULT at (n, j): the specification's three rounds of the arguments, when every source word is a node
    number. -/
theorem result_apply (hsrc : ∀ e : Fin 800000, 0 ≤ ((A7 V0) (ix1 e)).toInt ∧ ((A7 V0) (ix1 e)).toInt < 50000)
    (n : Fin 50000) (j : Fin 64) :
    cellT (res_main_v150 (F := Ideal) V0) (res_main_v125 V0) (res_main_v130 V0) (res_main_v105 V0) (ix2 n j)
      = Cert.Args.out (A0 V0) (A1 V0) (A2 V0) (A3 V0) (A4 V0) (A5 V0) (A6 V0) (A7 V0) (A8 V0) n j := by
  rw [round3, round2, round1]
  show nodes (stepT V0 (stepT V0 (stepT V0 (A0 V0)))) n j = _
  unfold stepT
  rw [nodes_roundT _ _ _ _ _ _ _ _ _ hsrc, nodes_roundT _ _ _ _ _ _ _ _ _ hsrc, nodes_roundT _ _ _ _ _ _ _ _ _ hsrc]
  rfl

/-- THE REFERENCE'S RUN: from a memory whose source words are node numbers, every weakly fair execution terminates with
    the result at the specification's three rounds of the arguments, entry by entry, and the arguments unchanged. -/
theorem run_spec (m : (ℓ : Loc nD τ sig) → Buf (Elt Ideal) ℓ) (ρ : Dev nD → PrngReg)
    (hsrc : ∀ (c : Dev nD) (e : Fin 800000),
      0 ≤ ((m ((c.tc : Thread nD τ).loc main_arg7) : S800000.Idx → BitVec 32) (ix1 e)).toInt
        ∧ ((m ((c.tc : Thread nD τ).loc main_arg7) : S800000.Idx → BitVec 32) (ix1 e)).toInt < 50000) :
    θ_run Cert.ReferenceIdeal.defs (onTc (τ := τ) (Cert.ReferenceIdeal.main (F := Ideal))) ⟨m, fun _ => 0, ρ⟩ fun r => ∀ c : Dev nD,
      (∀ (n : Fin 50000) (j : Fin 64),
          (r.2.mem ((c.tc : Thread nD τ).loc main_v158) : S50000x64.Idx → EReal) (ix2 n j)
            = Cert.Args.out (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5))
                (m ((c.tc : Thread nD τ).loc main_arg6)) (m ((c.tc : Thread nD τ).loc main_arg7))
                (m ((c.tc : Thread nD τ).loc main_arg8)) n j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run Cert.ReferenceIdeal.defs _ _).mono
    (fun r h c => ⟨fun n j => by
        rw [(h c).1]
        exact result_apply (launchContents m c) (hsrc c) n j, (h c).2⟩)
    (Cert.ReferenceIdeal.Value.run (F := Ideal) m ρ)

end Cert.ReferenceIdeal.RefValue

end
-- ==== Proof.PreRange.lean ====
/-
  What the precondition says of the edge sources: every source word, read signed, is a node number 0 … 49999.
  The precondition is a conjunction of "all" tests; its last conjunct tests every source word against 0 and against 50000.
-/
import proofs.«163112_j15616501088829_2_alg».proof.Pre_finite_inputs
import Idealize.ShloMosaic.Lib.ReduceAll
import Idealize.ShloMosaic.Lib.ValueIdx

noncomputable section

namespace Cert.PreRange

open Idealize.ShloMosaic Cert.Pre_finite_inputs

variable [Cert.Pre_finite_inputs.Facts]

/-- A rank-0 array has one index. -/
instance : Subsingleton S_.Idx := ⟨fun a b => funext fun d => d.elim0⟩

/-- Every source word of arguments satisfying the precondition is a node number. -/
theorem src_range_of_pre (a0 : FVec Ideal S50000x64 .f32) (a1 : FVec Ideal S64x64 .f32) (a2 : FVec Ideal S64 .f32)
    (a3 a4 : FVec Ideal S192x64 .f32) (a5 a6 : FVec Ideal S192 .f32) (a7 a8 : IVec S800000 32)
    (h : Cert.Pre_finite_inputs.fn (F := Ideal) a0 a1 a2 a3 a4 a5 a6 a7 a8 = fun _ => 1#1) (e : Fin 800000) :
    0 ≤ (a7 (ValueIdx.ix1 e)).toInt ∧ (a7 (ValueIdx.ix1 e)).toInt < 50000 := by
  have h0 := congrFun h ValueIdx.ix0
  dsimp only [Cert.Pre_finite_inputs.fn, Cert.Pre_finite_inputs.fn_part1, Cert.Pre_finite_inputs.fn_part2] at h0
  -- the last conjunct: the "all" over the source words
  have hall := (IntOp.andi_eq_one.1 h0).2
  have he := Host.reduce_andi_all _ _ _ _ _ hall (ValueIdx.ix1 e)
  obtain ⟨hge, hlt⟩ := IntOp.andi_eq_one.1 he
  exact ⟨IntOp.cmpi_sge.1 hge, IntOp.cmpi_slt.1 hlt⟩

end Cert.PreRange

end
-- ==== Proof.lean ====
/-
  The proof of the certificate's claim.

  Both programs compute three rounds of a gated graph convolution (a dense layer on the node states, the sum of the
  transformed rows along the edges into their target nodes, a gated recurrent cell).  The reference gathers and
  scatter-adds on the host.  The kernel program runs twelve pipelined regions — per round a dense layer, a row gather and a
  scatter-sum spelt as products with one-hot matrices accumulated block by block, and the cell — after host operations that
  only reshape the bias vectors and pad the edge tables with the word of -1.

  Frames: each region is entered with every unscoped buffer at known contents and leaves them with one buffer changed, its
  output array; chained from the launch memory this runs the whole program, on the words as printed and on the extended
  reals alike, and every argument array ends as launched.  The reference's run is read off its operations.
  Values (on the extended reals): a one-hot row times the table is the row the source word names, because the precondition
  makes every source word a node number; a padding word selects nothing; the node-by-edge one-hot product sums those rows
  over the edges whose target word names the node, which is the host's scatter-add; the dense layer and the cell are the
  same expressions on both sides.  So both results are the same function of the nine arguments.
-/
import proofs.«163112_j15616501088829_2_alg».proof.Defs
import proofs.«163112_j15616501088829_2_alg».proof.Proof.Gen.Kernel
import proofs.«163112_j15616501088829_2_alg».proof.Proof.Gen.KernelIdeal
import proofs.«163112_j15616501088829_2_alg».proof.Proof.Gen.ReferenceIdeal
import proofs.«163112_j15616501088829_2_alg».proof.Proof.Gen.Pre_finite_inputs
import proofs.«163112_j15616501088829_2_alg».proof.Proof.KAsmRun
import proofs.«163112_j15616501088829_2_alg».proof.Proof.AsmRun
import proofs.«163112_j15616501088829_2_alg».proof.Proof.KernelValue
import proofs.«163112_j15616501088829_2_alg».proof.Proof.RefValue
import proofs.«163112_j15616501088829_2_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

/-- The program on the words as printed runs, and its arguments end as launched. -/
theorem frame_k : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Reg.run_args (F := Bits) m ρ)

/-- The same program on the extended reals. -/
theorem frame_ki : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Reg.run_args (F := Ideal) m ρ)

/-- The reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals both programs end with the specification's function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- every source word is a node number, by the precondition
  have hsrc : ∀ (c : Dev Cert.KernelIdeal.nD) (e : Fin 800000),
      0 ≤ (Cert.Args.words (Cert.KernelIdeal.Val.A7 m c) e).toInt ∧ (Cert.Args.words (Cert.KernelIdeal.Val.A7 m c) e).toInt < 50000 :=
    fun c e => Cert.PreRange.src_range_of_pre _ _ _ _ _ _ _ _ _ (hpre c) e
  have hsrc' : ∀ (c : Dev Cert.ReferenceIdeal.nD) (e : Fin 800000),
      0 ≤ ((m' ((c.tc : Thread Cert.ReferenceIdeal.nD Cert.ReferenceIdeal.τ).loc Cert.ReferenceIdeal.main_arg7) : Cert.ReferenceIdeal.S800000.Idx → BitVec 32) (ix1 e)).toInt
        ∧ ((m' ((c.tc : Thread Cert.ReferenceIdeal.nD Cert.ReferenceIdeal.τ).loc Cert.ReferenceIdeal.main_arg7) : Cert.ReferenceIdeal.S800000.Idx → BitVec 32) (ix1 e)).toInt < 50000 := by
    intro c e
    rw [(hagree c).2.2.2.2.2.2.2.1]
    exact hsrc c e
  refine ⟨fun c => Cert.KernelIdeal.Reg.X16 m c (Proc.devRef .tc Cert.KernelIdeal.main_v16), Cert.KernelIdeal.Reg.run_args (F := Ideal) m ρ, ?_⟩
  refine (θ_run Cert.ReferenceIdeal.defs _ _).mono (fun r h c => ⟨?_, (h c).2⟩) (Cert.ReferenceIdeal.RefValue.run_spec m' ρ' hsrc')
  funext i
  obtain ⟨n, j, rfl⟩ : ∃ (n : Fin 50000) (j : Fin 64), i = ix2 n j := ⟨i 0, i 1, eq_ix2 i⟩
  refine ((h c).1 n j).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.KernelIdeal.Val.kernel_value m c (hsrc c) n j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
